-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192x64 : Shape := ⟨3, ![4, 8192, 64]⟩
abbrev S4x8192x8 : Shape := ⟨3, ![4, 8192, 8]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn {F : FTy → Type} [FloatOps F] (main_arg0 : FVec F S4x8192x64 .f32) (main_arg1 : IVec S4x8192x8 32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_c_0 : IVec S_ 32 := constantI S_ 32 0#32
  let main_v4 : IVec S4x8192x8 32 := broadcastInDim S4x8192x8 ![] bcast_S_S4x8192x8 main_c_0
  let main_v5 : IVec S4x8192x8 1 := cmpi .sge main_arg1 main_v4
  let main_c_1 : IVec S_ 32 := constantI S_ 32 63#32
  let main_v6 : IVec S4x8192x8 32 := broadcastInDim S4x8192x8 ![] bcast_S_S4x8192x8 main_c_1
  let main_v7 : IVec S4x8192x8 1 := cmpi .sle main_arg1 main_v6
  let main_v8 : IVec S4x8192x8 1 := andi main_v5 main_v7
  let main_c_2 : IVec S_ 1 := constantI S_ 1 1#1
  let main_v9 : IVec S_ 1 := (fun x v => Host.reduce IntOp.andi x v reducesTo_S4x8192x8_S_d0_1_2 h_S_) main_v8 main_c_2
  let main_v10 : IVec S_ 1 := andi main_v3 main_v9
  main_v10
-- ==== Kernel.lean ====
abbrev S4x8192x64 : Shape := ⟨3, ![4, 8192, 64]⟩
abbrev S4x8192x8 : Shape := ⟨3, ![4, 8192, 8]⟩
abbrev S4x64x8192 : Shape := ⟨3, ![4, 64, 8192]⟩
abbrev S256x8192 : Shape := ⟨2, ![256, 8192]⟩
abbrev S4x8x8192 : Shape := ⟨3, ![4, 8, 8192]⟩
abbrev S32x8192 : Shape := ⟨2, ![32, 8192]⟩
abbrev S64x1 : Shape := ⟨2, ![64, 1]⟩
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S16384 : Shape := ⟨1, ![16384]⟩
abbrev S1024 : Shape := ⟨1, ![1024]⟩
abbrev S_ : Shape := ⟨0, ![]⟩
abbrev S8192 : Shape := ⟨1, ![8192]⟩
abbrev S1x8192 : Shape := ⟨2, ![1, 8192]⟩
abbrev S16 : Shape := ⟨1, ![16]⟩
abbrev S128x128 : Shape := ⟨2, ![128, 128]⟩
abbrev S1 : Shape := ⟨1, ![1]⟩
abbrev S128 : Shape := ⟨1, ![128]⟩
abbrev S1x128 : Shape := ⟨2, ![1, 128]⟩
abbrev S1x64 : Shape := ⟨2, ![1, 64]⟩
abbrev S1x1x64 : Shape := ⟨3, ![1, 1, 64]⟩
abbrev S1x1x1 : Shape := ⟨3, ![1, 1, 1]⟩

abbrev nBuf : Table → Nat
  | .hbm => 11
  | .local .tc .vmem => 6
  | .local .tc .smem => 1
  | .local .scVector .vmem => 2
  | _ => 0

abbrev bufTy : (tb : Table) → Fin (nBuf tb) → BufTy
  | .hbm, ⟨0, _⟩ => ⟨S4x8192x64, .f32⟩
  | .hbm, ⟨1, _⟩ => ⟨S4x8192x8, .i32⟩
  | .hbm, ⟨2, _⟩ => ⟨S4x64x8192, .f32⟩
  | .hbm, ⟨3, _⟩ => ⟨S256x8192, .f32⟩
  | .hbm, ⟨4, _⟩ => ⟨S4x8x8192, .i32⟩
  | .hbm, ⟨5, _⟩ => ⟨S32x8192, .i32⟩
  | .hbm, ⟨6, _⟩ => ⟨S64x1, .f32⟩
  | .hbm, ⟨7, _⟩ => ⟨S16384, .f32⟩
  | .hbm, ⟨8, _⟩ => ⟨S128x128, .f32⟩
  | .hbm, ⟨9, _⟩ => ⟨S1, .f32⟩
  | .hbm, ⟨10, _⟩ => ⟨S_, .f32⟩
  | .local .tc .vmem, ⟨0, _⟩ => ⟨S64x4096, .f32⟩
  | .local .tc .vmem, ⟨1, _⟩ => ⟨S64x4096, .f32⟩
  | .local .tc .vmem, ⟨2, _⟩ => ⟨S64x1, .f32⟩
  | .local .tc .vmem, ⟨3, _⟩ => ⟨S64x4096, .f32⟩
  | .local .tc .vmem, ⟨4, _⟩ => ⟨S64x1, .f32⟩
  | .local .tc .vmem, ⟨5, _⟩ => ⟨S128x128, .f32⟩
  | .local .tc .smem, ⟨0, _⟩ => ⟨S1, .f32⟩
  | .local .scVector .vmem, ⟨0, _⟩ => ⟨S16384, .i32⟩
  | .local .scVector .vmem, ⟨1, _⟩ => ⟨S1024, .f32⟩
  | _, _ => ⟨S4x8192x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v3_scv : Ref sig .scVector := ⟨.hbm, 5, rfl⟩
abbrev main_v5_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc2_sem0_0 : DmaSem sig := 5
abbrev cc2_sem1_0 : DmaSem sig := 6
abbrev cc2_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v23 : BitVec 1 := Scalar.cmpi .eq arg0 c3_i32
  let arg1 : BitVec 32 := BitVec.ofNat 32 (i 1).val
  let c1_i32 : BitVec 32 := 1#32
  let v24 : BitVec 1 := Scalar.cmpi .eq arg1 c1_i32
  let v25 : BitVec 1 := Scalar.andi v23 v24
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![1, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let c0_i32_1 : BitVec 32 := 0#32
  ![v1.toNat, 0]
@[reducible] def k1_t1_loop : Scf.Loop 32 :=
  let c0_i32_17 : BitVec 32 := 0#32
  let c128_i32 : BitVec 32 := 128#32
  let v97 : BitVec 32 := Scalar.addi c0_i32_17 c128_i32
  let c1_i32_18 : BitVec 32 := 1#32
  ⟨c0_i32_17, v97, c1_i32_18⟩
def k1_off2 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c0_i32_22 : BitVec 32 := 0#32
  let v102 : BitVec 32 := Scalar.addi v101 c0_i32_22
  let c16_i32_23 : BitVec 32 := 16#32
  let v103 : BitVec 32 := Scalar.muli v102 c16_i32_23
  let v104 : Index := Scalar.indexCast v103
  ![v104.toNat]

def k1_chk1 (v106 : IVec S16 32) : Prop :=
  (∀ a x, ((![v106] : Fin 1 → IVec S16 32) a x).toNat < S1024.size a)
instance k1_chk1.dec : ∀ (v106 : IVec S16 32), Decidable (k1_chk1 v106) := fun v106 => decidable_of_iff' _ (Iff.of_eq (k1_chk1.eq_1 v106))
theorem k1_idx1_inb : ∀ (v106 : IVec S16 32) (k1_hw1 : k1_chk1 v106), ∀ a x, ((![v106] : Fin 1 → IVec S16 32) a x).toNat < S1024.size a := fun v106 k1_hw1 => k1_hw1
def k1_off3 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c1_i32_24 : BitVec 32 := 1#32
  let v107 : BitVec 32 := Scalar.addi v101 c1_i32_24
  let c16_i32_25 : BitVec 32 := 16#32
  let v108 : BitVec 32 := Scalar.muli v107 c16_i32_25
  let v109 : Index := Scalar.indexCast v108
  ![v109.toNat]

def k1_chk2 (v111 : IVec S16 32) : Prop :=
  (∀ a x, ((![v111] : Fin 1 → IVec S16 32) a x).toNat < S1024.size a)
instance k1_chk2.dec : ∀ (v111 : IVec S16 32), Decidable (k1_chk2 v111) := fun v111 => decidable_of_iff' _ (Iff.of_eq (k1_chk2.eq_1 v111))
theorem k1_idx2_inb : ∀ (v111 : IVec S16 32) (k1_hw2 : k1_chk2 v111), ∀ a x, ((![v111] : Fin 1 → IVec S16 32) a x).toNat < S1024.size a := fun v111 k1_hw2 => k1_hw2
def k1_off4 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c2_i32_26 : BitVec 32 := 2#32
  let v112 : BitVec 32 := Scalar.addi v101 c2_i32_26
  let c16_i32_27 : BitVec 32 := 16#32
  let v113 : BitVec 32 := Scalar.muli v112 c16_i32_27
  let v114 : Index := Scalar.indexCast v113
  ![v114.toNat]

def k1_chk3 (v116 : IVec S16 32) : Prop :=
  (∀ a x, ((![v116] : Fin 1 → IVec S16 32) a x).toNat < S1024.size a)
instance k1_chk3.dec : ∀ (v116 : IVec S16 32), Decidable (k1_chk3 v116) := fun v116 => decidable_of_iff' _ (Iff.of_eq (k1_chk3.eq_1 v116))
theorem k1_idx3_inb : ∀ (v116 : IVec S16 32) (k1_hw3 : k1_chk3 v116), ∀ a x, ((![v116] : Fin 1 → IVec S16 32) a x).toNat < S1024.size a := fun v116 k1_hw3 => k1_hw3
def k1_off5 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c3_i32 : BitVec 32 := 3#32
  let v117 : BitVec 32 := Scalar.addi v101 c3_i32
  let c16_i32_28 : BitVec 32 := 16#32
  let v118 : BitVec 32 := Scalar.muli v117 c16_i32_28
  let v119 : Index := Scalar.indexCast v118
  ![v119.toNat]

def k1_chk4 (v121 : IVec S16 32) : Prop :=
  (∀ a x, ((![v121] : Fin 1 → IVec S16 32) a x).toNat < S1024.size a)
instance k1_chk4.dec : ∀ (v121 : IVec S16 32), Decidable (k1_chk4 v121) := fun v121 => decidable_of_iff' _ (Iff.of_eq (k1_chk4.eq_1 v121))
theorem k1_idx4_inb : ∀ (v121 : IVec S16 32) (k1_hw4 : k1_chk4 v121), ∀ a x, ((![v121] : Fin 1 → IVec S16 32) a x).toNat < S1024.size a := fun v121 k1_hw4 => k1_hw4
def k1_off6 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c4_i32 : BitVec 32 := 4#32
  let v122 : BitVec 32 := Scalar.addi v101 c4_i32
  let c16_i32_29 : BitVec 32 := 16#32
  let v123 : BitVec 32 := Scalar.muli v122 c16_i32_29
  let v124 : Index := Scalar.indexCast v123
  ![v124.toNat]

def k1_chk5 (v126 : IVec S16 32) : Prop :=
  (∀ a x, ((![v126] : Fin 1 → IVec S16 32) a x).toNat < S1024.size a)
instance k1_chk5.dec : ∀ (v126 : IVec S16 32), Decidable (k1_chk5 v126) := fun v126 => decidable_of_iff' _ (Iff.of_eq (k1_chk5.eq_1 v126))
theorem k1_idx5_inb : ∀ (v126 : IVec S16 32) (k1_hw5 : k1_chk5 v126), ∀ a x, ((![v126] : Fin 1 → IVec S16 32) a x).toNat < S1024.size a := fun v126 k1_hw5 => k1_hw5
def k1_off7 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c5_i32 : BitVec 32 := 5#32
  let v127 : BitVec 32 := Scalar.addi v101 c5_i32
  let c16_i32_30 : BitVec 32 := 16#32
  let v128 : BitVec 32 := Scalar.muli v127 c16_i32_30
  let v129 : Index := Scalar.indexCast v128
  ![v129.toNat]

def k1_chk6 (v131 : IVec S16 32) : Prop :=
  (∀ a x, ((![v131] : Fin 1 → IVec S16 32) a x).toNat < S1024.size a)
instance k1_chk6.dec : ∀ (v131 : IVec S16 32), Decidable (k1_chk6 v131) := fun v131 => decidable_of_iff' _ (Iff.of_eq (k1_chk6.eq_1 v131))
theorem k1_idx6_inb : ∀ (v131 : IVec S16 32) (k1_hw6 : k1_chk6 v131), ∀ a x, ((![v131] : Fin 1 → IVec S16 32) a x).toNat < S1024.size a := fun v131 k1_hw6 => k1_hw6
def k1_off8 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c6_i32 : BitVec 32 := 6#32
  let v132 : BitVec 32 := Scalar.addi v101 c6_i32
  let c16_i32_31 : BitVec 32 := 16#32
  let v133 : BitVec 32 := Scalar.muli v132 c16_i32_31
  let v134 : Index := Scalar.indexCast v133
  ![v134.toNat]

def k1_chk7 (v136 : IVec S16 32) : Prop :=
  (∀ a x, ((![v136] : Fin 1 → IVec S16 32) a x).toNat < S1024.size a)
instance k1_chk7.dec : ∀ (v136 : IVec S16 32), Decidable (k1_chk7 v136) := fun v136 => decidable_of_iff' _ (Iff.of_eq (k1_chk7.eq_1 v136))
theorem k1_idx7_inb : ∀ (v136 : IVec S16 32) (k1_hw7 : k1_chk7 v136), ∀ a x, ((![v136] : Fin 1 → IVec S16 32) a x).toNat < S1024.size a := fun v136 k1_hw7 => k1_hw7
def k1_off9 (k1_t1 : Fin k1_t1_loop.trips) : Fin 1 → Nat :=
  let c0_i32_21 : BitVec 32 := 0#32
  let c0_i32_17 : BitVec 32 := 0#32
  let c1_i32_18 : BitVec 32 := 1#32
  let arg7 : BitVec 32 := Scf.iv c0_i32_17 c1_i32_18 k1_t1
  let c8_i32 : BitVec 32 := 8#32
  let v100 : BitVec 32 := Scalar.muli arg7 c8_i32
  let v101 : BitVec 32 := Scalar.addi c0_i32_21 v100
  let c7_i32 : BitVec 32 := 7#32
  let v137 : BitVec 32 := Scalar.addi v101 c7_i32
  let c16_i32_32 : BitVec 32 := 16#32
  let v138 : BitVec 32 := Scalar.muli v137 c16_i32_32
  let v139 : Index := Scalar.indexCast v138
  ![v139.toNat]

def k1_chk8 (v141 : IVec S16 32) : Prop :=
  (∀ a x, ((![v141] : Fin 1 → IVec S16 32) a x).toNat < S1024.size a)
instance k1_chk8.dec : ∀ (v141 : IVec S16 32), Decidable (k1_chk8 v141) := fun v141 => decidable_of_iff' _ (Iff.of_eq (k1_chk8.eq_1 v141))
theorem k1_idx8_inb : ∀ (v141 : IVec S16 32) (k1_hw8 : k1_chk8 v141), ∀ a x, ((![v141] : Fin 1 → IVec S16 32) a x).toNat < S1024.size a := fun v141 k1_hw8 => k1_hw8
def k1_off10 (i : grid1.Coords) : Fin 1 → Nat :=
  let arg1 : BitVec 32 := BitVec.ofNat 32 (i 1).val
  let c16_i32 : BitVec 32 := 16#32
  let v98 : BitVec 32 := Scalar.muli arg1 c16_i32
  let c64_i32_20 : BitVec 32 := 64#32
  let v99 : BitVec 32 := Scalar.muli v98 c64_i32_20
  ![v99.toNat]
abbrev grid2 : Pipeline.Grid := .none

abbrev stage2_0 : Fin 1 → Memref sig .tc .vmem S64x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4x8192x64_S4x64x8192_0_2_1 : S4x8192x64.Transposes [0, 2, 1] S4x64x8192
  shapeCasts_S4x64x8192_S256x8192 : S4x64x8192.ShapeCasts S256x8192
  transposes_S4x8192x8_S4x8x8192_0_2_1 : S4x8192x8.Transposes [0, 2, 1] S4x8x8192
  shapeCasts_S4x8x8192_S32x8192 : S4x8x8192.ShapeCasts S32x8192
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S64x4096_S4096 : S64x4096.Reduces [0] S4096
  shapeCasts_S4096_S1x4096 : S4096.ShapeCasts S1x4096
  broadcasts_S1x4096_S64x4096 : S1x4096.Broadcasts S64x4096
  reduces_S64x4096_S64 : S64x4096.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  inb_S16384_S8192_0 : ∀ a, (![0] : Fin 1 → Nat) a + S8192.size a ≤ S16384.size a
  squeezes_S1x8192_S8192 : S1x8192.Squeezes S8192
  inb_S16384_S8192_8192 : ∀ a, (![8192] : Fin 1 → Nat) a + S8192.size a ≤ S16384.size a
  inb_S1024_S16_0 : ∀ a, (![0] : Fin 1 → Nat) a + S16.size a ≤ S1024.size a
  h_S16 : 0 < S16.numel
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  iota_S16_d0_w32_scVector : S16.Iotas .scVector 32 [0]
  h_S1024 : 0 < S1024.numel
  shapeCasts_S16384_S128x128 : S16384.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [0] S128
  shapeCasts_S128_S1x128 : S128.ShapeCasts S1x128
  slices_S1x128_o0_0_S1x64 : S1x128.Slices ![0, 0] S1x64
  slices_S1x128_o0_64_S1x64 : S1x128.Slices ![0, 64] S1x64
  shapeCasts_S64x1_S64x1 : S64x1.ShapeCasts S64x1
  transposes_S64x1_p1_0_S1x64 : S64x1.Transposes [1, 0] S1x64
  shapeCasts_S1x64_S1x1x64 : S1x64.ShapeCasts S1x1x64
  reduces_S1x1x64_S1 : S1x1x64.Reduces [1, 2] S1
  shapeCasts_S1_S1x1x1 : S1.ShapeCasts S1x1x1
  inpos_S1x1x1_p0_0_0 : ∀ a, (![0, 0, 0] : Fin 3 → Nat) a < S1x1x1.size a
  inb_S1_S1_0 : ∀ a, (![0] : Fin 1 → Nat) a + S1.size a ≤ S1.size a
  numel1_S1 : S1.numel = 1
  shapeCasts_S1_S_ : S1.ShapeCasts S_
  hcc1_scratch2 : 3 + S_.numel ≤ 8
  hcc1_scoped0 : 4 + S_.numel ≤ 8
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S256x8192.size a
  hwx0_0 : ∀ i : grid0.Coords, EltTy.bits .f32 = 32 ∨ (Rect.block (s := S256x8192) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 r.val)) a + S1x8192.size a ≤ S32x8192.size a
  k1_t1_ok : k1_t1_loop.OK
  k1_off2_inb : ∀ k1_t1 : Fin k1_t1_loop.trips, ∀ a, (k1_off2 k1_t1) a + S16.size a ≤ S16384.size a
  k1_off3_inb : ∀ k1_t1 : Fin k1_t1_loop.trips, ∀ a, (k1_off3 k1_t1) a + S16.size a ≤ S16384.size a
  k1_off4_inb : ∀ k1_t1 : Fin k1_t1_loop.trips, ∀ a, (k1_off4 k1_t1) a + S16.size a ≤ S16384.size a
  k1_off5_inb : ∀ k1_t1 : Fin k1_t1_loop.trips, ∀ a, (k1_off5 k1_t1) a + S16.size a ≤ S16384.size a
  k1_off6_inb : ∀ k1_t1 : Fin k1_t1_loop.trips, ∀ a, (k1_off6 k1_t1) a + S16.size a ≤ S16384.size a
  k1_off7_inb : ∀ k1_t1 : Fin k1_t1_loop.trips, ∀ a, (k1_off7 k1_t1) a + S16.size a ≤ S16384.size a
  k1_off8_inb : ∀ k1_t1 : Fin k1_t1_loop.trips, ∀ a, (k1_off8 k1_t1) a + S16.size a ≤ S16384.size a
  k1_off9_inb : ∀ k1_t1 : Fin k1_t1_loop.trips, ∀ a, (k1_off9 k1_t1) a + S16.size a ≤ S16384.size a
  k1_off10_inb : ∀ i : grid1.Coords, ∀ a, (k1_off10 i) a + S1024.size a ≤ S16384.size a
  hstage2_0 : ∀ j, (stage2_0 j).IsWhole
  hstage2_1 : ∀ j, (stage2_1 j).IsWhole
  hstage2_2 : ∀ j, (stage2_2 j).IsWhole

variable [Facts₀]

abbrev cc1_scratch2 : DmaSems sig S_ := SemArray.consecutive 3 S_ hcc1_scratch2
abbrev cc1_scoped0 : DmaSems sig S_ := SemArray.consecutive 4 S_ hcc1_scoped0

abbrev win0_0 : Pipeline.Window sig grid0 :=
  Pipeline.Window.ofSpec (Memref.whole main_v1) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win2_0 : Pipeline.Window sig grid2 :=
  Pipeline.Window.whole (Memref.whole main_v4) false false (stage2_0 0) (sem2_0 0) (Memref.isWhole_whole _) (hstage2_0 0)

abbrev win2_1 : Pipeline.Window sig grid2 :=
  Pipeline.Window.whole (Memref.whole main_v6) false false (stage2_1 0) (sem2_1 0) (Memref.isWhole_whole _) (hstage2_1 0)

abbrev win2_2 : Pipeline.Window sig grid2 :=
  Pipeline.Window.whole (Memref.whole main_v7) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x8192x64 : Shape := ⟨3, ![4, 8192, 64]⟩
abbrev S4x8192x8 : Shape := ⟨3, ![4, 8192, 8]⟩
abbrev S_ : Shape := ⟨0, ![]⟩
abbrev S4x8192 : Shape := ⟨2, ![4, 8192]⟩
abbrev S4x8192x1 : Shape := ⟨3, ![4, 8192, 1]⟩
abbrev S4x8192x8x1 : Shape := ⟨4, ![4, 8192, 8, 1]⟩
abbrev S1x1x1x64 : Shape := ⟨4, ![1, 1, 1, 64]⟩
abbrev S4x8192x8x64 : Shape := ⟨4, ![4, 8192, 8, 64]⟩
abbrev S64 : Shape := ⟨1, ![64]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x8, .i32⟩
  | .hbm, ⟨2, _⟩ => ⟨S_, .f32⟩
  | .hbm, ⟨3, _⟩ => ⟨S4x8192, .f32⟩
  | .hbm, ⟨4, _⟩ => ⟨S_, .f32⟩
  | .hbm, ⟨5, _⟩ => ⟨S4x8192, .f32⟩
  | .hbm, ⟨6, _⟩ => ⟨S4x8192, .f32⟩
  | .hbm, ⟨7, _⟩ => ⟨S4x8192x1, .f32⟩
  | .hbm, ⟨8, _⟩ => ⟨S4x8192x64, .f32⟩
  | .hbm, ⟨9, _⟩ => ⟨S4x8192x64, .f32⟩
  | .hbm, ⟨10, _⟩ => ⟨S4x8192x64, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x64, .f32⟩
  | .hbm, ⟨15, _⟩ => ⟨S4x8192x64, .f32⟩
  | .hbm, ⟨16, _⟩ => ⟨S4x8192x8x1, .i32⟩
  | .hbm, ⟨17, _⟩ => ⟨S1x1x1x64, .i32⟩
  | .hbm, ⟨18, _⟩ => ⟨S4x8192x8x64, .i32⟩
  | .hbm, ⟨19, _⟩ => ⟨S4x8192x8x64, .i32⟩
  | .hbm, ⟨20, _⟩ => ⟨S4x8192x8x64, .i1⟩
  | .hbm, ⟨21, _⟩ => ⟨S4x8192x8x64, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  reducesTo_S4x8192x64_S4x8192_d2 : S4x8192x64.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  bcast_S4x8192x8_S4x8192x8x1_0_1_2 : S4x8192x8.BroadcastsInDim S4x8192x8x1 (![0, 1, 2] : Fin 3 → Fin S4x8192x8x1.rank)
  bcast_S4x8192x8x1_S4x8192x8x64_0_1_2_3 : S4x8192x8x1.BroadcastsInDim S4x8192x8x64 (![0, 1, 2, 3] : Fin 4 → Fin S4x8192x8x64.rank)
  bcast_S1x1x1x64_S4x8192x8x64_0_1_2_3 : S1x1x1x64.BroadcastsInDim S4x8192x8x64 (![0, 1, 2, 3] : Fin 4 → Fin S4x8192x8x64.rank)
  reducesTo_S4x8192x8x64_S64_d0_1_2 : S4x8192x8x64.ReducesTo [0, 1, 2] S64
  bcast_S_S64 : S_.BroadcastsInDim S64 (![] : Fin 0 → Fin S64.rank)
  reducesTo_S4x8192x64_S64_d0_1 : S4x8192x64.ReducesTo [0, 1] S64
  reducesTo_S64_S_d0 : S64.ReducesTo [0] S_

variable [Facts₀]

class Facts : Prop extends Facts₀ where

variable [Facts]
-- ==== Proof.RefFrame.lean ====
/-
  The reference program is a straight line of host operations: it runs to its end whatever the
  arguments hold, and writes only the buffers of its own values, so the argument arrays end as they began.
-/
import proofs.«210303_g84464826843916_cont_9to1c4b_132_15_alg».proof.Defs
import proofs.«210303_g84464826843916_cont_9to1c4b_132_15_alg».proof.Proof.Gen.ReferenceIdeal.Run
import proofs.«210303_g84464826843916_cont_9to1c4b_132_15_alg».proof.Proof.Gen.ReferenceIdeal.Read
import proofs.«210303_g84464826843916_cont_9to1c4b_132_15_alg».proof.Proof.Gen.Pre_input_domain

noncomputable section

open Idealize.ShloMosaic Idealize.SL.Sem

namespace Cert.Proof.RefFrame

/-- The reference's run with its result dropped: it ends, faults nowhere, and keeps both arguments. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Common.lean ====
/-
  The kernel program as the SparseCore launch theorem sees it: one vector-subcore call (the histogram of the
  expert indices) between two TensorCore kernel regions (the softmax column sums before it, the combination after it).
  The ghost state is three independent parts: the launch handshakes' rounds, the TensorCore pipelines' staging
  rounds, and the counters of the tiles' local copies.
-/
import proofs.«210303_g84464826843916_cont_9to1c4b_132_15_alg».proof.Defs
import proofs.«210303_g84464826843916_cont_9to1c4b_132_15_alg».proof.Proof.Gen.KernelIdeal
import proofs.«210303_g84464826843916_cont_9to1c4b_132_15_alg».proof.Proof.Gen.KernelIdeal.Skeleton
import proofs.«210303_g84464826843916_cont_9to1c4b_132_15_alg».proof.Proof.Gen.KernelIdeal.Launch
import proofs.«210303_g84464826843916_cont_9to1c4b_132_15_alg».proof.Proof.Gen.KernelIdeal.Points
import proofs.«210303_g84464826843916_cont_9to1c4b_132_15_alg».proof.Proof.Gen.Pre_input_domain
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

end Cert.Proof.KI

end
-- ==== Proof.HistTile.lean ====
/-
  The SparseCore tile's task: two rows of the index array copied into the tile's index scratch on one DMA semaphore,
  the histogram scratch zeroed, both copies awaited, then 1024 chunks of 16 indices each added (a one per lane, at
  lane offset 64 l plus the index) into the 1024-word histogram scratch, which is finally copied out to the tile's
  piece of the result.
-/
import proofs.«210303_g84464826843916_cont_9to1c4b_132_15_alg».proof.Proof.Common
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the tile's scratch -/

abbrev a3V : Memref sig .scVector .hbm S32x8192 .i32 := Memref.whole main_v3_scv
abbrev a5V : Memref sig .scVector .hbm S16384 .f32 := Memref.whole main_v5_scv
abbrev sI : Memref sig .scVector .vmem S16384 .i32 := Memref.whole cc1_scratch0
abbrev sH : Memref sig .scVector .vmem S1024 .f32 := Memref.whole cc1_scratch1

abbrev a3Loc (d : Dev nD) : Loc nD τ sig := (SparseCore.T d).loc main_v3
abbrev a5Loc (d : Dev nD) : Loc nD τ sig := (SparseCore.T d).loc main_v5

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

/-- The two rows of the index array a tile reads, as the body slices them, and the halves of the index scratch they land in. -/
abbrev row0M (L : grid1.Coords) : Memref sig .scVector .hbm S8192 .i32 :=
  ((a3V).slice (Rect.unit (s := S32x8192) (k1_off1 L 0#32) S1x8192.size (k1_off1_inb L 0)) (fun _ => rfl)).squeeze S8192 squeezes_S1x8192_S8192
abbrev row1M (L : grid1.Coords) : Memref sig .scVector .hbm S8192 .i32 :=
  ((a3V).slice (Rect.unit (s := S32x8192) (k1_off1 L 1#32) S1x8192.size (k1_off1_inb L 1)) (fun _ => rfl)).squeeze S8192 squeezes_S1x8192_S8192
abbrev half0M : Memref sig .scVector .vmem S8192 .i32 := (sI).slice (Rect.unit (s := S16384) ![0] S8192.size inb_S16384_S8192_0) (fun _ => rfl)
abbrev half1M : Memref sig .scVector .vmem S8192 .i32 := (sI).slice (Rect.unit (s := S16384) ![8192] S8192.size inb_S16384_S8192_8192) (fun _ => rfl)
/-- The tile's piece of the result, as the body slices it. -/
abbrev outM (L : grid1.Coords) : Memref sig .scVector .hbm S1024 .f32 :=
  (a5V).slice (Rect.unit (s := S16384) (k1_off10 L) S1024.size (k1_off10_inb L)) (fun _ => rfl)

/-! ## The tile's own semaphores and buffers -/

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)

theorem ownSems0_V (d : Dev nD) (c : Fin τ.nSC) (i : Fin τ.nSub) :
    (ownSems0 (V d c i) : sProp 𝕄)
      = iprop(semVal (cAcell d c i) 0 ∗ semVal (cBcell d c i) 0
          ∗ bigSep (((ownCells (V d c i)).erase (cAcell d c i)).erase (cBcell d c i)) fun g => semVal g 0) := by
  unfold SparseCore.Cfg.ownSems0
  rw [SparseCore.bigSep_erase' ((mem_ownCells (g := cAcell d c i)).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d c i)).mpr ⟨rfl, by
      show (SemLoc.dma cc1_scoped0.sem : SemLoc sig).isScoped .scVector = true; decide⟩⟩)]

theorem ownBufs_V (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ bigSep (((ownRefs (τ := τ) (.scVector c i)).erase ((Proc.scVector c i).devRef cc1_scratch0)).erase
              ((Proc.scVector c i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

theorem pts_sI (d : Dev nD) (c : Fin τ.nSC) (i : Fin τ.nSub) (f : Buf (Elt F) ((V d c i).loc cc1_scratch0)) :
    ((sI).view.loc (V d c i) ↦[(sI).view.set]{fullShare} f : sProp 𝕄) = (V d c i).loc cc1_scratch0 ↦{fullShare} f := by
  simp only [Memref.view_whole, View.set_whole]
theorem pts_sH (d : Dev nD) (c : Fin τ.nSC) (i : Fin τ.nSub) (f : Buf (Elt F) ((V d c i).loc cc1_scratch1)) :
    ((sH).view.loc (V d c i) ↦[(sH).view.set]{fullShare} f : sProp 𝕄) = (V d c i).loc cc1_scratch1 ↦{fullShare} f := by
  simp only [Memref.view_whole, View.set_whole]

/-! ## The tile's shares, as element sets of the TensorCore's arrays -/

theorem h32 : 32 ∣ S32x8192.size 0 := ⟨1, rfl⟩
theorem h16 : 16 ∣ S16384.size 0 := ⟨1024, rfl⟩
theorem h2 : 2 ∣ S16384.size 0 := ⟨8192, rfl⟩
/-- Row `k` of the index array. -/
abbrev rowRect (k : Fin 32) : Rect S32x8192 := Rect.part (s := S32x8192) (a₀ := 0) h32 k
abbrev rowSet (k : Fin 32) : Finset S32x8192.Idx := ((a3V).view.slice (rowRect k)).set
/-- Piece `i` (1024 words) of the result. -/
abbrev outRect (i : Fin 16) : Rect S16384 := Rect.part (s := S16384) (a₀ := 0) h16 i
abbrev outSet (i : Fin 16) : Finset S16384.Idx := ((a5V).view.slice (outRect i)).set
/-- Row `2 i + r`. -/
def r2 (i : Fin 16) (r : Fin 2) : Fin 32 := ⟨2 * i.val + r.val, by omega⟩

theorem rowR_eq (L : grid1.Coords) (r : Fin 2) :
    Rect.unit (s := S32x8192) (k1_off1 L (BitVec.ofNat 32 r.val)) S1x8192.size (k1_off1_inb L r) = rowRect (r2 (jL L) r) := by
  unfold rowRect Rect.part Rect.block
  congr 1 <;> funext a
  · rw [k1_off1_eq]
    match a with
    | 0 => simp [Shape.partIx, Shape.partSize, r2]
    | 1 => simp [Shape.partIx, Shape.partSize]
  · match a with
    | 0 => simp [Shape.partSize]
    | 1 => simp [Shape.partSize]

theorem outR_eq (L : grid1.Coords) :
    Rect.unit (s := S16384) (k1_off10 L) S1024.size (k1_off10_inb L) = outRect (jL L) := by
  unfold outRect Rect.part Rect.block
  congr 1 <;> funext a
  · rw [k1_off10_eq]
    match a with
    | 0 => simp [Shape.partIx, Shape.partSize]; omega
  · match a with
    | 0 => simp [Shape.partSize]

theorem set_row0M (L : grid1.Coords) : (row0M L).view.set = rowSet (r2 (jL L) 0) := by
  show (((a3V).view.slice (Rect.unit (s := S32x8192) (k1_off1 L (BitVec.ofNat 32 (0 : Fin 2).val)) S1x8192.size (k1_off1_inb L 0))).reshape S8192 squeezes_S1x8192_S8192.numel_eq).set
    = ((a3V).view.slice (rowRect (r2 (jL L) 0))).set
  rw [View.set_reshape]
  exact rowR_eq L 0 ▸ rfl
theorem set_row1M (L : grid1.Coords) : (row1M L).view.set = rowSet (r2 (jL L) 1) := by
  show (((a3V).view.slice (Rect.unit (s := S32x8192) (k1_off1 L (BitVec.ofNat 32 (1 : Fin 2).val)) S1x8192.size (k1_off1_inb L 1))).reshape S8192 squeezes_S1x8192_S8192.numel_eq).set
    = ((a3V).view.slice (rowRect (r2 (jL L) 1))).set
  rw [View.set_reshape]
  exact rowR_eq L 1 ▸ rfl
theorem set_outM (L : grid1.Coords) : (outM L).view.set = outSet (jL L) := by
  show ((a5V).view.slice (Rect.unit (s := S16384) (k1_off10 L) S1024.size (k1_off10_inb L))).set = ((a5V).view.slice (outRect (jL L))).set
  exact outR_eq L ▸ rfl

theorem pts_row0M (d : Dev nD) (L : grid1.Coords) (f : Buf (Elt F) (a3Loc d)) :
    ((row0M L).view.loc (V d (cV L) (jV L)) ↦[(row0M L).view.set]{fullShare} f : sProp 𝕄) = a3Loc d ↦[rowSet (r2 (jL L) 0)]{fullShare} f := by
  rw [set_row0M]
theorem pts_row1M (d : Dev nD) (L : grid1.Coords) (f : Buf (Elt F) (a3Loc d)) :
    ((row1M L).view.loc (V d (cV L) (jV L)) ↦[(row1M L).view.set]{fullShare} f : sProp 𝕄) = a3Loc d ↦[rowSet (r2 (jL L) 1)]{fullShare} f := by
  rw [set_row1M]
theorem pts_outM (d : Dev nD) (L : grid1.Coords) (f : Buf (Elt F) (a5Loc d)) :
    ((outM L).view.loc (V d (cV L) (jV L)) ↦[(outM L).view.set]{fullShare} f : sProp 𝕄) = a5Loc d ↦[outSet (jL L)]{fullShare} f := by
  rw [set_outM]

/-! ## The index scratch in its two halves -/

theorem half0_eq : Rect.unit (s := S16384) ![0] S8192.size inb_S16384_S8192_0 = Rect.part (s := S16384) (a₀ := 0) h2 0 := by
  unfold Rect.part Rect.block
  congr 1 <;> funext a <;> match a with | 0 => simp [Shape.partIx, Shape.partSize]
theorem half1_eq : Rect.unit (s := S16384) ![8192] S8192.size inb_S16384_S8192_8192 = Rect.part (s := S16384) (a₀ := 0) h2 1 := by
  unfold Rect.part Rect.block
  congr 1 <;> funext a <;> match a with | 0 => simp [Shape.partIx, Shape.partSize]
theorem set_half0 : (half0M).view.set = (Rect.part (s := S16384) (a₀ := 0) h2 0).set := by
  show ((sI).view.slice (Rect.unit (s := S16384) ![0] S8192.size inb_S16384_S8192_0)).set = _
  rw [half0_eq, View.set_slice]; exact Finset.map_refl
theorem set_half1 : (half1M).view.set = (Rect.part (s := S16384) (a₀ := 0) h2 1).set := by
  show ((sI).view.slice (Rect.unit (s := S16384) ![8192] S8192.size inb_S16384_S8192_8192)).set = _
  rw [half1_eq, View.set_slice]; exact Finset.map_refl
theorem halves_disjoint : Disjoint (half0M).view.set (half1M).view.set := by
  rw [set_half0, set_half1]; exact Rect.part_disjoint h2 (by decide)
theorem halves_cover : (half0M).view.set ∪ (half1M).view.set = Finset.univ := by
  rw [set_half0, set_half1, ← Rect.biUnion_part h2]
  ext x; simp [Fin.exists_fin_two]

theorem pts_sI_halves (d : Dev nD) (c : Fin τ.nSC) (i : Fin τ.nSub) (f : Buf (Elt F) ((V d c i).loc cc1_scratch0)) :
    ((V d c i).loc cc1_scratch0 ↦{fullShare} f : sProp 𝕄)
      ⊣⊢ iprop(((half0M).view.loc (V d c i) ↦[(half0M).view.set]{fullShare} f) ∗ ((half1M).view.loc (V d c i) ↦[(half1M).view.set]{fullShare} f)) := by
  have h := pointsTo_union (ℓ := (V d c i).loc cc1_scratch0) (q := fullShare) (f := f) (Ix := HIx 1) (Name := ℕ) (U := UU) (Lvl := ℕ) halves_disjoint
  rw [halves_cover] at h
  exact h

variable [FloatOps F]

/-! ## The indices stay in range -/

/-- Lane `l`'s offset `64 l` plus a word below 64 stays below 1024: the indexed store's side condition. -/
theorem chk_ok (f : (sI).view.ty.Contents (Elt F)) (hf : ∀ y, ((sI).view.read (Elt F) f y).toNat < 64)
    {off : Fin 1 → Nat} (inb : ∀ a, off a + S16.size a ≤ S16384.size a) :
    ∀ a x, ((![addi k1_pay2 ((sI).view.readAt (Elt F) (Rect.unit (s := S16384) off S16.size inb).toLoadRect f)] : Fin 1 → IVec S16 32) a x).toNat < S1024.size a := by
  intro a x
  have ha : a = 0 := Fin.eq_zero a
  subst ha
  have hx : (x 0).val < 16 := (x 0).isLt
  have he := hf ((Rect.unit (s := S16384) off S16.size inb).toLoadRect.idx x)
  show (IntOp.addi (k1_pay2 x) ((sI).view.readAt (Elt F) (Rect.unit (s := S16384) off S16.size inb).toLoadRect f x)).toNat < 1024
  rw [View.readAt_apply]
  generalize (sI).view.read (Elt F) f ((Rect.unit (s := S16384) off S16.size inb).toLoadRect.idx x) = e at he ⊢
  have hp : k1_pay2 x = BitVec.ofNat 32 (x 0).val * 64#32 := by
    unfold k1_pay2 muli iota broadcast IntOp.muli
    simp
  rw [hp]
  unfold IntOp.addi
  rw [BitVec.toNat_add, BitVec.toNat_mul, BitVec.toNat_ofNat]
  simp only [BitVec.toNat_ofNat]
  omega

theorem read_sI (f : (sI).view.ty.Contents (Elt F)) (y : S16384.Idx) : (sI).view.read (Elt F) f y = f y := rfl
theorem read_half0 (f : (half0M).view.ty.Contents (Elt F)) (x : S8192.Idx) : (half0M).view.read (Elt F) f x = f ((half0M).view.emb x) := rfl
theorem read_half1 (f : (half1M).view.ty.Contents (Elt F)) (x : S8192.Idx) : (half1M).view.read (Elt F) f x = f ((half1M).view.emb x) := rfl

section Rows
variable (d : Dev nD) (L : grid1.Coords)

/-- The index scratch after both rows have landed: each half the row copied into it. -/
abbrev fI (i3 : Buf (Elt F) (a3Loc d)) : Buf (Elt F) ((V d (cV L) (jV L)).loc cc1_scratch0) :=
  ((half1M).view.set).piecewise
    ((half1M).view.writes (Elt F) (half1M).view.junk [⟨Rect.whole S8192, ReadAs.same.apply (View.read (Elt F) (row1M L).view i3)⟩])
    ((half0M).view.writes (Elt F) (half0M).view.junk [⟨Rect.whole S8192, ReadAs.same.apply (View.read (Elt F) (row0M L).view i3)⟩])

/-- Every word of the tile's two rows is below 64. -/
def RowsOK (i3 : Buf (Elt F) (a3Loc d)) : Prop :=
  ∀ x : S8192.Idx, ((row0M L).view.read (Elt F) i3 x).toNat < 64 ∧ ((row1M L).view.read (Elt F) i3 x).toNat < 64

theorem fI_ok (i3 : Buf (Elt F) (a3Loc d)) (hok : RowsOK d L i3) : ∀ y, ((sI).view.read (Elt F) (fI d L i3) y).toNat < 64 := by
  intro y
  rw [read_sI]
  unfold fI
  by_cases hy : y ∈ (half1M).view.set
  · rw [Finset.piecewise_eq_of_mem _ _ _ hy]
    obtain ⟨x, -, rfl⟩ := Finset.mem_map.mp hy
    have h := View.read_writes_cons_emb (half1M).view (half1M).view.junk (Rect.whole S8192) (ReadAs.same.apply (View.read (Elt F) (row1M L).view i3)) [] x
    rw [Rect.emb_whole_apply] at h
    rw [(read_half1 (F := F) _ x).symm.trans h]
    exact (hok x).2
  · rw [Finset.piecewise_eq_of_notMem _ _ _ hy]
    have hy0 : y ∈ (half0M).view.set := by
      have := Finset.mem_univ y
      rw [← halves_cover, Finset.mem_union] at this
      exact this.resolve_right hy
    obtain ⟨x, -, rfl⟩ := Finset.mem_map.mp hy0
    have h := View.read_writes_cons_emb (half0M).view (half0M).view.junk (Rect.whole S8192) (ReadAs.same.apply (View.read (Elt F) (row0M L).view i3)) [] x
    rw [Rect.emb_whole_apply] at h
    rw [(read_half0 (F := F) _ x).symm.trans h]
    exact (hok x).1

end Rows

/-! ## The operands split among the tiles, the results joined -/

theorem rowSet_eq (k : Fin 32) : rowSet k = (rowRect k).set := by
  show ((View.whole (main_v3_scv : Ref sig .scVector)).slice (rowRect k)).set = _
  rw [View.set_slice]; exact Finset.map_refl
theorem outSet_eq (i : Fin 16) : outSet i = (outRect i).set := by
  show ((View.whole (main_v5_scv : Ref sig .scVector)).slice (outRect i)).set = _
  rw [View.set_slice]; exact Finset.map_refl
theorem rows_disjoint {k k' : Fin 32} (h : k ≠ k') : Disjoint (rowSet k) (rowSet k') := by
  rw [rowSet_eq, rowSet_eq]; exact Rect.part_disjoint h32 h
theorem rows_cover : (Finset.univ : Finset (Fin 32)).biUnion rowSet = Finset.univ :=
  (Finset.biUnion_congr rfl fun i _ => rowSet_eq i).trans (Rect.biUnion_part h32)
theorem outs_disjoint : ∀ i ∈ (Finset.univ : Finset (Fin 16)), ∀ j ∈ (Finset.univ : Finset (Fin 16)), i ≠ j → Disjoint (outSet i) (outSet j) :=
  fun i _ j _ h => by rw [outSet_eq, outSet_eq]; exact Rect.part_disjoint h16 h
theorem outs_cover : (Finset.univ : Finset (Fin 16)).biUnion outSet = Finset.univ :=
  (Finset.biUnion_congr rfl fun i _ => outSet_eq i).trans (Rect.biUnion_part h16)

/-- A tile's two rows together. -/
abbrev pairSet (i : Fin 16) : Finset S32x8192.Idx := rowSet (r2 i 0) ∪ rowSet (r2 i 1)
theorem r2_inj {i i' : Fin 16} {r r' : Fin 2} (h : r2 i r = r2 i' r') : i = i' ∧ r = r' := by
  have := congrArg Fin.val h
  simp only [r2] at this
  exact ⟨Fin.ext (by omega), Fin.ext (by omega)⟩
theorem pair_disjoint (i : Fin 16) : Disjoint (rowSet (r2 i 0)) (rowSet (r2 i 1)) :=
  rows_disjoint fun e => absurd (r2_inj e).2 (by decide)
theorem pairs_disjoint : ∀ i ∈ (Finset.univ : Finset (Fin 16)), ∀ j ∈ (Finset.univ : Finset (Fin 16)), i ≠ j → Disjoint (pairSet i) (pairSet j) := by
  intro i _ j _ h
  simp only [pairSet, Finset.disjoint_union_left, Finset.disjoint_union_right]
  refine ⟨⟨rows_disjoint ?_, rows_disjoint ?_⟩, ⟨rows_disjoint ?_, rows_disjoint ?_⟩⟩ <;> exact fun e => h (r2_inj e).1
theorem pairs_cover : (Finset.univ : Finset (Fin 16)).biUnion pairSet = Finset.univ := by
  ext x
  simp only [Finset.mem_biUnion, Finset.mem_univ, true_and, iff_true]
  have hx : x ∈ (Finset.univ : Finset (Fin 32)).biUnion rowSet := by rw [rows_cover]; exact Finset.mem_univ x
  obtain ⟨k, -, hk⟩ := Finset.mem_biUnion.mp hx
  refine ⟨⟨k.val / 2, by omega⟩, ?_⟩
  rcases Nat.mod_two_eq_zero_or_one k.val with h0 | h1
  · have e : r2 ⟨k.val / 2, by omega⟩ 0 = k := Fin.ext (by show 2 * (k.val / 2) + 0 = k.val; omega)
    exact Finset.mem_union_left _ (by rw [e]; exact hk)
  · have e : r2 ⟨k.val / 2, by omega⟩ 1 = k := Fin.ext (by show 2 * (k.val / 2) + 1 = k.val; omega)
    exact Finset.mem_union_right _ (by rw [e]; exact hk)

theorem a3_pairs (d : Dev nD) (f : Buf (Elt F) (a3Loc d)) :
    (a3Loc d ↦{fullShare} f : sProp 𝕄)
      = bigSep Finset.univ fun i : Fin 16 => iprop((a3Loc d ↦[rowSet (r2 i 0)]{fullShare} f) ∗ (a3Loc d ↦[rowSet (r2 i 1)]{fullShare} f)) := by
  rw [← pairs_cover, pointsTo_biUnion Finset.univ (ℓ := a3Loc d) pairSet pairs_disjoint]
  refine bigSep_congr fun i _ => ?_
  have hu := pointsTo_union (ℓ := a3Loc d) (q := fullShare) (f := f) (Ix := HIx 1) (Name := ℕ) (U := UU) (Lvl := ℕ) (pair_disjoint i)
  exact BI.equiv_iff.mp ⟨hu.1, hu.2⟩
theorem a5_outs (d : Dev nD) (f : Buf (Elt F) (a5Loc d)) :
    (a5Loc d ↦{fullShare} f : sProp 𝕄) = bigSep Finset.univ fun i : Fin 16 => a5Loc d ↦[outSet i]{fullShare} f := by
  rw [← pointsTo_biUnion Finset.univ (ℓ := a5Loc d) outSet outs_disjoint, outs_cover]; try rfl

/-- The call's operands: the index array whole at `i3`, the result array whole at some contents. -/
abbrev stPay (d : Dev nD) (i3 : Buf (Elt F) (a3Loc d)) : sProp 𝕄 :=
  iprop((a3Loc d ↦{fullShare} i3) ∗ ∃ f, a5Loc d ↦{fullShare} f)
/-- The call's results, the result array at `R`. -/
abbrev dnPay (d : Dev nD) (i3 : Buf (Elt F) (a3Loc d)) (R : Buf (Elt F) (a5Loc d)) : sProp 𝕄 :=
  iprop((a3Loc d ↦{fullShare} i3) ∗ a5Loc d ↦{fullShare} R)
/-- A tile's share of the operands: its two rows of the index array, its piece of the result array at some contents. -/
abbrev goPay (d : Dev nD) (i3 : Buf (Elt F) (a3Loc d)) (i : Fin 16) : sProp 𝕄 :=
  iprop((a3Loc d ↦[rowSet (r2 i 0)]{fullShare} i3) ∗ (a3Loc d ↦[rowSet (r2 i 1)]{fullShare} i3) ∗ ∃ f, a5Loc d ↦[outSet i]{fullShare} f)
/-- A tile's share of the results: its two rows back, its piece of the result array at the one whole-array function `R`. -/
abbrev tdPay (d : Dev nD) (i3 : Buf (Elt F) (a3Loc d)) (R : Buf (Elt F) (a5Loc d)) (i : Fin 16) : sProp 𝕄 :=
  iprop((a3Loc d ↦[rowSet (r2 i 0)]{fullShare} i3) ∗ (a3Loc d ↦[rowSet (r2 i 1)]{fullShare} i3) ∗ a5Loc d ↦[outSet i]{fullShare} R)
/-- The same with nothing said of the result. -/
abbrev dnPayF (d : Dev nD) (i3 : Buf (Elt F) (a3Loc d)) : sProp 𝕄 :=
  iprop((a3Loc d ↦{fullShare} i3) ∗ ∃ f, a5Loc d ↦{fullShare} f)

theorem outs_join (d : Dev nD) :
    (bigSep Finset.univ fun i : Fin 16 => iprop(∃ f, a5Loc d ↦[outSet i]{fullShare} f)) ⊢ (iprop(∃ f, a5Loc d ↦{fullShare} f) : sProp 𝕄) := by
  refine (bigSep_exists_pi Finset.univ (fun i (f : Buf (Elt F) (a5Loc d)) => a5Loc d ↦[outSet i]{fullShare} f)).trans ?_
  iintro ⟨%fs, H⟩
  ihave H' := (pointsTo_biUnion_join Finset.univ outSet fs (fs 0) outs_disjoint) $$ H
  icases H' with ⟨%g, -, Hg⟩
  rw [outs_cover]
  iexists g; iexact Hg

theorem outs_weaken (d : Dev nD) (f : Buf (Elt F) (a5Loc d)) :
    (bigSep Finset.univ fun i : Fin 16 => a5Loc d ↦[outSet i]{fullShare} f)
      ⊢ (bigSep Finset.univ fun i : Fin 16 => iprop(∃ g, a5Loc d ↦[outSet i]{fullShare} g) : sProp 𝕄) :=
  bigSep_mono fun i _ => exists_intro (Φ := fun g => (a5Loc d ↦[outSet i]{fullShare} g : sProp 𝕄)) f

/-- The operands split among the sixteen tiles; their results, each piece at the one function `R`, join to the whole. -/
theorem vec_split (d : Dev nD) (i3 : Buf (Elt F) (a3Loc d)) (R : Buf (Elt F) (a5Loc d)) :
    stPay d i3 ⊢ |={Set.univ}=> iprop((bigSep Finset.univ fun i : Fin 16 => goPay d i3 i)
      ∗ ((bigSep Finset.univ fun i : Fin 16 => tdPay d i3 R i) -∗ dnPay d i3 R)) := by
  unfold stPay goPay tdPay dnPay
  rw [bigSep_sep', bigSep_sep', bigSep_sep', bigSep_sep', a3_pairs, a5_outs d R, bigSep_sep']
  iintro ⟨⟨Ha, Hb⟩, %f, Ho⟩
  imodintro
  isplitl [Ha Hb Ho]
  · isplitl [Ha]; · iexact Ha
    isplitl [Hb]; · iexact Hb
    ihave Ho' := (Entails.of_eq (a5_outs (F := F) d f)) $$ Ho
    iapply (outs_weaken (F := F) d f); iexact Ho'
  iintro ⟨Ha, Hb, Ho⟩
  isplitl [Ha Hb]
  · isplitl [Ha]; · iexact Ha
    iexact Hb
  iexact Ho

/-- The same split when nothing is said of the result's contents. -/
theorem vec_split_frame (d : Dev nD) (i3 : Buf (Elt F) (a3Loc d)) :
    stPay d i3 ⊢ |={Set.univ}=> iprop((bigSep Finset.univ fun i : Fin 16 => goPay d i3 i)
      ∗ ((bigSep Finset.univ fun i : Fin 16 => goPay d i3 i) -∗ dnPayF d i3)) := by
  unfold stPay goPay dnPayF
  rw [bigSep_sep', bigSep_sep', a3_pairs, bigSep_sep']
  iintro ⟨⟨Ha, Hb⟩, %f, Ho⟩
  imodintro
  isplitl [Ha Hb Ho]
  · isplitl [Ha]; · iexact Ha
    isplitl [Hb]; · iexact Hb
    ihave Ho' := (Entails.of_eq (a5_outs (F := F) d f)) $$ Ho
    iapply (outs_weaken (F := F) d f); iexact Ho'
  iintro ⟨Ha, Hb, Ho⟩
  isplitl [Ha Hb]
  · isplitl [Ha]; · iexact Ha
    iexact Hb
  iapply (outs_join (F := F) d); iexact Ho

section Tile
variable (d : Dev nD) (L : grid1.Coords)

abbrev thr : Thread nD τ := V d (cV L) (jV L)

abbrev NR : ℕ := (half0M).view.amount (SemLoc.dma (sig := sig) cc1_scratch2.sem)

/-- A half of the index scratch with a row landed in it. -/
abbrev landed0 (i3 : Buf (Elt F) (a3Loc d)) (fs : Buf (Elt F) ((V d (cV L) (jV L)).loc cc1_scratch0)) : Buf (Elt F) ((half0M).view.loc (thr d L)) :=
  (half0M).view.writes (Elt F) fs [⟨Rect.whole S8192, ReadAs.same.apply ((row0M L).view.read (Elt F) i3)⟩]
abbrev landed1 (i3 : Buf (Elt F) (a3Loc d)) (fs : Buf (Elt F) ((V d (cV L) (jV L)).loc cc1_scratch0)) : Buf (Elt F) ((half1M).view.loc (thr d L)) :=
  (half1M).view.writes (Elt F) fs [⟨Rect.whole S8192, ReadAs.same.apply ((row1M L).view.read (Elt F) i3)⟩]

/-- What the two row copies deliver: the half of the index scratch written, the row back. -/
abbrev deliv (i3 : Buf (Elt F) (a3Loc d)) (fs : Buf (Elt F) ((V d (cV L) (jV L)).loc cc1_scratch0)) : Fin 2 → sProp 𝕄
  | 0 => iprop(((half0M).view.loc (thr d L) ↦[(half0M).view.set]{fullShare} landed0 d L i3 fs) ∗ ((row0M L).view.loc (thr d L) ↦[(row0M L).view.set]{fullShare} i3))
  | 1 => iprop(((half1M).view.loc (thr d L) ↦[(half1M).view.set]{fullShare} landed1 d L i3 fs) ∗ ((row1M L).view.loc (thr d L) ↦[(row1M L).view.set]{fullShare} i3))

instance deliv_storable (i3 : Buf (Elt F) (a3Loc d)) (fs : Buf (Elt F) ((V d (cV L) (jV L)).loc cc1_scratch0)) (t : Fin 2) :
    BI.Storable (upEmb : UEmb _ 𝕄) (deliv d L i3 fs t) := by
  fin_cases t <;> (unfold deliv; infer_instance)

theorem join_halves (i3 : Buf (Elt F) (a3Loc d)) :
    (iprop(((half0M).view.loc (thr d L) ↦[(half0M).view.set]{fullShare}
          (half0M).view.writes (Elt F) (half0M).view.junk [⟨Rect.whole S8192, ReadAs.same.apply (View.read (Elt F) (row0M L).view i3)⟩])
        ∗ ((half1M).view.loc (thr d L) ↦[(half1M).view.set]{fullShare}
          (half1M).view.writes (Elt F) (half1M).view.junk [⟨Rect.whole S8192, ReadAs.same.apply (View.read (Elt F) (row1M L).view i3)⟩])) : sProp 𝕄)
      ⊢ ((sI).view.loc (thr d L) ↦[(sI).view.set]{fullShare} fI d L i3) := by
  refine (pointsTo_join (ℓ := (V d (cV L) (jV L)).loc cc1_scratch0) halves_disjoint).trans (Entails.of_eq ?_)
  rw [halves_cover, pts_sI]

/-- Across the trips: the index scratch holds the two rows, the histogram scratch is held. -/
def inv (i3 : Buf (Elt F) (a3Loc d)) (_ : Nat) (_ : PUnit) : sProp 𝕄 :=
  iprop(((sI).view.loc (thr d L) ↦[(sI).view.set]{fullShare} fI d L i3)
    ∗ ∃ h, (sH).view.loc (thr d L) ↦[(sH).view.set]{fullShare} h)

theorem tile_body_frame (i3 : Buf (Elt F) (a3Loc d)) (hok : RowsOK d L i3) (O : CellTallies nD τ sig (HIx 1)) (W : Waits sig (HIx 1)) (hO : ∀ g, O g none = 0) :
    iprop(levAts (K (F := F)).L (K (F := F)).lev ∗ goPay d i3 (jL L)
        ∗ scopedBufs (thr d L) ∗ scopedSems0 (thr d L) ∗ owes (thr d L) O W)
      ⊢ wp frame (wpE (defs₀ (F := F)) 𝒱₀ (thr d L) none) Set.univ
          (cc1_hist_kernel L a3V (Memref.isWhole_whole _) a5V (Memref.isWhole_whole _) sI (Memref.isWhole_whole _) sH (Memref.isWhole_whole _) cc1_scratch2 cc1_scoped0)
          fun _ => iprop(goPay d i3 (jL L) ∗ scopedBufs (thr d L) ∗ scopedSems0 (thr d L)
            ∗ ∃ W', ⌜∀ p ∈ W', p ∈ W ∨ p.2 = none⌝ ∗ owes (thr d L) O W') := by
  simp only [cc1_hist_kernel_eq_skeleton]; unfold cc1_hist_kernel_skel
  rw [(K (F := F)).scopedBufs_V facts d (cV L) (jV L), SparseCore.Cfg.scopedSems0_V (Val := Elt F) d (cV L) (jV L), ownSems0_V, ownBufs_V]
  iintro ⟨#Hlv, ⟨Hr0, Hr1, %fo, Ho⟩, ⟨⟨%fs, Hs⟩, ⟨%fh, Hh⟩, Hbufs⟩, ⟨HsemA, HsemB, Hsems⟩, HO⟩
  ihave Hmw := ((K (F := F)).mayWaits_none (thr := thr d L) hO) $$ Hlv
  ihave Hr0' := (Entails.of_eq (pts_row0M (F := F) d L _).symm) $$ Hr0
  ihave Hr1' := (Entails.of_eq (pts_row1M (F := F) d L _).symm) $$ Hr1
  ihave Ho' := (Entails.of_eq (pts_outM (F := F) d L _).symm) $$ Ho
  ihave Hs2 := (pts_sI_halves (F := F) d (cV L) (jV L) _).1 $$ Hs
  icases Hs2 with ⟨Hs0, Hs1⟩
  ihave Hh' := (Entails.of_eq (pts_sH (F := F) d (cV L) (jV L) _).symm) $$ Hh
  imod (Transfers.batch_alloc' (Lvl := ℕ) (countersEmb (U := UU)) (thr d L) (none : HIx 1) NR (deliv d L i3 fs) (sm := .dma cc1_scratch2.sem) (E := Set.univ)) $$ HsemA with HB
  sl_exec
  ihave Hs := (join_halves (F := F) d L i3) $$ [HB_dst0 HB_dst1]
  · isplitl [HB_dst0]; · iexact HB_dst0
    iexact HB_dst1
  sl_for (inv d L i3) $$ [Hs Hh']
  case region =>
    intro k _
    unfold inv
    iintro ⟨Hs, %h, Hh⟩
    sl_exec (disch := exact chk_ok (F := F) _ (fI_ok d L i3 hok) _)
    iterate 8 (rw [SparseCore.vectorStoreIdx_bind (thr d L)]; sl_exec (disch := exact chk_ok (F := F) _ (fI_ok d L i3 hok) _))
    sl_step
    isplitl [Hs]; · iexact Hs
    iexists _; iexact Hh
  · unfold inv
    isplitl [Hs]; · iexact Hs
    iexists _; iexact Hh'
  iintro %_ HI
  unfold inv
  icases HI with ⟨Hs, %h, Hh⟩
  sl_exec
  sl_step
  isplitl [HB_src0 HB_src1 Ho']
  · isplitl [HB_src0]; · iapply (Entails.of_eq (pts_row0M (F := F) d L _)); iexact HB_src0
    isplitl [HB_src1]; · iapply (Entails.of_eq (pts_row1M (F := F) d L _)); iexact HB_src1
    iexists _; iapply (Entails.of_eq (pts_outM (F := F) d L _)); iexact Ho'
  isplitl [Hs Hh Hbufs]
  · isplitl [Hs]; · iexists _; iapply (Entails.of_eq (pts_sI (F := F) d (cV L) (jV L) _)); iexact Hs
    isplitl [Hh]; · iexists _; iapply (Entails.of_eq (pts_sH (F := F) d (cV L) (jV L) _)); iexact Hh
    iexact Hbufs
  isplitl [HB HsemB Hsems]
  · isplitl [HB]; · iexact HB
    isplitl [HsemB]; · iexact HsemB
    iexact Hsems
  iexists (insert (SemLoc.dma cc1_scoped0.sem, none) (insert (SemLoc.dma cc1_scratch2.sem, none) (insert (SemLoc.dma cc1_scratch2.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI
end
-- ==== Proof.Launch.lean ====
/-
  @main on the TensorCore inside the SparseCore launch: the arrays' contents along the program as a chain of valuations
  (after each host operation, after each kernel), the one SparseCore call's operands and results, and @main's run from
  the two kernel regions' records — the TensorCore's owed start signal leaves its handshake state for each region and returns.
-/
import proofs.«210303_g84464826843916_cont_9to1c4b_132_15_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The TensorCore's arrays and the host operations of @main -/

abbrev rf (b : Ref sig .tc) : DevRef τ sig := Proc.devRef .tc b

/-- The TensorCore's unscoped buffers: the two arguments and the nine values of @main. -/
abbrev SAll : Finset (DevRef τ sig) :=
  {rf main_arg0, rf main_arg1, rf main_v0, rf main_v1, rf main_v2, rf main_v3, rf main_v4, rf main_v5, rf main_v6, rf main_v7, rf main_v8}

abbrev plT (d : Dev nD) (b : Ref sig .tc) (f : b.ty.Contents (Elt F)) : sProp 𝕄 := ((SparseCore.T d).loc b) ↦{fullShare} f

theorem held_SAll (d : Dev nD) (W : Valuation τ sig (Elt F)) :
    (held (T d) SAll W : sProp 𝕄) = iprop(plT d main_arg0 (W (rf main_arg0)) ∗ plT d main_arg1 (W (rf main_arg1)) ∗ plT d main_v0 (W (rf main_v0))
      ∗ plT d main_v1 (W (rf main_v1)) ∗ plT d main_v2 (W (rf main_v2)) ∗ plT d main_v3 (W (rf main_v3)) ∗ plT d main_v4 (W (rf main_v4))
      ∗ plT d main_v5 (W (rf main_v5)) ∗ plT d main_v6 (W (rf main_v6)) ∗ plT d main_v7 (W (rf main_v7)) ∗ plT d main_v8 (W (rf main_v8))) := by
  unfold held SAll
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop(plT d main_arg0 (W main_arg0) ∗ plT d main_arg1 (W main_arg1) ∗ plT d main_v0 (W main_v0)
      ∗ plT d main_v1 (W main_v1) ∗ plT d main_v2 (W main_v2) ∗ plT d main_v3 (W main_v3) ∗ plT d main_v4 (W main_v4)
      ∗ plT d main_v5 (W main_v5) ∗ plT d main_v6 (W main_v6) ∗ plT d main_v7 (W main_v7) ∗ plT d main_v8 (W main_v8)) := by
  unfold unscopedBufs
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The unscoped buffers at a valuation are the set held at it. -/
theorem unscoped_held (d : Dev nD) (W : Valuation τ sig (Elt F)) :
    (unscopedBufs d (fun b => W (rf b)) : sProp 𝕄) = held (T d) SAll W := by
  rw [unscopedBufs_eq, held_SAll]

variable [FloatOps F]

/-- The six host operations of @main, in program order. -/
abbrev opT0 : HloOp τ sig (Elt F) := StableHlo.unary main_arg0 main_v0 (fun x => transpose S4x64x8192 [0, 2, 1] x Facts₀.transposes_S4x8192x64_S4x64x8192_0_2_1)
abbrev opR1 : HloOp τ sig (Elt F) := StableHlo.reshape main_v0 main_v1 rfl Facts₀.shapeCasts_S4x64x8192_S256x8192
abbrev opT2 : HloOp τ sig (Elt F) := StableHlo.unary main_arg1 main_v2 (fun x => transpose S4x8x8192 [0, 2, 1] x Facts₀.transposes_S4x8192x8_S4x8x8192_0_2_1)
abbrev opR3 : HloOp τ sig (Elt F) := StableHlo.reshape main_v2 main_v3 rfl Facts₀.shapeCasts_S4x8x8192_S32x8192
abbrev opR6 : HloOp τ sig (Elt F) := StableHlo.reshape main_v5 main_v6 rfl Facts₀.shapeCasts_S16384_S128x128
abbrev opR8 : HloOp τ sig (Elt F) := StableHlo.reshape main_v7 main_v8 rfl Facts₀.shapeCasts_S1_S_

theorem sub_opT0 : (opT0 (F := F)).bufs ⊆ SAll := show ({rf main_arg0, rf main_v0} : Finset (DevRef τ sig)) ⊆ SAll by decide
theorem sub_opR1 : (opR1 (F := F)).bufs ⊆ SAll := show ({rf main_v0, rf main_v1} : Finset (DevRef τ sig)) ⊆ SAll by decide
theorem sub_opT2 : (opT2 (F := F)).bufs ⊆ SAll := show ({rf main_arg1, rf main_v2} : Finset (DevRef τ sig)) ⊆ SAll by decide
theorem sub_opR3 : (opR3 (F := F)).bufs ⊆ SAll := show ({rf main_v2, rf main_v3} : Finset (DevRef τ sig)) ⊆ SAll by decide
theorem sub_opR6 : (opR6 (F := F)).bufs ⊆ SAll := show ({rf main_v5, rf main_v6} : Finset (DevRef τ sig)) ⊆ SAll by decide
theorem sub_opR8 : (opR8 (F := F)).bufs ⊆ SAll := show ({rf main_v7, rf main_v8} : Finset (DevRef τ sig)) ⊆ SAll by decide

/-! ### One buffer out of the held set, and back at new contents -/

omit [FloatOps F] in
theorem held_take (c : Thread nD τ) (S : Finset (DevRef τ sig)) (W : Valuation τ sig (Elt F)) {b : DevRef τ sig} (hb : b ∈ S) :
    (held c S W : sProp 𝕄) = iprop(((c.1, b) ↦{fullShare} W b) ∗ held c (S.erase b) W) := by
  unfold held; exact bigSep_erase hb

omit [FloatOps F] in
theorem held_erase_update (c : Thread nD τ) (S : Finset (DevRef τ sig)) (W : Valuation τ sig (Elt F)) (b : DevRef τ sig) (v : b.ty.Contents (Elt F)) :
    (held c (S.erase b) (Function.update W b v) : sProp 𝕄) = held c (S.erase b) W := by
  unfold held
  exact bigSep_congr fun b' hb' => by rw [Function.update_of_ne (Finset.ne_of_mem_erase hb')]

omit [FloatOps F] in
/-- The held set with buffer `b` at new contents `v` is the set at the updated valuation. -/
theorem held_put (c : Thread nD τ) (S : Finset (DevRef τ sig)) (W : Valuation τ sig (Elt F)) {b : DevRef τ sig} (hb : b ∈ S) (v : b.ty.Contents (Elt F)) :
    iprop(((c.1, b) ↦{fullShare} v) ∗ held c (S.erase b) W) ⊢ (held c S (Function.update W b v) : sProp 𝕄) := by
  rw [held_take c S (Function.update W b v) hb, Function.update_self, held_erase_update]

/-! ## @main on the TensorCore -/

section Main

variable (m : (ℓ : Loc nD τ sig) → Buf (Elt F) ℓ) (ρ : Dev nD → PrngReg)

abbrev admT : (p : Fin 2) → (pcfgs (F := F) p).Adm := fun p => (cfgs p).toPCfg_adm

-- What the three kernels leave in their result arrays, as pure functions of what they read.
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))

/-- The arrays' contents along @main: at launch, after each host operation, after each kernel. -/
def W0 (d : Dev nD) : Valuation τ sig (Elt F) := fun b => m (d, b)
def W1 (d : Dev nD) : Valuation τ sig (Elt F) := (opT0 (F := F)).result (W0 m d)
def W2 (d : Dev nD) : Valuation τ sig (Elt F) := (opR1 (F := F)).result (W1 m d)
def W3 (d : Dev nD) : Valuation τ sig (Elt F) := (opT2 (F := F)).result (W2 m d)
def W4 (d : Dev nD) : Valuation τ sig (Elt F) := (opR3 (F := F)).result (W3 m d)
def W5 (d : Dev nD) : Valuation τ sig (Elt F) := Function.update (W4 m d) (rf main_v4) (psumOf (W4 m d (rf main_v1)))
def W6 (d : Dev nD) : Valuation τ sig (Elt F) := Function.update (W5 m psumOf d) (rf main_v5) (histOf (W5 m psumOf d (rf main_v3)))
def W7 (d : Dev nD) : Valuation τ sig (Elt F) := (opR6 (F := F)).result (W6 m psumOf histOf d)
def W8 (d : Dev nD) : Valuation τ sig (Elt F) :=
  Function.update (W7 m psumOf histOf d) (rf main_v7) (combOf (W7 m psumOf histOf d (rf main_v4)) (W7 m psumOf histOf d (rf main_v6)))
def W9 (d : Dev nD) : Valuation τ sig (Elt F) := (opR8 (F := F)).result (W8 m psumOf histOf combOf d)

/-- What the TensorCore owes, with every recorded wait at or below the level its handshake state allows before call `n`. -/
def owesT (d : Dev nD) (n : ℕ) : sProp 𝕄 :=
  iprop(∃ W, ⌜(K (F := F)).WBelow (T d) W (8 * n)⌝ ∗ owes (T d) ((K (F := F)).Otc d n) W)

-- The tiles' shares of the histogram call's operands and results.
variable (goPay tdPay : Dev nD → Fin 16 → sProp (MT nD τ sig (HIx 1) (Elt F) ℕ UU ℕ))

omit [FloatOps F] in
theorem nSub_all (q : Fin 1) : (K (F := F)).nSub q = 16 := by
  match q with
  | 0 => rfl

/-- The one SparseCore call takes the transposed indices and the histogram array whole and brings them back, the
    histogram at what the tiles computed. -/
def P : (K (F := F)).Pay (nD := nD) (Val := Elt F) (Name := ℕ) (U := UU) where
  st := fun _ d _ => iprop(plT d main_v3 (W5 m psumOf d (rf main_v3)) ∗ plT d main_v5 (W5 m psumOf d (rf main_v5)))
  dn := fun _ d _ => iprop(plT d main_v3 (W5 m psumOf d (rf main_v3)) ∗ plT d main_v5 (histOf (W5 m psumOf d (rf main_v3))))
  go := fun q d _ i => goPay d (Fin.cast (nSub_all q) i)
  td := fun q d _ i => tdPay d (Fin.cast (nSub_all q) i)
  x := fun _ _ => iprop(emp)

theorem P_storable (hgo : ∀ d i, BI.Storable (upEmb : UEmb _ 𝕄) (goPay d i)) (htd : ∀ d i, BI.Storable (upEmb : UEmb _ 𝕄) (tdPay d i)) :
    (P (F := F) m psumOf histOf goPay tdPay).IsStorable where
  st _ d _ := by unfold P; infer_instance
  dn _ d _ := by unfold P; infer_instance
  go q d _ i := hgo d (Fin.cast (nSub_all q) i)
  td q d _ i := htd d (Fin.cast (nSub_all q) i)

end Main

/-! ### The two kernel regions, as records of the segment library, and @main's proof -/

section Regions

variable (m : (ℓ : Loc nD τ sig) → Buf (Elt F) ℓ) (ρ : Dev nD → PrngReg)
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))
variable (goPay tdPay : Dev nD → Fin 16 → sProp (MT nD τ sig (HIx 1) (Elt F) ℕ UU ℕ))
variable (pdats : (p : Fin 2) → (c : Dev nD) → Pipeline.Dat τ (Elt F) (HIx 1) ℕ UU ℕ (Pipeline.pin (pcfgs (F := F)) admT p) c)
variable (R0 : Pipeline.RegionSeg (pcfgs (F := F)) admT pdats (none : HIx 1) (defs₀ (F := F)) 𝒱₀ (K (F := F)).L (K (F := F)).lev 0)
  (R2 : Pipeline.RegionSeg (pcfgs (F := F)) admT pdats (none : HIx 1) (defs₀ (F := F)) 𝒱₀ (K (F := F)).L (K (F := F)).lev 1)

/-- The pipelines' staging rounds on device `d`, as the launch deals them. -/
def Gd (d : Dev nD) : sProp 𝕄 :=
  iprop((Pipeline.cellsGhost (Pipeline.pin (pcfgs (F := F)) admT) EP 0 d ∗ Pipeline.toksInit (Pipeline.pin (pcfgs (F := F)) admT) EP 0 d)
    ∗ (Pipeline.cellsGhost (Pipeline.pin (pcfgs (F := F)) admT) EP 1 d ∗ Pipeline.toksInit (Pipeline.pin (pcfgs (F := F)) admT) EP 1 d))

/-- What @main leaves the claim: every array of the TensorCore at its final contents. -/
abbrev FIN (d : Dev nD) : sProp 𝕄 := held (T d) SAll (W9 m psumOf histOf combOf d)

/-- The call's operands and results for its one SparseCore. -/
theorem st0_eq (d : Dev nD) :
    (bigSep Finset.univ fun c : Fin ((K (F := F)).nCore 0) => (P m psumOf histOf goPay tdPay).st 0 d c)
      = iprop(plT d main_v3 (W5 m psumOf d (rf main_v3)) ∗ plT d main_v5 (W5 m psumOf d (rf main_v5))) := by
  show (bigSep (Finset.univ : Finset (Fin 1)) fun _ => _) = _
  rw [show (Finset.univ : Finset (Fin 1)) = {0} by decide, bigSep_singleton]
  rfl
theorem dn0_eq (d : Dev nD) :
    (bigSep Finset.univ fun c : Fin ((K (F := F)).nCore 0) => (P m psumOf histOf goPay tdPay).dn 0 d c)
      = iprop(plT d main_v3 (W5 m psumOf d (rf main_v3)) ∗ plT d main_v5 (histOf (W5 m psumOf d (rf main_v3)))) := by
  show (bigSep (Finset.univ : Finset (Fin 1)) fun _ => _) = _
  rw [show (Finset.univ : Finset (Fin 1)) = {0} by decide, bigSep_singleton]
  rfl

set_option backward.isDefEq.respectTransparency.types false in
theorem hmain [∀ e, Nonempty (Elt F e)]
    (hpre0 : ∀ d, iprop(unscopedBufs d (fun b => W4 m d (rf b)) ∗ owesT (F := F) d 0) ⊢ R0.pre d)
    (hpost0 : ∀ d, R0.post d ⊢ iprop(unscopedBufs d (fun b => W5 m psumOf d (rf b)) ∗ owesT (F := F) d 0))
    (hpre2 : ∀ d, iprop(unscopedBufs d (fun b => W7 m psumOf histOf d (rf b)) ∗ owesT (F := F) d 1) ⊢ R2.pre d)
    (hpost2 : ∀ d, R2.post d ⊢ iprop(unscopedBufs d (fun b => W8 m psumOf histOf combOf d (rf b)) ∗ owesT (F := F) d 1))
    (κ : GSem nD τ sig → ℕ) (d : Dev nD) :
    iprop((K (F := F)).ctx EH (P m psumOf histOf goPay tdPay) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m psumOf histOf combOf d) := by
  unfold SparseCore.Cfg.tcRes Gd
  rw [show (fun b : Ref sig .tc => m ((SparseCore.T d).loc b)) = (fun b => W0 m d (rf b)) from rfl, unscoped_held]
  simp only [main, wp_bind, wp_pure]
  iintro ⟨#Hctx, Hst, ⟨Hb, Hheld, -, -⟩, ⟨⟨Hcg0, Htk0⟩, ⟨Hcg2, Htk2⟩⟩⟩
  ihave Hlev0 := ((K (F := F)).ctx_levAts (EH := EH) (P := P m psumOf histOf goPay tdPay) κ) $$ Hctx
  ihave Hlev2 := ((K (F := F)).ctx_levAts (EH := EH) (P := P m psumOf histOf goPay tdPay) κ) $$ Hctx
  -- the four host operations before the first region
  iapply (wp_hlo_within 𝒱 (SparseCore.T d) none Set.univ (op := opT0) (S := SAll) sub_opT0 (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := SAll) sub_opR1 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := opT2) (S := SAll) sub_opT2 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := opR3) (S := SAll) sub_opR3 (V := W3 m d)) $$ [Hb Hheld]
  · isplitl [Hb]; · iexact Hb
    iexact Hheld
  iintro ⟨Hb, Hheld⟩
  rw [wp_ret]; imodintro

  -- region 0: the softmax column sums. The TensorCore's owes leaves its handshake state for the region and returns.
  unfold SparseCore.Cfg.tcSt
  icases Hst with ⟨HO, Hat, #Hrd, #Hrs, Htoks⟩
  iapply ((K (F := F)).wp_liftProg (D (F := F)) 𝒱 (SparseCore.T d) Set.univ none (Prog.lift (TpuEff.customCall (Pipeline.entry 0) ())) _)
  iapply (Pipeline.RegionSeg.wp (pcfgs (F := F)) admT pdats (none : HIx 1) cellOf_inj EP (defs₀ (F := F)) 𝒱₀ (K (F := F)).L (K (F := F)).lev R0 d none
      (fun _ h => nomatch h) (fun _ => Prog.ret PUnit.unit) _) $$ [Hb Hheld HO Hcg0 Htk0 Hat Htoks Hcg2 Htk2]
  isplitr [Hb Hheld HO Hcg0 Htk0]
  swap
  · isplitl [Hb]; · iexact Hb
    isplitl [Hheld HO]
    · iapply (hpre0 d)
      isplitl [Hheld]
      · rw [unscoped_held]; unfold W4; iexact Hheld
      · unfold owesT; iexact HO
    isplitr; · iexact Hlev0
    isplitl [Hcg0]; · iexact Hcg0
    iexact Htk0
  iintro ⟨Hb, Hpost⟩
  ihave Hp := (hpost0 d) $$ Hpost
  icases Hp with ⟨Hub, HO⟩
  rw [wp_ret]; imodintro
  -- the SparseCore call: the transposed indices and the histogram array to the one SparseCore and back
  ihave Hheld := (Entails.of_eq (unscoped_held (F := F) d (W5 m psumOf d))) $$ Hub
  ihave H := (Entails.of_eq (held_take (F := F) (SparseCore.T d) SAll (W5 m psumOf d) (b := rf main_v5) (by decide))) $$ Hheld
  icases H with ⟨H5, Hrest⟩
  ihave H := (Entails.of_eq (held_take (F := F) (SparseCore.T d) (SAll.erase (rf main_v5)) (W5 m psumOf d) (b := rf main_v3) (by decide))) $$ Hrest
  icases H with ⟨H3, Hrest⟩
  iapply ((K (F := F)).wp_run (D (F := F)) 𝒱 (EH := EH) (P := P m psumOf histOf goPay tdPay) κ d 0) $$ [HO Hat Htoks H3 H5 Hb Hrest Hcg2 Htk2]
  isplitr; · iexact Hctx
  isplitl [HO Hat Htoks]
  · unfold SparseCore.Cfg.tcSt
    isplitl [HO]; · unfold owesT; iexact HO
    isplitl [Hat]; · iexact Hat
    isplitr; · iexact Hrd
    isplitr; · iexact Hrs
    iexact Htoks
  isplitl [H3 H5]
  · rw [st0_eq]
    isplitl [H3]; · iexact H3
    iexact H5
  iintro ⟨Hst, Hdn⟩
  ihave Hdn' := (Entails.of_eq (dn0_eq (F := F) m psumOf histOf goPay tdPay d)) $$ Hdn
  icases Hdn' with ⟨H3, H5⟩
  ihave Hrest := (Entails.of_eq (held_take (F := F) (SparseCore.T d) (SAll.erase (rf main_v5)) (W5 m psumOf d) (b := rf main_v3) (by decide)).symm) $$ [H3 Hrest]
  · isplitl [H3]; · iexact H3
    iexact Hrest
  ihave Hheld := (held_put (F := F) (SparseCore.T d) SAll (W5 m psumOf d) (b := rf main_v5) (by decide) (histOf (W5 m psumOf d (rf main_v3)))) $$ [H5 Hrest]
  · isplitl [H5]; · iexact H5
    iexact Hrest
  -- the reshape of the histogram
  iapply (wp_hlo_within 𝒱 (SparseCore.T d) none Set.univ (op := opR6) (S := SAll) sub_opR6 (V := W6 m psumOf histOf d)) $$ [Hb Hheld]
  · isplitl [Hb]; · iexact Hb
    unfold W6; iexact Hheld
  iintro ⟨Hb, Hheld⟩
  rw [wp_ret]; imodintro
  -- region 2: the combination
  unfold SparseCore.Cfg.tcSt
  icases Hst with ⟨HO, Hat, #Hrd1, #Hrs1, Htoks⟩
  iapply ((K (F := F)).wp_liftProg (D (F := F)) 𝒱 (SparseCore.T d) Set.univ none (Prog.lift (TpuEff.customCall (Pipeline.entry 1) ())) _)
  iapply (Pipeline.RegionSeg.wp (pcfgs (F := F)) admT pdats (none : HIx 1) cellOf_inj EP (defs₀ (F := F)) 𝒱₀ (K (F := F)).L (K (F := F)).lev R2 d none
      (fun _ h => nomatch h) (fun _ => Prog.ret PUnit.unit) _) $$ [Hb Hheld HO Hcg2 Htk2 Hat Htoks]
  isplitr [Hb Hheld HO Hcg2 Htk2]
  swap
  · isplitl [Hb]; · iexact Hb
    isplitl [Hheld HO]
    · iapply (hpre2 d)
      isplitl [Hheld]
      · rw [unscoped_held]; unfold W7; iexact Hheld
      · unfold owesT; iexact HO
    isplitr; · iexact Hlev2
    isplitl [Hcg2]; · iexact Hcg2
    iexact Htk2
  iintro ⟨Hb, Hpost⟩
  ihave Hp := (hpost2 d) $$ Hpost
  icases Hp with ⟨Hub, HO⟩
  rw [wp_ret]; imodintro
  ihave Hheld := (Entails.of_eq (unscoped_held (F := F) d (W8 m psumOf histOf combOf d))) $$ Hub
  -- the reshape to the scalar result
  iapply (wp_hlo_within 𝒱 (SparseCore.T d) none Set.univ (op := opR8) (S := SAll) sub_opR8 (V := W8 m psumOf histOf combOf d)) $$ [Hb Hheld]
  · isplitl [Hb]; · iexact Hb
    iexact Hheld
  iintro ⟨Hb, Hheld⟩
  rw [wp_ret]; imodintro; imodintro
  isplitl [HO Hat Htoks]
  · isplitl [HO]; · unfold owesT; iexact HO
    isplitl [Hat]; · iexact Hat
    isplitr; · iexact Hrd1
    isplitr; · iexact Hrs1
    iexact Htoks
  unfold FIN W9; iexact Hheld

end Regions

end Cert.Proof.KI
end
-- ==== Proof.Run.lean ====
/-
  The whole program's run: the launch element (the handshakes' rounds, the pipelines' staging rounds), what is read of the
  final memory, and that every weakly fair execution of the device's threads terminates with the arrays at the chain's
  last valuation.
-/
import proofs.«210303_g84464826843916_cont_9to1c4b_132_15_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (cellsGhost toksInit)

/-! ## The launch element -/

section LaunchElem

variable (m : (ℓ : Loc nD τ sig) → Buf (Elt F) ℓ)
variable [FloatOps F]
variable (psumOf : (rf main_v1).ty.Contents (Elt F) → (rf main_v4).ty.Contents (Elt F))
  (histOf : (rf main_v3).ty.Contents (Elt F) → (rf main_v5).ty.Contents (Elt F))
variable (goPay tdPay : Dev nD → Fin 16 → sProp (MT nD τ sig (HIx 1) (Elt F) ℕ UU ℕ))

/-- The launch element: the handshakes' rounds, the pipelines' staging rounds, no counter. -/
def u₀ : UU :=
  (initOf (K (F := F)).hsCells (K (F := F)).hsToks,
    (initOf (Pipeline.cells (Pipeline.pin (pcfgs (F := F)) admT) cellOf_inj) (Pipeline.launchToks (Pipeline.pin (pcfgs (F := F)) admT) cellOf_inj), (1 : Counters)))

omit [FloatOps F] in
theorem bigSep_emp' {I : Type} (s : Finset I) : (bigSep s fun _ => iprop(emp)) = (iprop(emp) : sProp 𝕄) := bigSep_emp_const s

omit [FloatOps F] in
theorem Gd_intro (d : Dev nD) :
    iprop((cellsGhost (Pipeline.pin (pcfgs (F := F)) admT) EP 0 d ∗ cellsGhost (Pipeline.pin (pcfgs (F := F)) admT) EP 1 d)
        ∗ ((toksInit (Pipeline.pin (pcfgs (F := F)) admT) EP 0 d : sProp 𝕄) ∗ toksInit (Pipeline.pin (pcfgs (F := F)) admT) EP 1 d))
      ⊢ Gd (F := F) d := by
  unfold Gd
  iintro ⟨⟨A0, A1⟩, ⟨B0, B1⟩⟩
  isplitl [A0 B0]
  · isplitl [A0] <;> iassumption
  isplitl [A1] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m psumOf histOf goPay tdPay).x q thr) := by
  unfold u₀
  iintro Hu
  ihave H := (ownU_pair _ _) $$ Hu
  icases H with ⟨HH, HR⟩
  ihave H2 := (own_pair_emb embR _ _) $$ HR
  icases H2 with ⟨HP, -⟩
  ihave HP := (show (BI.own (((Emb.inl : Emb UP (UP × Counters)).trans embR) (initOf (Pipeline.cells (Pipeline.pin (pcfgs (F := F)) admT) cellOf_inj) (Pipeline.launchToks (Pipeline.pin (pcfgs (F := F)) admT) cellOf_inj))) : sProp 𝕄)
      ⊢ BI.own (EP (initOf (Pipeline.cells (Pipeline.pin (pcfgs (F := F)) admT) cellOf_inj) (Pipeline.launchToks (Pipeline.pin (pcfgs (F := F)) admT) cellOf_inj))) from by unfold EP; exact BI.Entails.refl _) $$ HP
  imod (Pipeline.fund_ghost (Pipeline.pin (pcfgs (F := F)) admT) EP cellOf_inj) $$ HP with ⟨Hcg, Htk⟩
  imodintro
  isplitl [HH]; · iexact HH
  isplitl [Hcg Htk]
  · iapply (show iprop((bigSep Finset.univ fun c : Dev nD => bigSep Finset.univ fun p : Fin 2 => cellsGhost (Pipeline.pin (pcfgs (F := F)) admT) EP p c)
          ∗ (bigSep Finset.univ fun c : Dev nD => bigSep Finset.univ fun p : Fin 2 => (toksInit (Pipeline.pin (pcfgs (F := F)) admT) EP p c : sProp 𝕄)))
        ⊢ bigSep Finset.univ fun d : Dev nD => Gd (F := F) d from by
      rw [← bigSep_sep']
      exact bigSep_mono fun d _ => by
        rw [bigSep_W0, bigSep_W0]
        exact Gd_intro d)
    isplitl [Hcg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end LaunchElem

/-! ## The run -/

section RunMain

variable (m : (ℓ : Loc nD τ sig) → Buf (Elt F) ℓ) (ρ : Dev nD → PrngReg)
variable [FloatOps F]
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))
variable (goPay tdPay : Dev nD → Fin 16 → sProp (MT nD τ sig (HIx 1) (Elt F) ℕ UU ℕ))
variable (pdats : (p : Fin 2) → (c : Dev nD) → Pipeline.Dat τ (Elt F) (HIx 1) ℕ UU ℕ (Pipeline.pin (pcfgs (F := F)) admT p) c)
variable (R0 : Pipeline.RegionSeg (pcfgs (F := F)) admT pdats (none : HIx 1) (defs₀ (F := F)) 𝒱₀ (K (F := F)).L (K (F := F)).lev 0)
  (R2 : Pipeline.RegionSeg (pcfgs (F := F)) admT pdats (none : HIx 1) (defs₀ (F := F)) 𝒱₀ (K (F := F)).L (K (F := F)).lev 1)

/-- What the final memory is read for: the result and the two arguments of device `d`. -/
def fq (d : Dev nD) (s' : Phys nD τ sig (Elt F)) : Prop :=
  s'.mem.mem ((SparseCore.T d).loc main_v8) = W9 m psumOf histOf combOf d (rf main_v8)
    ∧ s'.mem.mem ((SparseCore.T d).loc main_arg0) = W9 m psumOf histOf combOf d (rf main_arg0)
    ∧ s'.mem.mem ((SparseCore.T d).loc main_arg1) = W9 m psumOf histOf combOf d (rf main_arg1)

theorem hfin (d : Dev nD) (s' : Phys nD τ sig (Elt F)) :
    iprop(FIN m psumOf histOf combOf d ∗ SI s') ⊢ (⌜fq m psumOf histOf combOf d s'⌝ : sProp 𝕄) := by
  unfold FIN
  rw [held_SAll]
  iintro ⟨⟨H0, H1, -, -, -, -, -, -, -, -, H8⟩, HSI⟩
  icombine HSI H0 gives %h0
  icombine HSI H1 gives %h1
  icombine HSI H8 gives %h8
  ipureintro
  exact ⟨Buf.eq_of_forall_mem_univ h8, Buf.eq_of_forall_mem_univ h0, Buf.eq_of_forall_mem_univ h1⟩

/-- The post of the run: on every device the result array at the chain's last valuation, the arguments as it has them. -/
def QC : PUnit × MemSt nD τ sig (Elt F) → Prop := fun r => ∀ c : Dev nD,
  r.2.mem ((SparseCore.T c).loc main_v8) = W9 m psumOf histOf combOf c (rf main_v8)
    ∧ r.2.mem ((SparseCore.T c).loc main_arg0) = W9 m psumOf histOf combOf c (rf main_arg0)
    ∧ r.2.mem ((SparseCore.T c).loc main_arg1) = W9 m psumOf histOf combOf c (rf main_arg1)

set_option backward.isDefEq.respectTransparency.types false in
/-- Every weakly fair execution of the device's threads terminates, nothing faulting, and ends at `QC`: from the tile's
    obligation, the split of the call's operands among the tiles, and the two regions' records. -/
theorem run_main [∀ e, Nonempty (Elt F e)]
    (hgo : ∀ d i, BI.Storable (upEmb : UEmb _ 𝕄) (goPay d i)) (htd : ∀ d i, BI.Storable (upEmb : UEmb _ 𝕄) (tdPay d i))
    (htile : (K (F := F)).TileObl (D (F := F)) 𝒱 (P m psumOf histOf goPay tdPay) v₀ 0)
    (hvec : (K (F := F)).VecSplit (P m psumOf histOf goPay tdPay) 0)
    (hpre0 : ∀ d, iprop(unscopedBufs d (fun b => W4 m d (rf b)) ∗ owesT (F := F) d 0) ⊢ R0.pre d)
    (hpost0 : ∀ d, R0.post d ⊢ iprop(unscopedBufs d (fun b => W5 m psumOf d (rf b)) ∗ owesT (F := F) d 0))
    (hpre2 : ∀ d, iprop(unscopedBufs d (fun b => W7 m psumOf histOf d (rf b)) ∗ owesT (F := F) d 1) ⊢ R2.pre d)
    (hpost2 : ∀ d, R2.post d ⊢ iprop(unscopedBufs d (fun b => W8 m psumOf histOf combOf d (rf b)) ∗ owesT (F := F) d 1)) :
    θ_run (Cert.KernelIdeal.defs (F := F)) (Cert.KernelIdeal.threads (F := F)) ⟨m, fun _ => 0, ρ⟩ (QC m psumOf histOf combOf) :=
  haveI := P_storable (F := F) m psumOf histOf goPay tdPay hgo htd
  SparseCore.Cfg.θ_run_sc (K := K (F := F)) (D := D (F := F)) (𝒱 := 𝒱) (EH := EH) (P := P m psumOf histOf goPay tdPay) facts v₀
    (fun q hq => match q with | 0 => nomatch hq)
    (fun q _ => match q with | 0 => htile)
    (fun q _ => match q with | 0 => hvec)
    m ρ main (fun d => Gd (F := F) d) (FIN m psumOf histOf combOf) (u₀ (F := F))
    (sep_elim_left.trans (hu₀ m psumOf histOf goPay tdPay))
    (hmain m ρ psumOf histOf combOf goPay tdPay pdats R0 R2 hpre0 hpost0 hpre2 hpost2)
    (fq m psumOf histOf combOf) (hfin m psumOf histOf combOf) (QC m psumOf histOf combOf) (fun _ h => h)

end RunMain

end Cert.Proof.KI
end
-- ==== Proof.SoftmaxRun.lean ====
/-
  The softmax column-sum kernel (pipeline 0) run from its skeleton on whole staging memrefs, in each of its three control
  cases, to explicit contents: at the first grid point the carried scratch is zeroed and then accumulates the point's
  block term; at the points in between it accumulates only; at the last point it accumulates and stores the scratch's
  row sums into the result's staging buffer.
-/
import proofs.«210303_g84464826843916_cont_9to1c4b_132_15_alg».proof.Proof.Common
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The two branch conditions, in closed form over the grid -/

/-- The first conditional's condition as the body computes it from the coordinates: both are zero. -/
abbrev sm0_condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem sm0_hcondFirst : ∀ t : Fin cfg0.N, sm0_condFirst (grid0.coords t) ↔ t.val = 0 :=
  (by decide +kernel : ∀ t : Fin grid0.N, sm0_condFirst (grid0.coords t) ↔ t.val = 0)
/-- The second conditional's condition: the coordinates are the last ones. -/
abbrev sm0_condLast (i : grid0.Coords) : Prop := k0_cond2 i = 1#1
/-- It holds at the last point only. -/
theorem sm0_hcondLast : ∀ t : Fin cfg0.N, sm0_condLast (grid0.coords t) ↔ t.val = 7 :=
  (by decide +kernel : ∀ t : Fin grid0.N, sm0_condLast (grid0.coords t) ↔ t.val = 7)

/-! ## Loads and stores through the whole-shape rectangle at zero offsets -/

section Whole

variable {Val : EltTy → Type} {sg : RefSig} {κ : Kind} {sp : Space} {Sh : Shape} {e : EltTy}

/-- A load through the whole-shape rectangle at zero offsets reads the view's contents. -/
theorem sm0_readAt_unit_zero (v : View sg κ sp Sh e) {off : Fin Sh.rank → Nat} (h : off = fun _ => 0)
    (inb : ∀ a, off a + Sh.size a ≤ Sh.size a) (f : v.ty.Contents Val) :
    v.readAt Val (Rect.unit off Sh.size inb).toLoadRect f = v.read Val f :=
  View.ld_unit_zero h inb (v.read Val f)

/-- A store through it, last, leaves its payload whatever was stored before. -/
theorem sm0_read_writes_unit_zero (v : View sg κ sp Sh e) {off : Fin Sh.rank → Nat} (h : off = fun _ => 0)
    (inb : ∀ a, off a + Sh.size a ≤ Sh.size a) (f : v.ty.Contents Val) (w : Sh.Idx → Val e) (Ls : List (View.Piece Val Sh e)) :
    v.read Val (v.writes Val f ((⟨Rect.unit off Sh.size inb, w⟩ : View.Piece Val Sh e) :: Ls)) = w := by
  subst h; funext y
  have e := View.read_writes_cons_emb v f (Rect.whole Sh) w Ls y
  rwa [Rect.emb_whole_apply] at e

end Whole

theorem sm0_off2 : (![0, 0] : Fin S64x4096.rank → Nat) = fun _ => 0 := by funext a; fin_cases a <;> rfl
theorem sm0_off2' : (![0, 0] : Fin S64x1.rank → Nat) = fun _ => 0 := by funext a; fin_cases a <;> rfl

/-! ## The pure functions -/

/-- The block's term: its exponentials (shifted by the column maxima) times the reciprocals of their column sums. -/
def blockTerm (x0 : Vec F S64x4096 .f32) : Vec F S64x4096 .f32 :=
  have v6 : FVec F S64x4096 .f32 := shapeCast S64x4096 x0 shapeCasts_S64x4096_S64x4096
  have v7 : FVec F S4096 .f32 := multiReduction .maximumf [0] S4096 v6 0xFF800000#32 reduces_S64x4096_S4096 (.inl rfl) rfl
  have v8 : FVec F S1x4096 .f32 := shapeCast S1x4096 v7 shapeCasts_S4096_S1x4096
  have v9 : FVec F S64x4096 .f32 := broadcastTo S64x4096 v8 broadcasts_S1x4096_S64x4096
  have v10 : FVec F S64x4096 .f32 := subf v6 v9
  have v11 : FVec F S64x4096 .f32 := exp v10
  have v12 : FVec F S4096 .f32 := multiReduction .add [0] S4096 v11 0x00000000#32 reduces_S64x4096_S4096 (.inl rfl) rfl
  have v13 : FVec F S1x4096 .f32 := shapeCast S1x4096 v12 shapeCasts_S4096_S1x4096
  have cst_4 : F .f32 := Scalar.ofBits .f32 0x3F800000#32
  have v14 : FVec F S1x4096 .f32 := broadcast S1x4096 cst_4
  have v15 : FVec F S1x4096 .f32 := divf v14 v13
  have v17 : FVec F S64x4096 .f32 := broadcastTo S64x4096 v15 broadcasts_S1x4096_S64x4096
  mulf v11 v17

/-- The accumulating store's payload is the scratch plus the block's term. -/
theorem k0_pay2_eq (x0 acc : Vec F S64x4096 .f32) : k0_pay2 x0 acc = addf acc (blockTerm x0) :=
  shapeCast_self _ _

/-- The zeroing store's payload is the zero vector. -/
theorem k0_pay1_eq : (k0_pay1 : FVec F S64x4096 .f32) = broadcast S64x4096 (Scalar.ofBits .f32 0x00000000#32) :=
  shapeCast_self _ _

/-! ## The body in its three cases -/

set_option maxHeartbeats 1000000 in
/-- THE FIRST POINT: the scratch, at anything, is zeroed and then holds the block's term added to zero; the result's
    staging buffer is left as found. -/
theorem sm0_runFirst (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : sm0_condFirst i) (hc1 : ¬sm0_condLast i)
    (x0 : Vec F S64x4096 .f32) (x1 : Vec F S64x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay2 x0 k0_pay1)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%f1, %hf1, H1⟩, ⟨%ds0, %fs0, %hfs0, HS0⟩, Hk⟩
  obtain rfl := harg2.eq_unread hf0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr; swap; · iexact HS0
  ipureintro
  rw [sm0_read_writes_unit_zero _ sm0_off2, sm0_readAt_unit_zero _ sm0_off2, hf0]
  unfold sm0_runFirst.sl.v16 sm0_runFirst.sl.HS0_1
  rw [View.readCov_unit_zero (S := S64x4096) _ sm0_off2]

set_option maxHeartbeats 1000000 in
/-- A POINT IN BETWEEN: the scratch at `xs0` ends at the block's term added to it; the result's staging buffer is left
    as found. -/
theorem sm0_runMid (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : ¬sm0_condFirst i) (hc1 : ¬sm0_condLast i)
    (x0 : Vec F S64x4096 .f32) (xs0 : Vec F S64x4096 .f32) (x1 : Vec F S64x1 .f32) (E : Set ℕ) (K : PUnit → sProp 𝕄) :
    iprop(owns (c : Thread nD τ) arg2 fullShare x0 ∗ owns (c : Thread nD τ) arg3 fullShare x1 ∗ owns (c : Thread nD τ) arg4 fullShare xs0
        ∗ (iprop(owns (c : Thread nD τ) arg2 fullShare x0 ∗ owns (c : Thread nD τ) arg3 fullShare x1 ∗ owns (c : Thread nD τ) arg4 fullShare (k0_pay2 x0 xs0)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr; swap; · iexact HS0
  ipureintro
  rw [sm0_read_writes_unit_zero _ sm0_off2, sm0_readAt_unit_zero _ sm0_off2, sm0_readAt_unit_zero _ sm0_off2, hf0, hfs0]

set_option maxHeartbeats 1000000 in
/-- THE LAST POINT: the scratch at `xs0` ends at the block's term added to it, and the result's staging buffer, at
    anything, ends at the row sums of that. -/
theorem sm0_runLast (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : ¬sm0_condFirst i) (hc1 : sm0_condLast i)
    (x0 : Vec F S64x4096 .f32) (xs0 : Vec F S64x4096 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr; swap; · iexact H1
    ipureintro
    rw [sm0_read_writes_unit_zero _ sm0_off2']
    unfold sm0_runLast.sl.v28 sm0_runLast.sl.HS0_1
    rw [View.readCov_unit_zero (S := S64x4096) _ sm0_off2, sm0_readAt_unit_zero _ sm0_off2, sm0_readAt_unit_zero _ sm0_off2, hf0, hfs0]
  iexists _; isplitr; swap; · iexact HS0
  ipureintro
  unfold sm0_runLast.sl.HS0_1
  rw [sm0_read_writes_unit_zero _ sm0_off2, sm0_readAt_unit_zero _ sm0_off2, sm0_readAt_unit_zero _ sm0_off2, hf0, hfs0]

end Cert.Proof.KI

end
-- ==== Proof.Softmax.lean ====
/-
  TensorCore region 0, the softmax column sums: the pure functions (the carried scratch after each grid point, the row sums
  the last point stores), the pipeline's proof data with the scratch carried in the invariant, the body obligation by the
  three runs of the body, and the region's record for the segment rule.
-/
import proofs.«210303_g84464826843916_cont_9to1c4b_132_15_alg».proof.Proof.SoftmaxRun
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The pure functions -/

/-- Window 0's block at point `t`, read off contents `V1` of the input array. -/
def sm0_blk (V1 : main_v1.ty.Contents (Elt F)) (t : Fin cfg0.N) : Vec F S64x4096 .f32 :=
  ((cfg0.win 0).blk t).view.read (Elt F) V1

/-- The carried scratch after `n` grid points: zero, then each point's block term added. -/
def accAfter (V1 : main_v1.ty.Contents (Elt F)) : ℕ → Vec F S64x4096 .f32
  | 0 => k0_pay1
  | n + 1 => if h : n < cfg0.N then k0_pay2 (sm0_blk V1 ⟨n, h⟩) (accAfter V1 n) else accAfter V1 n

/-- What the last point stores into the result: the row sums of the scratch after all eight points. -/
def psumOut (V1 : main_v1.ty.Contents (Elt F)) : Vec F S64x1 .f32 := k0_pay3 (accAfter V1 8)

theorem accAfter_zero (V1 : main_v1.ty.Contents (Elt F)) : accAfter V1 0 = k0_pay1 := rfl

theorem accAfter_succ (V1 : main_v1.ty.Contents (Elt F)) (t : Fin cfg0.N) :
    accAfter V1 (t.val + 1) = k0_pay2 (sm0_blk V1 t) (accAfter V1 t.val) := by
  obtain ⟨n, hn⟩ := t
  exact dif_pos hn

/-- The recursion as the mathematics reads it: the scratch plus the block's term. -/
theorem accAfter_succ' (V1 : main_v1.ty.Contents (Elt F)) (t : Fin cfg0.N) :
    accAfter V1 (t.val + 1) = addf (accAfter V1 t.val) (blockTerm (sm0_blk V1 t)) := by
  rw [accAfter_succ, k0_pay2_eq]

/-! ## Where the windows are idle, and the memrefs the body is called with -/

theorem sm0_live0 : ∀ t : Fin cfg0.N, cfg0.idle 0 (grid0.coords t) = false := by decide +kernel
theorem sm0_idle1 : ∀ t : Fin cfg0.N, ¬sm0_condLast (grid0.coords t) → cfg0.idle 1 (grid0.coords t) = true := by decide +kernel
theorem sm0_noFlush1 : ∀ t : Fin cfg0.N, ¬sm0_condLast (grid0.coords t) → (cfg0.win 1).flush t = false := by decide +kernel
theorem sm0_live1 : ∀ t : Fin cfg0.N, sm0_condLast (grid0.coords t) → cfg0.idle 1 (grid0.coords t) = false := by decide +kernel

abbrev sm0_ms0 (t : Fin cfg0.N) : Memref sig .tc .vmem S64x4096 .f32 := win0_0.stage (cfg0.slots t 0)
abbrev sm0_hs0 (t : Fin cfg0.N) : (sm0_ms0 t).IsWhole := hstage0_0 ((cfg0.slots t 0).cast nbuf0_0)
abbrev sm0_ms1 (t : Fin cfg0.N) : Memref sig .tc .vmem S64x1 .f32 := win0_1.stage (cfg0.slots t 1)
abbrev sm0_hs1 (t : Fin cfg0.N) : (sm0_ms1 t).IsWhole := hstage0_1 ((cfg0.slots t 1).cast nbuf0_1)
/-- The scratch operand: a whole scoped buffer of the kernel's own. -/
abbrev sm0_scM : Memref sig .tc .vmem S64x4096 .f32 := Memref.whole cc0_scratch0

/-! ## The invariant: the scratch carried between points -/

/-- The core's other scoped buffers that are no staging buffer of this pipeline, each at some contents. -/
def sm0_rest3 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- The scratch before position `n`: at anything before the first point, then at what the points so far accumulated. -/
def sm0_scr (c : Dev nD) (V1 : main_v1.ty.Contents (Elt F)) : ℕ → sProp 𝕄
  | 0 => iprop(∃ d, owns (c : Thread nD τ) sm0_scM fullShare d)
  | n + 1 => owns (c : Thread nD τ) sm0_scM fullShare (accAfter V1 (n + 1))

theorem sm0_scr_pos (c : Dev nD) (V1 : main_v1.ty.Contents (Elt F)) (n : ℕ) (hn : n ≠ 0) :
    (sm0_scr c V1 n : sProp 𝕄) = owns (c : Thread nD τ) sm0_scM fullShare (accAfter V1 n) := by
  cases n with
  | zero => exact absurd rfl hn
  | succ n => rfl

/-- The scoped rest is the scratch at some contents beside the other three buffers. -/
theorem sm0_scopedRest_eq (c : Dev nD) (V1 : main_v1.ty.Contents (Elt F)) :
    (Pipeline.scopedRest (Ix := HIx 1) (Name := ℕ) (U := UU) (Lvl := ℕ) (Val := Elt F) spec0 c : sProp 𝕄)
      = iprop(sm0_scr c V1 0 ∗ sm0_rest3 c) := by
  rw [scopedRest0_eq]; unfold sm0_scr sm0_rest3; simp only [sm0_scM, owns_whole]; rfl

/-! ## The proof data -/

variable (O : CellTallies nD τ sig (HIx 1)) (Bnd : SemLoc sig × HIx 1 → Prop)

/-- The proof data of pipeline 0 on core `c`, its arrays found at the valuation `W`: after the body at point `t` the input's
    buffer holds its block and the result's the row sums of the scratch so far (stored at the last point only: elsewhere the
    window is idle); the invariant carries the scratch; the core owes the constant tallies `O` throughout, its recorded pairs
    within `Bnd`. -/
def dat0 (c : Dev nD) (W : (b : Ref sig .tc) → Buf (Elt F) ((c : Thread nD τ).loc b)) : Dat τ (Elt F) (HIx 1) ℕ UU ℕ cfg0 c where
  A w := W (Pipeline.arrRef spec0 w)
  after w t := match w with
    | ⟨0, _⟩ => sm0_blk (W main_v1) t
    | ⟨1, _⟩ => k0_pay3 (accAfter (W main_v1) (t.val + 1))
  Φ t := iprop(sm0_scr c (W main_v1) t.val ∗ sm0_rest3 c)
  q _ := fullShare
  owed _ := O
  recorded _ := {p | Bnd p}

theorem sm0_A_eq (c : Dev nD) (W : (b : Ref sig .tc) → Buf (Elt F) ((c : Thread nD τ).loc b)) (w : Fin cfg0.W) :
    (dat0 O Bnd c W).A w = W (Pipeline.arrRef spec0 w) := by dsimp only [dat0]
theorem sm0_after0 (c : Dev nD) (W : (b : Ref sig .tc) → Buf (Elt F) ((c : Thread nD τ).loc b)) (t : Fin cfg0.N) :
    (dat0 O Bnd c W).after 0 t = sm0_blk (W main_v1) t := by dsimp only [dat0]
theorem sm0_after1 (c : Dev nD) (W : (b : Ref sig .tc) → Buf (Elt F) ((c : Thread nD τ).loc b)) (t : Fin cfg0.N) :
    (dat0 O Bnd c W).after 1 t = k0_pay3 (accAfter (W main_v1) (t.val + 1)) := by dsimp only [dat0]

/-- The input's current staging buffer holds its block at every point, fetched there or not. -/
theorem sm0_before0 (c : Dev nD) (W : (b : Ref sig .tc) → Buf (Elt F) ((c : Thread nD τ).loc b)) (t : Fin cfg0.N) (d) :
    (dat0 O Bnd c W).before 0 t d = sm0_blk (W main_v1) t :=
  ((dat0 O Bnd c W).before_in_eq_fetched 0 rfl (fun _ => rfl) (fun _ _ _ => rfl)
      (fun t => by rw [sm0_after0]; unfold Dat.blockOf sm0_blk; rw [sm0_A_eq]; try rfl) t d).trans
    (by unfold Dat.fetched Dat.blockOf sm0_blk; rw [sm0_A_eq]; try rfl)

/-! ## The body obligation -/

def sm0_bodyPre (c : Dev nD) (W : (b : Ref sig .tc) → Buf (Elt F) ((c : Thread nD τ).loc b)) (t : Fin cfg0.N) : sProp 𝕄 :=
  iprop((dat0 O Bnd c W).Φ t.castSucc ∗ (dat0 O Bnd c W).owesAt none t.castSucc
    ∗ (∃ d, owns (c : Thread nD τ) (sm0_ms0 t) fullShare ((dat0 O Bnd c W).before 0 t d))
    ∗ (∃ d, owns (c : Thread nD τ) (sm0_ms1 t) fullShare ((dat0 O Bnd c W).before 1 t d)))

def sm0_bodyPost (c : Dev nD) (W : (b : Ref sig .tc) → Buf (Elt F) ((c : Thread nD τ).loc b)) (t : Fin cfg0.N) : sProp 𝕄 :=
  iprop((dat0 O Bnd c W).Φ t.succ ∗ (dat0 O Bnd c W).owesAt none t.succ
    ∗ (dat0 O Bnd c W).leavesExact 0 t
    ∗ (dat0 O Bnd c W).leavesExact 1 t)

set_option maxHeartbeats 2000000 in
/-- The body at any point: the input's memref holds its block; the closed forms say which case the point is in; the invariant
    hands the body the scratch at what the points before accumulated (at anything at the first point) and takes it back with
    this point's term added; the result's buffer passes through as found but at the last point, where it takes the row sums. -/
theorem sm0_sound_body (c : Dev nD) (W : (b : Ref sig .tc) → Buf (Elt F) ((c : Thread nD τ).loc b)) (t : Fin cfg0.N) :
    sm0_bodyPre O Bnd c W t ⊢ wp frame (wpE (defs₀ (F := F)) Variants.none c none) Set.univ (bodyAt0 t) (fun _ => sm0_bodyPost O Bnd c W t) := by
  unfold sm0_bodyPre sm0_bodyPost bodyAt0
  simp only [sm0_before0]
  rw [show (dat0 O Bnd c W).owesAt none t.succ = (dat0 O Bnd c W).owesAt none t.castSucc from rfl]
  rw [show (dat0 O Bnd c W).Φ t.succ = iprop(owns (c : Thread nD τ) sm0_scM fullShare (accAfter (W main_v1) (t.val + 1)) ∗ sm0_rest3 c) from rfl,
    show (dat0 O Bnd c W).Φ t.castSucc = iprop(sm0_scr c (W main_v1) t.val ∗ sm0_rest3 c) from rfl]
  rw [show (dat0 O Bnd c W).leavesExact 0 t = owns (c : Thread nD τ) (sm0_ms0 t) fullShare ((dat0 O Bnd c W).after 0 t) from by
    unfold Dat.leavesExact; rw [sm0_live0 t], sm0_after0]
  rw [accAfter_succ]
  have hN : t.val < 8 := lt_of_lt_of_eq t.isLt (show cfg0.N = 8 from N_0)
  by_cases h7 : t.val = 7
  · have hc1 : sm0_condLast (grid0.coords t) := (sm0_hcondLast t).mpr h7
    have hc0 : ¬sm0_condFirst (grid0.coords t) := fun h => by have := (sm0_hcondFirst t).mp h; omega
    rw [show (dat0 O Bnd c W).leavesExact 1 t = owns (c : Thread nD τ) (sm0_ms1 t) fullShare ((dat0 O Bnd c W).after 1 t) from by
      unfold Dat.leavesExact; rw [sm0_live1 t hc1], sm0_after1, accAfter_succ]
    rw [sm0_scr_pos c _ t.val (by omega)]
    iintro ⟨⟨HS, Hr⟩, Ho, ⟨%d0, H0⟩, ⟨%d1, H1⟩⟩
    iapply (sm0_runLast c (grid0.coords t) _ _ _ _ _ _ hc0 hc1 (sm0_blk (W main_v1) t) (accAfter (W main_v1) t.val) Set.univ _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · have hc1 : ¬sm0_condLast (grid0.coords t) := fun h => h7 ((sm0_hcondLast t).mp h)
    rw [Dat.leavesExact_idle (dat0 O Bnd c W) 1 t (sm0_idle1 t hc1) (sm0_noFlush1 t hc1)]
    by_cases h0 : t.val = 0
    · have hc0 : sm0_condFirst (grid0.coords t) := (sm0_hcondFirst t).mpr h0
      rw [h0, accAfter_zero, show (sm0_scr c (W main_v1) 0 : sProp 𝕄) = iprop(∃ d, owns (c : Thread nD τ) sm0_scM fullShare d) from rfl]
      iintro ⟨⟨HS, Hr⟩, Ho, ⟨%d0, H0⟩, ⟨%d1, H1⟩⟩
      iapply (sm0_runFirst c (grid0.coords t) _ _ _ _ _ _ hc0 hc1 (sm0_blk (W main_v1) t) _ Set.univ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      iexists _; iexact H1
    · have hc0 : ¬sm0_condFirst (grid0.coords t) := fun h => h0 ((sm0_hcondFirst t).mp h)
      rw [sm0_scr_pos c _ t.val h0]
      iintro ⟨⟨HS, Hr⟩, Ho, ⟨%d0, H0⟩, ⟨%d1, H1⟩⟩
      iapply (sm0_runMid c (grid0.coords t) _ _ _ _ _ _ hc0 hc1 (sm0_blk (W main_v1) t) (accAfter (W main_v1) t.val) _ Set.univ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      iexists _; iexact H1

/-- The library's body obligation, at every point. -/
theorem sm0_body_obligation (c : Dev nD) (W : (b : Ref sig .tc) → Buf (Elt F) ((c : Thread nD τ).loc b)) :
    BodyObligation (dat0 (F := F) O Bnd c W) (defs₀ (F := F)) Variants.none (none : HIx 1) Set.univ := fun t => by
  rw [bigSep_W0, bigSep_W0]
  exact sm0_sound_body O Bnd c W t

/-! ## The region's record -/

/-- The one admissible table of contents of a pipeline without prefetched tables. -/
abbrev sm0_adm : (p : Fin 2) → (pcfgs (F := F) p).Adm := fun p => (cfgs p).toPCfg_adm

/-- What the core owes while the region runs: the constant tallies `O`, its recorded pairs all within `Bnd`. -/
def sm0_owes (c : Dev nD) : sProp 𝕄 :=
  iprop(∃ Ws : Finset (SemLoc sig × HIx 1), ⌜∀ p ∈ Ws, Bnd p⌝ ∗ owes (c : Thread nD τ) O Ws)

/-- The thread state the region is entered from: the core's unscoped buffers at the valuation `W`, and what it owes. -/
def sm0_pre (c : Dev nD) (W : (b : Ref sig .tc) → Buf (Elt F) ((c : Thread nD τ).loc b)) : sProp 𝕄 :=
  iprop((unscopedBufs (Ix := HIx 1) (Name := ℕ) (U := UU) (Lvl := ℕ) c W : sProp 𝕄) ∗ sm0_owes O Bnd c)

/-- The thread state it leaves: the input array as found, the result array at the row sums of the accumulated scratch, every
    other unscoped buffer as found, and what the core owes. -/
def sm0_post (c : Dev nD) (W : (b : Ref sig .tc) → Buf (Elt F) ((c : Thread nD τ).loc b)) : sProp 𝕄 :=
  iprop((((c : Thread nD τ).loc main_v1) ↦{fullShare} W main_v1) ∗ (((c : Thread nD τ).loc main_v4) ↦{fullShare} psumOut (W main_v1))
    ∗ (Pipeline.unscopedRest (Ix := HIx 1) (Name := ℕ) (U := UU) (Lvl := ℕ) spec0 c W : sProp 𝕄) ∗ sm0_owes O Bnd c)

variable (L : GSem nD τ sig → Finset (HIx 1)) (lv : GSem nD τ sig → HIx 1 → ℕ)

/-- THE REGION, for any family of proof data whose member at pipeline 0 is `dat0`: the two arrays go into the pipeline, the other
    unscoped buffers bypass it, the scoped rest is the invariant at the first point and comes back from the one at the last, the
    core owes `O` throughout. `hwaits`: the staging cells' waits sit below everything owed. `hfin`: the result array's final
    contents, computed by the library from the proof data, are the row sums. -/
def R0 (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 O Bnd c (W c))
    (hB : ∀ w s, Bnd (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c)
    (hfin : ∀ c, (dat0 O Bnd c (W c)).arrAt 1 cfg0.N = psumOut (W c main_v1)) :
    Pipeline.RegionSeg (pcfgs (F := F)) sm0_adm pdats (none : HIx 1) (defs₀ (F := F)) Variants.none L lv 0 where
  win := launch0.win.to₀
  block_pos := launch0.block_pos
  stage_whole := launch0.stage_whole
  K := PEmpty
  osem k := k.elim
  ho := Pipeline.OwnSemFacts.none _
  hbody c := by rw [h0 c]; exact (sm0_body_obligation O Bnd c (W c)).loose
  hwaits := hwaits
  pre c := sm0_pre O Bnd c (W c)
  post c := sm0_post O Bnd c (W c)
  X _ := iprop(emp)
  Y _ := iprop(emp)
  Z c := Pipeline.unscopedRest (Ix := HIx 1) (Name := ℕ) (U := UU) (Lvl := ℕ) spec0 c (W c)
  hentry c := by
    rw [Pipeline.ownSems0_none]
    have hsplit := Pipeline.arrays_of_unscopedBufs (pcfgs (F := F)) sm0_adm pdats (p := 0) launch0.win launch0.arr_whole c
      (by rw [h0 c]; exact (dat0 O Bnd c (W c)).share_full fun _ => rfl) (W c) (by rw [h0 c]; exact fun _ => rfl)
    unfold sm0_pre sm0_owes
    iintro ⟨⟨Hub, ⟨%Ws, %hWs, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h0 c]; unfold Pipeline.Dat.owesAt Pipeline.owesWithin
      iexists Ws; isplitr; · ipureintro; exact fun p hp => Or.inl (hWs p (Finset.mem_coe.mp hp))
      iexact HO
    isplitr; · iempintro
    iexact Hr
  hin c := by
    rw [h0 c, show (dat0 O Bnd c (W c)).Φ 0 = iprop(sm0_scr c (W c main_v1) 0 ∗ sm0_rest3 c) from rfl, ← sm0_scopedRest_eq c (W c main_v1)]
    iintro ⟨-, -, H⟩; iexact H
  hout c := by
    rw [h0 c, Pipeline.ownSems0_none]
    show (dat0 O Bnd c (W c)).Φ (Fin.last cfg0.N) ⊢ iprop(emp ∗ BI.emp ∗ (Pipeline.scopedRest (Ix := HIx 1) (Name := ℕ) (U := UU) (Lvl := ℕ) (Val := Elt F) spec0 c : sProp 𝕄))
    rw [sm0_scopedRest_eq c (W c main_v1),
      show (dat0 O Bnd c (W c)).Φ (Fin.last cfg0.N) = iprop(sm0_scr c (W c main_v1) 8 ∗ sm0_rest3 c) from rfl,
      show (sm0_scr c (W c main_v1) 8 : sProp 𝕄) = owns (c : Thread nD τ) sm0_scM fullShare (accAfter (W c main_v1) 8) from rfl,
      show (sm0_scr c (W c main_v1) 0 : sProp 𝕄) = iprop(∃ d, owns (c : Thread nD τ) sm0_scM fullShare d) from rfl]
    iintro ⟨HS, Hr⟩
    isplitr; · iempintro
    isplitr; · iempintro
    isplitl [HS]; · iexists _; iexact HS
    iexact Hr
  hexit c := by
    have hsh : ∀ w, (pdats 0 c).share w = fullShare := by rw [h0 c]; exact (dat0 O Bnd c (W c)).share_full fun _ => rfl
    have harr : ∀ Fa, ((pdats 0 c).arrays Fa : sProp 𝕄) = iprop((((c : Thread nD τ).loc main_v1) ↦{fullShare} Fa 0) ∗ (((c : Thread nD τ).loc main_v4) ↦{fullShare} Fa 1)) := fun Fa => by
      rw [Pipeline.arrays_eq (Pipeline.pin (pcfgs (F := F)) sm0_adm) pdats 0 c launch0.arr_whole hsh Fa, bigSep_W0]
      rfl
    rw [harr, h0 c,
      show (dat0 O Bnd c (W c)).arrAt 0 (Pipeline.pin (pcfgs (F := F)) sm0_adm 0).N = W c main_v1 from (dat0 O Bnd c (W c)).arrAt_in 0 rfl _,
      show (dat0 O Bnd c (W c)).arrAt 1 (Pipeline.pin (pcfgs (F := F)) sm0_adm 0).N = psumOut (W c main_v1) from hfin c]
    unfold sm0_post sm0_owes Pipeline.Dat.owesAt Pipeline.owesWithin
    iintro ⟨⟨H1, H4⟩, ⟨%Ws, %hWs, HO⟩, -, Hr⟩
    imodintro
    isplitl [H1]; · iexact H1
    isplitl [H4]; · iexact H4
    isplitl [Hr]; · iexact Hr
    iexists Ws; isplitr; swap; · iexact HO
    ipureintro
    intro p hp
    rcases hWs (Finset.mem_coe.mpr hp) with h | ⟨w, s, rfl⟩
    · exact h
    · exact hB w s

end Cert.Proof.KI

end
-- ==== Proof.HistSplit.lean ====
/-
  The histogram call against the launch theorem: the tiles' shares of the call's operands and results as the launch's payloads,
  the split of the operands among the sixteen tiles and the join of their results, and the tile's obligation from a proof of
  the kernel's body on one tile.
-/
import proofs.«210303_g84464826843916_cont_9to1c4b_132_15_alg».proof.Proof.HistTile
import proofs.«210303_g84464826843916_cont_9to1c4b_132_15_alg».proof.Proof.Run
import proofs.«210303_g84464826843916_cont_9to1c4b_132_15_alg».proof.Proof.Softmax

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)
  (H : (d : Dev nD) → Buf (Elt F) (a3Loc d) → Buf (Elt F) (a5Loc d))

/-! ## The payloads -/

/-- The one device. -/
abbrev dZero : Dev nD := ⟨0, by decide⟩

/-- The histogram as a function of the index array's contents alone (there is one device). -/
def histK : (rf main_v3).ty.Contents (Elt F) → (rf main_v5).ty.Contents (Elt F) := fun i3 => H dZero i3

theorem histK_eq (d : Dev nD) (i3 : Buf (Elt F) (a3Loc d)) : histK H i3 = H d i3 := by
  obtain rfl : d = dZero := Subsingleton.elim _ _
  rfl

/-- A tile's share of the operands, at the index array's contents when the call is made. -/
abbrev goK (d : Dev nD) (i : Fin 16) : sProp 𝕄 := goPay d (W5 m psumOut d (rf main_v3)) i
/-- A tile's share of the results: its piece of the result array at the histogram of those contents. -/
abbrev tdK (d : Dev nD) (i : Fin 16) : sProp 𝕄 :=
  tdPay d (W5 m psumOut d (rf main_v3)) (H d (W5 m psumOut d (rf main_v3))) i

theorem hgoK : ∀ d i, BI.Storable (upEmb : UEmb _ 𝕄) (goK (F := F) m d i) := fun d i => by unfold goK goPay; infer_instance
theorem htdK : ∀ d i, BI.Storable (upEmb : UEmb _ 𝕄) (tdK (F := F) m H d i) := fun d i => by unfold tdK tdPay; infer_instance

/-! ## The split -/

omit [FloatOps F] in
theorem bigSep_tasksK (Φ : Fin 16 → sProp 𝕄) :
    (bigSep Finset.univ fun i : Fin ((K (F := F)).nSub 0) => Φ (Fin.cast (nSub_all 0) i)) = bigSep Finset.univ Φ :=
  bigSep_congr fun _ _ => congrArg Φ (Fin.ext rfl)

/-- The call's operands split among the sixteen tiles, and their results join to the call's: the library's split of a kernel
    whose tasks are handed nothing of the sequencer's own buffers. -/
theorem vecSplitK' : (K (F := F)).VecSplit' (P m psumOut (histK H) (goK m) (tdK m H)) 0 := by
  intro d c
  show iprop(plT d main_v3 (W5 m psumOut d (rf main_v3)) ∗ plT d main_v5 (W5 m psumOut d (rf main_v5))) ⊢ |={Set.univ}=> iprop(
      (bigSep Finset.univ fun i : Fin ((K (F := F)).nSub 0) => goK m d (Fin.cast (nSub_all 0) i))
      ∗ ((bigSep Finset.univ fun i : Fin ((K (F := F)).nSub 0) => tdK m H d (Fin.cast (nSub_all 0) i))
          -∗ iprop(plT d main_v3 (W5 m psumOut d (rf main_v3)) ∗ plT d main_v5 (histK H (W5 m psumOut d (rf main_v3))))))
  rw [bigSep_tasksK (F := F) (goK m d), bigSep_tasksK (F := F) (tdK m H d), histK_eq H d]
  refine BIBase.Entails.trans ?_ (vec_split (F := F) d (W5 m psumOut d (rf main_v3)) (H d (W5 m psumOut d (rf main_v3))))
  iintro ⟨H3, H5⟩
  isplitl [H3]; · iexact H3
  iexists _; iexact H5

theorem vecSplitK : (K (F := F)).VecSplit (P m psumOut (histK H) (goK m) (tdK m H)) 0 :=
  SparseCore.Cfg.VecSplit.of_plain (vecSplitK' m H)

/-! ## The tile's obligation -/

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ⟨⟩
      = SparseCore.onTile hcore1 hsub1 (fun c s => cc1_hist_kernel (coordsV1 c s)
          a3V (Memref.isWhole_whole _) a5V (Memref.isWhole_whole _) sI (Memref.isWhole_whole _) sH (Memref.isWhole_whole _) cc1_scratch2 cc1_scoped0) ⟨⟩ c s := rfl

omit [FloatOps F] in
theorem obl_postK {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation from a proof of the kernel's body on one tile: from the tile's share of the operands and its scoped
    storage, owing what the launch has it owe, the body runs to the tile's share of the results, its piece of the result array
    at the histogram. -/
theorem tileOblK
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hok : ∀ d L, RowsOK d L (W5 m psumOut d (rf main_v3))) :
    (K (F := F)).TileObl (D (F := F)) 𝒱 (P m psumOut (histK H) (goK m) (tdK m H)) v₀ 0 := by
  intro d c i O W hO _ _
  simp only [show (P m psumOut (histK H) (goK m) (tdK m H)).ox = fun _ _ => 0 from rfl, add_zero]
  change _ ⊢ wp _ _ _ (Pipeline.liftProg (defs₀ (F := F) (.scVector ((K (F := F)).core 0 c) ((K (F := F)).sub 0 i)) 1 ⟨⟩)) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  refine BIBase.Entails.trans ?_ ((hbody d (coordsV1 ⟨_, hc.1⟩ ⟨_, hc.2⟩) (W5 m psumOut d (rf main_v3)) (hok d _) O W hO).trans
    (wp_mono frame _ _ fun _ => obl_postK))
  show iprop(levAts (K (F := F)).L (K (F := F)).lev ∗ emp
      ∗ goPay d (W5 m psumOut d (rf main_v3)) (jL (coordsV1 ⟨_, hc.1⟩ ⟨_, hc.2⟩))
      ∗ scopedBufs (thr d (coordsV1 ⟨_, hc.1⟩ ⟨_, hc.2⟩)) ∗ scopedSems0 (thr d (coordsV1 ⟨_, hc.1⟩ ⟨_, hc.2⟩))
      ∗ owes (thr d (coordsV1 ⟨_, hc.1⟩ ⟨_, hc.2⟩)) O W) ⊢ _
  iintro ⟨Hl, -, Hgo, Hb, Hs, HO⟩
  isplitl [Hl]; · iexact Hl
  isplitl [Hgo]; · iexact Hgo
  isplitl [Hb]; · iexact Hb
  isplitl [Hs]; · iexact Hs
  iexact HO

end Cert.Proof.KI

end
-- ==== Proof.SoftmaxFinal.lean ====
/-
  What the result array holds when region 0 is left: the one write-back, at the last grid point, writes the row sums of the
  accumulated scratch, and its block is the whole array.
-/
import proofs.«210303_g84464826843916_cont_9to1c4b_132_15_alg».proof.Proof.Softmax
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O : CellTallies nD τ sig (HIx 1)) (Bnd : SemLoc sig × HIx 1 → Prop)

/-- The one write-back, at point 7, writes the row sums: block (0, 0) of the [64,1] array read through zero offsets is the array. -/
theorem sm0_flushed_eq (c : Dev nD) (W : (b : Ref sig .tc) → Buf (Elt F) ((c : Thread nD τ).loc b)) (t : Fin cfg0.N) (hf : (cfg0.win 1).flush t = true) :
    (dat0 O Bnd c W).flushed 1 t = ((cfg0.win 1).blk t).view.read (Elt F) (psumOut (W main_v1)) := by
  have hN : cfg0.N = 8 := N_0
  have h7 : t.val = 7 := by have := (flush0_1 t).mp hf; have := t.isLt; omega
  obtain rfl : t = t0_7 := Fin.ext h7
  show (cfg0.win 1).cut (grid0.coords t0_7) ((dat0 O Bnd c W).after 1 t0_7) = _
  rw [sm0_after1]
  have hz' : (fun a => win0_1.index t0_7 a * main_v4.ty.shape.size a) = fun _ => 0 := funext fun a => by fin_cases a <;> decide
  exact (Memref.read_access_unit_zero (Elt F) main_v4 hz' (fun a => by rw [congrFun hz' a]; simp) (psumOut (W main_v1))).symm

/-- So the result array ends holding the row sums of the scratch after all eight points: point 7's block covers it. -/
theorem sm0_final (c : Dev nD) (W : (b : Ref sig .tc) → Buf (Elt F) ((c : Thread nD τ).loc b)) :
    (dat0 O Bnd c W).arrAt 1 cfg0.N = psumOut (W main_v1) :=
  (dat0 O Bnd c W).arrAt_eq_of_cover 1 (psumOut (W main_v1)) (sm0_flushed_eq O Bnd c W) fun i =>
    ⟨t0_7, (flush0_1 t0_7).mpr rfl, by
      show i ∈ ((View.whole main_v4).slice (win0_1.rect t0_7)).set
      rw [View.set_slice_whole, Rect.mem_set_unit]
      intro a
      have h0 : (i 0 : Nat) < 64 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 64 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

variable (L : GSem nD τ sig → Finset (HIx 1)) (lv : GSem nD τ sig → HIx 1 → ℕ)

/-- THE REGION, its result array ending at the row sums of the accumulated scratch: `R0` at `sm0_final`. -/
def R0' (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 O Bnd c (W c))
    (hB : ∀ w s, Bnd (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c) :
    Pipeline.RegionSeg (pcfgs (F := F)) sm0_adm pdats (none : HIx 1) (defs₀ (F := F)) Variants.none L lv 0 :=
  R0 O Bnd L lv pdats W h0 hB hwaits fun c => sm0_final O Bnd c (W c)

theorem R0'_pre (pdats W h0 hB hwaits) (c : Dev nD) : (R0' (F := F) O Bnd L lv pdats W h0 hB hwaits).pre c = sm0_pre O Bnd c (W c) := rfl
theorem R0'_post (pdats W h0 hB hwaits) (c : Dev nD) : (R0' (F := F) O Bnd L lv pdats W h0 hB hwaits).post c = sm0_post O Bnd c (W c) := rfl

end Cert.Proof.KI

end
-- ==== Proof.SoftmaxGlue.lean ====
/-
  Region 0's thread states against a valuation of the core's buffers: the entry state is the unscoped buffers at the valuation,
  the exit state the unscoped buffers at the valuation updated at the result array.
-/
import proofs.«210303_g84464826843916_cont_9to1c4b_132_15_alg».proof.Proof.SoftmaxFinal
import proofs.«210303_g84464826843916_cont_9to1c4b_132_15_alg».proof.Proof.Common
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O : CellTallies nD τ sig (HIx 1)) (Bnd : SemLoc sig × HIx 1 → Prop)

/-- The region's entry state from the core's unscoped buffers at a valuation. -/
theorem sm0_pre_of (c : Dev nD) (Wv : Valuation τ sig (Elt F)) :
    iprop((unscopedBufs (Ix := HIx 1) (Name := ℕ) (U := UU) (Lvl := ℕ) c (fun b => Wv (Proc.devRef .tc b)) : sProp 𝕄) ∗ sm0_owes O Bnd c)
      ⊢ sm0_pre O Bnd c (fun b => Wv (Proc.devRef .tc b)) := by
  unfold sm0_pre; exact .rfl

/-- The valuation updated at the result array reads the old one at every other buffer. -/
theorem sm0_upd_ne (Wv : Valuation τ sig (Elt F)) (x : (Proc.devRef (τ := τ) .tc main_v4).ty.Contents (Elt F)) (b : Ref sig .tc) (h : b ≠ main_v4) :
    Function.update Wv (Proc.devRef .tc main_v4) x (Proc.devRef .tc b) = Wv (Proc.devRef .tc b) :=
  Function.update_of_ne (StableHlo.devRef_ne_of_ne h) ..

/-- The region's exit state is the core's unscoped buffers at the valuation updated at the result array. -/
theorem sm0_post_refold (c : Dev nD) (Wv : Valuation τ sig (Elt F)) :
    sm0_post O Bnd c (fun b => Wv (Proc.devRef .tc b))
      ⊢ iprop((unscopedBufs (Ix := HIx 1) (Name := ℕ) (U := UU) (Lvl := ℕ) c
            (fun b => Function.update Wv (Proc.devRef .tc main_v4) (psumOut (Wv (Proc.devRef .tc main_v1))) (Proc.devRef .tc b)) : sProp 𝕄)
          ∗ sm0_owes O Bnd c) := by
  unfold sm0_post
  rw [Pipeline.unscopedBufs_split cfgs 0 launch0.win.arr_unscoped launch0.win.arr_inj c
    (fun b => Function.update Wv (Proc.devRef .tc main_v4) (psumOut (Wv (Proc.devRef .tc main_v1))) (Proc.devRef .tc b)), bigSep_W0]
  show _ ⊢ iprop((((((c : Thread nD τ).loc main_v1) ↦{fullShare} Function.update Wv (Proc.devRef .tc main_v4) (psumOut (Wv (Proc.devRef .tc main_v1))) (Proc.devRef .tc main_v1))
      ∗ (((c : Thread nD τ).loc main_v4) ↦{fullShare} Function.update Wv (Proc.devRef .tc main_v4) (psumOut (Wv (Proc.devRef .tc main_v1))) (Proc.devRef .tc main_v4)))
    ∗ (Pipeline.unscopedRest (Ix := HIx 1) (Name := ℕ) (U := UU) (Lvl := ℕ) spec0 c
        (fun b => Function.update Wv (Proc.devRef .tc main_v4) (psumOut (Wv (Proc.devRef .tc main_v1))) (Proc.devRef .tc b)) : sProp 𝕄)) ∗ sm0_owes O Bnd c)
  rw [unscopedRest0_eq, unscopedRest0_eq, Function.update_self,
    sm0_upd_ne Wv _ main_v1 (by decide), sm0_upd_ne Wv _ main_arg0 (by decide), sm0_upd_ne Wv _ main_arg1 (by decide),
    sm0_upd_ne Wv _ main_v0 (by decide), sm0_upd_ne Wv _ main_v2 (by decide), sm0_upd_ne Wv _ main_v3 (by decide),
    sm0_upd_ne Wv _ main_v5 (by decide), sm0_upd_ne Wv _ main_v6 (by decide), sm0_upd_ne Wv _ main_v7 (by decide),
    sm0_upd_ne Wv _ main_v8 (by decide)]
  iintro ⟨H1, H4, Hr, HO⟩
  isplitr [HO]; swap; · iexact HO
  isplitr [Hr]; swap; · iexact Hr
  isplitl [H1]; · iexact H1
  iexact H4

/-! ## The wait evidence at the SparseCore launch's levels -/

/-- A TensorCore region that owes, throughout, what the TensorCore owes before call `n` (a start unit to every SparseCore of
    every later call, each at its call's index) may wait on its staging cells at the kernels' own index: that index sits at
    level 0 on every cell, and every unit owed sits at a call's index, strictly above. -/
theorem sm_hwaits (pdats : (p : Fin 2) → (c : Dev nD) → Dat τ (Elt F) (HIx 1) ℕ UU ℕ (Pipeline.pin (pcfgs (F := F)) sm0_adm p) c)
    (p : Fin 2) (n : ℕ) (h : ∀ c t, (pdats p c).owed t = (K (F := F)).Otc c n) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) p c :=
  fun c => Pipeline.cellsWaits_of_cut (Pipeline.pin (pcfgs (F := F)) sm0_adm) pdats (none : HIx 1) p c
    (L := (K (F := F)).L) (lev := (K (F := F)).lev) 0 ((K (F := F)).Otc c n) (h c)
    (fun _ _ => Finset.mem_univ _) (fun _ _ => le_of_eq rfl)
    (fun g i hg => ⟨Finset.mem_univ _, lt_of_lt_of_le (Nat.succ_pos _) (SparseCore.Cfg.lev_of_Otc_pos hg)⟩)

/-- Region 0 (pipeline 0), before call 0. -/
theorem hwaits_0 (pdats : (p : Fin 2) → (c : Dev nD) → Dat τ (Elt F) (HIx 1) ℕ UU ℕ (Pipeline.pin (pcfgs (F := F)) sm0_adm p) c)
    (h : ∀ c t, (pdats 0 c).owed t = (K (F := F)).Otc c 0) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) 0 c :=
  sm_hwaits pdats 0 0 h

/-- Region 2 (pipeline 1), after the one call: before call 1. -/
theorem hwaits_1 (pdats : (p : Fin 2) → (c : Dev nD) → Dat τ (Elt F) (HIx 1) ℕ UU ℕ (Pipeline.pin (pcfgs (F := F)) sm0_adm p) c)
    (h : ∀ c t, (pdats 1 c).owed t = (K (F := F)).Otc c 1) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) 1 c :=
  sm_hwaits pdats 1 1 h

/-- After the one call the TensorCore owes nothing more. -/
theorem sm_Otc_one (c : Dev nD) : (K (F := F)).Otc c 1 = 0 := (K (F := F)).Otc_end c le_rfl

end Cert.Proof.KI

end
-- ==== Proof.SoftmaxRegion.lean ====
/-
  Region 0's record with the tallies the core owes and the bound on its recorded pairs given per core.
-/
import proofs.«210303_g84464826843916_cont_9to1c4b_132_15_alg».proof.Proof.SoftmaxFinal
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- THE REGION, the tallies owed and the bound on the recorded pairs given per core: for any family of proof data whose member at
    pipeline 0 on core `c` is `dat0 (Oc c) (Bc c) c (W c)`. The two arrays go into the pipeline, the other unscoped buffers bypass
    it, the scoped rest is the invariant at the first point and comes back from the one at the last, the core owes `Oc c`
    throughout, and the result array ends at the row sums (`sm0_final`). -/
def R0c (Oc : Dev nD → CellTallies nD τ sig (HIx 1)) (Bc : Dev nD → SemLoc sig × HIx 1 → Prop)
    (L : GSem nD τ sig → Finset (HIx 1)) (lv : GSem nD τ sig → HIx 1 → ℕ)
    (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 (Oc c) (Bc c) c (W c))
    (hB : ∀ c w s, Bc c (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c) :
    Pipeline.RegionSeg (pcfgs (F := F)) sm0_adm pdats (none : HIx 1) (defs₀ (F := F)) Variants.none L lv 0 where
  win := launch0.win.to₀
  block_pos := launch0.block_pos
  stage_whole := launch0.stage_whole
  K := PEmpty
  osem k := k.elim
  ho := Pipeline.OwnSemFacts.none _
  hbody c := by rw [h0 c]; exact (sm0_body_obligation (Oc c) (Bc c) c (W c)).loose
  hwaits := hwaits
  pre c := sm0_pre (Oc c) (Bc c) c (W c)
  post c := sm0_post (Oc c) (Bc c) c (W c)
  X _ := iprop(emp)
  Y _ := iprop(emp)
  Z c := Pipeline.unscopedRest (Ix := HIx 1) (Name := ℕ) (U := UU) (Lvl := ℕ) spec0 c (W c)
  hentry c := by
    rw [Pipeline.ownSems0_none]
    have hsplit := Pipeline.arrays_of_unscopedBufs (pcfgs (F := F)) sm0_adm pdats (p := 0) launch0.win launch0.arr_whole c
      (by rw [h0 c]; exact (dat0 (Oc c) (Bc c) c (W c)).share_full fun _ => rfl) (W c) (by rw [h0 c]; exact fun _ => rfl)
    unfold sm0_pre sm0_owes
    iintro ⟨⟨Hub, ⟨%Ws, %hWs, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h0 c]; unfold Pipeline.Dat.owesAt Pipeline.owesWithin
      iexists Ws; isplitr; · ipureintro; exact fun p hp => Or.inl (hWs p (Finset.mem_coe.mp hp))
      iexact HO
    isplitr; · iempintro
    iexact Hr
  hin c := by
    rw [h0 c, show (dat0 (Oc c) (Bc c) c (W c)).Φ 0 = iprop(sm0_scr c (W c main_v1) 0 ∗ sm0_rest3 c) from rfl, ← sm0_scopedRest_eq c (W c main_v1)]
    iintro ⟨-, -, H⟩; iexact H
  hout c := by
    rw [h0 c, Pipeline.ownSems0_none]
    show (dat0 (Oc c) (Bc c) c (W c)).Φ (Fin.last cfg0.N) ⊢ iprop(emp ∗ BI.emp ∗ (Pipeline.scopedRest (Ix := HIx 1) (Name := ℕ) (U := UU) (Lvl := ℕ) (Val := Elt F) spec0 c : sProp 𝕄))
    rw [sm0_scopedRest_eq c (W c main_v1),
      show (dat0 (Oc c) (Bc c) c (W c)).Φ (Fin.last cfg0.N) = iprop(sm0_scr c (W c main_v1) 8 ∗ sm0_rest3 c) from rfl,
      show (sm0_scr c (W c main_v1) 8 : sProp 𝕄) = owns (c : Thread nD τ) sm0_scM fullShare (accAfter (W c main_v1) 8) from rfl,
      show (sm0_scr c (W c main_v1) 0 : sProp 𝕄) = iprop(∃ d, owns (c : Thread nD τ) sm0_scM fullShare d) from rfl]
    iintro ⟨HS, Hr⟩
    isplitr; · iempintro
    isplitr; · iempintro
    isplitl [HS]; · iexists _; iexact HS
    iexact Hr
  hexit c := by
    have hsh : ∀ w, (pdats 0 c).share w = fullShare := by rw [h0 c]; exact (dat0 (Oc c) (Bc c) c (W c)).share_full fun _ => rfl
    have harr : ∀ Fa, ((pdats 0 c).arrays Fa : sProp 𝕄) = iprop((((c : Thread nD τ).loc main_v1) ↦{fullShare} Fa 0) ∗ (((c : Thread nD τ).loc main_v4) ↦{fullShare} Fa 1)) := fun Fa => by
      rw [Pipeline.arrays_eq (Pipeline.pin (pcfgs (F := F)) sm0_adm) pdats 0 c launch0.arr_whole hsh Fa, bigSep_W0]
      rfl
    rw [harr, h0 c,
      show (dat0 (Oc c) (Bc c) c (W c)).arrAt 0 (Pipeline.pin (pcfgs (F := F)) sm0_adm 0).N = W c main_v1 from (dat0 (Oc c) (Bc c) c (W c)).arrAt_in 0 rfl _,
      show (dat0 (Oc c) (Bc c) c (W c)).arrAt 1 (Pipeline.pin (pcfgs (F := F)) sm0_adm 0).N = psumOut (W c main_v1) from sm0_final (Oc c) (Bc c) c (W c)]
    unfold sm0_post sm0_owes Pipeline.Dat.owesAt Pipeline.owesWithin
    iintro ⟨⟨H1, H4⟩, ⟨%Ws, %hWs, HO⟩, -, Hr⟩
    imodintro
    isplitl [H1]; · iexact H1
    isplitl [H4]; · iexact H4
    isplitl [Hr]; · iexact Hr
    iexists Ws; isplitr; swap; · iexact HO
    ipureintro
    intro p hp
    rcases hWs (Finset.mem_coe.mpr hp) with h | ⟨w, s, rfl⟩
    · exact h
    · exact hB c w s

theorem R0c_pre (Oc Bc L lv pdats W h0 hB hwaits) (c : Dev nD) : (R0c (F := F) Oc Bc L lv pdats W h0 hB hwaits).pre c = sm0_pre (Oc c) (Bc c) c (W c) := rfl
theorem R0c_post (Oc Bc L lv pdats W h0 hB hwaits) (c : Dev nD) : (R0c (F := F) Oc Bc L lv pdats W h0 hB hwaits).post c = sm0_post (Oc c) (Bc c) c (W c) := rfl

end Cert.Proof.KI

end
-- ==== Proof.Combine.lean ====
/-
  The combination kernel of the program (the second TensorCore region): one point, two vector loads of whole
  staging buffers, an unused scalar load of the output cell, and one scalar store. What the store leaves is a pure
  function of the two loaded blocks; the region's proof data names it, and the kernel body meets the pipeline's
  body obligation for that data.
-/
import proofs.«210303_g84464826843916_cont_9to1c4b_132_15_alg».proof.Proof.Common
import Idealize.ShloMosaic.Lib.Pipeline.FrameBody
import Idealize.ShloMosaic.Lib.Pipeline.Value

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The value the kernel stores -/

/-- The one word the combination leaves, from the column of row sums `p` (64 × 1) and the histogram `c`
    (128 × 128): the constant 0.64 times the sum over the 64 lanes `e` of
    `((Σ_r c[r, e] + Σ_r c[r, 64 + e]) · 2⁻¹⁸) · (p[e, 0] · 2⁻¹⁵)`, every operation in the program's float
    arithmetic and in the program's order. -/
def combineOut (p : Vec F S64x1 .f32) (c : Vec F S128x128 .f32) : Vec F S1 .f32 := fun _ => k2_pay1 c p

theorem combineOut_apply (p : Vec F S64x1 .f32) (c : Vec F S128x128 .f32) (i : S1.Idx) : combineOut p c i = k2_pay1 c p := rfl

/-! ## The kernel's triple -/

theorem zeros_S64x1 : (![0, 0] : Fin S64x1.rank → Nat) = fun _ => 0 := funext fun a => by fin_cases a <;> rfl
theorem zeros_S128x128 : (![0, 0] : Fin S128x128.rank → Nat) = fun _ => 0 := funext fun a => by fin_cases a <;> rfl
theorem zeros_S1 : (![0] : Fin S1.rank → Nat) = fun _ => 0 := funext fun a => by fin_cases a; rfl

set_option maxHeartbeats 1000000 in
/-- The kernel on whole buffers, the two inputs' at read contents `x0`, `x1` and the output cell's at anything, runs to
    the continuation holding the inputs' as they were and the output cell's at `combineOut x0 x1`: both loads read
    their whole buffers, and the one store covers the one-word buffer. -/
theorem sound_combine (c : Dev nD) (E : Set ℕ) (arg0 : Memref sig .tc .vmem S64x1 .f32) (harg0 : arg0.IsWhole) (arg1 : Memref sig .tc .vmem S128x128 .f32) (harg1 : arg1.IsWhole) (arg2 : Memref sig .tc .smem S1 .f32) (harg2 : arg2.IsWhole)
    (x0 : Vec F S64x1 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (combineOut x0 x1)) -∗ K ⟨⟩))
      ⊢ wp frame (wpE (defs₀ (F := F)) Variants.none c none) E (cc2__combine_body arg0 harg0 arg1 harg1 arg2 harg2) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zeros_S1 inb_S1_S1_0 y⟩),
    View.canon_unit_zero zeros_S1]
  simp only [View.readAt_eq_ld, View.ld_unit_zero (S := S128x128) zeros_S128x128, View.ld_unit_zero (S := S64x1) zeros_S64x1]
  rfl

/-! ## The region's proof data -/

section Data

variable (O : CellTallies nD τ sig (HIx 1)) (Bnd : SemLoc sig × HIx 1 → Prop) (W : Dev nD → Valuation τ sig (Elt F))

/-- Window `w`'s block at the one point, read off its array at the valuation `W c`. -/
def iblk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The proof data of the combination's pipeline on core `c`: the three arrays as the valuation `W c` has them; after
    the body each input's buffer at its block and the output cell at `combineOut` of the two input blocks; the
    invariant the core's scoped buffers no window stages, untouched; the core owing the constant tallies `O`
    throughout, its recorded pairs within `Bnd`; full shares. -/
def dat2 (c : Dev nD) : Dat τ (Elt F) (HIx 1) ℕ UU ℕ cfg2 c where
  A w := W c (Pipeline.arrRef spec2 w)
  after w t := match w with
    | ⟨0, _⟩ => iblk2 W c 0 t
    | ⟨1, _⟩ => iblk2 W c 1 t
    | ⟨2, _⟩ => combineOut (iblk2 W c 0 t) (iblk2 W c 1 t)
  Φ _ := Pipeline.scopedRest (Ix := HIx 1) (Name := ℕ) (U := UU) (Lvl := ℕ) (Val := Elt F) spec2 c
  q _ := fullShare
  owed _ := O
  recorded _ := {p | Bnd p}

theorem dat2_A (c : Dev nD) (w : Fin cfg2.W) : (dat2 O Bnd W c).A w = W c (Pipeline.arrRef spec2 w) := by dsimp only [dat2]

theorem after2_0 (c : Dev nD) (t : Fin cfg2.N) : (dat2 O Bnd W c).after 0 t = iblk2 W c 0 t := by dsimp only [dat2]
theorem after2_1 (c : Dev nD) (t : Fin cfg2.N) : (dat2 O Bnd W c).after 1 t = iblk2 W c 1 t := by dsimp only [dat2]
theorem after2_2 (c : Dev nD) (t : Fin cfg2.N) : (dat2 O Bnd W c).after 2 t = combineOut (iblk2 W c 0 t) (iblk2 W c 1 t) := by dsimp only [dat2]

/-- Each input is fetched at the one point: its staging buffer holds its block there. -/
theorem before2_0 (c : Dev nD) (t : Fin cfg2.N) (d) : (dat2 O Bnd W c).before 0 t d = iblk2 W c 0 t := by
  unfold Dat.before; rw [if_pos (fetch2_0 t)]
  unfold Dat.fetched Dat.blockOf iblk2; rw [dat2_A]; rfl
theorem before2_1 (c : Dev nD) (t : Fin cfg2.N) (d) : (dat2 O Bnd W c).before 1 t d = iblk2 W c 1 t := by
  unfold Dat.before; rw [if_pos (fetch2_1 t)]
  unfold Dat.fetched Dat.blockOf iblk2; rw [dat2_A]; rfl

/-! ## The body obligation -/

/-- What the body is called with at the point, the windows one by one, -/
def bodyPre2 (c : Dev nD) (t : Fin cfg2.N) : sProp 𝕄 :=
  iprop((dat2 O Bnd W c).Φ t.castSucc ∗ (dat2 O Bnd W c).owesAt none t.castSucc
    ∗ (∃ d, owns (c : Thread nD τ) (st2_0 t) fullShare ((dat2 O Bnd W c).before 0 t d))
    ∗ (∃ d, owns (c : Thread nD τ) (st2_1 t) fullShare ((dat2 O Bnd W c).before 1 t d))
    ∗ (∃ d, owns (c : Thread nD τ) (st2_2 t) fullShare ((dat2 O Bnd W c).before 2 t d)))

/-- and what it returns. -/
def bodyPost2 (c : Dev nD) (t : Fin cfg2.N) : sProp 𝕄 :=
  iprop((dat2 O Bnd W c).Φ t.succ ∗ (dat2 O Bnd W c).owesAt none t.succ
    ∗ owns (c : Thread nD τ) (st2_0 t) fullShare ((dat2 O Bnd W c).after 0 t)
    ∗ owns (c : Thread nD τ) (st2_1 t) fullShare ((dat2 O Bnd W c).after 1 t)
    ∗ owns (c : Thread nD τ) (st2_2 t) fullShare ((dat2 O Bnd W c).after 2 t))

/-- The body at the point: the inputs' buffers hold their blocks, so the kernel's triple applies; the invariant and
    what the core owes pass through unread. -/
theorem sound_body2 (c : Dev nD) (t : Fin cfg2.N) :
    bodyPre2 O Bnd W c t ⊢ wp frame (wpE (defs₀ (F := F)) Variants.none c none) Set.univ (bodyAt2 t) (fun _ => bodyPost2 O Bnd W c t) := by
  unfold bodyPre2 bodyPost2 bodyAt2
  simp only [before2_0, before2_1]
  rw [show (dat2 O Bnd W c).Φ t.succ = (dat2 O Bnd W c).Φ t.castSucc from rfl,
    show (dat2 O Bnd W c).owesAt none t.succ = (dat2 O Bnd W c).owesAt none t.castSucc from rfl,
    after2_0, after2_1, after2_2]
  iintro ⟨HΦ, Ho, ⟨%d0, H0⟩, ⟨%d1, H1⟩, ⟨%d2, H2⟩⟩
  iapply (sound_combine c Set.univ _ _ _ _ _ _ (iblk2 W c 0 t) (iblk2 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the data, at the one point. -/
theorem body_obligation2 (c : Dev nD) : BodyObligation (dat2 O Bnd W c) (defs₀ (F := F)) Variants.none (none : HIx 1) Set.univ := fun t => by
  rw [bigSep_W2, bigSep_W2]
  exact sound_body2 O Bnd W c t

end Data

/-! ## The arrays after the region -/

section Exit

variable (O : CellTallies nD τ sig (HIx 1)) (Bnd : SemLoc sig × HIx 1 → Prop) (W : Dev nD → Valuation τ sig (Elt F))

/-- The two input arrays are never written: at every stage they hold what the valuation has. -/
theorem arrAt2_0 (c : Dev nD) (n : Nat) : (dat2 O Bnd W c).arrAt 0 n = W c main_v4 := (dat2 O Bnd W c).arrAt_in 0 rfl n
theorem arrAt2_1 (c : Dev nD) (n : Nat) : (dat2 O Bnd W c).arrAt 1 n = W c main_v6 := (dat2 O Bnd W c).arrAt_in 1 rfl n

/-- Each whole-array window's block at the point is the whole array: its offsets are zero. -/
theorem blkoff2_0 : (fun a => (win2_0.index t2_0) a * main_v4.ty.shape.size a) = fun _ => 0 := funext fun a => by fin_cases a <;> decide
theorem blkoff2_1 : (fun a => (win2_1.index t2_0) a * main_v6.ty.shape.size a) = fun _ => 0 := funext fun a => by fin_cases a <;> decide
theorem blkoff2_2 : (fun a => (win2_2.index t2_0) a * main_v7.ty.shape.size a) = fun _ => 0 := funext fun a => by fin_cases a <;> decide

theorem iblk2_0 (c : Dev nD) : iblk2 W c 0 t2_0 = W c main_v4 :=
  Memref.read_access_unit_zero (Elt F) main_v4 blkoff2_0 (fun a => by fin_cases a <;> decide) _
theorem iblk2_1 (c : Dev nD) : iblk2 W c 1 t2_0 = W c main_v6 :=
  Memref.read_access_unit_zero (Elt F) main_v6 blkoff2_1 (fun a => by fin_cases a <;> decide) _

/-- The result array after the region: the one write-back of the one point overwrites the whole one-word array with
    what the body left, `combineOut` of the two input arrays. -/
theorem arrAt2_2 (c : Dev nD) : (dat2 O Bnd W c).arrAt 2 cfg2.N = combineOut (W c main_v4) (W c main_v6) := by
  rw [show cfg2.N = (t2_0 : Fin cfg2.N).val + 1 from rfl, (dat2 O Bnd W c).arrAt_succ (2 : Fin 3) t2_0,
    flush2_2 t2_0, if_pos rfl]
  refine (Memref.write_access_unit_zero_univ (Elt F) main_v7 blkoff2_2 (fun a => by fin_cases a <;> decide) _ _).trans ?_
  show (cfg2.win 2).cut _ ((dat2 O Bnd W c).after 2 t2_0) = _
  rw [after2_2, iblk2_0, iblk2_1]
  rfl

end Exit

end Cert.Proof.KI

end
-- ==== Proof.CombineRegion.lean ====
/-
  The combination as a region of the TensorCore's program: the thread state it is entered from and the one it leaves
  (the core's unscoped buffers at a valuation, and what the core owes), with the pipeline's layout, the kernel's body
  obligation and the four entailments that sort the entry state into the pipeline's arrays and the rest, and put the
  exit state together again with the result array at the value the kernel stored.
-/
import proofs.«210303_g84464826843916_cont_9to1c4b_132_15_alg».proof.Proof.Combine

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible contents of each pipeline's (absent) prefetched tables. -/
abbrev adm : (p : Fin 2) → (pcfgs (F := F) p).Adm := fun p => (cfgs p).toPCfg_adm

section Region

variable (O : CellTallies nD τ sig (HIx 1)) (Bnd : SemLoc sig × HIx 1 → Prop) (W : Dev nD → Valuation τ sig (Elt F))
variable (L : GSem nD τ sig → Finset (HIx 1)) (lv : GSem nD τ sig → HIx 1 → ℕ)
variable (pdats : (p : Fin 2) → (c : Dev nD) → Dat τ (Elt F) (HIx 1) ℕ UU ℕ (Pipeline.pin (pcfgs (F := F)) adm p) c)

/-- The valuation the region leaves: the result array at the value the kernel stored, every other buffer as entered. -/
abbrev Wcomb (c : Dev nD) : Valuation τ sig (Elt F) :=
  Function.update (W c) (Proc.devRef .tc main_v7) (combineOut (W c main_v4) (W c main_v6))

theorem Wcomb_v7 (c : Dev nD) : Wcomb W c main_v7 = combineOut (W c main_v4) (W c main_v6) := Function.update_self ..
theorem Wcomb_of_ne (c : Dev nD) (b : Ref sig .tc) (h : (Proc.devRef .tc b : DevRef τ sig) ≠ Proc.devRef .tc main_v7) : Wcomb W c b = W c b :=
  Function.update_of_ne h ..

/-- The core owing the tallies `O`, every pair its waits have recorded within `Bnd`. -/
def owesB (c : Dev nD) : sProp 𝕄 :=
  iprop(∃ B : Finset (SemLoc sig × HIx 1), ⌜∀ p ∈ B, Bnd p⌝ ∗ owes (c : Thread nD τ) O B)

theorem owesB_eq (c : Dev nD) :
    (owesB O Bnd c : sProp (MT nD τ sig (HIx 1) (Elt F) ℕ UU ℕ))
      = iprop(∃ B : Finset (SemLoc sig × HIx 1), ⌜∀ p ∈ B, Bnd p⌝ ∗ owes (c : Thread nD τ) O B) := rfl

/-- A buffer of core `c` at the full share, spelt at the location. -/
abbrev pl2 (c : Dev nD) (b : Ref sig .tc) (f : b.ty.Contents (Elt F)) : sProp 𝕄 := ((c : Thread nD τ).loc b) ↦{fullShare} f

/-- The region's three arrays at contents `Fa` are the three buffers held. -/
theorem arrays2_eq (hq : ∀ c w, (pdats 1 c).q w = fullShare) (c : Dev nD) (Fa) :
    ((pdats 1 c).arrays Fa : sProp 𝕄) = iprop(pl2 c main_v4 (Fa 0) ∗ pl2 c main_v6 (Fa 1) ∗ pl2 c main_v7 (Fa 2)) := by
  rw [Pipeline.arrays_eq (Pipeline.pin (pcfgs (F := F)) adm) pdats 1 c launch2.arr_whole ((pdats 1 c).share_full (hq c)) Fa, bigSep_W2]
  rfl

/-- A core's unscoped buffers at contents `V` are the region's three arrays and the rest. -/
theorem unscopedBufs2_eq (c : Dev nD) (V : (b : Ref sig .tc) → Buf (Elt F) ((c : Thread nD τ).loc b)) :
    (unscopedBufs (Ix := HIx 1) (Name := ℕ) (U := UU) (Lvl := ℕ) c V : sProp 𝕄)
      = iprop((pl2 c main_v4 (V main_v4) ∗ pl2 c main_v6 (V main_v6) ∗ pl2 c main_v7 (V main_v7))
          ∗ Pipeline.unscopedRest (Ix := HIx 1) (Name := ℕ) (U := UU) (Lvl := ℕ) spec2 c V) := by
  rw [Pipeline.unscopedBufs_split (Pipeline.pin (pcfgs (F := F)) adm) 1 launch2.win.arr_unscoped launch2.win.arr_inj c V, bigSep_W2]
  rfl

/-- The data's invariant, at every point: the scoped buffers no window of the pipeline stages. -/
theorem dat2_Φ (c : Dev nD) (t) : (dat2 O Bnd W c).Φ t
    = Pipeline.scopedRest (Ix := HIx 1) (Name := ℕ) (U := UU) (Lvl := ℕ) (Val := Elt F) (Pipeline.pin (pcfgs (F := F)) adm 1).spec c := rfl

local notation "ℝ𝕊" => Pipeline.RegionSeg (pcfgs (F := F)) adm pdats (none : HIx 1) defs₀ 𝒱₀ L lv

/-- THE COMBINATION'S REGION: the three arrays into the pipeline, the eight other unscoped buffers bypassing it, the
    scoped buffers no window stages through the invariant, the core owing `O` throughout; at the exit the result
    array holds `combineOut` of the two operand arrays and everything else is as it was. -/
def R2 (h1 : ∀ c, pdats 1 c = dat2 O Bnd W c)
    (hB : ∀ w s, Bnd (.dma ((cfg2.win w).sem s), none))
    (hwaits : ∀ c, (levAts L lv : sProp (MT nD τ sig (HIx 1) (Elt F) ℕ UU ℕ)) ⊢ Pipeline.cellsWaits (Pipeline.pin (pcfgs (F := F)) adm) pdats (none : HIx 1) 1 c) : ℝ𝕊 1 where
  win := launch2.win.to₀
  block_pos := launch2.block_pos
  stage_whole := launch2.stage_whole
  K := PEmpty
  osem k := k.elim
  ho := Pipeline.OwnSemFacts.none _
  hbody c := by rw [h1 c]; exact (body_obligation2 O Bnd W c).loose
  hwaits := hwaits
  pre c := iprop(unscopedBufs c (fun b => W c b) ∗ owesB O Bnd c)
  post c := iprop(unscopedBufs c (fun b => Wcomb W c b) ∗ owesB O Bnd c)
  X _ := iprop(emp)
  Y _ := iprop(emp)
  Z c := Pipeline.unscopedRest (Ix := HIx 1) (Name := ℕ) (U := UU) (Lvl := ℕ) spec2 c (fun b => W c b)
  hentry c := by
    rw [Pipeline.ownSems0_none]
    have hsplit := Pipeline.arrays_of_unscopedBufs (pcfgs (F := F)) adm pdats (p := 1) launch2.win launch2.arr_whole c
      ((pdats 1 c).share_full fun w => by rw [h1 c]; rfl) (fun b => W c b) fun w => by rw [h1 c]; exact dat2_A O Bnd W c w
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h1 c]; unfold owesB Pipeline.Dat.owesAt Pipeline.owesWithin
      icases HO with ⟨%B, %hB', HO⟩
      iexists B; isplitr; · ipureintro; exact fun p hp => Or.inl (hB' p (Finset.mem_coe.mp hp))
      iexact HO
    isplitr; · iempintro
    iexact Hr
  hin c := by
    rw [h1 c, dat2_Φ]
    iintro ⟨-, -, H⟩; iexact H
  hout c := by
    rw [Pipeline.ownSems0_none, h1 c, dat2_Φ]
    iintro H; isplitr; · iempintro
    isplitr; · iempintro
    iexact H
  hexit c := by
    have e0 : (pdats 1 c).arrAt 0 (Pipeline.pin (pcfgs (F := F)) adm 1).N = W c main_v4 := by rw [h1 c]; exact arrAt2_0 O Bnd W c _
    have e1 : (pdats 1 c).arrAt 1 (Pipeline.pin (pcfgs (F := F)) adm 1).N = W c main_v6 := by rw [h1 c]; exact arrAt2_1 O Bnd W c _
    have e2 : (pdats 1 c).arrAt 2 (Pipeline.pin (pcfgs (F := F)) adm 1).N = combineOut (W c main_v4) (W c main_v6) := by
      rw [h1 c]; exact arrAt2_2 O Bnd W c
    rw [arrays2_eq pdats (fun c w => by rw [h1 c]; rfl) c, e0, e1, e2, unscopedBufs2_eq c (fun b => Wcomb W c b),
      unscopedRest2_eq, unscopedRest2_eq]
    simp only [Wcomb_v7, Wcomb_of_ne W c main_v4 (by decide), Wcomb_of_ne W c main_v6 (by decide), Wcomb_of_ne W c main_arg0 (by decide),
      Wcomb_of_ne W c main_arg1 (by decide), Wcomb_of_ne W c main_v0 (by decide), Wcomb_of_ne W c main_v1 (by decide),
      Wcomb_of_ne W c main_v2 (by decide), Wcomb_of_ne W c main_v3 (by decide), Wcomb_of_ne W c main_v5 (by decide),
      Wcomb_of_ne W c main_v8 (by decide)]
    iintro ⟨Ha, HO, -, Hr⟩
    imodintro
    isplitl [Ha Hr]
    · isplitl [Ha]; · iexact Ha
      iexact Hr
    rw [h1 c]; unfold owesB Pipeline.Dat.owesAt Pipeline.owesWithin
    icases HO with ⟨%B, %hB', HO⟩
    iexists B; isplitr
    · ipureintro
      intro p hp
      rcases hB' (Finset.mem_coe.mpr hp) with h | ⟨w, s, rfl⟩
      · exact h
      · exact hB w s
    iexact HO

end Region

end Cert.Proof.KI

end
-- ==== Proof.Regions.lean ====
/-
  The two kernel regions of @main instantiated at the SparseCore launch's levels: the pipelines' proof data as one family,
  the two regions' records, and the four entailments that join the regions' thread states to the TensorCore's state along
  @main (the unscoped buffers at the valuation reached so far, and what the TensorCore owes before the call).
-/
import proofs.«210303_g84464826843916_cont_9to1c4b_132_15_alg».proof.Proof.Launch
import proofs.«210303_g84464826843916_cont_9to1c4b_132_15_alg».proof.Proof.SoftmaxGlue
import proofs.«210303_g84464826843916_cont_9to1c4b_132_15_alg».proof.Proof.SoftmaxRegion
import proofs.«210303_g84464826843916_cont_9to1c4b_132_15_alg».proof.Proof.CombineRegion

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
  (histOf : (rf main_v3).ty.Contents (Elt F) → (rf main_v5).ty.Contents (Elt F))

/-- The bound on the pairs the TensorCore's waits have recorded before call `n`, on core `c`. -/
abbrev BndT (c : Dev nD) (n : ℕ) : SemLoc sig × HIx 1 → Prop := fun p => (K (F := F)).lev (T c, p.1) p.2 ≤ 8 * n
/-- The same on every core at once (there is one). -/
abbrev BndAll (n : ℕ) : SemLoc sig × HIx 1 → Prop := fun p => ∀ c' : Dev nD, (K (F := F)).lev (T c', p.1) p.2 ≤ 8 * n

/-- The two pipelines' proof data: the softmax column sums entered at the valuation after the four host operations, owing what
    the TensorCore owes before the call; the combination entered at the valuation after the call and the reshape, owing nothing. -/
def pdatsK : (p : Fin 2) → (c : Dev nD) → Pipeline.Dat τ (Elt F) (HIx 1) ℕ UU ℕ (Pipeline.pin (pcfgs (F := F)) admT p) c
  | 0 => fun c => dat0 ((K (F := F)).Otc c 0) (BndT (F := F) c 0) c (fun b => W4 m c (rf b))
  | 1 => fun c => dat2 0 (BndAll (F := F) 1) (fun c => W7 m psumOut histOf c) c

theorem hB0 : ∀ (c : Dev nD) (w : Fin cfg0.W) (s : Fin (cfg0.win w).nbuf), BndT (F := F) c 0 (.dma ((cfg0.win w).sem s), none) :=
  fun _ _ _ => Nat.zero_le _
theorem hB2 : ∀ (w : Fin cfg2.W) (s : Fin (cfg2.win w).nbuf), BndAll (F := F) 1 (.dma ((cfg2.win w).sem s), none) :=
  fun _ _ _ => Nat.zero_le _

/-- Region 0 at the launch's levels. -/
def R0K : Pipeline.RegionSeg (pcfgs (F := F)) admT (pdatsK m histOf) (none : HIx 1) (defs₀ (F := F)) 𝒱₀ (K (F := F)).L (K (F := F)).lev 0 :=
  R0c (fun c => (K (F := F)).Otc c 0) (fun c => BndT (F := F) c 0) (K (F := F)).L (K (F := F)).lev (pdatsK m histOf) (fun c b => W4 m c (rf b))
    (fun _ => rfl) hB0 (hwaits_0 (pdatsK m histOf) fun _ _ => rfl)

/-- Region 2 at the launch's levels: after the one call the TensorCore owes nothing. -/
def R2K : Pipeline.RegionSeg (pcfgs (F := F)) admT (pdatsK m histOf) (none : HIx 1) (defs₀ (F := F)) 𝒱₀ (K (F := F)).L (K (F := F)).lev 1 :=
  R2 0 (BndAll (F := F) 1) (fun c => W7 m psumOut histOf c) (K (F := F)).L (K (F := F)).lev (pdatsK m histOf)
    (fun _ => rfl) hB2 (hwaits_1 (pdatsK m histOf) fun c _ => (sm_Otc_one c).symm)

/-- Region 0 is entered from the TensorCore's state after the four host operations. -/
theorem hpre0K (d : Dev nD) :
    iprop((unscopedBufs (Ix := HIx 1) (Name := ℕ) (U := UU) (Lvl := ℕ) d (fun b => W4 m d (rf b)) : sProp 𝕄) ∗ owesT (F := F) d 0) ⊢ (R0K m histOf).pre d := by
  show _ ⊢ sm0_pre ((K (F := F)).Otc d 0) (BndT (F := F) d 0) d (fun b => W4 m d (rf b))
  unfold sm0_pre sm0_owes owesT SparseCore.Cfg.WBelow
  exact .rfl

/-- It leaves the state with the result array at the row sums. -/
theorem hpost0K (d : Dev nD) :
    (R0K m histOf).post d ⊢ iprop((unscopedBufs (Ix := HIx 1) (Name := ℕ) (U := UU) (Lvl := ℕ) d (fun b => W5 m psumOut d (rf b)) : sProp 𝕄) ∗ owesT (F := F) d 0) := by
  show sm0_post ((K (F := F)).Otc d 0) (BndT (F := F) d 0) d (fun b => W4 m d (rf b)) ⊢ _
  refine (sm0_post_refold ((K (F := F)).Otc d 0) (BndT (F := F) d 0) d (W4 m d)).trans ?_
  unfold sm0_owes owesT SparseCore.Cfg.WBelow W5
  exact .rfl

/-- Region 2 is entered from the TensorCore's state after the call and the reshape. -/
theorem hpre2K (d : Dev nD) :
    iprop((unscopedBufs (Ix := HIx 1) (Name := ℕ) (U := UU) (Lvl := ℕ) d (fun b => W7 m psumOut histOf d (rf b)) : sProp 𝕄) ∗ owesT (F := F) d 1) ⊢ (R2K m histOf).pre d := by
  show _ ⊢ iprop((unscopedBufs (Ix := HIx 1) (Name := ℕ) (U := UU) (Lvl := ℕ) d (fun b => W7 m psumOut histOf d b) : sProp 𝕄) ∗ owesB 0 (BndAll (F := F) 1) d)
  unfold owesB owesT
  rw [sm_Otc_one]
  iintro ⟨Hb, ⟨%Ws, %hWs, HO⟩⟩
  isplitl [Hb]; · iexact Hb
  iexists Ws; isplitr; swap; · iexact HO
  ipureintro
  intro p hp c'
  obtain rfl : c' = d := Subsingleton.elim _ _
  exact hWs p hp

/-- It leaves the state with the scalar result stored. -/
theorem hpost2K (d : Dev nD) :
    (R2K m histOf).post d ⊢ iprop((unscopedBufs (Ix := HIx 1) (Name := ℕ) (U := UU) (Lvl := ℕ) d (fun b => W8 m psumOut histOf combineOut d (rf b)) : sProp 𝕄) ∗ owesT (F := F) d 1) := by
  show iprop((unscopedBufs (Ix := HIx 1) (Name := ℕ) (U := UU) (Lvl := ℕ) d (fun b => Wcomb (fun c => W7 m psumOut histOf c) d b) : sProp 𝕄) ∗ owesB 0 (BndAll (F := F) 1) d) ⊢ _
  unfold owesB owesT Wcomb W8
  rw [sm_Otc_one]
  iintro ⟨Hb, ⟨%Ws, %hWs, HO⟩⟩
  isplitl [Hb]; · iexact Hb
  iexists Ws; isplitr; swap; · iexact HO
  ipureintro
  intro p hp
  exact hWs p hp d

/-- @main on the TensorCore, at the two regions' records: its run, the four entailments being the ones above. -/
theorem hmainK [∀ e, Nonempty (Elt F e)] (ρ : Dev nD → PrngReg)
    (goPay tdPay : Dev nD → Fin 16 → sProp (MT nD τ sig (HIx 1) (Elt F) ℕ UU ℕ))
    (κ : GSem nD τ sig → ℕ) (d : Dev nD) :
    iprop((K (F := F)).ctx EH (P m psumOut histOf goPay tdPay) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m psumOut histOf combineOut d) :=
  hmain m ρ psumOut histOf combineOut goPay tdPay (pdatsK m histOf) (R0K m histOf) (R2K m histOf)
    (hpre0K m histOf) (hpost0K m histOf) (hpre2K m histOf) (hpost2K m histOf) κ d

end Cert.Proof.KI

end
-- ==== Proof.ValChain.lean ====
/-
  The contents of the TensorCore's arrays along the program. Each host operation writes one array as a function of
  another and leaves every other array as it was; each kernel's result replaces one array. So an array that no later
  step writes keeps its contents to the end, and each written array is read off the step that wrote it.
-/
import proofs.«210303_g84464826843916_cont_9to1c4b_132_15_alg».proof.Proof.Launch

noncomputable section

namespace Cert.Proof.KI

open Cert.KernelIdeal Cert.KernelIdeal.Gen
open Idealize.ShloMosaic

variable {F : FTy → Type} [FloatOps F]

section Chain

variable (m : (ℓ : Loc nD τ sig) → Buf (Elt F) ℓ)
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))

/-! ## A step leaves the arrays it does not write -/

theorem W1_of_ne (d : Dev nD) {b : DevRef τ sig} (h : b ≠ rf main_v0) : W1 m d b = W0 m d b :=
  (opT0 (F := F)).result_of_not_mem (W0 m d) (show b ∉ ({rf main_v0} : Finset (DevRef τ sig)) from fun hb => h (Finset.mem_singleton.mp hb))
theorem W2_of_ne (d : Dev nD) {b : DevRef τ sig} (h : b ≠ rf main_v1) : W2 m d b = W1 m d b :=
  (opR1 (F := F)).result_of_not_mem (W1 m d) (show b ∉ ({rf main_v1} : Finset (DevRef τ sig)) from fun hb => h (Finset.mem_singleton.mp hb))
theorem W3_of_ne (d : Dev nD) {b : DevRef τ sig} (h : b ≠ rf main_v2) : W3 m d b = W2 m d b :=
  (opT2 (F := F)).result_of_not_mem (W2 m d) (show b ∉ ({rf main_v2} : Finset (DevRef τ sig)) from fun hb => h (Finset.mem_singleton.mp hb))
theorem W4_of_ne (d : Dev nD) {b : DevRef τ sig} (h : b ≠ rf main_v3) : W4 m d b = W3 m d b :=
  (opR3 (F := F)).result_of_not_mem (W3 m d) (show b ∉ ({rf main_v3} : Finset (DevRef τ sig)) from fun hb => h (Finset.mem_singleton.mp hb))
theorem W5_of_ne (d : Dev nD) {b : DevRef τ sig} (h : b ≠ rf main_v4) : W5 m psumOf d b = W4 m d b :=
  Function.update_of_ne h _ _
theorem W6_of_ne (d : Dev nD) {b : DevRef τ sig} (h : b ≠ rf main_v5) : W6 m psumOf histOf d b = W5 m psumOf d b :=
  Function.update_of_ne h _ _
theorem W7_of_ne (d : Dev nD) {b : DevRef τ sig} (h : b ≠ rf main_v6) : W7 m psumOf histOf d b = W6 m psumOf histOf d b :=
  (opR6 (F := F)).result_of_not_mem (W6 m psumOf histOf d) (show b ∉ ({rf main_v6} : Finset (DevRef τ sig)) from fun hb => h (Finset.mem_singleton.mp hb))
theorem W8_of_ne (d : Dev nD) {b : DevRef τ sig} (h : b ≠ rf main_v7) : W8 m psumOf histOf combOf d b = W7 m psumOf histOf d b :=
  Function.update_of_ne h _ _
theorem W9_of_ne (d : Dev nD) {b : DevRef τ sig} (h : b ≠ rf main_v8) : W9 m psumOf histOf combOf d b = W8 m psumOf histOf combOf d b :=
  (opR8 (F := F)).result_of_not_mem (W8 m psumOf histOf combOf d) (show b ∉ ({rf main_v8} : Finset (DevRef τ sig)) from fun hb => h (Finset.mem_singleton.mp hb))

/-- Through the four host operations on the arguments, an array none of them writes is as launched. -/
theorem W4_unwritten (d : Dev nD) {b : DevRef τ sig} (h0 : b ≠ rf main_v0) (h1 : b ≠ rf main_v1) (h2 : b ≠ rf main_v2) (h3 : b ≠ rf main_v3) :
    W4 m d b = m (d, b) := by
  rw [W4_of_ne m d h3, W3_of_ne m d h2, W2_of_ne m d h1, W1_of_ne m d h0]; rfl

/-! ## The two arguments are never written -/

theorem W9_arg0 (d : Dev nD) : W9 m psumOf histOf combOf d (rf main_arg0) = m (d, rf main_arg0) := by
  rw [W9_of_ne m psumOf histOf combOf d (by decide), W8_of_ne m psumOf histOf combOf d (by decide), W7_of_ne m psumOf histOf d (by decide),
    W6_of_ne m psumOf histOf d (by decide), W5_of_ne m psumOf d (by decide),
    W4_unwritten m d (by decide) (by decide) (by decide) (by decide)]
theorem W9_arg1 (d : Dev nD) : W9 m psumOf histOf combOf d (rf main_arg1) = m (d, rf main_arg1) := by
  rw [W9_of_ne m psumOf histOf combOf d (by decide), W8_of_ne m psumOf histOf combOf d (by decide), W7_of_ne m psumOf histOf d (by decide),
    W6_of_ne m psumOf histOf d (by decide), W5_of_ne m psumOf d (by decide),
    W4_unwritten m d (by decide) (by decide) (by decide) (by decide)]

/-! ## What the kernels read -/

/-- The softmax kernel's operand: the logits transposed to `[4, 64, 8192]` and flattened to `[256, 8192]`. -/
theorem W4_v1 (d : Dev nD) :
    W4 m d (rf main_v1)
      = shapeCast S256x8192 (transpose S4x64x8192 [0, 2, 1] (m (d, rf main_arg0)) Facts₀.transposes_S4x8192x64_S4x64x8192_0_2_1)
          Facts₀.shapeCasts_S4x64x8192_S256x8192 := by
  rw [W4_of_ne m d (by decide), W3_of_ne m d (by decide)]
  unfold W2
  refine (StableHlo.reshape_result main_v0 main_v1 rfl Facts₀.shapeCasts_S4x64x8192_S256x8192 _ _ (W1 m d)).trans ?_
  unfold W1
  rw [show (opT0 (F := F)).result (W0 m d) (rf main_v0) = _ from StableHlo.unary_result main_arg0 main_v0 _ _ _ (W0 m d)]
  rfl

/-- The histogram kernel's operand: the expert indices transposed to `[4, 8, 8192]` and flattened to `[32, 8192]`. -/
theorem W4_v3 (d : Dev nD) :
    W4 m d (rf main_v3)
      = shapeCast S32x8192 (transpose S4x8x8192 [0, 2, 1] (m (d, rf main_arg1)) Facts₀.transposes_S4x8192x8_S4x8x8192_0_2_1)
          Facts₀.shapeCasts_S4x8x8192_S32x8192 := by
  unfold W4
  refine (StableHlo.reshape_result main_v2 main_v3 rfl Facts₀.shapeCasts_S4x8x8192_S32x8192 _ _ (W3 m d)).trans ?_
  unfold W3
  rw [show (opT2 (F := F)).result (W2 m d) (rf main_v2) = _ from StableHlo.unary_result main_arg1 main_v2 _ _ _ (W2 m d),
    W2_of_ne m d (by decide), W1_of_ne m d (by decide)]
  rfl

theorem W5_v3 (d : Dev nD) : W5 m psumOf d (rf main_v3) = W4 m d (rf main_v3) := W5_of_ne m psumOf d (by decide)

/-- The histogram array is as launched until the histogram kernel writes it. -/
theorem W5_v5 (d : Dev nD) : W5 m psumOf d (rf main_v5) = m (d, rf main_v5) := by
  rw [W5_of_ne m psumOf d (by decide), W4_unwritten m d (by decide) (by decide) (by decide) (by decide)]

/-! ## What the kernels and the last two host operations leave -/

theorem W5_v4 (d : Dev nD) : W5 m psumOf d (rf main_v4) = psumOf (W4 m d (rf main_v1)) := Function.update_self _ _ _
theorem W6_v5 (d : Dev nD) : W6 m psumOf histOf d (rf main_v5) = histOf (W5 m psumOf d (rf main_v3)) := Function.update_self _ _ _

/-- The combination's first operand is what the softmax kernel left. -/
theorem W7_v4 (d : Dev nD) : W7 m psumOf histOf d (rf main_v4) = psumOf (W4 m d (rf main_v1)) := by
  rw [W7_of_ne m psumOf histOf d (by decide), W6_of_ne m psumOf histOf d (by decide), W5_v4]

/-- The combination's second operand is the histogram flattened array viewed `[128, 128]`. -/
theorem W7_v6 (d : Dev nD) :
    W7 m psumOf histOf d (rf main_v6) = shapeCast S128x128 (histOf (W5 m psumOf d (rf main_v3))) Facts₀.shapeCasts_S16384_S128x128 := by
  unfold W7
  refine (StableHlo.reshape_result main_v5 main_v6 rfl Facts₀.shapeCasts_S16384_S128x128 _ _ (W6 m psumOf histOf d)).trans ?_
  rw [show W6 m psumOf histOf d (rf main_v5) = _ from W6_v5 m psumOf histOf d]
  rfl

theorem W8_v7 (d : Dev nD) :
    W8 m psumOf histOf combOf d (rf main_v7) = combOf (W7 m psumOf histOf d (rf main_v4)) (W7 m psumOf histOf d (rf main_v6)) :=
  Function.update_self _ _ _

/-- The program's result: the combination's one word viewed as a scalar. -/
theorem W9_v8 (d : Dev nD) :
    W9 m psumOf histOf combOf d (rf main_v8)
      = shapeCast S_ (combOf (W7 m psumOf histOf d (rf main_v4)) (W7 m psumOf histOf d (rf main_v6))) Facts₀.shapeCasts_S1_S_ := by
  unfold W9
  refine (StableHlo.reshape_result main_v7 main_v8 rfl Facts₀.shapeCasts_S1_S_ _ _ (W8 m psumOf histOf combOf d)).trans ?_
  rw [show W8 m psumOf histOf combOf d (rf main_v7) = _ from W8_v7 m psumOf histOf combOf d]
  rfl

end Chain

end Cert.Proof.KI

end
-- ==== Proof.Spec.lean ====
/-
  The specification of the load-balancing loss, as a function of the coordinates of the two argument arrays.

  For logits x[b, s, e] (b < 4, s < 8192, e < 64) and expert indices idx[b, s, k] (k < 8):
    rowMax x b s   = the maximum over e of x[b, s, e], starting from -∞;
    ex x b s e     = exp (x[b, s, e] - rowMax x b s);
    den x b s      = Σ_e ex x b s e;
    prob x b s e   = ex x b s e / den x b s        (the softmax);
    probSum x e    = Σ_b Σ_s prob x b s e;
    cnt idx e      = Σ_b Σ_s Σ_k [idx[b, s, k] = e]   (how many slots chose expert e);
    lossSpec x idx = c01 · (c64 · Σ_e (cnt idx e / c262144) · (probSum x e / c32768)),
  the four literals being the f32 words of 0.01 (rounded), 64, 2^18 and 2^15.
  The arrangement is the reference's own; the sums are over the extended reals, the division the ideal one.
-/
import Idealize.ShloMosaic.PureOps.Ideal
import Idealize.ShloMosaic.Lib.ValueIdx

noncomputable section

open scoped BigOperators

namespace Cert.Proof.Spec

open Idealize.ShloMosaic

/-- The logits by coordinates. -/
abbrev Logits : Type := Fin 4 → Fin 8192 → Fin 64 → EReal
/-- The expert indices by coordinates, as 32-bit words. -/
abbrev Experts : Type := Fin 4 → Fin 8192 → Fin 8 → BitVec 32

/-- The word of f32 -∞, the value a row's maximum starts from. -/
def negInf : EReal := Ideal.ofBits .f32 0xFF800000#32
/-- The word of f32 0.01 (rounded to nearest). -/
def c01 : EReal := Ideal.ofBits .f32 0x3C23D70A#32
/-- The word of 64. -/
def c64 : EReal := Ideal.ofBits .f32 0x42800000#32
/-- The word of 262144 = 2^18 = 4 · 8192 · 8. -/
def c262144 : EReal := Ideal.ofBits .f32 0x48800000#32
/-- The word of 32768 = 2^15 = 4 · 8192. -/
def c32768 : EReal := Ideal.ofBits .f32 0x47000000#32

/-- A row's maximum over the 64 experts, from -∞ (taken once more against -∞, as the reference does). -/
def rowMax (x : Logits) (b : Fin 4) (s : Fin 8192) : EReal :=
  max negInf ((Finset.univ : Finset (Fin 64)).fold max negInf (fun e => x b s e))

/-- The shifted exponential. -/
def ex (x : Logits) (b : Fin 4) (s : Fin 8192) (e : Fin 64) : EReal :=
  Ideal.exp (x b s e - rowMax x b s)

/-- A row's normalizer. -/
def den (x : Logits) (b : Fin 4) (s : Fin 8192) : EReal := ∑ e : Fin 64, ex x b s e

/-- The softmax. -/
def prob (x : Logits) (b : Fin 4) (s : Fin 8192) (e : Fin 64) : EReal :=
  Ideal.div (ex x b s e) (den x b s)

/-- The routing probability of expert `e` summed over every token. -/
def probSum (x : Logits) (e : Fin 64) : EReal := ∑ b : Fin 4, ∑ s : Fin 8192, prob x b s e

/-- One slot's contribution to expert `e`'s count: 1 when the slot's word is `e`, else 0. -/
def hit (w : BitVec 32) (e : Fin 64) : EReal := if w = BitVec.ofNat 32 e.val then 1 else 0

/-- How many slots chose expert `e`. -/
def cnt (idx : Experts) (e : Fin 64) : EReal :=
  ∑ b : Fin 4, ∑ s : Fin 8192, ∑ k : Fin 8, hit (idx b s k) e

/-- The loss. -/
def lossSpec (x : Logits) (idx : Experts) : EReal :=
  c01 * (c64 * ∑ e : Fin 64, Ideal.div (cnt idx e) c262144 * Ideal.div (probSum x e) c32768)

end Cert.Proof.Spec

end
-- ==== Proof.Consts.lean ====
/-
  The float literals of the two programs as the extended reals their f32 words denote:
  -∞, 1, 64, 2^18, 2^15, their reciprocals 2^-18 and 2^-15, the rounded 0.01 = 10737418 / 2^30
  and the rounded 0.64 = 10737418 / 2^24 (the same significand six binades up, so 0.64 = 64 · 0.01 exactly).
-/
import proofs.«210303_g84464826843916_cont_9to1c4b_132_15_alg».proof.Proof.Spec

noncomputable section

namespace Cert.Proof.Consts

open Idealize.ShloMosaic Cert.Proof.Spec

/-- The word of 0.64 = 64 · (rounded 0.01). -/
def c064 : EReal := Ideal.ofBits .f32 0x3F23D70A#32
/-- The word of 2^-18. -/
def cI262144 : EReal := Ideal.ofBits .f32 0x36800000#32
/-- The word of 2^-15. -/
def cI32768 : EReal := Ideal.ofBits .f32 0x38000000#32

theorem ofBits_negInf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem negInf_eq : negInf = ⊥ := ofBits_negInf

theorem c64_eq : c64 = ((64 : ℝ) : EReal) := by
  unfold c64; simp [Ideal.ofBits, Ideal.ieee, -EReal.coe_mul]; norm_num

theorem c262144_eq : c262144 = ((262144 : ℝ) : EReal) := by
  unfold c262144; simp [Ideal.ofBits, Ideal.ieee, -EReal.coe_mul]; norm_num

theorem c32768_eq : c32768 = ((32768 : ℝ) : EReal) := by
  unfold c32768; simp [Ideal.ofBits, Ideal.ieee, -EReal.coe_mul]; norm_num

theorem cI262144_eq : cI262144 = ((1 / 262144 : ℝ) : EReal) := by
  unfold cI262144; simp [Ideal.ofBits, Ideal.ieee, -EReal.coe_mul]; norm_num

theorem cI32768_eq : cI32768 = ((1 / 32768 : ℝ) : EReal) := by
  unfold cI32768; simp [Ideal.ofBits, Ideal.ieee, -EReal.coe_mul]; norm_num

theorem c01_eq : c01 = ((10737418 / 1073741824 : ℝ) : EReal) := by
  unfold c01; simp [Ideal.ofBits, Ideal.ieee, -EReal.coe_mul]; norm_num

theorem c064_eq : c064 = ((10737418 / 16777216 : ℝ) : EReal) := by
  unfold c064; simp [Ideal.ofBits, Ideal.ieee, -EReal.coe_mul]; norm_num

/-- 0.01 · 64 = 0.64, exactly, on the rounded words. -/
theorem c01_mul_c64 : c01 * c64 = c064 := by
  rw [c01_eq, c64_eq, c064_eq, ← EReal.coe_mul]
  norm_num

/-- Dividing by 2^18 is multiplying by the word of 2^-18, at the infinities too. -/
theorem div_c262144 (a : EReal) : Ideal.div a c262144 = a * cI262144 := by
  rw [c262144_eq, cI262144_eq]
  exact Ideal.div_coe (by norm_num) a

/-- Dividing by 2^15 is multiplying by the word of 2^-15, at the infinities too. -/
theorem div_c32768 (a : EReal) : Ideal.div a c32768 = a * cI32768 := by
  rw [c32768_eq, cI32768_eq]
  exact Ideal.div_coe (by norm_num) a

/-- The row maximum of the specification is the fold of `max` from ⊥. -/
theorem rowMax_eq (x : Logits) (b : Fin 4) (s : Fin 8192) :
    rowMax x b s = (Finset.univ : Finset (Fin 64)).fold max ⊥ (fun e => x b s e) := by
  unfold rowMax
  rw [negInf_eq]
  exact max_eq_right bot_le

end Cert.Proof.Consts

end
-- ==== Proof.KernelMath.lean ====
/-
  The kernel's arrangement of the loss equals the specification.

  The kernel differs from the reference in four ways, each an identity of the extended reals:
  * it multiplies the shifted exponential by the reciprocal of the row's normalizer, where the reference
    divides: `a · (1 / d) = a / d` whenever `d ≠ 0`, and the normalizer of a row of finite logits is positive
    (every term is a real exponential);
  * it sums the softmax over the tokens in another grouping (a token is `s = 4096·j + s'`): sums over a
    product of finite index sets may be regrouped at will;
  * it counts the expert hits through a transposed, tiled histogram (row `8·b + k = 2·t + r`, column
    `s = 16·v + l`, bin `1024·t + 64·l + e`, the 256 partial bins of expert `e` read back as the two halves
    of a [128, 128] array): again one sum over the same index set, regrouped;
  * it scales by the reciprocals 2^-18 and 2^-15 and by 0.64 where the reference divides by 2^18 and 2^15
    and scales by 64 and then by 0.01: division by a nonzero real is the product with its reciprocal, and
    multiplication of extended reals is associative.
-/
import proofs.«210303_g84464826843916_cont_9to1c4b_132_15_alg».proof.Proof.Spec
import proofs.«210303_g84464826843916_cont_9to1c4b_132_15_alg».proof.Proof.Consts

noncomputable section

open scoped BigOperators

namespace Cert.Proof.KernelMath

open Idealize.ShloMosaic Cert.Proof.Spec Cert.Proof.Consts

/-! ## Regrouping a sum over `Fin (m · n)` -/

/-- A sum over `Fin (m · n)` of a function of the position is the double sum over `position = b + n · a`. -/
theorem sum_mul {M : Type*} [AddCommMonoid M] (m n : ℕ) (g : ℕ → M) :
    ∑ i : Fin (m * n), g i.val = ∑ a : Fin m, ∑ b : Fin n, g (b.val + n * a.val) :=
  calc ∑ i : Fin (m * n), g i.val
      = ∑ p : Fin m × Fin n, g (finProdFinEquiv p).val :=
        (Equiv.sum_comp finProdFinEquiv (fun i : Fin (m * n) => g i.val)).symm
    _ = ∑ a : Fin m, ∑ b : Fin n, g (b.val + n * a.val) := Fintype.sum_prod_type _

/-- A function on `Fin n` extended by zero to the naturals. -/
def ext1 {n : ℕ} (F : Fin n → EReal) (i : ℕ) : EReal := if h : i < n then F ⟨i, h⟩ else 0

theorem ext1_val {n : ℕ} (F : Fin n → EReal) (i : Fin n) : ext1 F i.val = F i := dif_pos i.isLt

theorem ext1_mk {n : ℕ} (F : Fin n → EReal) {i : ℕ} (h : i < n) : ext1 F i = F ⟨i, h⟩ := dif_pos h

/-! ## The softmax by the reciprocal, and its sum over the tokens -/

/-- The kernel's softmax entry: the shifted exponential times the reciprocal of the normalizer. -/
def kprob (x : Logits) (b : Fin 4) (s : Fin 8192) (e : Fin 64) : EReal :=
  ex x b s e * Ideal.div 1 (den x b s)

/-- Token `4096·j + s'` of a batch row. -/
def tok (j : Fin 2) (s' : Fin 4096) : Fin 8192 :=
  ⟨j.val * 4096 + s'.val, by have := j.isLt; have := s'.isLt; omega⟩

/-- The kernel's summed routing probability of expert `e`: over the 4096 positions of a block, the eight
    blocks `(i, j)` of the grid added up. -/
def psumK (x : Logits) (e : Fin 64) : EReal :=
  ∑ s' : Fin 4096, ∑ i : Fin 4, ∑ j : Fin 2, kprob x i (tok j s') e

/-- The tokens of a batch row, block by block. -/
theorem sum_tok (F : Fin 8192 → EReal) :
    ∑ s : Fin 8192, F s = ∑ s' : Fin 4096, ∑ j : Fin 2, F (tok j s') :=
  calc ∑ s : Fin 8192, F s
      = ∑ s : Fin 8192, ext1 F s.val := Finset.sum_congr rfl fun s _ => (ext1_val F s).symm
    _ = ∑ j : Fin 2, ∑ s' : Fin 4096, ext1 F (s'.val + 4096 * j.val) := sum_mul 2 4096 (ext1 F)
    _ = ∑ j : Fin 2, ∑ s' : Fin 4096, F (tok j s') :=
        Finset.sum_congr rfl fun j _ => Finset.sum_congr rfl fun s' _ => by
          rw [ext1_mk F (show s'.val + 4096 * j.val < 8192 by have := j.isLt; have := s'.isLt; omega)]
          exact congrArg F (Fin.ext (by show s'.val + 4096 * j.val = j.val * 4096 + s'.val; omega))
    _ = ∑ s' : Fin 4096, ∑ j : Fin 2, F (tok j s') := Finset.sum_comm

/-- The kernel's grouping of the tokens is a regrouping of the sum over batch and token. -/
theorem psumK_eq (x : Logits) (e : Fin 64) :
    psumK x e = ∑ b : Fin 4, ∑ s : Fin 8192, kprob x b s e := by
  unfold psumK
  rw [Finset.sum_comm]
  exact Finset.sum_congr rfl fun b _ => (sum_tok fun s => kprob x b s e).symm

/-! ## Finite logits: the normalizer is positive -/

/-- The logits are all real. -/
def Finite (x : Logits) : Prop := ∀ b s e, x b s e ≠ ⊥ ∧ x b s e ≠ ⊤

theorem rowMax_finite {x : Logits} (hx : Finite x) (b : Fin 4) (s : Fin 8192) :
    rowMax x b s ≠ ⊥ ∧ rowMax x b s ≠ ⊤ := by
  rw [rowMax_eq]
  constructor
  · exact ne_of_gt ((Finset.lt_fold_max _).2 (Or.inr ⟨0, Finset.mem_univ _, bot_lt_iff_ne_bot.2 (hx b s 0).1⟩))
  · exact ne_of_lt ((Finset.fold_max_lt _).2 ⟨bot_lt_top, fun e _ => lt_top_iff_ne_top.2 (hx b s e).2⟩)

/-- Every shifted exponential of a finite row is a positive real. -/
theorem ex_pos {x : Logits} (hx : Finite x) (b : Fin 4) (s : Fin 8192) (e : Fin 64) : 0 < ex x b s e := by
  obtain ⟨hm1, hm2⟩ := rowMax_finite hx b s
  obtain ⟨h1, h2⟩ := hx b s e
  obtain ⟨r, hr⟩ : ∃ r : ℝ, x b s e = r := ⟨_, (EReal.coe_toReal h2 h1).symm⟩
  obtain ⟨M, hM⟩ : ∃ M : ℝ, rowMax x b s = M := ⟨_, (EReal.coe_toReal hm2 hm1).symm⟩
  unfold ex
  rw [hr, hM, ← EReal.coe_sub, Ideal.exp_coe]
  exact EReal.coe_pos.2 (Real.exp_pos _)

/-- So the normalizer is positive, in particular not zero. -/
theorem den_pos {x : Logits} (hx : Finite x) (b : Fin 4) (s : Fin 8192) : 0 < den x b s :=
  lt_of_lt_of_le (ex_pos hx b s 0)
    (Finset.single_le_sum (f := fun e => ex x b s e) (fun e _ => (ex_pos hx b s e).le) (Finset.mem_univ 0))

/-- Multiplying by the reciprocal of a nonzero normalizer is dividing by it. -/
theorem kprob_eq {x : Logits} (hx : Finite x) (b : Fin 4) (s : Fin 8192) (e : Fin 64) :
    kprob x b s e = prob x b s e := by
  have hd : den x b s ≠ 0 := (den_pos hx b s).ne'
  unfold kprob prob Ideal.div
  rw [if_neg hd, if_neg hd, one_mul]

theorem psumK_eq_probSum {x : Logits} (hx : Finite x) (e : Fin 64) : psumK x e = probSum x e := by
  rw [psumK_eq]
  unfold probSum
  exact Finset.sum_congr rfl fun b _ => Finset.sum_congr rfl fun s _ => kprob_eq hx b s e

/-! ## The counts through the transposed, tiled histogram -/

/-- The index array transposed and flattened to 32 rows: row `8·b + k` holds slot `k` of batch row `b`. -/
def idxT (idx : Experts) (row : Fin 32) (col : Fin 8192) : BitVec 32 :=
  idx ⟨row.val / 8, by have := row.isLt; omega⟩ col ⟨row.val % 8, by omega⟩

/-- Bin `1024·t + 64·l + e` of the kernel's histogram: the hits of expert `e` among rows `2t, 2t + 1` and the
    columns congruent to `l` modulo 16. -/
def histK (idx : Experts) (flat : Fin 16384) : EReal :=
  ∑ r : Fin 2, ∑ v : Fin 512,
    hit (idxT idx ⟨2 * (flat.val / 1024) + r.val, by have := flat.isLt; have := r.isLt; omega⟩
          ⟨16 * v.val + flat.val % 1024 / 64, by have := v.isLt; omega⟩)
      ⟨flat.val % 64, by omega⟩

/-- The kernel's count of expert `e`: the histogram read as a [128, 128] array, columns `e` and `64 + e` summed. -/
def cntK (idx : Experts) (e : Fin 64) : EReal :=
  (∑ r : Fin 128, histK idx ⟨r.val * 128 + e.val, by have := r.isLt; have := e.isLt; omega⟩)
    + ∑ r : Fin 128, histK idx ⟨r.val * 128 + 64 + e.val, by have := r.isLt; have := e.isLt; omega⟩

/-- The hits of expert `e` at a position of the transposed array, extended by zero. -/
def RT (idx : Experts) (e : Fin 64) (a c : ℕ) : EReal :=
  if h : a < 32 ∧ c < 8192 then hit (idxT idx ⟨a, h.1⟩ ⟨c, h.2⟩) e else 0

theorem RT_mk (idx : Experts) (e : Fin 64) {a c : ℕ} (ha : a < 32) (hc : c < 8192) :
    RT idx e a c = hit (idxT idx ⟨a, ha⟩ ⟨c, hc⟩) e := dif_pos ⟨ha, hc⟩

theorem idx_congr (idx : Experts) {b b' : Fin 4} {s s' : Fin 8192} {k k' : Fin 8}
    (hb : b = b') (hs : s = s') (hk : k = k') : idx b s k = idx b' s' k' := by
  subst hb hs hk; rfl

theorem hitT_congr (idx : Experts) {a a' : Fin 32} {c c' : Fin 8192} {e e' : Fin 64}
    (ha : a = a') (hc : c = c') (he : e = e') : hit (idxT idx a c) e = hit (idxT idx a' c') e' := by
  subst ha hc he; rfl

/-- The specification's count, regrouped as the histogram groups it: rows `r + 2t`, columns `l + 16v`. -/
theorem cnt_regroup (idx : Experts) (e : Fin 64) :
    cnt idx e = ∑ t : Fin 16, ∑ r : Fin 2, ∑ v : Fin 512, ∑ l : Fin 16,
      RT idx e (r.val + 2 * t.val) (l.val + 16 * v.val) := by
  have hcol : ∀ a : ℕ, ∑ s : Fin 8192, RT idx e a s.val
      = ∑ v : Fin 512, ∑ l : Fin 16, RT idx e a (l.val + 16 * v.val) := fun a => sum_mul 512 16 (RT idx e a)
  calc cnt idx e
      = ∑ b : Fin 4, ∑ k : Fin 8, ∑ s : Fin 8192, RT idx e (k.val + 8 * b.val) s.val := by
        unfold cnt
        refine Finset.sum_congr rfl fun b _ => ?_
        rw [Finset.sum_comm]
        refine Finset.sum_congr rfl fun k _ => Finset.sum_congr rfl fun s _ => ?_
        rw [RT_mk idx e (show k.val + 8 * b.val < 32 by have := k.isLt; have := b.isLt; omega) s.isLt]
        unfold idxT
        refine congrArg (fun w => hit w e) (idx_congr idx (Fin.ext ?_) rfl (Fin.ext ?_))
        · show b.val = (k.val + 8 * b.val) / 8
          have := k.isLt; omega
        · show k.val = (k.val + 8 * b.val) % 8
          have := k.isLt; omega
    _ = ∑ row : Fin 32, ∑ s : Fin 8192, RT idx e row.val s.val :=
        (sum_mul 4 8 (fun row => ∑ s : Fin 8192, RT idx e row s.val)).symm
    _ = ∑ t : Fin 16, ∑ r : Fin 2, ∑ s : Fin 8192, RT idx e (r.val + 2 * t.val) s.val :=
        sum_mul 16 2 (fun row => ∑ s : Fin 8192, RT idx e row s.val)
    _ = _ := Finset.sum_congr rfl fun t _ => Finset.sum_congr rfl fun r _ => hcol _

/-- One bin of the histogram in the same terms. -/
theorem hist_bin (idx : Experts) (e : Fin 64) (t l : Fin 16) :
    ext1 (histK idx) ((l.val + 16 * t.val) * 64 + e.val)
      = ∑ r : Fin 2, ∑ v : Fin 512, RT idx e (r.val + 2 * t.val) (l.val + 16 * v.val) := by
  have ht := t.isLt
  have hl := l.isLt
  have he := e.isLt
  rw [ext1_mk (histK idx) (show (l.val + 16 * t.val) * 64 + e.val < 16384 by omega)]
  unfold histK
  refine Finset.sum_congr rfl fun r _ => Finset.sum_congr rfl fun v _ => ?_
  have hr := r.isLt
  have hv := v.isLt
  rw [RT_mk idx e (show r.val + 2 * t.val < 32 by omega) (show l.val + 16 * v.val < 8192 by omega)]
  refine hitT_congr idx (Fin.ext ?_) (Fin.ext ?_) (Fin.ext ?_)
  · show 2 * (((l.val + 16 * t.val) * 64 + e.val) / 1024) + r.val = r.val + 2 * t.val
    omega
  · show 16 * v.val + ((l.val + 16 * t.val) * 64 + e.val) % 1024 / 64 = l.val + 16 * v.val
    omega
  · show ((l.val + 16 * t.val) * 64 + e.val) % 64 = e.val
    omega

/-- The kernel's count as the sum of the 256 partial bins of expert `e`. -/
theorem cntK_bins (idx : Experts) (e : Fin 64) :
    cntK idx e = ∑ t : Fin 16, ∑ l : Fin 16, ext1 (histK idx) ((l.val + 16 * t.val) * 64 + e.val) := by
  have he := e.isLt
  calc cntK idx e
      = ∑ R : Fin 128, ∑ h : Fin 2, ext1 (histK idx) ((h.val + 2 * R.val) * 64 + e.val) := by
        unfold cntK
        rw [← Finset.sum_add_distrib]
        refine Finset.sum_congr rfl fun R _ => ?_
        have hR := R.isLt
        rw [Fin.sum_univ_two,
          ext1_mk (histK idx) (show ((0 : Fin 2).val + 2 * R.val) * 64 + e.val < 16384 by
            show (0 + 2 * R.val) * 64 + e.val < 16384; omega),
          ext1_mk (histK idx) (show ((1 : Fin 2).val + 2 * R.val) * 64 + e.val < 16384 by
            show (1 + 2 * R.val) * 64 + e.val < 16384; omega)]
        refine congrArg₂ (· + ·) (congrArg (histK idx) (Fin.ext ?_)) (congrArg (histK idx) (Fin.ext ?_))
        · show R.val * 128 + e.val = (0 + 2 * R.val) * 64 + e.val
          omega
        · show R.val * 128 + 64 + e.val = (1 + 2 * R.val) * 64 + e.val
          omega
    _ = ∑ n : Fin 256, ext1 (histK idx) (n.val * 64 + e.val) :=
        (sum_mul 128 2 (fun n => ext1 (histK idx) (n * 64 + e.val))).symm
    _ = ∑ t : Fin 16, ∑ l : Fin 16, ext1 (histK idx) ((l.val + 16 * t.val) * 64 + e.val) :=
        sum_mul 16 16 (fun n => ext1 (histK idx) (n * 64 + e.val))

/-- THE KERNEL'S COUNT IS THE SPECIFICATION'S, for any index words. -/
theorem cntK_eq (idx : Experts) (e : Fin 64) : cntK idx e = cnt idx e := by
  rw [cntK_bins, cnt_regroup]
  refine Finset.sum_congr rfl fun t _ => ?_
  calc ∑ l : Fin 16, ext1 (histK idx) ((l.val + 16 * t.val) * 64 + e.val)
      = ∑ l : Fin 16, ∑ r : Fin 2, ∑ v : Fin 512, RT idx e (r.val + 2 * t.val) (l.val + 16 * v.val) :=
        Finset.sum_congr rfl fun l _ => hist_bin idx e t l
    _ = ∑ r : Fin 2, ∑ l : Fin 16, ∑ v : Fin 512, RT idx e (r.val + 2 * t.val) (l.val + 16 * v.val) :=
        Finset.sum_comm
    _ = ∑ r : Fin 2, ∑ v : Fin 512, ∑ l : Fin 16, RT idx e (r.val + 2 * t.val) (l.val + 16 * v.val) :=
        Finset.sum_congr rfl fun r _ => Finset.sum_comm

/-! ## The loss -/

/-- The kernel's arrangement of the loss. -/
def lossK (x : Logits) (idx : Experts) : EReal :=
  c064 * ∑ e : Fin 64, (cntK idx e * cI262144) * (psumK x e * cI32768)

/-- THE KERNEL'S ARRANGEMENT IS THE SPECIFICATION, for finite logits and any index words. -/
theorem kernel_math (x : Logits) (idx : Experts) (hx : Finite x) : lossK x idx = lossSpec x idx := by
  unfold lossK lossSpec
  rw [← mul_assoc, c01_mul_c64]
  refine congrArg (fun z => c064 * z) (Finset.sum_congr rfl fun e _ => ?_)
  rw [cntK_eq, psumK_eq_probSum hx e, div_c262144, div_c32768]

end Cert.Proof.KernelMath

end
-- ==== Proof.PreFinite.lean ====
/-
  What the input-domain precondition says of the two argument arrays.

  The predicate is the conjunction of two "for all" reductions by `and`: every |x| is below +∞, and every
  index word w satisfies 0 ≤ w and w ≤ 63 as a signed integer. Read back: every logit is a real number,
  and every index word, read unsigned, is below 64. The second reading never looks at a float, so it
  holds at every float instance.
-/
import proofs.«210303_g84464826843916_cont_9to1c4b_132_15_alg».proof.Proof.Gen.Pre_input_domain
import proofs.«210303_g84464826843916_cont_9to1c4b_132_15_alg».proof.Proof.KernelMath
import Idealize.ShloMosaic.Lib.ReduceAll
import Idealize.ShloMosaic.Lib.Pipeline.Value

noncomputable section

namespace Cert.Proof.PreFinite

open Idealize.ShloMosaic Idealize.ShloMosaic.ValueIdx
open Cert.Pre_input_domain Cert.Proof.Spec Cert.Proof.KernelMath

/-- The scalar shape has one index. -/
instance : Subsingleton S_.Idx := ⟨fun _ _ => funext fun d => d.elim0⟩

/-- A 32-bit word between 0 and 63 as a signed integer is below 64 as an unsigned one. -/
theorem toNat_lt_of_toInt {w : BitVec 32} (h0 : 0 ≤ w.toInt) (h1 : w.toInt ≤ 63) : w.toNat < 64 := by
  have hlt := w.isLt
  rw [BitVec.toInt_eq_toNat_cond] at h0 h1
  by_cases hc : 2 * w.toNat < 2 ^ 32
  · rw [if_pos hc] at h1; omega
  · rw [if_neg hc] at h0; omega

/-- Under the precondition every index word is below 64 (at any float instance). -/
theorem idx_range {F : FTy → Type} [FloatOps F] (x0 : FVec F S4x8192x64 .f32) (x1 : IVec S4x8192x8 32)
    (h : Cert.Pre_input_domain.fn (F := F) x0 x1 = fun _ => 1#1) : ∀ i, (x1 i).toNat < 64 := by
  intro i
  have h0 := congrFun h ix0
  dsimp only [Cert.Pre_input_domain.fn] at h0
  have h1 := (IntOp.andi_eq_one.1 h0).2
  have h2 := Host.reduce_andi_all _ _ _ _ ix0 h1 i
  obtain ⟨ha, hb⟩ := IntOp.andi_eq_one.1 h2
  have e0 : broadcastInDim S4x8192x8 ![] Gen.bcast_S_S4x8192x8 (constantI S_ 32 0#32) i = 0#32 :=
    broadcastInDim_apply _ Gen.bcast_S_S4x8192x8 _ i (fun a => a.elim0) (fun a => a.elim0)
  have e63 : broadcastInDim S4x8192x8 ![] Gen.bcast_S_S4x8192x8 (constantI S_ 32 63#32) i = 63#32 :=
    broadcastInDim_apply _ Gen.bcast_S_S4x8192x8 _ i (fun a => a.elim0) (fun a => a.elim0)
  have ha' : IntOp.cmpi .sge (x1 i) 0#32 = 1#1 := by rw [← e0]; exact ha
  have hb' : IntOp.cmpi .sle (x1 i) 63#32 = 1#1 := by rw [← e63]; exact hb
  have g0 : (0#32 : BitVec 32).toInt ≤ (x1 i).toInt := IntOp.cmpi_sge.1 ha'
  have g1 : (x1 i).toInt ≤ (63#32 : BitVec 32).toInt := IntOp.cmpi_sle.1 hb'
  have z0 : (0#32 : BitVec 32).toInt = 0 := by decide
  have z1 : (63#32 : BitVec 32).toInt = 63 := by decide
  rw [z0] at g0
  rw [z1] at g1
  exact toNat_lt_of_toInt g0 g1

/-- The word of f32 +∞. -/
theorem ofBits_posInf : Ideal.ofBits .f32 0x7F800000#32 = ⊤ := by
  simp [Ideal.ofBits, Ideal.ieee]

/-- Under the precondition every logit is a real number. -/
theorem finite_of_pre (x0 : FVec Ideal S4x8192x64 .f32) (x1 : IVec S4x8192x8 32)
    (h : Cert.Pre_input_domain.fn (F := Ideal) x0 x1 = fun _ => 1#1) :
    Finite (fun b s e => x0 (ix3 b s e)) := by
  intro b s e
  have h0 := congrFun h ix0
  dsimp only [Cert.Pre_input_domain.fn] at h0
  have h1 := (IntOp.andi_eq_one.1 h0).1
  have h2 := Host.reduce_andi_all _ _ _ _ ix0 h1 (ix3 b s e)
  have eb : broadcastInDim S4x8192x64 ![] Gen.bcast_S_S4x8192x64 (constant (F := Ideal) S_ .f32 0x7F800000#32) (ix3 b s e)
      = Ideal.ofBits .f32 0x7F800000#32 :=
    broadcastInDim_apply _ Gen.bcast_S_S4x8192x64 _ (ix3 b s e) (fun a => a.elim0) (fun a => a.elim0)
  have h3 : Ideal.cmp .olt (max (x0 (ix3 b s e)) (-(x0 (ix3 b s e)))) (Ideal.ofBits .f32 0x7F800000#32) = 1#1 := by
    rw [← eb]; exact h2
  rw [ofBits_posInf] at h3
  have hlt : max (x0 (ix3 b s e)) (-(x0 (ix3 b s e))) < ⊤ := by
    by_contra hn
    simp [Ideal.cmp, hn] at h3
  obtain ⟨hx, hnx⟩ := max_lt_iff.1 hlt
  refine ⟨fun hbot => ?_, ne_of_lt hx⟩
  have hbot' : x0 (ix3 b s e) = ⊥ := hbot
  rw [hbot'] at hnx
  exact absurd hnx (by simp)

end Cert.Proof.PreFinite

end
-- ==== Proof.HostLayout.lean ====
/-
  The two arrays the kernel's tiles read, as functions of the arguments' coordinates.

  The host transposes the last two axes of each argument and flattens the leading two:
  logits [4, 8192, 64] → [4, 64, 8192] → [256, 8192], row `64·b + e`; index words [4, 8192, 8] → [4, 8, 8192] →
  [32, 8192], row `8·b + k`. A reshape keeps the row-major position, a transpose swaps the two coordinates, so
  the flattened array at (row, s) is the argument at (row / 64, s, row % 64), respectively (row / 8, s, row % 8).
  Stated over the literal shapes (the printed programs' shape names abbreviate exactly these) and for any
  element type and any proofs of the two shape relations.
-/
import proofs.«210303_g84464826843916_cont_9to1c4b_132_15_alg».proof.Proof.KernelMath
import Idealize.ShloMosaic.Lib.ValueLayout

noncomputable section

namespace Cert.Proof.HostLayout

open Idealize.ShloMosaic Idealize.ShloMosaic.ValueIdx Cert.Proof.Spec Cert.Proof.KernelMath

/-- A stack of `m` matrices `[a, b]`, each transposed, then flattened to `[m·b, a]`: at (row, i) it is the operand at
    (row / b, i, row % b). Here for m = 4, a = 8192, b = 8. -/
theorem read_32x8192 {α : Type} (x : (⟨3, ![4, 8192, 8]⟩ : Shape).Idx → α)
    (hT : (⟨3, ![4, 8192, 8]⟩ : Shape).Transposes [0, 2, 1] ⟨3, ![4, 8, 8192]⟩)
    (hC : (⟨3, ![4, 8, 8192]⟩ : Shape).ShapeCasts ⟨2, ![32, 8192]⟩) (row : Fin 32) (col : Fin 8192) :
    shapeCast ⟨2, ![32, 8192]⟩ (transpose ⟨3, ![4, 8, 8192]⟩ [0, 2, 1] x hT) hC (ix2 row col)
      = x (ix3 (⟨row.val / 8, by have := row.isLt; omega⟩ : Fin 4) col (⟨row.val % 8, by omega⟩ : Fin 8)) :=
  (shapeCast_apply _ hC (ix2 row col)
    (ix3 (⟨row.val / 8, by have := row.isLt; omega⟩ : Fin 4) (⟨row.val % 8, by omega⟩ : Fin 8) col) (by
      rw [Shape.rowMajor_val_three, Shape.rowMajor_val_two]
      show (row.val / 8 * 8 + row.val % 8) * 8192 + col.val = row.val * 8192 + col.val
      omega)).trans
    (transpose_ix3_021_apply x hT _ _ _)

/-- The same for m = 4, a = 8192, b = 64. -/
theorem read_256x8192 {α : Type} (x : (⟨3, ![4, 8192, 64]⟩ : Shape).Idx → α)
    (hT : (⟨3, ![4, 8192, 64]⟩ : Shape).Transposes [0, 2, 1] ⟨3, ![4, 64, 8192]⟩)
    (hC : (⟨3, ![4, 64, 8192]⟩ : Shape).ShapeCasts ⟨2, ![256, 8192]⟩) (row : Fin 256) (s : Fin 8192) :
    shapeCast ⟨2, ![256, 8192]⟩ (transpose ⟨3, ![4, 64, 8192]⟩ [0, 2, 1] x hT) hC (ix2 row s)
      = x (ix3 (⟨row.val / 64, by have := row.isLt; omega⟩ : Fin 4) s (⟨row.val % 64, by omega⟩ : Fin 64)) :=
  (shapeCast_apply _ hC (ix2 row s)
    (ix3 (⟨row.val / 64, by have := row.isLt; omega⟩ : Fin 4) (⟨row.val % 64, by omega⟩ : Fin 64) s) (by
      rw [Shape.rowMajor_val_three, Shape.rowMajor_val_two]
      show (row.val / 64 * 64 + row.val % 64) * 8192 + s.val = row.val * 8192 + s.val
      omega)).trans
    (transpose_ix3_021_apply x hT _ _ _)

/-- The flattened index words are the transposed array of the kernel's arrangement. -/
theorem read_idxT (x1 : (⟨3, ![4, 8192, 8]⟩ : Shape).Idx → BitVec 32)
    (hT : (⟨3, ![4, 8192, 8]⟩ : Shape).Transposes [0, 2, 1] ⟨3, ![4, 8, 8192]⟩)
    (hC : (⟨3, ![4, 8, 8192]⟩ : Shape).ShapeCasts ⟨2, ![32, 8192]⟩) (row : Fin 32) (col : Fin 8192) :
    shapeCast ⟨2, ![32, 8192]⟩ (transpose ⟨3, ![4, 8, 8192]⟩ [0, 2, 1] x1 hT) hC (ix2 row col)
      = idxT (fun b s k => x1 (ix3 b s k)) row col :=
  read_32x8192 x1 hT hC row col

/-- The flattened logits at row `64·b + e` are the logits of batch row `b` and expert `e`. -/
theorem read_logits (x0 : (⟨3, ![4, 8192, 64]⟩ : Shape).Idx → EReal)
    (hT : (⟨3, ![4, 8192, 64]⟩ : Shape).Transposes [0, 2, 1] ⟨3, ![4, 64, 8192]⟩)
    (hC : (⟨3, ![4, 64, 8192]⟩ : Shape).ShapeCasts ⟨2, ![256, 8192]⟩) (b : Fin 4) (e : Fin 64) (s : Fin 8192) :
    shapeCast ⟨2, ![256, 8192]⟩ (transpose ⟨3, ![4, 64, 8192]⟩ [0, 2, 1] x0 hT) hC
        (ix2 (⟨64 * b.val + e.val, by have := b.isLt; have := e.isLt; omega⟩ : Fin 256) s)
      = x0 (ix3 b s e) := by
  rw [read_256x8192 x0 hT hC]
  refine congrArg x0 ?_
  have hb := b.isLt
  have he := e.isLt
  funext a
  match a with
  | ⟨0, _⟩ => exact Fin.ext (by show (64 * b.val + e.val) / 64 = b.val; omega)
  | ⟨1, _⟩ => rfl
  | ⟨2, _⟩ => exact Fin.ext (by show (64 * b.val + e.val) % 64 = e.val; omega)

end Cert.Proof.HostLayout

end
-- ==== Proof.RowsRange.lean ====
/-
  The histogram kernel assumes every index word it reads is in range. The array it reads is the index argument
  transposed and flattened, so each of its words is a word of the argument, and the input-domain precondition
  bounds every word of the argument by 64. Each tile's two rows are read off that array entry by entry.
-/
import proofs.«210303_g84464826843916_cont_9to1c4b_132_15_alg».proof.Proof.ValChain
import proofs.«210303_g84464826843916_cont_9to1c4b_132_15_alg».proof.Proof.HistTile
import proofs.«210303_g84464826843916_cont_9to1c4b_132_15_alg».proof.Proof.PreFinite
import proofs.«210303_g84464826843916_cont_9to1c4b_132_15_alg».proof.Proof.HostLayout

noncomputable section

namespace Cert.Proof.KI

open Cert.KernelIdeal Cert.KernelIdeal.Gen
open Idealize.ShloMosaic Idealize.ShloMosaic.ValueIdx

variable {F : FTy → Type} [FloatOps F]

section Rows

variable (m : (ℓ : Loc nD τ sig) → Buf (Elt F) ℓ)
variable (psumOf : (rf main_v1).ty.Contents (Elt F) → (rf main_v4).ty.Contents (Elt F))

/-- Under the precondition every word of the transposed, flattened index array is below 64. -/
theorem v3_word_lt
    (hpre : ∀ c : Dev nD, Cert.Pre_input_domain.fn (F := F) (m ((c.tc : Thread nD τ).loc main_arg0)) (m ((c.tc : Thread nD τ).loc main_arg1)) = fun _ => 1#1)
    (d : Dev nD) (j : S32x8192.Idx) : ((W5 m psumOf d (rf main_v3)) j).toNat < 64 := by
  have h1 : W5 m psumOf d (rf main_v3)
      = shapeCast S32x8192 (transpose S4x8x8192 [0, 2, 1] (m (d, rf main_arg1)) Facts₀.transposes_S4x8192x8_S4x8x8192_0_2_1)
          Facts₀.shapeCasts_S4x8x8192_S32x8192 := (W5_v3 m psumOf d).trans (W4_v3 m d)
  have h2 := Cert.Proof.HostLayout.read_32x8192 (m (d, rf main_arg1)) Facts₀.transposes_S4x8192x8_S4x8x8192_0_2_1
    Facts₀.shapeCasts_S4x8x8192_S32x8192 (j 0) (j 1)
  have hj : j = ix2 (n0 := 32) (n1 := 8192) (j 0) (j 1) := eq_ix2 j
  have hval := (congrFun h1 j).trans ((congrArg (fun k => shapeCast S32x8192 (transpose S4x8x8192 [0, 2, 1] (m (d, rf main_arg1))
    Facts₀.transposes_S4x8192x8_S4x8x8192_0_2_1) Facts₀.shapeCasts_S4x8x8192_S32x8192 k) hj).trans h2)
  rw [hval]
  exact Cert.Proof.PreFinite.idx_range _ _ (hpre d) _

/-- So every tile's two rows are in range. -/
theorem rowsOK_of_pre
    (hpre : ∀ c : Dev nD, Cert.Pre_input_domain.fn (F := F) (m ((c.tc : Thread nD τ).loc main_arg0)) (m ((c.tc : Thread nD τ).loc main_arg1)) = fun _ => 1#1) :
    ∀ d L, RowsOK d L (W5 m psumOf d (rf main_v3)) := by
  intro d L x
  exact ⟨v3_word_lt m psumOf hpre d _, v3_word_lt m psumOf hpre d _⟩

end Rows

end Cert.Proof.KI

end
-- ==== Proof.FrameAsm.lean ====
/-
  The program's run assembled: from a proof of the histogram kernel's body on one tile and the input-domain precondition, every
  weakly fair execution of the device's threads terminates, nothing faulting, at the chain's last valuation; in particular the
  two argument arrays end as they were.
-/
import proofs.«210303_g84464826843916_cont_9to1c4b_132_15_alg».proof.Proof.HistSplit
import proofs.«210303_g84464826843916_cont_9to1c4b_132_15_alg».proof.Proof.Regions
import proofs.«210303_g84464826843916_cont_9to1c4b_132_15_alg».proof.Proof.RowsRange
import proofs.«210303_g84464826843916_cont_9to1c4b_132_15_alg».proof.Proof.ValChain

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- THE RUN, from the kernel body's proof on one tile (`hbody`: the tile's piece of the result array ends at the histogram
    `H` of the index array) and the input-domain precondition: every weakly fair execution of the device's threads terminates,
    nothing faulting, and ends with the result and the arguments at the chain's last valuation. -/
theorem run_mainK [∀ e, Nonempty (Elt F e)] (m : (ℓ : Loc nD τ sig) → Buf (Elt F) ℓ) (ρ : Dev nD → PrngReg)
    (H : (d : Dev nD) → Buf (Elt F) (a3Loc d) → Buf (Elt F) (a5Loc d))
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (QC m psumOut (histK H) combineOut) :=
  run_main m ρ psumOut (histK H) combineOut (goK m) (tdK m H) (pdatsK m (histK H)) (R0K m (histK H)) (R2K m (histK H))
    (hgoK m) (htdK m H) (tileOblK m H hbody (rowsOK_of_pre m psumOut hpre)) (vecSplitK m H)
    (hpre0K m (histK H)) (hpost0K m (histK H)) (hpre2K m (histK H)) (hpost2K m (histK H))

/-- THE FRAME from the same: the program runs and its two argument arrays end unchanged. -/
theorem frame_of_body [∀ e, Nonempty (Elt F e)] (m : (ℓ : Loc nD τ sig) → Buf (Elt F) ℓ) (ρ : Dev nD → PrngReg)
    (H : (d : Dev nD) → Buf (Elt F) (a3Loc d) → Buf (Elt F) (a5Loc d))
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).2.1.trans (W9_arg0 m psumOut (histK H) combineOut c), (h c).2.2.trans (W9_arg1 m psumOut (histK H) combineOut c)⟩)
    (run_mainK m ρ H hbody hpre)

end Cert.Proof.KI

end
-- ==== Proof.HistSpec.lean ====
/-
  The histogram a tile computes, as a pure function of the two rows of indices it reads: the zero vector, then for each
  of the 1024 chunks of sixteen indices in program order (row n / 512, columns 16 (n % 512) … + 15) the indexed add-store
  of a one per lane at lane offset 64 l plus the lane's index.
-/
import proofs.«210303_g84464826843916_cont_9to1c4b_132_15_alg».proof.Proof.Gen.KernelIdeal.Skeleton

noncomputable section

namespace Cert.Proof.KI

open Cert.KernelIdeal Cert.KernelIdeal.Gen
open Idealize.ShloMosaic

variable {F : FTy → Type} [FloatOps F]

/-- The two rows of indices a tile reads. -/
abbrev Rows : Type := Fin 2 → IVec S8192 32

theorem chunk_col (n : ℕ) (x : S16.Idx) : 16 * (n % 512) + (x 0).val < 8192 := by
  have h : (x 0).val < 16 := (x 0).isLt
  omega

/-- Chunk `n` of the 1024: the sixteen indices of row `n / 512` at columns `16 (n % 512) … + 15`. -/
def chunkOf (rows : Rows) (n : ℕ) : IVec S16 32 :=
  fun x => rows ⟨n / 512 % 2, Nat.mod_lt _ (by decide)⟩ (Shape.ofLane (d := ![8192]) ⟨16 * (n % 512) + (x 0).val, chunk_col n x⟩)

/-- The indexed store's side condition at chunk `n`: every lane's offset plus index names a word of the histogram. -/
def ChunkOK (rows : Rows) (n : ℕ) : Prop :=
  ∀ a x, ((![addi k1_pay2 (chunkOf rows n)] : Fin 1 → IVec S16 32) a x).toNat < S1024.size a

/-- Lane `l`'s offset `64 l` plus a word below 64 is below 1024, with no wrap in 32 bits. -/
theorem chk_lt (v : IVec S16 32) (hv : ∀ x, (v x).toNat < 64) :
    ∀ a x, ((![addi k1_pay2 v] : Fin 1 → IVec S16 32) a x).toNat < S1024.size a := by
  intro a x
  have ha : a = 0 := Fin.eq_zero a
  subst ha
  have hx : (x 0).val < 16 := (x 0).isLt
  have he := hv x
  show (IntOp.addi (k1_pay2 x) (v x)).toNat < 1024
  generalize v x = e at he ⊢
  have hp : k1_pay2 x = BitVec.ofNat 32 (x 0).val * 64#32 := by
    unfold k1_pay2 muli iota broadcast IntOp.muli
    simp
  rw [hp]
  unfold IntOp.addi
  rw [BitVec.toNat_add, BitVec.toNat_mul, BitVec.toNat_ofNat]
  simp only [BitVec.toNat_ofNat]
  omega

/-- Rows of words below 64 meet every chunk's side condition. -/
theorem chunkOK_of_range (rows : Rows) (h : ∀ r x, (rows r x).toNat < 64) (n : ℕ) : ChunkOK rows n :=
  chk_lt _ fun _ => h _ _

open scoped Classical in
/-- The histogram scratch after the zeroing and the first `n` chunks. -/
def histRec (rows : Rows) : ℕ → Vec F S1024 .f32
  | 0 => broadcast S1024 (Scalar.ofBits .f32 0x00000000#32 : F .f32)
  | n + 1 =>
    if h : ChunkOK rows n then
      storeIdx (histRec rows n) ![addi k1_pay2 (chunkOf rows n)] (k1_pay3 (F := F)) (fun _ => 1#1) true h
    else histRec rows n

theorem histRec_zero (rows : Rows) : histRec (F := F) rows 0 = broadcast S1024 (Scalar.ofBits .f32 0x00000000#32 : F .f32) := rfl

/-- One chunk's step, its side condition in hand. -/
theorem histRec_succ (rows : Rows) (n : ℕ) (h : ChunkOK rows n) :
    histRec (F := F) rows (n + 1)
      = storeIdx (histRec rows n) ![addi k1_pay2 (chunkOf rows n)] (k1_pay3 (F := F)) (fun _ => 1#1) true h := by
  rw [histRec]; exact dif_pos h

/-- The tile's whole histogram: all 1024 chunks. -/
def histOf (rows : Rows) : Vec F S1024 .f32 := histRec rows 1024

end Cert.Proof.KI

end
-- ==== Proof.HistTile2.lean ====
/-
  The SparseCore tile's task with its value: the histogram scratch holds, before trip k of the counted loop, the pure
  histogram of the first 8 k chunks of the tile's two rows; each of a trip's eight indexed add-stores is one step of that
  recursion; the copy out leaves the tile's piece of the result array at the one whole-array function `histAll`.
-/
import proofs.«210303_g84464826843916_cont_9to1c4b_132_15_alg».proof.Proof.HistTile
import proofs.«210303_g84464826843916_cont_9to1c4b_132_15_alg».proof.Proof.HistSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index scratch read back as chunks of the two rows -/

section Rows
variable (d : Dev nD) (L : grid1.Coords)

/-- The tile's two rows, as the body's row memrefs read them off the index array. -/
def tileRows (i3 : Buf (Elt F) (a3Loc d)) : Rows := ![(row0M L).view.read (Elt F) i3, (row1M L).view.read (Elt F) i3]

theorem tileRows_ok (i3 : Buf (Elt F) (a3Loc d)) (hok : RowsOK d L i3) : ∀ r x, (tileRows d L i3 r x).toNat < 64 := by
  intro r x
  fin_cases r
  · exact (hok x).1
  · exact (hok x).2

theorem fI_half0 (i3 : Buf (Elt F) (a3Loc d)) (z : S8192.Idx) : fI d L i3 ((half0M).view.emb z) = (row0M L).view.read (Elt F) i3 z := by
  unfold fI
  have hm : (half0M).view.emb z ∈ (half0M).view.set := Finset.mem_map_of_mem _ (Finset.mem_univ z)
  have hn : (half0M).view.emb z ∉ (half1M).view.set := Finset.disjoint_left.mp halves_disjoint hm
  rw [Finset.piecewise_eq_of_notMem _ _ _ hn]
  have h := View.read_writes_cons_emb (half0M).view (half0M).view.junk (Rect.whole S8192) (ReadAs.same.apply (View.read (Elt F) (row0M L).view i3)) [] z
  rw [Rect.emb_whole_apply] at h
  exact (read_half0 (F := F) _ z).symm.trans h

theorem fI_half1 (i3 : Buf (Elt F) (a3Loc d)) (z : S8192.Idx) : fI d L i3 ((half1M).view.emb z) = (row1M L).view.read (Elt F) i3 z := by
  unfold fI
  have hm : (half1M).view.emb z ∈ (half1M).view.set := Finset.mem_map_of_mem _ (Finset.mem_univ z)
  rw [Finset.piecewise_eq_of_mem _ _ _ hm]
  have h := View.read_writes_cons_emb (half1M).view (half1M).view.junk (Rect.whole S8192) (ReadAs.same.apply (View.read (Elt F) (row1M L).view i3)) [] z
  rw [Rect.emb_whole_apply] at h
  exact (read_half1 (F := F) _ z).symm.trans h

/-- The sixteen words the body loads at offset `16 n` of the index scratch are chunk `n` of the two rows. -/
theorem load_eq (i3 : Buf (Elt F) (a3Loc d)) (n : ℕ) (hn : n < 1024) (inb : ∀ a, (![16 * n] : Fin 1 → Nat) a + S16.size a ≤ S16384.size a) :
    (sI).view.readAt (Elt F) (Rect.unit (s := S16384) ![16 * n] S16.size inb).toLoadRect (fI d L i3) = chunkOf (tileRows d L i3) n := by
  funext x
  rw [View.readAt_apply, read_sI]
  have hx : (x 0).val < 16 := (x 0).isLt
  by_cases hlt : n < 512
  · have hy : (Rect.unit (s := S16384) ![16 * n] S16.size inb).toLoadRect.idx x
        = (half0M).view.emb (Shape.ofLane (d := ![8192]) ⟨16 * (n % 512) + (x 0).val, chunk_col n x⟩) := by
      funext a; apply Fin.ext
      have ha := Fin.eq_zero a; subst ha
      show 16 * n + 1 * (x 0).val = 0 + 1 * (16 * (n % 512) + (x 0).val)
      omega
    rw [hy, fI_half0]
    unfold chunkOf tileRows
    have hr : (⟨n / 512 % 2, Nat.mod_lt _ (by decide)⟩ : Fin 2) = 0 := Fin.ext (by show n / 512 % 2 = 0; omega)
    rw [hr]; rfl
  · have hy : (Rect.unit (s := S16384) ![16 * n] S16.size inb).toLoadRect.idx x
        = (half1M).view.emb (Shape.ofLane (d := ![8192]) ⟨16 * (n % 512) + (x 0).val, chunk_col n x⟩) := by
      funext a; apply Fin.ext
      have ha := Fin.eq_zero a; subst ha
      show 16 * n + 1 * (x 0).val = 8192 + 1 * (16 * (n % 512) + (x 0).val)
      omega
    rw [hy, fI_half1]
    unfold chunkOf tileRows
    have hr : (⟨n / 512 % 2, Nat.mod_lt _ (by decide)⟩ : Fin 2) = 1 := Fin.ext (by show n / 512 % 2 = 1; omega)
    rw [hr]; rfl

theorem read_sH (f : (sH).view.ty.Contents (Elt F)) (y : S1024.Idx) : (sH).view.read (Elt F) f y = f y := rfl

theorem readAt_sH_whole (g : (sH).view.ty.Contents (Elt F)) : (sH).view.readAt (Elt F) (LoadRect.whole S1024) g = g := by
  funext x
  rw [View.readAt_apply]
  have e : (LoadRect.whole S1024).idx x = x := Rect.emb_whole_apply S1024 x
  rw [e]; rfl

/-- A store of the whole scratch leaves its payload, whatever was there. -/
theorem writes_sH_whole (B : (sH).view.ty.Contents (Elt F)) (w : S1024.Idx → Elt F .f32) :
    (sH).view.writes (Elt F) B [⟨Rect.whole S1024, w⟩] = w := by
  funext y
  have h := View.read_writes_cons_emb (sH).view B (Rect.whole S1024) w [] y
  rw [Rect.emb_whole_apply] at h
  exact (read_sH (F := F) _ y).symm.trans h

/-- One chunk's indexed add-store, from the histogram after `n` chunks to the histogram after `n + 1`. -/
theorem store_eq (i3 : Buf (Elt F) (a3Loc d)) (hok : RowsOK d L i3) {off : Fin 1 → Nat} (inb : ∀ a, off a + S16.size a ≤ S16384.size a)
    (n : ℕ) (hn : n < 1024) (hoff : off = ![16 * n])
    (h : ∀ a x, ((![addi k1_pay2 ((sI).view.readAt (Elt F) (Rect.unit (s := S16384) off S16.size inb).toLoadRect (fI d L i3))] : Fin 1 → IVec S16 32) a x).toNat < S1024.size a) :
    storeIdx (histRec (F := F) (tileRows d L i3) n) ![addi k1_pay2 ((sI).view.readAt (Elt F) (Rect.unit (s := S16384) off S16.size inb).toLoadRect (fI d L i3))]
        (k1_pay3 (F := F)) (fun _ => 1#1) true h
      = histRec (tileRows d L i3) (n + 1) := by
  subst hoff
  rw [histRec_succ _ _ (chunkOK_of_range _ (tileRows_ok d L i3 hok) n)]
  revert h
  rw [load_eq d L i3 n hn inb]
  intro h; rfl

end Rows

/-! ## The tile's histogram, as one function of the index array -/

/-- Tile `i`'s grid coordinates. -/
def coordsT (i : Fin 16) : grid1.Coords :=
  fun | 0 => ⟨0, by decide⟩ | 1 => Fin.cast bound_one.symm i | ⟨_ + 2, h⟩ => absurd h (Nat.not_lt.2 (Nat.le_add_left _ _))

theorem coordsT_jL (L : grid1.Coords) : coordsT (jL L) = L := by
  funext a
  match a with
  | 0 => exact Fin.ext (by have h : (L 0).val < 1 := (L 0).isLt; show 0 = (L 0).val; omega)
  | 1 => exact Fin.ext rfl

theorem out_div (j : S16384.Idx) : (j 0).val / 1024 < 16 := by
  have h : (j 0).val < 16384 := (j 0).isLt
  omega

/-- The result array after the call, as one function of the index array: word `1024 t + w` is word `w` of tile `t`'s histogram. -/
def histAll (d : Dev nD) (i3 : Buf (Elt F) (a3Loc d)) : Buf (Elt F) (a5Loc d) :=
  fun j => histOf (F := F) (tileRows d (coordsT ⟨(j 0).val / 1024, out_div j⟩) i3) (Shape.ofLane (d := ![1024]) ⟨(j 0).val % 1024, Nat.mod_lt _ (by decide)⟩)

/-- The result array's word `j` is word `w` of tile `t`'s histogram when `j = 1024 t + w`. -/
theorem histAll_at (d : Dev nD) (i3 : Buf (Elt F) (a3Loc d)) (j : S16384.Idx) (t : Fin 16) (w : S1024.Idx)
    (ht : (j 0).val / 1024 = t.val) (hw : (j 0).val % 1024 = (w 0).val) :
    histAll d i3 j = histOf (F := F) (tileRows d (coordsT t) i3) w := by
  unfold histAll
  have e1 : (⟨(j 0).val / 1024, out_div j⟩ : Fin 16) = t := Fin.ext ht
  have e2 : Shape.ofLane (d := ![1024]) ⟨(j 0).val % 1024, Nat.mod_lt _ (by decide)⟩ = w := by
    funext a; apply Fin.ext
    have ha := Fin.eq_zero a; subst ha
    exact hw
  rw [e1, e2]

section Tile
variable (d : Dev nD) (L : grid1.Coords)

theorem offE {a b : ℕ} (h : a = b) : (![a] : Fin 1 → ℕ) = ![b] := by rw [h]

/-- The scratch after one chunk's load-and-store of the whole, restated as the next histogram. -/
theorem hist_step (i3 : Buf (Elt F) (a3Loc d)) (hok : RowsOK d L i3) {off : Fin 1 → Nat} (inb : ∀ a, off a + S16.size a ≤ S16384.size a)
    (n m : ℕ) (hn : n < 1024) (hm : m = n + 1) (hoff : off = ![16 * n]) (B : (sH).view.ty.Contents (Elt F))
    (h : ∀ a x, ((![addi k1_pay2 ((sI).view.readAt (Elt F) (Rect.unit (s := S16384) off S16.size inb).toLoadRect (fI d L i3))] : Fin 1 → IVec S16 32) a x).toNat < S1024.size a) :
    ((sH).view.loc (thr d L) ↦[(sH).view.set]{fullShare}
        (sH).view.writes (Elt F) B [⟨Rect.whole S1024,
          storeIdx ((sH).view.readAt (Elt F) (LoadRect.whole S1024) (histRec (F := F) (tileRows d L i3) n))
            ![addi k1_pay2 ((sI).view.readAt (Elt F) (Rect.unit (s := S16384) off S16.size inb).toLoadRect (fI d L i3))]
            (k1_pay3 (F := F)) (fun _ => 1#1) true h⟩] : sProp 𝕄)
      = ((sH).view.loc (thr d L) ↦[(sH).view.set]{fullShare} histRec (F := F) (tileRows d L i3) m) := by
  subst hm
  rw [writes_sH_whole, readAt_sH_whole, store_eq d L i3 hok inb n hn hoff]

theorem read_out (f : (outM L).view.ty.Contents (Elt F)) (x : S1024.Idx) : (outM L).view.read (Elt F) f x = f ((outM L).view.emb x) := rfl

theorem out_emb (x : S1024.Idx) : (((outM L).view.emb x : S16384.Idx) 0).val = 1024 * (L 1).val + (x 0).val := by
  show (k1_off10 L) 0 + 1 * (x 0).val = _
  rw [k1_off10_eq]
  simp

/-- The tile's piece of the result array, the histogram scratch copied into it, is that piece of the one whole-array function. -/
theorem out_eq (i3 : Buf (Elt F) (a3Loc d)) (fo : Buf (Elt F) (a5Loc d)) (N : ℕ) (hN : N = 1024) :
    ((outM L).view.loc (thr d L) ↦[(outM L).view.set]{fullShare}
        (outM L).view.writes (Elt F) fo [⟨Rect.whole S1024, ReadAs.same.apply ((sH).view.read (Elt F) (histRec (F := F) (tileRows d L i3) N))⟩] : sProp 𝕄)
      = (a5Loc d ↦[outSet (jL L)]{fullShare} histAll d i3) := by
  subst hN
  rw [← set_outM L]
  refine pointsTo_congr fun j hj => ?_
  obtain ⟨x, -, rfl⟩ := Finset.mem_map.mp hj
  have h := View.read_writes_cons_emb (outM L).view fo (Rect.whole S1024)
    (ReadAs.same.apply ((sH).view.read (Elt F) (histRec (F := F) (tileRows d L i3) 1024))) [] x
  rw [Rect.emb_whole_apply] at h
  refine ((read_out (F := F) L _ x).symm.trans h).trans ?_
  have hx : (x 0).val < 1024 := (x 0).isLt
  have hL : (L 1).val < 16 := (L 1).isLt
  rw [histAll_at d i3 _ (jL L) x (by rw [out_emb]; show _ = (L 1).val; omega) (by rw [out_emb]; omega), coordsT_jL]
  rfl

/-- Before trip `k`: the index scratch holds the two rows, the histogram scratch the histogram of the first `8 k` chunks. -/
def invV (i3 : Buf (Elt F) (a3Loc d)) (k : Nat) (_ : PUnit) : sProp 𝕄 :=
  iprop(((sI).view.loc (thr d L) ↦[(sI).view.set]{fullShare} fI d L i3)
    ∗ ((sH).view.loc (thr d L) ↦[(sH).view.set]{fullShare} histRec (F := F) (tileRows d L i3) (8 * k)))

theorem tile_body (i3 : Buf (Elt F) (a3Loc d)) (hok : RowsOK d L i3) (O : CellTallies nD τ sig (HIx 1)) (W : Waits sig (HIx 1)) (hO : ∀ g, O g none = 0) :
    iprop(levAts (K (F := F)).L (K (F := F)).lev ∗ goPay d i3 (jL L)
        ∗ scopedBufs (thr d L) ∗ scopedSems0 (thr d L) ∗ owes (thr d L) O W)
      ⊢ wp frame (wpE (defs₀ (F := F)) 𝒱₀ (thr d L) none) Set.univ
          (cc1_hist_kernel L a3V (Memref.isWhole_whole _) a5V (Memref.isWhole_whole _) sI (Memref.isWhole_whole _) sH (Memref.isWhole_whole _) cc1_scratch2 cc1_scoped0)
          fun _ => iprop(tdPay d i3 (histAll d i3) (jL L) ∗ scopedBufs (thr d L) ∗ scopedSems0 (thr d L)
            ∗ ∃ W', ⌜∀ p ∈ W', p ∈ W ∨ p.2 = none⌝ ∗ owes (thr d L) O W') := by
  simp only [cc1_hist_kernel_eq_skeleton]; unfold cc1_hist_kernel_skel
  rw [(K (F := F)).scopedBufs_V facts d (cV L) (jV L), SparseCore.Cfg.scopedSems0_V (Val := Elt F) d (cV L) (jV L), ownSems0_V, ownBufs_V]
  iintro ⟨#Hlv, ⟨Hr0, Hr1, %fo, Ho⟩, ⟨⟨%fs, Hs⟩, ⟨%fh, Hh⟩, Hbufs⟩, ⟨HsemA, HsemB, Hsems⟩, HO⟩
  ihave Hmw := ((K (F := F)).mayWaits_none (thr := thr d L) hO) $$ Hlv
  ihave Hr0' := (Entails.of_eq (pts_row0M (F := F) d L _).symm) $$ Hr0
  ihave Hr1' := (Entails.of_eq (pts_row1M (F := F) d L _).symm) $$ Hr1
  ihave Ho' := (Entails.of_eq (pts_outM (F := F) d L _).symm) $$ Ho
  ihave Hs2 := (pts_sI_halves (F := F) d (cV L) (jV L) _).1 $$ Hs
  icases Hs2 with ⟨Hs0, Hs1⟩
  ihave Hh' := (Entails.of_eq (pts_sH (F := F) d (cV L) (jV L) _).symm) $$ Hh
  imod (Transfers.batch_alloc' (Lvl := ℕ) (countersEmb (U := UU)) (thr d L) (none : HIx 1) NR (deliv d L i3 fs) (sm := .dma cc1_scratch2.sem) (E := Set.univ)) $$ HsemA with HB
  sl_exec
  ihave Hs := (join_halves (F := F) d L i3) $$ [HB_dst0 HB_dst1]
  · isplitl [HB_dst0]; · iexact HB_dst0
    iexact HB_dst1
  have hz : (sH).view.writes (Elt F) (sH).view.junk (tile_body.sl.Hh'_64 (F := F)) = histRec (F := F) (tileRows d L i3) 0 := by
    have hp : ∀ p ∈ (tile_body.sl.Hh'_64 (F := F)), ∀ x : p.1.shape.Idx,
        p.2 x = (fun _ : S1024.Idx => (Scalar.ofBits .f32 0x00000000#32 : F .f32)) (p.1.emb x) := by
      unfold tile_body.sl.Hh'_64
      intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals exact fun _ => rfl
    funext y
    have hc := View.cover_of_tiled (s := S1024) (tile_body.sl.Hh'_64 (F := F)) S16.size (by rfl) y
    have hr := View.read_writes_apply_of_pieces (sH).view (sH).view.junk (fun _ : S1024.Idx => (Scalar.ofBits .f32 0x00000000#32 : F .f32))
      (tile_body.sl.Hh'_64 (F := F)) hp y hc
    exact (read_sH (F := F) _ y).symm.trans hr
  ihave Hz := (Entails.of_eq (congrArg (fun g => ((sH).view.loc (thr d L) ↦[(sH).view.set]{fullShare} g : sProp 𝕄)) hz)) $$ Hh'
  sl_for (invV d L i3) $$ [Hs Hz]
  case region =>
    intro k _
    have hk : k.val < 128 := lt_of_lt_of_le k.isLt k1_t1_abs.2.1
    unfold invV
    iintro ⟨Hs, Hh⟩
    sl_exec (disch := exact chk_ok (F := F) _ (fI_ok d L i3 hok) _)
    rw [SparseCore.vectorStoreIdx_bind (thr d L)]; sl_exec (disch := exact chk_ok (F := F) _ (fI_ok d L i3 hok) _)
    delta tile_body.sl.v106 tile_body.sl.v105
    ihave Hh1 := (Entails.of_eq (hist_step d L i3 hok (k1_off2_inb k) (8 * k.val) (8 * k.val + 1) (by omega) rfl ((k1_off2_eq k).trans (offE (by omega))) _ _)) $$ Hh
    rw [SparseCore.vectorStoreIdx_bind (thr d L)]; sl_exec (disch := exact chk_ok (F := F) _ (fI_ok d L i3 hok) _)
    delta tile_body.sl.v111 tile_body.sl.v110
    ihave Hh2 := (Entails.of_eq (hist_step d L i3 hok (k1_off3_inb k) (8 * k.val + 1) (8 * k.val + 2) (by omega) rfl ((k1_off3_eq k).trans (offE (by omega))) _ _)) $$ Hh1
    rw [SparseCore.vectorStoreIdx_bind (thr d L)]; sl_exec (disch := exact chk_ok (F := F) _ (fI_ok d L i3 hok) _)
    delta tile_body.sl.v116 tile_body.sl.v115
    ihave Hh3 := (Entails.of_eq (hist_step d L i3 hok (k1_off4_inb k) (8 * k.val + 2) (8 * k.val + 3) (by omega) rfl ((k1_off4_eq k).trans (offE (by omega))) _ _)) $$ Hh2
    rw [SparseCore.vectorStoreIdx_bind (thr d L)]; sl_exec (disch := exact chk_ok (F := F) _ (fI_ok d L i3 hok) _)
    delta tile_body.sl.v121 tile_body.sl.v120
    ihave Hh4 := (Entails.of_eq (hist_step d L i3 hok (k1_off5_inb k) (8 * k.val + 3) (8 * k.val + 4) (by omega) rfl ((k1_off5_eq k).trans (offE (by omega))) _ _)) $$ Hh3
    rw [SparseCore.vectorStoreIdx_bind (thr d L)]; sl_exec (disch := exact chk_ok (F := F) _ (fI_ok d L i3 hok) _)
    delta tile_body.sl.v126 tile_body.sl.v125
    ihave Hh5 := (Entails.of_eq (hist_step d L i3 hok (k1_off6_inb k) (8 * k.val + 4) (8 * k.val + 5) (by omega) rfl ((k1_off6_eq k).trans (offE (by omega))) _ _)) $$ Hh4
    rw [SparseCore.vectorStoreIdx_bind (thr d L)]; sl_exec (disch := exact chk_ok (F := F) _ (fI_ok d L i3 hok) _)
    delta tile_body.sl.v131 tile_body.sl.v130
    ihave Hh6 := (Entails.of_eq (hist_step d L i3 hok (k1_off7_inb k) (8 * k.val + 5) (8 * k.val + 6) (by omega) rfl ((k1_off7_eq k).trans (offE (by omega))) _ _)) $$ Hh5
    rw [SparseCore.vectorStoreIdx_bind (thr d L)]; sl_exec (disch := exact chk_ok (F := F) _ (fI_ok d L i3 hok) _)
    delta tile_body.sl.v136 tile_body.sl.v135
    ihave Hh7 := (Entails.of_eq (hist_step d L i3 hok (k1_off8_inb k) (8 * k.val + 6) (8 * k.val + 7) (by omega) rfl ((k1_off8_eq k).trans (offE (by omega))) _ _)) $$ Hh6
    rw [SparseCore.vectorStoreIdx_bind (thr d L)]; sl_exec (disch := exact chk_ok (F := F) _ (fI_ok d L i3 hok) _)
    delta tile_body.sl.v141 tile_body.sl.v140
    ihave Hh8 := (Entails.of_eq (hist_step d L i3 hok (k1_off9_inb k) (8 * k.val + 7) (8 * (k.val + 1)) (by omega) (by omega) ((k1_off9_eq k).trans (offE (by omega))) _ _)) $$ Hh7
    sl_step
    isplitl [Hs]; · iexact Hs
    iexact Hh8
  · unfold invV
    isplitl [Hs]; · iexact Hs
    iexact Hz
  iintro %_ HI
  unfold invV
  icases HI with ⟨Hs, Hh⟩
  sl_exec
  sl_step
  delta tile_body.sl.dma0_1
  ihave Ho2 := (Entails.of_eq (out_eq d L i3 fo (8 * Scf.trips k1_t1_loop.lb k1_t1_loop.ub k1_t1_loop.st) (by decide))) $$ Ho'
  isplitl [HB_src0 HB_src1 Ho2]
  · isplitl [HB_src0]; · iapply (Entails.of_eq (pts_row0M (F := F) d L _)); iexact HB_src0
    isplitl [HB_src1]; · iapply (Entails.of_eq (pts_row1M (F := F) d L _)); iexact HB_src1
    iexact Ho2
  isplitl [Hs Hh Hbufs]
  · isplitl [Hs]; · iexists _; iapply (Entails.of_eq (pts_sI (F := F) d (cV L) (jV L) _)); iexact Hs
    isplitl [Hh]; · iexists _; iapply (Entails.of_eq (pts_sH (F := F) d (cV L) (jV L) _)); iexact Hh
    iexact Hbufs
  isplitl [HB HsemB Hsems]
  · isplitl [HB]; · iexact HB
    isplitl [HsemB]; · iexact HsemB
    iexact Hsems
  iexists (insert (SemLoc.dma cc1_scoped0.sem, none) (insert (SemLoc.dma cc1_scratch2.sem, none) (insert (SemLoc.dma cc1_scratch2.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI
end
-- ==== Proof.FrameAll.lean ====
/-
  The run and the frame from the input-domain precondition alone: the histogram is the tiles' pure recursion over the
  transposed indices.
-/
import proofs.«210303_g84464826843916_cont_9to1c4b_132_15_alg».proof.Proof.FrameAsm
import proofs.«210303_g84464826843916_cont_9to1c4b_132_15_alg».proof.Proof.HistTile2

noncomputable section

namespace Cert.Proof.KI

open Cert.KernelIdeal Cert.KernelIdeal.Gen
open Idealize.ShloMosaic
open Idealize.SL.Sem

variable {F : FTy → Type} [FloatOps F]

/-- THE RUN: under the input-domain precondition every weakly fair execution of the device's threads terminates, nothing
    faulting, and ends with the result and the arguments at the chain's last valuation, the histogram array having held the
    histogram of the transposed indices. -/
theorem run_all [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (QC m psumOut (histK histAll) combineOut) :=
  run_mainK m ρ histAll (fun d L i3 hok O W hO => tile_body d L i3 hok O W hO) hpre

/-- THE FRAME: under the input-domain precondition the program runs and its two argument arrays end unchanged. -/
theorem frame_all [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_body m ρ histAll (fun d L i3 hok O W hO => tile_body d L i3 hok O W hO) hpre

end Cert.Proof.KI

end
-- ==== Proof.FramePI.lean ====
/-
  The idealized program's frame claim, at the ideal instance.
-/
import proofs.«210303_g84464826843916_cont_9to1c4b_132_15_alg».proof.Proof.FrameAll

noncomputable section

namespace Cert.Proof.KI

open Idealize.ShloMosaic

theorem frame_pi : Cert.frame_KernelIdeal := fun m ρ hpre => frame_all (F := Ideal) m ρ hpre

end Cert.Proof.KI

end
-- ==== Proof.CommonB.lean ====
/-
  The kernel program as the SparseCore launch theorem sees it: one vector-subcore call (the histogram of the
  expert indices) between two TensorCore kernel regions (the softmax column sums before it, the combination after it).
  The ghost state is three independent parts: the launch handshakes' rounds, the TensorCore pipelines' staging
  rounds, and the counters of the tiles' local copies.
-/
import proofs.«210303_g84464826843916_cont_9to1c4b_132_15_alg».proof.Defs
import proofs.«210303_g84464826843916_cont_9to1c4b_132_15_alg».proof.Proof.Gen.Kernel
import proofs.«210303_g84464826843916_cont_9to1c4b_132_15_alg».proof.Proof.Gen.Kernel.Skeleton
import proofs.«210303_g84464826843916_cont_9to1c4b_132_15_alg».proof.Proof.Gen.Kernel.Launch
import proofs.«210303_g84464826843916_cont_9to1c4b_132_15_alg».proof.Proof.Gen.Kernel.Points
import proofs.«210303_g84464826843916_cont_9to1c4b_132_15_alg».proof.Proof.Gen.Pre_input_domain
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

end Cert.Proof.KB

end
-- ==== Proof.HistTileB.lean ====
/-
  The SparseCore tile's task: two rows of the index array copied into the tile's index scratch on one DMA semaphore,
  the histogram scratch zeroed, both copies awaited, then 1024 chunks of 16 indices each added (a one per lane, at
  lane offset 64 l plus the index) into the 1024-word histogram scratch, which is finally copied out to the tile's
  piece of the result.
-/
import proofs.«210303_g84464826843916_cont_9to1c4b_132_15_alg».proof.Proof.CommonB
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and the tile's scratch -/

abbrev a3V : Memref sig .scVector .hbm S32x8192 .i32 := Memref.whole main_v3_scv
abbrev a5V : Memref sig .scVector .hbm S16384 .f32 := Memref.whole main_v5_scv
abbrev sI : Memref sig .scVector .vmem S16384 .i32 := Memref.whole cc1_scratch0
abbrev sH : Memref sig .scVector .vmem S1024 .f32 := Memref.whole cc1_scratch1

abbrev a3Loc (d : Dev nD) : Loc nD τ sig := (SparseCore.T d).loc main_v3
abbrev a5Loc (d : Dev nD) : Loc nD τ sig := (SparseCore.T d).loc main_v5

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

/-- The two rows of the index array a tile reads, as the body slices them, and the halves of the index scratch they land in. -/
abbrev row0M (L : grid1.Coords) : Memref sig .scVector .hbm S8192 .i32 :=
  ((a3V).slice (Rect.unit (s := S32x8192) (k1_off1 L 0#32) S1x8192.size (k1_off1_inb L 0)) (fun _ => rfl)).squeeze S8192 squeezes_S1x8192_S8192
abbrev row1M (L : grid1.Coords) : Memref sig .scVector .hbm S8192 .i32 :=
  ((a3V).slice (Rect.unit (s := S32x8192) (k1_off1 L 1#32) S1x8192.size (k1_off1_inb L 1)) (fun _ => rfl)).squeeze S8192 squeezes_S1x8192_S8192
abbrev half0M : Memref sig .scVector .vmem S8192 .i32 := (sI).slice (Rect.unit (s := S16384) ![0] S8192.size inb_S16384_S8192_0) (fun _ => rfl)
abbrev half1M : Memref sig .scVector .vmem S8192 .i32 := (sI).slice (Rect.unit (s := S16384) ![8192] S8192.size inb_S16384_S8192_8192) (fun _ => rfl)
/-- The tile's piece of the result, as the body slices it. -/
abbrev outM (L : grid1.Coords) : Memref sig .scVector .hbm S1024 .f32 :=
  (a5V).slice (Rect.unit (s := S16384) (k1_off10 L) S1024.size (k1_off10_inb L)) (fun _ => rfl)

/-! ## The tile's own semaphores and buffers -/

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)

theorem ownSems0_V (d : Dev nD) (c : Fin τ.nSC) (i : Fin τ.nSub) :
    (ownSems0 (V d c i) : sProp 𝕄)
      = iprop(semVal (cAcell d c i) 0 ∗ semVal (cBcell d c i) 0
          ∗ bigSep (((ownCells (V d c i)).erase (cAcell d c i)).erase (cBcell d c i)) fun g => semVal g 0) := by
  unfold SparseCore.Cfg.ownSems0
  rw [SparseCore.bigSep_erase' ((mem_ownCells (g := cAcell d c i)).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d c i)).mpr ⟨rfl, by
      show (SemLoc.dma cc1_scoped0.sem : SemLoc sig).isScoped .scVector = true; decide⟩⟩)]

theorem ownBufs_V (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ bigSep (((ownRefs (τ := τ) (.scVector c i)).erase ((Proc.scVector c i).devRef cc1_scratch0)).erase
              ((Proc.scVector c i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

theorem pts_sI (d : Dev nD) (c : Fin τ.nSC) (i : Fin τ.nSub) (f : Buf (Elt F) ((V d c i).loc cc1_scratch0)) :
    ((sI).view.loc (V d c i) ↦[(sI).view.set]{fullShare} f : sProp 𝕄) = (V d c i).loc cc1_scratch0 ↦{fullShare} f := by
  simp only [Memref.view_whole, View.set_whole]
theorem pts_sH (d : Dev nD) (c : Fin τ.nSC) (i : Fin τ.nSub) (f : Buf (Elt F) ((V d c i).loc cc1_scratch1)) :
    ((sH).view.loc (V d c i) ↦[(sH).view.set]{fullShare} f : sProp 𝕄) = (V d c i).loc cc1_scratch1 ↦{fullShare} f := by
  simp only [Memref.view_whole, View.set_whole]

/-! ## The tile's shares, as element sets of the TensorCore's arrays -/

theorem h32 : 32 ∣ S32x8192.size 0 := ⟨1, rfl⟩
theorem h16 : 16 ∣ S16384.size 0 := ⟨1024, rfl⟩
theorem h2 : 2 ∣ S16384.size 0 := ⟨8192, rfl⟩
/-- Row `k` of the index array. -/
abbrev rowRect (k : Fin 32) : Rect S32x8192 := Rect.part (s := S32x8192) (a₀ := 0) h32 k
abbrev rowSet (k : Fin 32) : Finset S32x8192.Idx := ((a3V).view.slice (rowRect k)).set
/-- Piece `i` (1024 words) of the result. -/
abbrev outRect (i : Fin 16) : Rect S16384 := Rect.part (s := S16384) (a₀ := 0) h16 i
abbrev outSet (i : Fin 16) : Finset S16384.Idx := ((a5V).view.slice (outRect i)).set
/-- Row `2 i + r`. -/
def r2 (i : Fin 16) (r : Fin 2) : Fin 32 := ⟨2 * i.val + r.val, by omega⟩

theorem rowR_eq (L : grid1.Coords) (r : Fin 2) :
    Rect.unit (s := S32x8192) (k1_off1 L (BitVec.ofNat 32 r.val)) S1x8192.size (k1_off1_inb L r) = rowRect (r2 (jL L) r) := by
  unfold rowRect Rect.part Rect.block
  congr 1 <;> funext a
  · rw [k1_off1_eq]
    match a with
    | 0 => simp [Shape.partIx, Shape.partSize, r2]
    | 1 => simp [Shape.partIx, Shape.partSize]
  · match a with
    | 0 => simp [Shape.partSize]
    | 1 => simp [Shape.partSize]

theorem outR_eq (L : grid1.Coords) :
    Rect.unit (s := S16384) (k1_off10 L) S1024.size (k1_off10_inb L) = outRect (jL L) := by
  unfold outRect Rect.part Rect.block
  congr 1 <;> funext a
  · rw [k1_off10_eq]
    match a with
    | 0 => simp [Shape.partIx, Shape.partSize]; omega
  · match a with
    | 0 => simp [Shape.partSize]

theorem set_row0M (L : grid1.Coords) : (row0M L).view.set = rowSet (r2 (jL L) 0) := by
  show (((a3V).view.slice (Rect.unit (s := S32x8192) (k1_off1 L (BitVec.ofNat 32 (0 : Fin 2).val)) S1x8192.size (k1_off1_inb L 0))).reshape S8192 squeezes_S1x8192_S8192.numel_eq).set
    = ((a3V).view.slice (rowRect (r2 (jL L) 0))).set
  rw [View.set_reshape]
  exact rowR_eq L 0 ▸ rfl
theorem set_row1M (L : grid1.Coords) : (row1M L).view.set = rowSet (r2 (jL L) 1) := by
  show (((a3V).view.slice (Rect.unit (s := S32x8192) (k1_off1 L (BitVec.ofNat 32 (1 : Fin 2).val)) S1x8192.size (k1_off1_inb L 1))).reshape S8192 squeezes_S1x8192_S8192.numel_eq).set
    = ((a3V).view.slice (rowRect (r2 (jL L) 1))).set
  rw [View.set_reshape]
  exact rowR_eq L 1 ▸ rfl
theorem set_outM (L : grid1.Coords) : (outM L).view.set = outSet (jL L) := by
  show ((a5V).view.slice (Rect.unit (s := S16384) (k1_off10 L) S1024.size (k1_off10_inb L))).set = ((a5V).view.slice (outRect (jL L))).set
  exact outR_eq L ▸ rfl

theorem pts_row0M (d : Dev nD) (L : grid1.Coords) (f : Buf (Elt F) (a3Loc d)) :
    ((row0M L).view.loc (V d (cV L) (jV L)) ↦[(row0M L).view.set]{fullShare} f : sProp 𝕄) = a3Loc d ↦[rowSet (r2 (jL L) 0)]{fullShare} f := by
  rw [set_row0M]
theorem pts_row1M (d : Dev nD) (L : grid1.Coords) (f : Buf (Elt F) (a3Loc d)) :
    ((row1M L).view.loc (V d (cV L) (jV L)) ↦[(row1M L).view.set]{fullShare} f : sProp 𝕄) = a3Loc d ↦[rowSet (r2 (jL L) 1)]{fullShare} f := by
  rw [set_row1M]
theorem pts_outM (d : Dev nD) (L : grid1.Coords) (f : Buf (Elt F) (a5Loc d)) :
    ((outM L).view.loc (V d (cV L) (jV L)) ↦[(outM L).view.set]{fullShare} f : sProp 𝕄) = a5Loc d ↦[outSet (jL L)]{fullShare} f := by
  rw [set_outM]

/-! ## The index scratch in its two halves -/

theorem half0_eq : Rect.unit (s := S16384) ![0] S8192.size inb_S16384_S8192_0 = Rect.part (s := S16384) (a₀ := 0) h2 0 := by
  unfold Rect.part Rect.block
  congr 1 <;> funext a <;> match a with | 0 => simp [Shape.partIx, Shape.partSize]
theorem half1_eq : Rect.unit (s := S16384) ![8192] S8192.size inb_S16384_S8192_8192 = Rect.part (s := S16384) (a₀ := 0) h2 1 := by
  unfold Rect.part Rect.block
  congr 1 <;> funext a <;> match a with | 0 => simp [Shape.partIx, Shape.partSize]
theorem set_half0 : (half0M).view.set = (Rect.part (s := S16384) (a₀ := 0) h2 0).set := by
  show ((sI).view.slice (Rect.unit (s := S16384) ![0] S8192.size inb_S16384_S8192_0)).set = _
  rw [half0_eq, View.set_slice]; exact Finset.map_refl
theorem set_half1 : (half1M).view.set = (Rect.part (s := S16384) (a₀ := 0) h2 1).set := by
  show ((sI).view.slice (Rect.unit (s := S16384) ![8192] S8192.size inb_S16384_S8192_8192)).set = _
  rw [half1_eq, View.set_slice]; exact Finset.map_refl
theorem halves_disjoint : Disjoint (half0M).view.set (half1M).view.set := by
  rw [set_half0, set_half1]; exact Rect.part_disjoint h2 (by decide)
theorem halves_cover : (half0M).view.set ∪ (half1M).view.set = Finset.univ := by
  rw [set_half0, set_half1, ← Rect.biUnion_part h2]
  ext x; simp [Fin.exists_fin_two]

theorem pts_sI_halves (d : Dev nD) (c : Fin τ.nSC) (i : Fin τ.nSub) (f : Buf (Elt F) ((V d c i).loc cc1_scratch0)) :
    ((V d c i).loc cc1_scratch0 ↦{fullShare} f : sProp 𝕄)
      ⊣⊢ iprop(((half0M).view.loc (V d c i) ↦[(half0M).view.set]{fullShare} f) ∗ ((half1M).view.loc (V d c i) ↦[(half1M).view.set]{fullShare} f)) := by
  have h := pointsTo_union (ℓ := (V d c i).loc cc1_scratch0) (q := fullShare) (f := f) (Ix := HIx 1) (Name := ℕ) (U := UU) (Lvl := ℕ) halves_disjoint
  rw [halves_cover] at h
  exact h

variable [FloatOps F]

/-! ## The indices stay in range -/

/-- Lane `l`'s offset `64 l` plus a word below 64 stays below 1024: the indexed store's side condition. -/
theorem chk_ok (f : (sI).view.ty.Contents (Elt F)) (hf : ∀ y, ((sI).view.read (Elt F) f y).toNat < 64)
    {off : Fin 1 → Nat} (inb : ∀ a, off a + S16.size a ≤ S16384.size a) :
    ∀ a x, ((![addi k1_pay2 ((sI).view.readAt (Elt F) (Rect.unit (s := S16384) off S16.size inb).toLoadRect f)] : Fin 1 → IVec S16 32) a x).toNat < S1024.size a := by
  intro a x
  have ha : a = 0 := Fin.eq_zero a
  subst ha
  have hx : (x 0).val < 16 := (x 0).isLt
  have he := hf ((Rect.unit (s := S16384) off S16.size inb).toLoadRect.idx x)
  show (IntOp.addi (k1_pay2 x) ((sI).view.readAt (Elt F) (Rect.unit (s := S16384) off S16.size inb).toLoadRect f x)).toNat < 1024
  rw [View.readAt_apply]
  generalize (sI).view.read (Elt F) f ((Rect.unit (s := S16384) off S16.size inb).toLoadRect.idx x) = e at he ⊢
  have hp : k1_pay2 x = BitVec.ofNat 32 (x 0).val * 64#32 := by
    unfold k1_pay2 muli iota broadcast IntOp.muli
    simp
  rw [hp]
  unfold IntOp.addi
  rw [BitVec.toNat_add, BitVec.toNat_mul, BitVec.toNat_ofNat]
  simp only [BitVec.toNat_ofNat]
  omega

theorem read_sI (f : (sI).view.ty.Contents (Elt F)) (y : S16384.Idx) : (sI).view.read (Elt F) f y = f y := rfl
theorem read_half0 (f : (half0M).view.ty.Contents (Elt F)) (x : S8192.Idx) : (half0M).view.read (Elt F) f x = f ((half0M).view.emb x) := rfl
theorem read_half1 (f : (half1M).view.ty.Contents (Elt F)) (x : S8192.Idx) : (half1M).view.read (Elt F) f x = f ((half1M).view.emb x) := rfl

section Rows
variable (d : Dev nD) (L : grid1.Coords)

/-- The index scratch after both rows have landed: each half the row copied into it. -/
abbrev fI (i3 : Buf (Elt F) (a3Loc d)) : Buf (Elt F) ((V d (cV L) (jV L)).loc cc1_scratch0) :=
  ((half1M).view.set).piecewise
    ((half1M).view.writes (Elt F) (half1M).view.junk [⟨Rect.whole S8192, ReadAs.same.apply (View.read (Elt F) (row1M L).view i3)⟩])
    ((half0M).view.writes (Elt F) (half0M).view.junk [⟨Rect.whole S8192, ReadAs.same.apply (View.read (Elt F) (row0M L).view i3)⟩])

/-- Every word of the tile's two rows is below 64. -/
def RowsOK (i3 : Buf (Elt F) (a3Loc d)) : Prop :=
  ∀ x : S8192.Idx, ((row0M L).view.read (Elt F) i3 x).toNat < 64 ∧ ((row1M L).view.read (Elt F) i3 x).toNat < 64

theorem fI_ok (i3 : Buf (Elt F) (a3Loc d)) (hok : RowsOK d L i3) : ∀ y, ((sI).view.read (Elt F) (fI d L i3) y).toNat < 64 := by
  intro y
  rw [read_sI]
  unfold fI
  by_cases hy : y ∈ (half1M).view.set
  · rw [Finset.piecewise_eq_of_mem _ _ _ hy]
    obtain ⟨x, -, rfl⟩ := Finset.mem_map.mp hy
    have h := View.read_writes_cons_emb (half1M).view (half1M).view.junk (Rect.whole S8192) (ReadAs.same.apply (View.read (Elt F) (row1M L).view i3)) [] x
    rw [Rect.emb_whole_apply] at h
    rw [(read_half1 (F := F) _ x).symm.trans h]
    exact (hok x).2
  · rw [Finset.piecewise_eq_of_notMem _ _ _ hy]
    have hy0 : y ∈ (half0M).view.set := by
      have := Finset.mem_univ y
      rw [← halves_cover, Finset.mem_union] at this
      exact this.resolve_right hy
    obtain ⟨x, -, rfl⟩ := Finset.mem_map.mp hy0
    have h := View.read_writes_cons_emb (half0M).view (half0M).view.junk (Rect.whole S8192) (ReadAs.same.apply (View.read (Elt F) (row0M L).view i3)) [] x
    rw [Rect.emb_whole_apply] at h
    rw [(read_half0 (F := F) _ x).symm.trans h]
    exact (hok x).1

end Rows

/-! ## The operands split among the tiles, the results joined -/

theorem rowSet_eq (k : Fin 32) : rowSet k = (rowRect k).set := by
  show ((View.whole (main_v3_scv : Ref sig .scVector)).slice (rowRect k)).set = _
  rw [View.set_slice]; exact Finset.map_refl
theorem outSet_eq (i : Fin 16) : outSet i = (outRect i).set := by
  show ((View.whole (main_v5_scv : Ref sig .scVector)).slice (outRect i)).set = _
  rw [View.set_slice]; exact Finset.map_refl
theorem rows_disjoint {k k' : Fin 32} (h : k ≠ k') : Disjoint (rowSet k) (rowSet k') := by
  rw [rowSet_eq, rowSet_eq]; exact Rect.part_disjoint h32 h
theorem rows_cover : (Finset.univ : Finset (Fin 32)).biUnion rowSet = Finset.univ :=
  (Finset.biUnion_congr rfl fun i _ => rowSet_eq i).trans (Rect.biUnion_part h32)
theorem outs_disjoint : ∀ i ∈ (Finset.univ : Finset (Fin 16)), ∀ j ∈ (Finset.univ : Finset (Fin 16)), i ≠ j → Disjoint (outSet i) (outSet j) :=
  fun i _ j _ h => by rw [outSet_eq, outSet_eq]; exact Rect.part_disjoint h16 h
theorem outs_cover : (Finset.univ : Finset (Fin 16)).biUnion outSet = Finset.univ :=
  (Finset.biUnion_congr rfl fun i _ => outSet_eq i).trans (Rect.biUnion_part h16)

/-- A tile's two rows together. -/
abbrev pairSet (i : Fin 16) : Finset S32x8192.Idx := rowSet (r2 i 0) ∪ rowSet (r2 i 1)
theorem r2_inj {i i' : Fin 16} {r r' : Fin 2} (h : r2 i r = r2 i' r') : i = i' ∧ r = r' := by
  have := congrArg Fin.val h
  simp only [r2] at this
  exact ⟨Fin.ext (by omega), Fin.ext (by omega)⟩
theorem pair_disjoint (i : Fin 16) : Disjoint (rowSet (r2 i 0)) (rowSet (r2 i 1)) :=
  rows_disjoint fun e => absurd (r2_inj e).2 (by decide)
theorem pairs_disjoint : ∀ i ∈ (Finset.univ : Finset (Fin 16)), ∀ j ∈ (Finset.univ : Finset (Fin 16)), i ≠ j → Disjoint (pairSet i) (pairSet j) := by
  intro i _ j _ h
  simp only [pairSet, Finset.disjoint_union_left, Finset.disjoint_union_right]
  refine ⟨⟨rows_disjoint ?_, rows_disjoint ?_⟩, ⟨rows_disjoint ?_, rows_disjoint ?_⟩⟩ <;> exact fun e => h (r2_inj e).1
theorem pairs_cover : (Finset.univ : Finset (Fin 16)).biUnion pairSet = Finset.univ := by
  ext x
  simp only [Finset.mem_biUnion, Finset.mem_univ, true_and, iff_true]
  have hx : x ∈ (Finset.univ : Finset (Fin 32)).biUnion rowSet := by rw [rows_cover]; exact Finset.mem_univ x
  obtain ⟨k, -, hk⟩ := Finset.mem_biUnion.mp hx
  refine ⟨⟨k.val / 2, by omega⟩, ?_⟩
  rcases Nat.mod_two_eq_zero_or_one k.val with h0 | h1
  · have e : r2 ⟨k.val / 2, by omega⟩ 0 = k := Fin.ext (by show 2 * (k.val / 2) + 0 = k.val; omega)
    exact Finset.mem_union_left _ (by rw [e]; exact hk)
  · have e : r2 ⟨k.val / 2, by omega⟩ 1 = k := Fin.ext (by show 2 * (k.val / 2) + 1 = k.val; omega)
    exact Finset.mem_union_right _ (by rw [e]; exact hk)

theorem a3_pairs (d : Dev nD) (f : Buf (Elt F) (a3Loc d)) :
    (a3Loc d ↦{fullShare} f : sProp 𝕄)
      = bigSep Finset.univ fun i : Fin 16 => iprop((a3Loc d ↦[rowSet (r2 i 0)]{fullShare} f) ∗ (a3Loc d ↦[rowSet (r2 i 1)]{fullShare} f)) := by
  rw [← pairs_cover, pointsTo_biUnion Finset.univ (ℓ := a3Loc d) pairSet pairs_disjoint]
  refine bigSep_congr fun i _ => ?_
  have hu := pointsTo_union (ℓ := a3Loc d) (q := fullShare) (f := f) (Ix := HIx 1) (Name := ℕ) (U := UU) (Lvl := ℕ) (pair_disjoint i)
  exact BI.equiv_iff.mp ⟨hu.1, hu.2⟩
theorem a5_outs (d : Dev nD) (f : Buf (Elt F) (a5Loc d)) :
    (a5Loc d ↦{fullShare} f : sProp 𝕄) = bigSep Finset.univ fun i : Fin 16 => a5Loc d ↦[outSet i]{fullShare} f := by
  rw [← pointsTo_biUnion Finset.univ (ℓ := a5Loc d) outSet outs_disjoint, outs_cover]; try rfl

/-- The call's operands: the index array whole at `i3`, the result array whole at some contents. -/
abbrev stPay (d : Dev nD) (i3 : Buf (Elt F) (a3Loc d)) : sProp 𝕄 :=
  iprop((a3Loc d ↦{fullShare} i3) ∗ ∃ f, a5Loc d ↦{fullShare} f)
/-- The call's results, the result array at `R`. -/
abbrev dnPay (d : Dev nD) (i3 : Buf (Elt F) (a3Loc d)) (R : Buf (Elt F) (a5Loc d)) : sProp 𝕄 :=
  iprop((a3Loc d ↦{fullShare} i3) ∗ a5Loc d ↦{fullShare} R)
/-- A tile's share of the operands: its two rows of the index array, its piece of the result array at some contents. -/
abbrev goPay (d : Dev nD) (i3 : Buf (Elt F) (a3Loc d)) (i : Fin 16) : sProp 𝕄 :=
  iprop((a3Loc d ↦[rowSet (r2 i 0)]{fullShare} i3) ∗ (a3Loc d ↦[rowSet (r2 i 1)]{fullShare} i3) ∗ ∃ f, a5Loc d ↦[outSet i]{fullShare} f)
/-- A tile's share of the results: its two rows back, its piece of the result array at the one whole-array function `R`. -/
abbrev tdPay (d : Dev nD) (i3 : Buf (Elt F) (a3Loc d)) (R : Buf (Elt F) (a5Loc d)) (i : Fin 16) : sProp 𝕄 :=
  iprop((a3Loc d ↦[rowSet (r2 i 0)]{fullShare} i3) ∗ (a3Loc d ↦[rowSet (r2 i 1)]{fullShare} i3) ∗ a5Loc d ↦[outSet i]{fullShare} R)
/-- The same with nothing said of the result. -/
abbrev dnPayF (d : Dev nD) (i3 : Buf (Elt F) (a3Loc d)) : sProp 𝕄 :=
  iprop((a3Loc d ↦{fullShare} i3) ∗ ∃ f, a5Loc d ↦{fullShare} f)

theorem outs_join (d : Dev nD) :
    (bigSep Finset.univ fun i : Fin 16 => iprop(∃ f, a5Loc d ↦[outSet i]{fullShare} f)) ⊢ (iprop(∃ f, a5Loc d ↦{fullShare} f) : sProp 𝕄) := by
  refine (bigSep_exists_pi Finset.univ (fun i (f : Buf (Elt F) (a5Loc d)) => a5Loc d ↦[outSet i]{fullShare} f)).trans ?_
  iintro ⟨%fs, H⟩
  ihave H' := (pointsTo_biUnion_join Finset.univ outSet fs (fs 0) outs_disjoint) $$ H
  icases H' with ⟨%g, -, Hg⟩
  rw [outs_cover]
  iexists g; iexact Hg

theorem outs_weaken (d : Dev nD) (f : Buf (Elt F) (a5Loc d)) :
    (bigSep Finset.univ fun i : Fin 16 => a5Loc d ↦[outSet i]{fullShare} f)
      ⊢ (bigSep Finset.univ fun i : Fin 16 => iprop(∃ g, a5Loc d ↦[outSet i]{fullShare} g) : sProp 𝕄) :=
  bigSep_mono fun i _ => exists_intro (Φ := fun g => (a5Loc d ↦[outSet i]{fullShare} g : sProp 𝕄)) f

/-- The operands split among the sixteen tiles; their results, each piece at the one function `R`, join to the whole. -/
theorem vec_split (d : Dev nD) (i3 : Buf (Elt F) (a3Loc d)) (R : Buf (Elt F) (a5Loc d)) :
    stPay d i3 ⊢ |={Set.univ}=> iprop((bigSep Finset.univ fun i : Fin 16 => goPay d i3 i)
      ∗ ((bigSep Finset.univ fun i : Fin 16 => tdPay d i3 R i) -∗ dnPay d i3 R)) := by
  unfold stPay goPay tdPay dnPay
  rw [bigSep_sep', bigSep_sep', bigSep_sep', bigSep_sep', a3_pairs, a5_outs d R, bigSep_sep']
  iintro ⟨⟨Ha, Hb⟩, %f, Ho⟩
  imodintro
  isplitl [Ha Hb Ho]
  · isplitl [Ha]; · iexact Ha
    isplitl [Hb]; · iexact Hb
    ihave Ho' := (Entails.of_eq (a5_outs (F := F) d f)) $$ Ho
    iapply (outs_weaken (F := F) d f); iexact Ho'
  iintro ⟨Ha, Hb, Ho⟩
  isplitl [Ha Hb]
  · isplitl [Ha]; · iexact Ha
    iexact Hb
  iexact Ho

/-- The same split when nothing is said of the result's contents. -/
theorem vec_split_frame (d : Dev nD) (i3 : Buf (Elt F) (a3Loc d)) :
    stPay d i3 ⊢ |={Set.univ}=> iprop((bigSep Finset.univ fun i : Fin 16 => goPay d i3 i)
      ∗ ((bigSep Finset.univ fun i : Fin 16 => goPay d i3 i) -∗ dnPayF d i3)) := by
  unfold stPay goPay dnPayF
  rw [bigSep_sep', bigSep_sep', a3_pairs, bigSep_sep']
  iintro ⟨⟨Ha, Hb⟩, %f, Ho⟩
  imodintro
  isplitl [Ha Hb Ho]
  · isplitl [Ha]; · iexact Ha
    isplitl [Hb]; · iexact Hb
    ihave Ho' := (Entails.of_eq (a5_outs (F := F) d f)) $$ Ho
    iapply (outs_weaken (F := F) d f); iexact Ho'
  iintro ⟨Ha, Hb, Ho⟩
  isplitl [Ha Hb]
  · isplitl [Ha]; · iexact Ha
    iexact Hb
  iapply (outs_join (F := F) d); iexact Ho

section Tile
variable (d : Dev nD) (L : grid1.Coords)

abbrev thr : Thread nD τ := V d (cV L) (jV L)

abbrev NR : ℕ := (half0M).view.amount (SemLoc.dma (sig := sig) cc1_scratch2.sem)

/-- A half of the index scratch with a row landed in it. -/
abbrev landed0 (i3 : Buf (Elt F) (a3Loc d)) (fs : Buf (Elt F) ((V d (cV L) (jV L)).loc cc1_scratch0)) : Buf (Elt F) ((half0M).view.loc (thr d L)) :=
  (half0M).view.writes (Elt F) fs [⟨Rect.whole S8192, ReadAs.same.apply ((row0M L).view.read (Elt F) i3)⟩]
abbrev landed1 (i3 : Buf (Elt F) (a3Loc d)) (fs : Buf (Elt F) ((V d (cV L) (jV L)).loc cc1_scratch0)) : Buf (Elt F) ((half1M).view.loc (thr d L)) :=
  (half1M).view.writes (Elt F) fs [⟨Rect.whole S8192, ReadAs.same.apply ((row1M L).view.read (Elt F) i3)⟩]

/-- What the two row copies deliver: the half of the index scratch written, the row back. -/
abbrev deliv (i3 : Buf (Elt F) (a3Loc d)) (fs : Buf (Elt F) ((V d (cV L) (jV L)).loc cc1_scratch0)) : Fin 2 → sProp 𝕄
  | 0 => iprop(((half0M).view.loc (thr d L) ↦[(half0M).view.set]{fullShare} landed0 d L i3 fs) ∗ ((row0M L).view.loc (thr d L) ↦[(row0M L).view.set]{fullShare} i3))
  | 1 => iprop(((half1M).view.loc (thr d L) ↦[(half1M).view.set]{fullShare} landed1 d L i3 fs) ∗ ((row1M L).view.loc (thr d L) ↦[(row1M L).view.set]{fullShare} i3))

instance deliv_storable (i3 : Buf (Elt F) (a3Loc d)) (fs : Buf (Elt F) ((V d (cV L) (jV L)).loc cc1_scratch0)) (t : Fin 2) :
    BI.Storable (upEmb : UEmb _ 𝕄) (deliv d L i3 fs t) := by
  fin_cases t <;> (unfold deliv; infer_instance)

theorem join_halves (i3 : Buf (Elt F) (a3Loc d)) :
    (iprop(((half0M).view.loc (thr d L) ↦[(half0M).view.set]{fullShare}
          (half0M).view.writes (Elt F) (half0M).view.junk [⟨Rect.whole S8192, ReadAs.same.apply (View.read (Elt F) (row0M L).view i3)⟩])
        ∗ ((half1M).view.loc (thr d L) ↦[(half1M).view.set]{fullShare}
          (half1M).view.writes (Elt F) (half1M).view.junk [⟨Rect.whole S8192, ReadAs.same.apply (View.read (Elt F) (row1M L).view i3)⟩])) : sProp 𝕄)
      ⊢ ((sI).view.loc (thr d L) ↦[(sI).view.set]{fullShare} fI d L i3) := by
  refine (pointsTo_join (ℓ := (V d (cV L) (jV L)).loc cc1_scratch0) halves_disjoint).trans (Entails.of_eq ?_)
  rw [halves_cover, pts_sI]

/-- Across the trips: the index scratch holds the two rows, the histogram scratch is held. -/
def inv (i3 : Buf (Elt F) (a3Loc d)) (_ : Nat) (_ : PUnit) : sProp 𝕄 :=
  iprop(((sI).view.loc (thr d L) ↦[(sI).view.set]{fullShare} fI d L i3)
    ∗ ∃ h, (sH).view.loc (thr d L) ↦[(sH).view.set]{fullShare} h)

theorem tile_body_frame (i3 : Buf (Elt F) (a3Loc d)) (hok : RowsOK d L i3) (O : CellTallies nD τ sig (HIx 1)) (W : Waits sig (HIx 1)) (hO : ∀ g, O g none = 0) :
    iprop(levAts (K (F := F)).L (K (F := F)).lev ∗ goPay d i3 (jL L)
        ∗ scopedBufs (thr d L) ∗ scopedSems0 (thr d L) ∗ owes (thr d L) O W)
      ⊢ wp frame (wpE (defs₀ (F := F)) 𝒱₀ (thr d L) none) Set.univ
          (cc1_hist_kernel L a3V (Memref.isWhole_whole _) a5V (Memref.isWhole_whole _) sI (Memref.isWhole_whole _) sH (Memref.isWhole_whole _) cc1_scratch2 cc1_scoped0)
          fun _ => iprop(goPay d i3 (jL L) ∗ scopedBufs (thr d L) ∗ scopedSems0 (thr d L)
            ∗ ∃ W', ⌜∀ p ∈ W', p ∈ W ∨ p.2 = none⌝ ∗ owes (thr d L) O W') := by
  simp only [cc1_hist_kernel_eq_skeleton]; unfold cc1_hist_kernel_skel
  rw [(K (F := F)).scopedBufs_V facts d (cV L) (jV L), SparseCore.Cfg.scopedSems0_V (Val := Elt F) d (cV L) (jV L), ownSems0_V, ownBufs_V]
  iintro ⟨#Hlv, ⟨Hr0, Hr1, %fo, Ho⟩, ⟨⟨%fs, Hs⟩, ⟨%fh, Hh⟩, Hbufs⟩, ⟨HsemA, HsemB, Hsems⟩, HO⟩
  ihave Hmw := ((K (F := F)).mayWaits_none (thr := thr d L) hO) $$ Hlv
  ihave Hr0' := (Entails.of_eq (pts_row0M (F := F) d L _).symm) $$ Hr0
  ihave Hr1' := (Entails.of_eq (pts_row1M (F := F) d L _).symm) $$ Hr1
  ihave Ho' := (Entails.of_eq (pts_outM (F := F) d L _).symm) $$ Ho
  ihave Hs2 := (pts_sI_halves (F := F) d (cV L) (jV L) _).1 $$ Hs
  icases Hs2 with ⟨Hs0, Hs1⟩
  ihave Hh' := (Entails.of_eq (pts_sH (F := F) d (cV L) (jV L) _).symm) $$ Hh
  imod (Transfers.batch_alloc' (Lvl := ℕ) (countersEmb (U := UU)) (thr d L) (none : HIx 1) NR (deliv d L i3 fs) (sm := .dma cc1_scratch2.sem) (E := Set.univ)) $$ HsemA with HB
  sl_exec
  ihave Hs := (join_halves (F := F) d L i3) $$ [HB_dst0 HB_dst1]
  · isplitl [HB_dst0]; · iexact HB_dst0
    iexact HB_dst1
  sl_for (inv d L i3) $$ [Hs Hh']
  case region =>
    intro k _
    unfold inv
    iintro ⟨Hs, %h, Hh⟩
    sl_exec (disch := exact chk_ok (F := F) _ (fI_ok d L i3 hok) _)
    iterate 8 (rw [SparseCore.vectorStoreIdx_bind (thr d L)]; sl_exec (disch := exact chk_ok (F := F) _ (fI_ok d L i3 hok) _))
    sl_step
    isplitl [Hs]; · iexact Hs
    iexists _; iexact Hh
  · unfold inv
    isplitl [Hs]; · iexact Hs
    iexists _; iexact Hh'
  iintro %_ HI
  unfold inv
  icases HI with ⟨Hs, %h, Hh⟩
  sl_exec
  sl_step
  isplitl [HB_src0 HB_src1 Ho']
  · isplitl [HB_src0]; · iapply (Entails.of_eq (pts_row0M (F := F) d L _)); iexact HB_src0
    isplitl [HB_src1]; · iapply (Entails.of_eq (pts_row1M (F := F) d L _)); iexact HB_src1
    iexists _; iapply (Entails.of_eq (pts_outM (F := F) d L _)); iexact Ho'
  isplitl [Hs Hh Hbufs]
  · isplitl [Hs]; · iexists _; iapply (Entails.of_eq (pts_sI (F := F) d (cV L) (jV L) _)); iexact Hs
    isplitl [Hh]; · iexists _; iapply (Entails.of_eq (pts_sH (F := F) d (cV L) (jV L) _)); iexact Hh
    iexact Hbufs
  isplitl [HB HsemB Hsems]
  · isplitl [HB]; · iexact HB
    isplitl [HsemB]; · iexact HsemB
    iexact Hsems
  iexists (insert (SemLoc.dma cc1_scoped0.sem, none) (insert (SemLoc.dma cc1_scratch2.sem, none) (insert (SemLoc.dma cc1_scratch2.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KB
end
-- ==== Proof.LaunchB.lean ====
/-
  @main on the TensorCore inside the SparseCore launch: the arrays' contents along the program as a chain of valuations
  (after each host operation, after each kernel), the one SparseCore call's operands and results, and @main's run from
  the two kernel regions' records — the TensorCore's owed start signal leaves its handshake state for each region and returns.
-/
import proofs.«210303_g84464826843916_cont_9to1c4b_132_15_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The TensorCore's arrays and the host operations of @main -/

abbrev rf (b : Ref sig .tc) : DevRef τ sig := Proc.devRef .tc b

/-- The TensorCore's unscoped buffers: the two arguments and the nine values of @main. -/
abbrev SAll : Finset (DevRef τ sig) :=
  {rf main_arg0, rf main_arg1, rf main_v0, rf main_v1, rf main_v2, rf main_v3, rf main_v4, rf main_v5, rf main_v6, rf main_v7, rf main_v8}

abbrev plT (d : Dev nD) (b : Ref sig .tc) (f : b.ty.Contents (Elt F)) : sProp 𝕄 := ((SparseCore.T d).loc b) ↦{fullShare} f

theorem held_SAll (d : Dev nD) (W : Valuation τ sig (Elt F)) :
    (held (T d) SAll W : sProp 𝕄) = iprop(plT d main_arg0 (W (rf main_arg0)) ∗ plT d main_arg1 (W (rf main_arg1)) ∗ plT d main_v0 (W (rf main_v0))
      ∗ plT d main_v1 (W (rf main_v1)) ∗ plT d main_v2 (W (rf main_v2)) ∗ plT d main_v3 (W (rf main_v3)) ∗ plT d main_v4 (W (rf main_v4))
      ∗ plT d main_v5 (W (rf main_v5)) ∗ plT d main_v6 (W (rf main_v6)) ∗ plT d main_v7 (W (rf main_v7)) ∗ plT d main_v8 (W (rf main_v8))) := by
  unfold held SAll
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop(plT d main_arg0 (W main_arg0) ∗ plT d main_arg1 (W main_arg1) ∗ plT d main_v0 (W main_v0)
      ∗ plT d main_v1 (W main_v1) ∗ plT d main_v2 (W main_v2) ∗ plT d main_v3 (W main_v3) ∗ plT d main_v4 (W main_v4)
      ∗ plT d main_v5 (W main_v5) ∗ plT d main_v6 (W main_v6) ∗ plT d main_v7 (W main_v7) ∗ plT d main_v8 (W main_v8)) := by
  unfold unscopedBufs
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The unscoped buffers at a valuation are the set held at it. -/
theorem unscoped_held (d : Dev nD) (W : Valuation τ sig (Elt F)) :
    (unscopedBufs d (fun b => W (rf b)) : sProp 𝕄) = held (T d) SAll W := by
  rw [unscopedBufs_eq, held_SAll]

variable [FloatOps F]

/-- The six host operations of @main, in program order. -/
abbrev opT0 : HloOp τ sig (Elt F) := StableHlo.unary main_arg0 main_v0 (fun x => transpose S4x64x8192 [0, 2, 1] x Facts₀.transposes_S4x8192x64_S4x64x8192_0_2_1)
abbrev opR1 : HloOp τ sig (Elt F) := StableHlo.reshape main_v0 main_v1 rfl Facts₀.shapeCasts_S4x64x8192_S256x8192
abbrev opT2 : HloOp τ sig (Elt F) := StableHlo.unary main_arg1 main_v2 (fun x => transpose S4x8x8192 [0, 2, 1] x Facts₀.transposes_S4x8192x8_S4x8x8192_0_2_1)
abbrev opR3 : HloOp τ sig (Elt F) := StableHlo.reshape main_v2 main_v3 rfl Facts₀.shapeCasts_S4x8x8192_S32x8192
abbrev opR6 : HloOp τ sig (Elt F) := StableHlo.reshape main_v5 main_v6 rfl Facts₀.shapeCasts_S16384_S128x128
abbrev opR8 : HloOp τ sig (Elt F) := StableHlo.reshape main_v7 main_v8 rfl Facts₀.shapeCasts_S1_S_

theorem sub_opT0 : (opT0 (F := F)).bufs ⊆ SAll := show ({rf main_arg0, rf main_v0} : Finset (DevRef τ sig)) ⊆ SAll by decide
theorem sub_opR1 : (opR1 (F := F)).bufs ⊆ SAll := show ({rf main_v0, rf main_v1} : Finset (DevRef τ sig)) ⊆ SAll by decide
theorem sub_opT2 : (opT2 (F := F)).bufs ⊆ SAll := show ({rf main_arg1, rf main_v2} : Finset (DevRef τ sig)) ⊆ SAll by decide
theorem sub_opR3 : (opR3 (F := F)).bufs ⊆ SAll := show ({rf main_v2, rf main_v3} : Finset (DevRef τ sig)) ⊆ SAll by decide
theorem sub_opR6 : (opR6 (F := F)).bufs ⊆ SAll := show ({rf main_v5, rf main_v6} : Finset (DevRef τ sig)) ⊆ SAll by decide
theorem sub_opR8 : (opR8 (F := F)).bufs ⊆ SAll := show ({rf main_v7, rf main_v8} : Finset (DevRef τ sig)) ⊆ SAll by decide

/-! ### One buffer out of the held set, and back at new contents -/

omit [FloatOps F] in
theorem held_take (c : Thread nD τ) (S : Finset (DevRef τ sig)) (W : Valuation τ sig (Elt F)) {b : DevRef τ sig} (hb : b ∈ S) :
    (held c S W : sProp 𝕄) = iprop(((c.1, b) ↦{fullShare} W b) ∗ held c (S.erase b) W) := by
  unfold held; exact bigSep_erase hb

omit [FloatOps F] in
theorem held_erase_update (c : Thread nD τ) (S : Finset (DevRef τ sig)) (W : Valuation τ sig (Elt F)) (b : DevRef τ sig) (v : b.ty.Contents (Elt F)) :
    (held c (S.erase b) (Function.update W b v) : sProp 𝕄) = held c (S.erase b) W := by
  unfold held
  exact bigSep_congr fun b' hb' => by rw [Function.update_of_ne (Finset.ne_of_mem_erase hb')]

omit [FloatOps F] in
/-- The held set with buffer `b` at new contents `v` is the set at the updated valuation. -/
theorem held_put (c : Thread nD τ) (S : Finset (DevRef τ sig)) (W : Valuation τ sig (Elt F)) {b : DevRef τ sig} (hb : b ∈ S) (v : b.ty.Contents (Elt F)) :
    iprop(((c.1, b) ↦{fullShare} v) ∗ held c (S.erase b) W) ⊢ (held c S (Function.update W b v) : sProp 𝕄) := by
  rw [held_take c S (Function.update W b v) hb, Function.update_self, held_erase_update]

/-! ## @main on the TensorCore -/

section Main

variable (m : (ℓ : Loc nD τ sig) → Buf (Elt F) ℓ) (ρ : Dev nD → PrngReg)

abbrev admT : (p : Fin 2) → (pcfgs (F := F) p).Adm := fun p => (cfgs p).toPCfg_adm

-- What the three kernels leave in their result arrays, as pure functions of what they read.
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))

/-- The arrays' contents along @main: at launch, after each host operation, after each kernel. -/
def W0 (d : Dev nD) : Valuation τ sig (Elt F) := fun b => m (d, b)
def W1 (d : Dev nD) : Valuation τ sig (Elt F) := (opT0 (F := F)).result (W0 m d)
def W2 (d : Dev nD) : Valuation τ sig (Elt F) := (opR1 (F := F)).result (W1 m d)
def W3 (d : Dev nD) : Valuation τ sig (Elt F) := (opT2 (F := F)).result (W2 m d)
def W4 (d : Dev nD) : Valuation τ sig (Elt F) := (opR3 (F := F)).result (W3 m d)
def W5 (d : Dev nD) : Valuation τ sig (Elt F) := Function.update (W4 m d) (rf main_v4) (psumOf (W4 m d (rf main_v1)))
def W6 (d : Dev nD) : Valuation τ sig (Elt F) := Function.update (W5 m psumOf d) (rf main_v5) (histOf (W5 m psumOf d (rf main_v3)))
def W7 (d : Dev nD) : Valuation τ sig (Elt F) := (opR6 (F := F)).result (W6 m psumOf histOf d)
def W8 (d : Dev nD) : Valuation τ sig (Elt F) :=
  Function.update (W7 m psumOf histOf d) (rf main_v7) (combOf (W7 m psumOf histOf d (rf main_v4)) (W7 m psumOf histOf d (rf main_v6)))
def W9 (d : Dev nD) : Valuation τ sig (Elt F) := (opR8 (F := F)).result (W8 m psumOf histOf combOf d)

/-- What the TensorCore owes, with every recorded wait at or below the level its handshake state allows before call `n`. -/
def owesT (d : Dev nD) (n : ℕ) : sProp 𝕄 :=
  iprop(∃ W, ⌜(K (F := F)).WBelow (T d) W (8 * n)⌝ ∗ owes (T d) ((K (F := F)).Otc d n) W)

-- The tiles' shares of the histogram call's operands and results.
variable (goPay tdPay : Dev nD → Fin 16 → sProp (MT nD τ sig (HIx 1) (Elt F) ℕ UU ℕ))

omit [FloatOps F] in
theorem nSub_all (q : Fin 1) : (K (F := F)).nSub q = 16 := by
  match q with
  | 0 => rfl

/-- The one SparseCore call takes the transposed indices and the histogram array whole and brings them back, the
    histogram at what the tiles computed. -/
def P : (K (F := F)).Pay (nD := nD) (Val := Elt F) (Name := ℕ) (U := UU) where
  st := fun _ d _ => iprop(plT d main_v3 (W5 m psumOf d (rf main_v3)) ∗ plT d main_v5 (W5 m psumOf d (rf main_v5)))
  dn := fun _ d _ => iprop(plT d main_v3 (W5 m psumOf d (rf main_v3)) ∗ plT d main_v5 (histOf (W5 m psumOf d (rf main_v3))))
  go := fun q d _ i => goPay d (Fin.cast (nSub_all q) i)
  td := fun q d _ i => tdPay d (Fin.cast (nSub_all q) i)
  x := fun _ _ => iprop(emp)

theorem P_storable (hgo : ∀ d i, BI.Storable (upEmb : UEmb _ 𝕄) (goPay d i)) (htd : ∀ d i, BI.Storable (upEmb : UEmb _ 𝕄) (tdPay d i)) :
    (P (F := F) m psumOf histOf goPay tdPay).IsStorable where
  st _ d _ := by unfold P; infer_instance
  dn _ d _ := by unfold P; infer_instance
  go q d _ i := hgo d (Fin.cast (nSub_all q) i)
  td q d _ i := htd d (Fin.cast (nSub_all q) i)

end Main

/-! ### The two kernel regions, as records of the segment library, and @main's proof -/

section Regions

variable (m : (ℓ : Loc nD τ sig) → Buf (Elt F) ℓ) (ρ : Dev nD → PrngReg)
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))
variable (goPay tdPay : Dev nD → Fin 16 → sProp (MT nD τ sig (HIx 1) (Elt F) ℕ UU ℕ))
variable (pdats : (p : Fin 2) → (c : Dev nD) → Pipeline.Dat τ (Elt F) (HIx 1) ℕ UU ℕ (Pipeline.pin (pcfgs (F := F)) admT p) c)
variable (R0 : Pipeline.RegionSeg (pcfgs (F := F)) admT pdats (none : HIx 1) (defs₀ (F := F)) 𝒱₀ (K (F := F)).L (K (F := F)).lev 0)
  (R2 : Pipeline.RegionSeg (pcfgs (F := F)) admT pdats (none : HIx 1) (defs₀ (F := F)) 𝒱₀ (K (F := F)).L (K (F := F)).lev 1)

/-- The pipelines' staging rounds on device `d`, as the launch deals them. -/
def Gd (d : Dev nD) : sProp 𝕄 :=
  iprop((Pipeline.cellsGhost (Pipeline.pin (pcfgs (F := F)) admT) EP 0 d ∗ Pipeline.toksInit (Pipeline.pin (pcfgs (F := F)) admT) EP 0 d)
    ∗ (Pipeline.cellsGhost (Pipeline.pin (pcfgs (F := F)) admT) EP 1 d ∗ Pipeline.toksInit (Pipeline.pin (pcfgs (F := F)) admT) EP 1 d))

/-- What @main leaves the claim: every array of the TensorCore at its final contents. -/
abbrev FIN (d : Dev nD) : sProp 𝕄 := held (T d) SAll (W9 m psumOf histOf combOf d)

/-- The call's operands and results for its one SparseCore. -/
theorem st0_eq (d : Dev nD) :
    (bigSep Finset.univ fun c : Fin ((K (F := F)).nCore 0) => (P m psumOf histOf goPay tdPay).st 0 d c)
      = iprop(plT d main_v3 (W5 m psumOf d (rf main_v3)) ∗ plT d main_v5 (W5 m psumOf d (rf main_v5))) := by
  show (bigSep (Finset.univ : Finset (Fin 1)) fun _ => _) = _
  rw [show (Finset.univ : Finset (Fin 1)) = {0} by decide, bigSep_singleton]
  rfl
theorem dn0_eq (d : Dev nD) :
    (bigSep Finset.univ fun c : Fin ((K (F := F)).nCore 0) => (P m psumOf histOf goPay tdPay).dn 0 d c)
      = iprop(plT d main_v3 (W5 m psumOf d (rf main_v3)) ∗ plT d main_v5 (histOf (W5 m psumOf d (rf main_v3)))) := by
  show (bigSep (Finset.univ : Finset (Fin 1)) fun _ => _) = _
  rw [show (Finset.univ : Finset (Fin 1)) = {0} by decide, bigSep_singleton]
  rfl

set_option backward.isDefEq.respectTransparency.types false in
theorem hmain [∀ e, Nonempty (Elt F e)]
    (hpre0 : ∀ d, iprop(unscopedBufs d (fun b => W4 m d (rf b)) ∗ owesT (F := F) d 0) ⊢ R0.pre d)
    (hpost0 : ∀ d, R0.post d ⊢ iprop(unscopedBufs d (fun b => W5 m psumOf d (rf b)) ∗ owesT (F := F) d 0))
    (hpre2 : ∀ d, iprop(unscopedBufs d (fun b => W7 m psumOf histOf d (rf b)) ∗ owesT (F := F) d 1) ⊢ R2.pre d)
    (hpost2 : ∀ d, R2.post d ⊢ iprop(unscopedBufs d (fun b => W8 m psumOf histOf combOf d (rf b)) ∗ owesT (F := F) d 1))
    (κ : GSem nD τ sig → ℕ) (d : Dev nD) :
    iprop((K (F := F)).ctx EH (P m psumOf histOf goPay tdPay) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m psumOf histOf combOf d) := by
  unfold SparseCore.Cfg.tcRes Gd
  rw [show (fun b : Ref sig .tc => m ((SparseCore.T d).loc b)) = (fun b => W0 m d (rf b)) from rfl, unscoped_held]
  simp only [main, wp_bind, wp_pure]
  iintro ⟨#Hctx, Hst, ⟨Hb, Hheld, -, -⟩, ⟨⟨Hcg0, Htk0⟩, ⟨Hcg2, Htk2⟩⟩⟩
  ihave Hlev0 := ((K (F := F)).ctx_levAts (EH := EH) (P := P m psumOf histOf goPay tdPay) κ) $$ Hctx
  ihave Hlev2 := ((K (F := F)).ctx_levAts (EH := EH) (P := P m psumOf histOf goPay tdPay) κ) $$ Hctx
  -- the four host operations before the first region
  iapply (wp_hlo_within 𝒱 (SparseCore.T d) none Set.univ (op := opT0) (S := SAll) sub_opT0 (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := SAll) sub_opR1 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := opT2) (S := SAll) sub_opT2 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := opR3) (S := SAll) sub_opR3 (V := W3 m d)) $$ [Hb Hheld]
  · isplitl [Hb]; · iexact Hb
    iexact Hheld
  iintro ⟨Hb, Hheld⟩
  rw [wp_ret]; imodintro

  -- region 0: the softmax column sums. The TensorCore's owes leaves its handshake state for the region and returns.
  unfold SparseCore.Cfg.tcSt
  icases Hst with ⟨HO, Hat, #Hrd, #Hrs, Htoks⟩
  iapply ((K (F := F)).wp_liftProg (D (F := F)) 𝒱 (SparseCore.T d) Set.univ none (Prog.lift (TpuEff.customCall (Pipeline.entry 0) ())) _)
  iapply (Pipeline.RegionSeg.wp (pcfgs (F := F)) admT pdats (none : HIx 1) cellOf_inj EP (defs₀ (F := F)) 𝒱₀ (K (F := F)).L (K (F := F)).lev R0 d none
      (fun _ h => nomatch h) (fun _ => Prog.ret PUnit.unit) _) $$ [Hb Hheld HO Hcg0 Htk0 Hat Htoks Hcg2 Htk2]
  isplitr [Hb Hheld HO Hcg0 Htk0]
  swap
  · isplitl [Hb]; · iexact Hb
    isplitl [Hheld HO]
    · iapply (hpre0 d)
      isplitl [Hheld]
      · rw [unscoped_held]; unfold W4; iexact Hheld
      · unfold owesT; iexact HO
    isplitr; · iexact Hlev0
    isplitl [Hcg0]; · iexact Hcg0
    iexact Htk0
  iintro ⟨Hb, Hpost⟩
  ihave Hp := (hpost0 d) $$ Hpost
  icases Hp with ⟨Hub, HO⟩
  rw [wp_ret]; imodintro
  -- the SparseCore call: the transposed indices and the histogram array to the one SparseCore and back
  ihave Hheld := (Entails.of_eq (unscoped_held (F := F) d (W5 m psumOf d))) $$ Hub
  ihave H := (Entails.of_eq (held_take (F := F) (SparseCore.T d) SAll (W5 m psumOf d) (b := rf main_v5) (by decide))) $$ Hheld
  icases H with ⟨H5, Hrest⟩
  ihave H := (Entails.of_eq (held_take (F := F) (SparseCore.T d) (SAll.erase (rf main_v5)) (W5 m psumOf d) (b := rf main_v3) (by decide))) $$ Hrest
  icases H with ⟨H3, Hrest⟩
  iapply ((K (F := F)).wp_run (D (F := F)) 𝒱 (EH := EH) (P := P m psumOf histOf goPay tdPay) κ d 0) $$ [HO Hat Htoks H3 H5 Hb Hrest Hcg2 Htk2]
  isplitr; · iexact Hctx
  isplitl [HO Hat Htoks]
  · unfold SparseCore.Cfg.tcSt
    isplitl [HO]; · unfold owesT; iexact HO
    isplitl [Hat]; · iexact Hat
    isplitr; · iexact Hrd
    isplitr; · iexact Hrs
    iexact Htoks
  isplitl [H3 H5]
  · rw [st0_eq]
    isplitl [H3]; · iexact H3
    iexact H5
  iintro ⟨Hst, Hdn⟩
  ihave Hdn' := (Entails.of_eq (dn0_eq (F := F) m psumOf histOf goPay tdPay d)) $$ Hdn
  icases Hdn' with ⟨H3, H5⟩
  ihave Hrest := (Entails.of_eq (held_take (F := F) (SparseCore.T d) (SAll.erase (rf main_v5)) (W5 m psumOf d) (b := rf main_v3) (by decide)).symm) $$ [H3 Hrest]
  · isplitl [H3]; · iexact H3
    iexact Hrest
  ihave Hheld := (held_put (F := F) (SparseCore.T d) SAll (W5 m psumOf d) (b := rf main_v5) (by decide) (histOf (W5 m psumOf d (rf main_v3)))) $$ [H5 Hrest]
  · isplitl [H5]; · iexact H5
    iexact Hrest
  -- the reshape of the histogram
  iapply (wp_hlo_within 𝒱 (SparseCore.T d) none Set.univ (op := opR6) (S := SAll) sub_opR6 (V := W6 m psumOf histOf d)) $$ [Hb Hheld]
  · isplitl [Hb]; · iexact Hb
    unfold W6; iexact Hheld
  iintro ⟨Hb, Hheld⟩
  rw [wp_ret]; imodintro
  -- region 2: the combination
  unfold SparseCore.Cfg.tcSt
  icases Hst with ⟨HO, Hat, #Hrd1, #Hrs1, Htoks⟩
  iapply ((K (F := F)).wp_liftProg (D (F := F)) 𝒱 (SparseCore.T d) Set.univ none (Prog.lift (TpuEff.customCall (Pipeline.entry 1) ())) _)
  iapply (Pipeline.RegionSeg.wp (pcfgs (F := F)) admT pdats (none : HIx 1) cellOf_inj EP (defs₀ (F := F)) 𝒱₀ (K (F := F)).L (K (F := F)).lev R2 d none
      (fun _ h => nomatch h) (fun _ => Prog.ret PUnit.unit) _) $$ [Hb Hheld HO Hcg2 Htk2 Hat Htoks]
  isplitr [Hb Hheld HO Hcg2 Htk2]
  swap
  · isplitl [Hb]; · iexact Hb
    isplitl [Hheld HO]
    · iapply (hpre2 d)
      isplitl [Hheld]
      · rw [unscoped_held]; unfold W7; iexact Hheld
      · unfold owesT; iexact HO
    isplitr; · iexact Hlev2
    isplitl [Hcg2]; · iexact Hcg2
    iexact Htk2
  iintro ⟨Hb, Hpost⟩
  ihave Hp := (hpost2 d) $$ Hpost
  icases Hp with ⟨Hub, HO⟩
  rw [wp_ret]; imodintro
  ihave Hheld := (Entails.of_eq (unscoped_held (F := F) d (W8 m psumOf histOf combOf d))) $$ Hub
  -- the reshape to the scalar result
  iapply (wp_hlo_within 𝒱 (SparseCore.T d) none Set.univ (op := opR8) (S := SAll) sub_opR8 (V := W8 m psumOf histOf combOf d)) $$ [Hb Hheld]
  · isplitl [Hb]; · iexact Hb
    iexact Hheld
  iintro ⟨Hb, Hheld⟩
  rw [wp_ret]; imodintro; imodintro
  isplitl [HO Hat Htoks]
  · isplitl [HO]; · unfold owesT; iexact HO
    isplitl [Hat]; · iexact Hat
    isplitr; · iexact Hrd1
    isplitr; · iexact Hrs1
    iexact Htoks
  unfold FIN W9; iexact Hheld

end Regions

end Cert.Proof.KB
end
-- ==== Proof.RunB.lean ====
/-
  The whole program's run: the launch element (the handshakes' rounds, the pipelines' staging rounds), what is read of the
  final memory, and that every weakly fair execution of the device's threads terminates with the arrays at the chain's
  last valuation.
-/
import proofs.«210303_g84464826843916_cont_9to1c4b_132_15_alg».proof.Proof.LaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (cellsGhost toksInit)

/-! ## The launch element -/

section LaunchElem

variable (m : (ℓ : Loc nD τ sig) → Buf (Elt F) ℓ)
variable [FloatOps F]
variable (psumOf : (rf main_v1).ty.Contents (Elt F) → (rf main_v4).ty.Contents (Elt F))
  (histOf : (rf main_v3).ty.Contents (Elt F) → (rf main_v5).ty.Contents (Elt F))
variable (goPay tdPay : Dev nD → Fin 16 → sProp (MT nD τ sig (HIx 1) (Elt F) ℕ UU ℕ))

/-- The launch element: the handshakes' rounds, the pipelines' staging rounds, no counter. -/
def u₀ : UU :=
  (initOf (K (F := F)).hsCells (K (F := F)).hsToks,
    (initOf (Pipeline.cells (Pipeline.pin (pcfgs (F := F)) admT) cellOf_inj) (Pipeline.launchToks (Pipeline.pin (pcfgs (F := F)) admT) cellOf_inj), (1 : Counters)))

omit [FloatOps F] in
theorem bigSep_emp' {I : Type} (s : Finset I) : (bigSep s fun _ => iprop(emp)) = (iprop(emp) : sProp 𝕄) := bigSep_emp_const s

omit [FloatOps F] in
theorem Gd_intro (d : Dev nD) :
    iprop((cellsGhost (Pipeline.pin (pcfgs (F := F)) admT) EP 0 d ∗ cellsGhost (Pipeline.pin (pcfgs (F := F)) admT) EP 1 d)
        ∗ ((toksInit (Pipeline.pin (pcfgs (F := F)) admT) EP 0 d : sProp 𝕄) ∗ toksInit (Pipeline.pin (pcfgs (F := F)) admT) EP 1 d))
      ⊢ Gd (F := F) d := by
  unfold Gd
  iintro ⟨⟨A0, A1⟩, ⟨B0, B1⟩⟩
  isplitl [A0 B0]
  · isplitl [A0] <;> iassumption
  isplitl [A1] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m psumOf histOf goPay tdPay).x q thr) := by
  unfold u₀
  iintro Hu
  ihave H := (ownU_pair _ _) $$ Hu
  icases H with ⟨HH, HR⟩
  ihave H2 := (own_pair_emb embR _ _) $$ HR
  icases H2 with ⟨HP, -⟩
  ihave HP := (show (BI.own (((Emb.inl : Emb UP (UP × Counters)).trans embR) (initOf (Pipeline.cells (Pipeline.pin (pcfgs (F := F)) admT) cellOf_inj) (Pipeline.launchToks (Pipeline.pin (pcfgs (F := F)) admT) cellOf_inj))) : sProp 𝕄)
      ⊢ BI.own (EP (initOf (Pipeline.cells (Pipeline.pin (pcfgs (F := F)) admT) cellOf_inj) (Pipeline.launchToks (Pipeline.pin (pcfgs (F := F)) admT) cellOf_inj))) from by unfold EP; exact BI.Entails.refl _) $$ HP
  imod (Pipeline.fund_ghost (Pipeline.pin (pcfgs (F := F)) admT) EP cellOf_inj) $$ HP with ⟨Hcg, Htk⟩
  imodintro
  isplitl [HH]; · iexact HH
  isplitl [Hcg Htk]
  · iapply (show iprop((bigSep Finset.univ fun c : Dev nD => bigSep Finset.univ fun p : Fin 2 => cellsGhost (Pipeline.pin (pcfgs (F := F)) admT) EP p c)
          ∗ (bigSep Finset.univ fun c : Dev nD => bigSep Finset.univ fun p : Fin 2 => (toksInit (Pipeline.pin (pcfgs (F := F)) admT) EP p c : sProp 𝕄)))
        ⊢ bigSep Finset.univ fun d : Dev nD => Gd (F := F) d from by
      rw [← bigSep_sep']
      exact bigSep_mono fun d _ => by
        rw [bigSep_W0, bigSep_W0]
        exact Gd_intro d)
    isplitl [Hcg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end LaunchElem

/-! ## The run -/

section RunMain

variable (m : (ℓ : Loc nD τ sig) → Buf (Elt F) ℓ) (ρ : Dev nD → PrngReg)
variable [FloatOps F]
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))
variable (goPay tdPay : Dev nD → Fin 16 → sProp (MT nD τ sig (HIx 1) (Elt F) ℕ UU ℕ))
variable (pdats : (p : Fin 2) → (c : Dev nD) → Pipeline.Dat τ (Elt F) (HIx 1) ℕ UU ℕ (Pipeline.pin (pcfgs (F := F)) admT p) c)
variable (R0 : Pipeline.RegionSeg (pcfgs (F := F)) admT pdats (none : HIx 1) (defs₀ (F := F)) 𝒱₀ (K (F := F)).L (K (F := F)).lev 0)
  (R2 : Pipeline.RegionSeg (pcfgs (F := F)) admT pdats (none : HIx 1) (defs₀ (F := F)) 𝒱₀ (K (F := F)).L (K (F := F)).lev 1)

/-- What the final memory is read for: the result and the two arguments of device `d`. -/
def fq (d : Dev nD) (s' : Phys nD τ sig (Elt F)) : Prop :=
  s'.mem.mem ((SparseCore.T d).loc main_v8) = W9 m psumOf histOf combOf d (rf main_v8)
    ∧ s'.mem.mem ((SparseCore.T d).loc main_arg0) = W9 m psumOf histOf combOf d (rf main_arg0)
    ∧ s'.mem.mem ((SparseCore.T d).loc main_arg1) = W9 m psumOf histOf combOf d (rf main_arg1)

theorem hfin (d : Dev nD) (s' : Phys nD τ sig (Elt F)) :
    iprop(FIN m psumOf histOf combOf d ∗ SI s') ⊢ (⌜fq m psumOf histOf combOf d s'⌝ : sProp 𝕄) := by
  unfold FIN
  rw [held_SAll]
  iintro ⟨⟨H0, H1, -, -, -, -, -, -, -, -, H8⟩, HSI⟩
  icombine HSI H0 gives %h0
  icombine HSI H1 gives %h1
  icombine HSI H8 gives %h8
  ipureintro
  exact ⟨Buf.eq_of_forall_mem_univ h8, Buf.eq_of_forall_mem_univ h0, Buf.eq_of_forall_mem_univ h1⟩

/-- The post of the run: on every device the result array at the chain's last valuation, the arguments as it has them. -/
def QC : PUnit × MemSt nD τ sig (Elt F) → Prop := fun r => ∀ c : Dev nD,
  r.2.mem ((SparseCore.T c).loc main_v8) = W9 m psumOf histOf combOf c (rf main_v8)
    ∧ r.2.mem ((SparseCore.T c).loc main_arg0) = W9 m psumOf histOf combOf c (rf main_arg0)
    ∧ r.2.mem ((SparseCore.T c).loc main_arg1) = W9 m psumOf histOf combOf c (rf main_arg1)

set_option backward.isDefEq.respectTransparency.types false in
/-- Every weakly fair execution of the device's threads terminates, nothing faulting, and ends at `QC`: from the tile's
    obligation, the split of the call's operands among the tiles, and the two regions' records. -/
theorem run_main [∀ e, Nonempty (Elt F e)]
    (hgo : ∀ d i, BI.Storable (upEmb : UEmb _ 𝕄) (goPay d i)) (htd : ∀ d i, BI.Storable (upEmb : UEmb _ 𝕄) (tdPay d i))
    (htile : (K (F := F)).TileObl (D (F := F)) 𝒱 (P m psumOf histOf goPay tdPay) v₀ 0)
    (hvec : (K (F := F)).VecSplit (P m psumOf histOf goPay tdPay) 0)
    (hpre0 : ∀ d, iprop(unscopedBufs d (fun b => W4 m d (rf b)) ∗ owesT (F := F) d 0) ⊢ R0.pre d)
    (hpost0 : ∀ d, R0.post d ⊢ iprop(unscopedBufs d (fun b => W5 m psumOf d (rf b)) ∗ owesT (F := F) d 0))
    (hpre2 : ∀ d, iprop(unscopedBufs d (fun b => W7 m psumOf histOf d (rf b)) ∗ owesT (F := F) d 1) ⊢ R2.pre d)
    (hpost2 : ∀ d, R2.post d ⊢ iprop(unscopedBufs d (fun b => W8 m psumOf histOf combOf d (rf b)) ∗ owesT (F := F) d 1)) :
    θ_run (Cert.Kernel.defs (F := F)) (Cert.Kernel.threads (F := F)) ⟨m, fun _ => 0, ρ⟩ (QC m psumOf histOf combOf) :=
  haveI := P_storable (F := F) m psumOf histOf goPay tdPay hgo htd
  SparseCore.Cfg.θ_run_sc (K := K (F := F)) (D := D (F := F)) (𝒱 := 𝒱) (EH := EH) (P := P m psumOf histOf goPay tdPay) facts v₀
    (fun q hq => match q with | 0 => nomatch hq)
    (fun q _ => match q with | 0 => htile)
    (fun q _ => match q with | 0 => hvec)
    m ρ main (fun d => Gd (F := F) d) (FIN m psumOf histOf combOf) (u₀ (F := F))
    (sep_elim_left.trans (hu₀ m psumOf histOf goPay tdPay))
    (hmain m ρ psumOf histOf combOf goPay tdPay pdats R0 R2 hpre0 hpost0 hpre2 hpost2)
    (fq m psumOf histOf combOf) (hfin m psumOf histOf combOf) (QC m psumOf histOf combOf) (fun _ h => h)

end RunMain

end Cert.Proof.KB
end
-- ==== Proof.SoftmaxRunB.lean ====
/-
  The softmax column-sum kernel (pipeline 0) run from its skeleton on whole staging memrefs, in each of its three control
  cases, to explicit contents: at the first grid point the carried scratch is zeroed and then accumulates the point's
  block term; at the points in between it accumulates only; at the last point it accumulates and stores the scratch's
  row sums into the result's staging buffer.
-/
import proofs.«210303_g84464826843916_cont_9to1c4b_132_15_alg».proof.Proof.CommonB
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The two branch conditions, in closed form over the grid -/

/-- The first conditional's condition as the body computes it from the coordinates: both are zero. -/
abbrev sm0_condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem sm0_hcondFirst : ∀ t : Fin cfg0.N, sm0_condFirst (grid0.coords t) ↔ t.val = 0 :=
  (by decide +kernel : ∀ t : Fin grid0.N, sm0_condFirst (grid0.coords t) ↔ t.val = 0)
/-- The second conditional's condition: the coordinates are the last ones. -/
abbrev sm0_condLast (i : grid0.Coords) : Prop := k0_cond2 i = 1#1
/-- It holds at the last point only. -/
theorem sm0_hcondLast : ∀ t : Fin cfg0.N, sm0_condLast (grid0.coords t) ↔ t.val = 7 :=
  (by decide +kernel : ∀ t : Fin grid0.N, sm0_condLast (grid0.coords t) ↔ t.val = 7)

/-! ## Loads and stores through the whole-shape rectangle at zero offsets -/

section Whole

variable {Val : EltTy → Type} {sg : RefSig} {κ : Kind} {sp : Space} {Sh : Shape} {e : EltTy}

/-- A load through the whole-shape rectangle at zero offsets reads the view's contents. -/
theorem sm0_readAt_unit_zero (v : View sg κ sp Sh e) {off : Fin Sh.rank → Nat} (h : off = fun _ => 0)
    (inb : ∀ a, off a + Sh.size a ≤ Sh.size a) (f : v.ty.Contents Val) :
    v.readAt Val (Rect.unit off Sh.size inb).toLoadRect f = v.read Val f :=
  View.ld_unit_zero h inb (v.read Val f)

/-- A store through it, last, leaves its payload whatever was stored before. -/
theorem sm0_read_writes_unit_zero (v : View sg κ sp Sh e) {off : Fin Sh.rank → Nat} (h : off = fun _ => 0)
    (inb : ∀ a, off a + Sh.size a ≤ Sh.size a) (f : v.ty.Contents Val) (w : Sh.Idx → Val e) (Ls : List (View.Piece Val Sh e)) :
    v.read Val (v.writes Val f ((⟨Rect.unit off Sh.size inb, w⟩ : View.Piece Val Sh e) :: Ls)) = w := by
  subst h; funext y
  have e := View.read_writes_cons_emb v f (Rect.whole Sh) w Ls y
  rwa [Rect.emb_whole_apply] at e

end Whole

theorem sm0_off2 : (![0, 0] : Fin S64x4096.rank → Nat) = fun _ => 0 := by funext a; fin_cases a <;> rfl
theorem sm0_off2' : (![0, 0] : Fin S64x1.rank → Nat) = fun _ => 0 := by funext a; fin_cases a <;> rfl

/-! ## The pure functions -/

/-- The block's term: its exponentials (shifted by the column maxima) times the reciprocals of their column sums. -/
def blockTerm (x0 : Vec F S64x4096 .f32) : Vec F S64x4096 .f32 :=
  have v6 : FVec F S64x4096 .f32 := shapeCast S64x4096 x0 shapeCasts_S64x4096_S64x4096
  have v7 : FVec F S4096 .f32 := multiReduction .maximumf [0] S4096 v6 0xFF800000#32 reduces_S64x4096_S4096 (.inl rfl) rfl
  have v8 : FVec F S1x4096 .f32 := shapeCast S1x4096 v7 shapeCasts_S4096_S1x4096
  have v9 : FVec F S64x4096 .f32 := broadcastTo S64x4096 v8 broadcasts_S1x4096_S64x4096
  have v10 : FVec F S64x4096 .f32 := subf v6 v9
  have v11 : FVec F S64x4096 .f32 := exp v10
  have v12 : FVec F S4096 .f32 := multiReduction .add [0] S4096 v11 0x00000000#32 reduces_S64x4096_S4096 (.inl rfl) rfl
  have v13 : FVec F S1x4096 .f32 := shapeCast S1x4096 v12 shapeCasts_S4096_S1x4096
  have cst_4 : F .f32 := Scalar.ofBits .f32 0x3F800000#32
  have v14 : FVec F S1x4096 .f32 := broadcast S1x4096 cst_4
  have v15 : FVec F S1x4096 .f32 := divf v14 v13
  have v17 : FVec F S64x4096 .f32 := broadcastTo S64x4096 v15 broadcasts_S1x4096_S64x4096
  mulf v11 v17

/-- The accumulating store's payload is the scratch plus the block's term. -/
theorem k0_pay2_eq (x0 acc : Vec F S64x4096 .f32) : k0_pay2 x0 acc = addf acc (blockTerm x0) :=
  shapeCast_self _ _

/-- The zeroing store's payload is the zero vector. -/
theorem k0_pay1_eq : (k0_pay1 : FVec F S64x4096 .f32) = broadcast S64x4096 (Scalar.ofBits .f32 0x00000000#32) :=
  shapeCast_self _ _

/-! ## The body in its three cases -/

set_option maxHeartbeats 1000000 in
/-- THE FIRST POINT: the scratch, at anything, is zeroed and then holds the block's term added to zero; the result's
    staging buffer is left as found. -/
theorem sm0_runFirst (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : sm0_condFirst i) (hc1 : ¬sm0_condLast i)
    (x0 : Vec F S64x4096 .f32) (x1 : Vec F S64x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay2 x0 k0_pay1)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%f1, %hf1, H1⟩, ⟨%ds0, %fs0, %hfs0, HS0⟩, Hk⟩
  obtain rfl := harg2.eq_unread hf0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr; swap; · iexact HS0
  ipureintro
  rw [sm0_read_writes_unit_zero _ sm0_off2, sm0_readAt_unit_zero _ sm0_off2, hf0]
  unfold sm0_runFirst.sl.v16 sm0_runFirst.sl.HS0_1
  rw [View.readCov_unit_zero (S := S64x4096) _ sm0_off2]

set_option maxHeartbeats 1000000 in
/-- A POINT IN BETWEEN: the scratch at `xs0` ends at the block's term added to it; the result's staging buffer is left
    as found. -/
theorem sm0_runMid (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : ¬sm0_condFirst i) (hc1 : ¬sm0_condLast i)
    (x0 : Vec F S64x4096 .f32) (xs0 : Vec F S64x4096 .f32) (x1 : Vec F S64x1 .f32) (E : Set ℕ) (K : PUnit → sProp 𝕄) :
    iprop(owns (c : Thread nD τ) arg2 fullShare x0 ∗ owns (c : Thread nD τ) arg3 fullShare x1 ∗ owns (c : Thread nD τ) arg4 fullShare xs0
        ∗ (iprop(owns (c : Thread nD τ) arg2 fullShare x0 ∗ owns (c : Thread nD τ) arg3 fullShare x1 ∗ owns (c : Thread nD τ) arg4 fullShare (k0_pay2 x0 xs0)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr; swap; · iexact HS0
  ipureintro
  rw [sm0_read_writes_unit_zero _ sm0_off2, sm0_readAt_unit_zero _ sm0_off2, sm0_readAt_unit_zero _ sm0_off2, hf0, hfs0]

set_option maxHeartbeats 1000000 in
/-- THE LAST POINT: the scratch at `xs0` ends at the block's term added to it, and the result's staging buffer, at
    anything, ends at the row sums of that. -/
theorem sm0_runLast (c : Dev nD) (i : grid0.Coords) (arg2 : Memref sig .tc .vmem S64x4096 .f32) (harg2 : arg2.IsWhole) (arg3 : Memref sig .tc .vmem S64x1 .f32) (harg3 : arg3.IsWhole) (arg4 : Memref sig .tc .vmem S64x4096 .f32) (harg4 : arg4.IsWhole) (hc0 : ¬sm0_condFirst i) (hc1 : sm0_condLast i)
    (x0 : Vec F S64x4096 .f32) (xs0 : Vec F S64x4096 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__softmax_body i arg2 harg2 arg3 harg3 arg4 harg4) K := by
  simp only [cc0__softmax_body_eq_skeleton]; unfold cc0__softmax_body_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr; swap; · iexact H1
    ipureintro
    rw [sm0_read_writes_unit_zero _ sm0_off2']
    unfold sm0_runLast.sl.v28 sm0_runLast.sl.HS0_1
    rw [View.readCov_unit_zero (S := S64x4096) _ sm0_off2, sm0_readAt_unit_zero _ sm0_off2, sm0_readAt_unit_zero _ sm0_off2, hf0, hfs0]
  iexists _; isplitr; swap; · iexact HS0
  ipureintro
  unfold sm0_runLast.sl.HS0_1
  rw [sm0_read_writes_unit_zero _ sm0_off2, sm0_readAt_unit_zero _ sm0_off2, sm0_readAt_unit_zero _ sm0_off2, hf0, hfs0]

end Cert.Proof.KB

end
-- ==== Proof.SoftmaxB.lean ====
/-
  TensorCore region 0, the softmax column sums: the pure functions (the carried scratch after each grid point, the row sums
  the last point stores), the pipeline's proof data with the scratch carried in the invariant, the body obligation by the
  three runs of the body, and the region's record for the segment rule.
-/
import proofs.«210303_g84464826843916_cont_9to1c4b_132_15_alg».proof.Proof.SoftmaxRunB
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The pure functions -/

/-- Window 0's block at point `t`, read off contents `V1` of the input array. -/
def sm0_blk (V1 : main_v1.ty.Contents (Elt F)) (t : Fin cfg0.N) : Vec F S64x4096 .f32 :=
  ((cfg0.win 0).blk t).view.read (Elt F) V1

/-- The carried scratch after `n` grid points: zero, then each point's block term added. -/
def accAfter (V1 : main_v1.ty.Contents (Elt F)) : ℕ → Vec F S64x4096 .f32
  | 0 => k0_pay1
  | n + 1 => if h : n < cfg0.N then k0_pay2 (sm0_blk V1 ⟨n, h⟩) (accAfter V1 n) else accAfter V1 n

/-- What the last point stores into the result: the row sums of the scratch after all eight points. -/
def psumOut (V1 : main_v1.ty.Contents (Elt F)) : Vec F S64x1 .f32 := k0_pay3 (accAfter V1 8)

theorem accAfter_zero (V1 : main_v1.ty.Contents (Elt F)) : accAfter V1 0 = k0_pay1 := rfl

theorem accAfter_succ (V1 : main_v1.ty.Contents (Elt F)) (t : Fin cfg0.N) :
    accAfter V1 (t.val + 1) = k0_pay2 (sm0_blk V1 t) (accAfter V1 t.val) := by
  obtain ⟨n, hn⟩ := t
  exact dif_pos hn

/-- The recursion as the mathematics reads it: the scratch plus the block's term. -/
theorem accAfter_succ' (V1 : main_v1.ty.Contents (Elt F)) (t : Fin cfg0.N) :
    accAfter V1 (t.val + 1) = addf (accAfter V1 t.val) (blockTerm (sm0_blk V1 t)) := by
  rw [accAfter_succ, k0_pay2_eq]

/-! ## Where the windows are idle, and the memrefs the body is called with -/

theorem sm0_live0 : ∀ t : Fin cfg0.N, cfg0.idle 0 (grid0.coords t) = false := by decide +kernel
theorem sm0_idle1 : ∀ t : Fin cfg0.N, ¬sm0_condLast (grid0.coords t) → cfg0.idle 1 (grid0.coords t) = true := by decide +kernel
theorem sm0_noFlush1 : ∀ t : Fin cfg0.N, ¬sm0_condLast (grid0.coords t) → (cfg0.win 1).flush t = false := by decide +kernel
theorem sm0_live1 : ∀ t : Fin cfg0.N, sm0_condLast (grid0.coords t) → cfg0.idle 1 (grid0.coords t) = false := by decide +kernel

abbrev sm0_ms0 (t : Fin cfg0.N) : Memref sig .tc .vmem S64x4096 .f32 := win0_0.stage (cfg0.slots t 0)
abbrev sm0_hs0 (t : Fin cfg0.N) : (sm0_ms0 t).IsWhole := hstage0_0 ((cfg0.slots t 0).cast nbuf0_0)
abbrev sm0_ms1 (t : Fin cfg0.N) : Memref sig .tc .vmem S64x1 .f32 := win0_1.stage (cfg0.slots t 1)
abbrev sm0_hs1 (t : Fin cfg0.N) : (sm0_ms1 t).IsWhole := hstage0_1 ((cfg0.slots t 1).cast nbuf0_1)
/-- The scratch operand: a whole scoped buffer of the kernel's own. -/
abbrev sm0_scM : Memref sig .tc .vmem S64x4096 .f32 := Memref.whole cc0_scratch0

/-! ## The invariant: the scratch carried between points -/

/-- The core's other scoped buffers that are no staging buffer of this pipeline, each at some contents. -/
def sm0_rest3 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- The scratch before position `n`: at anything before the first point, then at what the points so far accumulated. -/
def sm0_scr (c : Dev nD) (V1 : main_v1.ty.Contents (Elt F)) : ℕ → sProp 𝕄
  | 0 => iprop(∃ d, owns (c : Thread nD τ) sm0_scM fullShare d)
  | n + 1 => owns (c : Thread nD τ) sm0_scM fullShare (accAfter V1 (n + 1))

theorem sm0_scr_pos (c : Dev nD) (V1 : main_v1.ty.Contents (Elt F)) (n : ℕ) (hn : n ≠ 0) :
    (sm0_scr c V1 n : sProp 𝕄) = owns (c : Thread nD τ) sm0_scM fullShare (accAfter V1 n) := by
  cases n with
  | zero => exact absurd rfl hn
  | succ n => rfl

/-- The scoped rest is the scratch at some contents beside the other three buffers. -/
theorem sm0_scopedRest_eq (c : Dev nD) (V1 : main_v1.ty.Contents (Elt F)) :
    (Pipeline.scopedRest (Ix := HIx 1) (Name := ℕ) (U := UU) (Lvl := ℕ) (Val := Elt F) spec0 c : sProp 𝕄)
      = iprop(sm0_scr c V1 0 ∗ sm0_rest3 c) := by
  rw [scopedRest0_eq]; unfold sm0_scr sm0_rest3; simp only [sm0_scM, owns_whole]; rfl

/-! ## The proof data -/

variable (O : CellTallies nD τ sig (HIx 1)) (Bnd : SemLoc sig × HIx 1 → Prop)

/-- The proof data of pipeline 0 on core `c`, its arrays found at the valuation `W`: after the body at point `t` the input's
    buffer holds its block and the result's the row sums of the scratch so far (stored at the last point only: elsewhere the
    window is idle); the invariant carries the scratch; the core owes the constant tallies `O` throughout, its recorded pairs
    within `Bnd`. -/
def dat0 (c : Dev nD) (W : (b : Ref sig .tc) → Buf (Elt F) ((c : Thread nD τ).loc b)) : Dat τ (Elt F) (HIx 1) ℕ UU ℕ cfg0 c where
  A w := W (Pipeline.arrRef spec0 w)
  after w t := match w with
    | ⟨0, _⟩ => sm0_blk (W main_v1) t
    | ⟨1, _⟩ => k0_pay3 (accAfter (W main_v1) (t.val + 1))
  Φ t := iprop(sm0_scr c (W main_v1) t.val ∗ sm0_rest3 c)
  q _ := fullShare
  owed _ := O
  recorded _ := {p | Bnd p}

theorem sm0_A_eq (c : Dev nD) (W : (b : Ref sig .tc) → Buf (Elt F) ((c : Thread nD τ).loc b)) (w : Fin cfg0.W) :
    (dat0 O Bnd c W).A w = W (Pipeline.arrRef spec0 w) := by dsimp only [dat0]
theorem sm0_after0 (c : Dev nD) (W : (b : Ref sig .tc) → Buf (Elt F) ((c : Thread nD τ).loc b)) (t : Fin cfg0.N) :
    (dat0 O Bnd c W).after 0 t = sm0_blk (W main_v1) t := by dsimp only [dat0]
theorem sm0_after1 (c : Dev nD) (W : (b : Ref sig .tc) → Buf (Elt F) ((c : Thread nD τ).loc b)) (t : Fin cfg0.N) :
    (dat0 O Bnd c W).after 1 t = k0_pay3 (accAfter (W main_v1) (t.val + 1)) := by dsimp only [dat0]

/-- The input's current staging buffer holds its block at every point, fetched there or not. -/
theorem sm0_before0 (c : Dev nD) (W : (b : Ref sig .tc) → Buf (Elt F) ((c : Thread nD τ).loc b)) (t : Fin cfg0.N) (d) :
    (dat0 O Bnd c W).before 0 t d = sm0_blk (W main_v1) t :=
  ((dat0 O Bnd c W).before_in_eq_fetched 0 rfl (fun _ => rfl) (fun _ _ _ => rfl)
      (fun t => by rw [sm0_after0]; unfold Dat.blockOf sm0_blk; rw [sm0_A_eq]; try rfl) t d).trans
    (by unfold Dat.fetched Dat.blockOf sm0_blk; rw [sm0_A_eq]; try rfl)

/-! ## The body obligation -/

def sm0_bodyPre (c : Dev nD) (W : (b : Ref sig .tc) → Buf (Elt F) ((c : Thread nD τ).loc b)) (t : Fin cfg0.N) : sProp 𝕄 :=
  iprop((dat0 O Bnd c W).Φ t.castSucc ∗ (dat0 O Bnd c W).owesAt none t.castSucc
    ∗ (∃ d, owns (c : Thread nD τ) (sm0_ms0 t) fullShare ((dat0 O Bnd c W).before 0 t d))
    ∗ (∃ d, owns (c : Thread nD τ) (sm0_ms1 t) fullShare ((dat0 O Bnd c W).before 1 t d)))

def sm0_bodyPost (c : Dev nD) (W : (b : Ref sig .tc) → Buf (Elt F) ((c : Thread nD τ).loc b)) (t : Fin cfg0.N) : sProp 𝕄 :=
  iprop((dat0 O Bnd c W).Φ t.succ ∗ (dat0 O Bnd c W).owesAt none t.succ
    ∗ (dat0 O Bnd c W).leavesExact 0 t
    ∗ (dat0 O Bnd c W).leavesExact 1 t)

set_option maxHeartbeats 2000000 in
/-- The body at any point: the input's memref holds its block; the closed forms say which case the point is in; the invariant
    hands the body the scratch at what the points before accumulated (at anything at the first point) and takes it back with
    this point's term added; the result's buffer passes through as found but at the last point, where it takes the row sums. -/
theorem sm0_sound_body (c : Dev nD) (W : (b : Ref sig .tc) → Buf (Elt F) ((c : Thread nD τ).loc b)) (t : Fin cfg0.N) :
    sm0_bodyPre O Bnd c W t ⊢ wp frame (wpE (defs₀ (F := F)) Variants.none c none) Set.univ (bodyAt0 t) (fun _ => sm0_bodyPost O Bnd c W t) := by
  unfold sm0_bodyPre sm0_bodyPost bodyAt0
  simp only [sm0_before0]
  rw [show (dat0 O Bnd c W).owesAt none t.succ = (dat0 O Bnd c W).owesAt none t.castSucc from rfl]
  rw [show (dat0 O Bnd c W).Φ t.succ = iprop(owns (c : Thread nD τ) sm0_scM fullShare (accAfter (W main_v1) (t.val + 1)) ∗ sm0_rest3 c) from rfl,
    show (dat0 O Bnd c W).Φ t.castSucc = iprop(sm0_scr c (W main_v1) t.val ∗ sm0_rest3 c) from rfl]
  rw [show (dat0 O Bnd c W).leavesExact 0 t = owns (c : Thread nD τ) (sm0_ms0 t) fullShare ((dat0 O Bnd c W).after 0 t) from by
    unfold Dat.leavesExact; rw [sm0_live0 t], sm0_after0]
  rw [accAfter_succ]
  have hN : t.val < 8 := lt_of_lt_of_eq t.isLt (show cfg0.N = 8 from N_0)
  by_cases h7 : t.val = 7
  · have hc1 : sm0_condLast (grid0.coords t) := (sm0_hcondLast t).mpr h7
    have hc0 : ¬sm0_condFirst (grid0.coords t) := fun h => by have := (sm0_hcondFirst t).mp h; omega
    rw [show (dat0 O Bnd c W).leavesExact 1 t = owns (c : Thread nD τ) (sm0_ms1 t) fullShare ((dat0 O Bnd c W).after 1 t) from by
      unfold Dat.leavesExact; rw [sm0_live1 t hc1], sm0_after1, accAfter_succ]
    rw [sm0_scr_pos c _ t.val (by omega)]
    iintro ⟨⟨HS, Hr⟩, Ho, ⟨%d0, H0⟩, ⟨%d1, H1⟩⟩
    iapply (sm0_runLast c (grid0.coords t) _ _ _ _ _ _ hc0 hc1 (sm0_blk (W main_v1) t) (accAfter (W main_v1) t.val) Set.univ _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · have hc1 : ¬sm0_condLast (grid0.coords t) := fun h => h7 ((sm0_hcondLast t).mp h)
    rw [Dat.leavesExact_idle (dat0 O Bnd c W) 1 t (sm0_idle1 t hc1) (sm0_noFlush1 t hc1)]
    by_cases h0 : t.val = 0
    · have hc0 : sm0_condFirst (grid0.coords t) := (sm0_hcondFirst t).mpr h0
      rw [h0, accAfter_zero, show (sm0_scr c (W main_v1) 0 : sProp 𝕄) = iprop(∃ d, owns (c : Thread nD τ) sm0_scM fullShare d) from rfl]
      iintro ⟨⟨HS, Hr⟩, Ho, ⟨%d0, H0⟩, ⟨%d1, H1⟩⟩
      iapply (sm0_runFirst c (grid0.coords t) _ _ _ _ _ _ hc0 hc1 (sm0_blk (W main_v1) t) _ Set.univ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      iexists _; iexact H1
    · have hc0 : ¬sm0_condFirst (grid0.coords t) := fun h => h0 ((sm0_hcondFirst t).mp h)
      rw [sm0_scr_pos c _ t.val h0]
      iintro ⟨⟨HS, Hr⟩, Ho, ⟨%d0, H0⟩, ⟨%d1, H1⟩⟩
      iapply (sm0_runMid c (grid0.coords t) _ _ _ _ _ _ hc0 hc1 (sm0_blk (W main_v1) t) (accAfter (W main_v1) t.val) _ Set.univ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      iexists _; iexact H1

/-- The library's body obligation, at every point. -/
theorem sm0_body_obligation (c : Dev nD) (W : (b : Ref sig .tc) → Buf (Elt F) ((c : Thread nD τ).loc b)) :
    BodyObligation (dat0 (F := F) O Bnd c W) (defs₀ (F := F)) Variants.none (none : HIx 1) Set.univ := fun t => by
  rw [bigSep_W0, bigSep_W0]
  exact sm0_sound_body O Bnd c W t

/-! ## The region's record -/

/-- The one admissible table of contents of a pipeline without prefetched tables. -/
abbrev sm0_adm : (p : Fin 2) → (pcfgs (F := F) p).Adm := fun p => (cfgs p).toPCfg_adm

/-- What the core owes while the region runs: the constant tallies `O`, its recorded pairs all within `Bnd`. -/
def sm0_owes (c : Dev nD) : sProp 𝕄 :=
  iprop(∃ Ws : Finset (SemLoc sig × HIx 1), ⌜∀ p ∈ Ws, Bnd p⌝ ∗ owes (c : Thread nD τ) O Ws)

/-- The thread state the region is entered from: the core's unscoped buffers at the valuation `W`, and what it owes. -/
def sm0_pre (c : Dev nD) (W : (b : Ref sig .tc) → Buf (Elt F) ((c : Thread nD τ).loc b)) : sProp 𝕄 :=
  iprop((unscopedBufs (Ix := HIx 1) (Name := ℕ) (U := UU) (Lvl := ℕ) c W : sProp 𝕄) ∗ sm0_owes O Bnd c)

/-- The thread state it leaves: the input array as found, the result array at the row sums of the accumulated scratch, every
    other unscoped buffer as found, and what the core owes. -/
def sm0_post (c : Dev nD) (W : (b : Ref sig .tc) → Buf (Elt F) ((c : Thread nD τ).loc b)) : sProp 𝕄 :=
  iprop((((c : Thread nD τ).loc main_v1) ↦{fullShare} W main_v1) ∗ (((c : Thread nD τ).loc main_v4) ↦{fullShare} psumOut (W main_v1))
    ∗ (Pipeline.unscopedRest (Ix := HIx 1) (Name := ℕ) (U := UU) (Lvl := ℕ) spec0 c W : sProp 𝕄) ∗ sm0_owes O Bnd c)

variable (L : GSem nD τ sig → Finset (HIx 1)) (lv : GSem nD τ sig → HIx 1 → ℕ)

/-- THE REGION, for any family of proof data whose member at pipeline 0 is `dat0`: the two arrays go into the pipeline, the other
    unscoped buffers bypass it, the scoped rest is the invariant at the first point and comes back from the one at the last, the
    core owes `O` throughout. `hwaits`: the staging cells' waits sit below everything owed. `hfin`: the result array's final
    contents, computed by the library from the proof data, are the row sums. -/
def R0 (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 O Bnd c (W c))
    (hB : ∀ w s, Bnd (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c)
    (hfin : ∀ c, (dat0 O Bnd c (W c)).arrAt 1 cfg0.N = psumOut (W c main_v1)) :
    Pipeline.RegionSeg (pcfgs (F := F)) sm0_adm pdats (none : HIx 1) (defs₀ (F := F)) Variants.none L lv 0 where
  win := launch0.win.to₀
  block_pos := launch0.block_pos
  stage_whole := launch0.stage_whole
  K := PEmpty
  osem k := k.elim
  ho := Pipeline.OwnSemFacts.none _
  hbody c := by rw [h0 c]; exact (sm0_body_obligation O Bnd c (W c)).loose
  hwaits := hwaits
  pre c := sm0_pre O Bnd c (W c)
  post c := sm0_post O Bnd c (W c)
  X _ := iprop(emp)
  Y _ := iprop(emp)
  Z c := Pipeline.unscopedRest (Ix := HIx 1) (Name := ℕ) (U := UU) (Lvl := ℕ) spec0 c (W c)
  hentry c := by
    rw [Pipeline.ownSems0_none]
    have hsplit := Pipeline.arrays_of_unscopedBufs (pcfgs (F := F)) sm0_adm pdats (p := 0) launch0.win launch0.arr_whole c
      (by rw [h0 c]; exact (dat0 O Bnd c (W c)).share_full fun _ => rfl) (W c) (by rw [h0 c]; exact fun _ => rfl)
    unfold sm0_pre sm0_owes
    iintro ⟨⟨Hub, ⟨%Ws, %hWs, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h0 c]; unfold Pipeline.Dat.owesAt Pipeline.owesWithin
      iexists Ws; isplitr; · ipureintro; exact fun p hp => Or.inl (hWs p (Finset.mem_coe.mp hp))
      iexact HO
    isplitr; · iempintro
    iexact Hr
  hin c := by
    rw [h0 c, show (dat0 O Bnd c (W c)).Φ 0 = iprop(sm0_scr c (W c main_v1) 0 ∗ sm0_rest3 c) from rfl, ← sm0_scopedRest_eq c (W c main_v1)]
    iintro ⟨-, -, H⟩; iexact H
  hout c := by
    rw [h0 c, Pipeline.ownSems0_none]
    show (dat0 O Bnd c (W c)).Φ (Fin.last cfg0.N) ⊢ iprop(emp ∗ BI.emp ∗ (Pipeline.scopedRest (Ix := HIx 1) (Name := ℕ) (U := UU) (Lvl := ℕ) (Val := Elt F) spec0 c : sProp 𝕄))
    rw [sm0_scopedRest_eq c (W c main_v1),
      show (dat0 O Bnd c (W c)).Φ (Fin.last cfg0.N) = iprop(sm0_scr c (W c main_v1) 8 ∗ sm0_rest3 c) from rfl,
      show (sm0_scr c (W c main_v1) 8 : sProp 𝕄) = owns (c : Thread nD τ) sm0_scM fullShare (accAfter (W c main_v1) 8) from rfl,
      show (sm0_scr c (W c main_v1) 0 : sProp 𝕄) = iprop(∃ d, owns (c : Thread nD τ) sm0_scM fullShare d) from rfl]
    iintro ⟨HS, Hr⟩
    isplitr; · iempintro
    isplitr; · iempintro
    isplitl [HS]; · iexists _; iexact HS
    iexact Hr
  hexit c := by
    have hsh : ∀ w, (pdats 0 c).share w = fullShare := by rw [h0 c]; exact (dat0 O Bnd c (W c)).share_full fun _ => rfl
    have harr : ∀ Fa, ((pdats 0 c).arrays Fa : sProp 𝕄) = iprop((((c : Thread nD τ).loc main_v1) ↦{fullShare} Fa 0) ∗ (((c : Thread nD τ).loc main_v4) ↦{fullShare} Fa 1)) := fun Fa => by
      rw [Pipeline.arrays_eq (Pipeline.pin (pcfgs (F := F)) sm0_adm) pdats 0 c launch0.arr_whole hsh Fa, bigSep_W0]
      rfl
    rw [harr, h0 c,
      show (dat0 O Bnd c (W c)).arrAt 0 (Pipeline.pin (pcfgs (F := F)) sm0_adm 0).N = W c main_v1 from (dat0 O Bnd c (W c)).arrAt_in 0 rfl _,
      show (dat0 O Bnd c (W c)).arrAt 1 (Pipeline.pin (pcfgs (F := F)) sm0_adm 0).N = psumOut (W c main_v1) from hfin c]
    unfold sm0_post sm0_owes Pipeline.Dat.owesAt Pipeline.owesWithin
    iintro ⟨⟨H1, H4⟩, ⟨%Ws, %hWs, HO⟩, -, Hr⟩
    imodintro
    isplitl [H1]; · iexact H1
    isplitl [H4]; · iexact H4
    isplitl [Hr]; · iexact Hr
    iexists Ws; isplitr; swap; · iexact HO
    ipureintro
    intro p hp
    rcases hWs (Finset.mem_coe.mpr hp) with h | ⟨w, s, rfl⟩
    · exact h
    · exact hB w s

end Cert.Proof.KB

end
-- ==== Proof.HistSplitB.lean ====
/-
  The histogram call against the launch theorem: the tiles' shares of the call's operands and results as the launch's payloads,
  the split of the operands among the sixteen tiles and the join of their results, and the tile's obligation from a proof of
  the kernel's body on one tile.
-/
import proofs.«210303_g84464826843916_cont_9to1c4b_132_15_alg».proof.Proof.HistTileB
import proofs.«210303_g84464826843916_cont_9to1c4b_132_15_alg».proof.Proof.RunB
import proofs.«210303_g84464826843916_cont_9to1c4b_132_15_alg».proof.Proof.SoftmaxB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)
  (H : (d : Dev nD) → Buf (Elt F) (a3Loc d) → Buf (Elt F) (a5Loc d))

/-! ## The payloads -/

/-- The one device. -/
abbrev dZero : Dev nD := ⟨0, by decide⟩

/-- The histogram as a function of the index array's contents alone (there is one device). -/
def histK : (rf main_v3).ty.Contents (Elt F) → (rf main_v5).ty.Contents (Elt F) := fun i3 => H dZero i3

theorem histK_eq (d : Dev nD) (i3 : Buf (Elt F) (a3Loc d)) : histK H i3 = H d i3 := by
  obtain rfl : d = dZero := Subsingleton.elim _ _
  rfl

/-- A tile's share of the operands, at the index array's contents when the call is made. -/
abbrev goK (d : Dev nD) (i : Fin 16) : sProp 𝕄 := goPay d (W5 m psumOut d (rf main_v3)) i
/-- A tile's share of the results: its piece of the result array at the histogram of those contents. -/
abbrev tdK (d : Dev nD) (i : Fin 16) : sProp 𝕄 :=
  tdPay d (W5 m psumOut d (rf main_v3)) (H d (W5 m psumOut d (rf main_v3))) i

theorem hgoK : ∀ d i, BI.Storable (upEmb : UEmb _ 𝕄) (goK (F := F) m d i) := fun d i => by unfold goK goPay; infer_instance
theorem htdK : ∀ d i, BI.Storable (upEmb : UEmb _ 𝕄) (tdK (F := F) m H d i) := fun d i => by unfold tdK tdPay; infer_instance

/-! ## The split -/

omit [FloatOps F] in
theorem bigSep_tasksK (Φ : Fin 16 → sProp 𝕄) :
    (bigSep Finset.univ fun i : Fin ((K (F := F)).nSub 0) => Φ (Fin.cast (nSub_all 0) i)) = bigSep Finset.univ Φ :=
  bigSep_congr fun _ _ => congrArg Φ (Fin.ext rfl)

/-- The call's operands split among the sixteen tiles, and their results join to the call's: the library's split of a kernel
    whose tasks are handed nothing of the sequencer's own buffers. -/
theorem vecSplitK' : (K (F := F)).VecSplit' (P m psumOut (histK H) (goK m) (tdK m H)) 0 := by
  intro d c
  show iprop(plT d main_v3 (W5 m psumOut d (rf main_v3)) ∗ plT d main_v5 (W5 m psumOut d (rf main_v5))) ⊢ |={Set.univ}=> iprop(
      (bigSep Finset.univ fun i : Fin ((K (F := F)).nSub 0) => goK m d (Fin.cast (nSub_all 0) i))
      ∗ ((bigSep Finset.univ fun i : Fin ((K (F := F)).nSub 0) => tdK m H d (Fin.cast (nSub_all 0) i))
          -∗ iprop(plT d main_v3 (W5 m psumOut d (rf main_v3)) ∗ plT d main_v5 (histK H (W5 m psumOut d (rf main_v3))))))
  rw [bigSep_tasksK (F := F) (goK m d), bigSep_tasksK (F := F) (tdK m H d), histK_eq H d]
  refine BIBase.Entails.trans ?_ (vec_split (F := F) d (W5 m psumOut d (rf main_v3)) (H d (W5 m psumOut d (rf main_v3))))
  iintro ⟨H3, H5⟩
  isplitl [H3]; · iexact H3
  iexists _; iexact H5

theorem vecSplitK : (K (F := F)).VecSplit (P m psumOut (histK H) (goK m) (tdK m H)) 0 :=
  SparseCore.Cfg.VecSplit.of_plain (vecSplitK' m H)

/-! ## The tile's obligation -/

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ⟨⟩
      = SparseCore.onTile hcore1 hsub1 (fun c s => cc1_hist_kernel (coordsV1 c s)
          a3V (Memref.isWhole_whole _) a5V (Memref.isWhole_whole _) sI (Memref.isWhole_whole _) sH (Memref.isWhole_whole _) cc1_scratch2 cc1_scoped0) ⟨⟩ c s := rfl

omit [FloatOps F] in
theorem obl_postK {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation from a proof of the kernel's body on one tile: from the tile's share of the operands and its scoped
    storage, owing what the launch has it owe, the body runs to the tile's share of the results, its piece of the result array
    at the histogram. -/
theorem tileOblK
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hok : ∀ d L, RowsOK d L (W5 m psumOut d (rf main_v3))) :
    (K (F := F)).TileObl (D (F := F)) 𝒱 (P m psumOut (histK H) (goK m) (tdK m H)) v₀ 0 := by
  intro d c i O W hO _ _
  simp only [show (P m psumOut (histK H) (goK m) (tdK m H)).ox = fun _ _ => 0 from rfl, add_zero]
  change _ ⊢ wp _ _ _ (Pipeline.liftProg (defs₀ (F := F) (.scVector ((K (F := F)).core 0 c) ((K (F := F)).sub 0 i)) 1 ⟨⟩)) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  refine BIBase.Entails.trans ?_ ((hbody d (coordsV1 ⟨_, hc.1⟩ ⟨_, hc.2⟩) (W5 m psumOut d (rf main_v3)) (hok d _) O W hO).trans
    (wp_mono frame _ _ fun _ => obl_postK))
  show iprop(levAts (K (F := F)).L (K (F := F)).lev ∗ emp
      ∗ goPay d (W5 m psumOut d (rf main_v3)) (jL (coordsV1 ⟨_, hc.1⟩ ⟨_, hc.2⟩))
      ∗ scopedBufs (thr d (coordsV1 ⟨_, hc.1⟩ ⟨_, hc.2⟩)) ∗ scopedSems0 (thr d (coordsV1 ⟨_, hc.1⟩ ⟨_, hc.2⟩))
      ∗ owes (thr d (coordsV1 ⟨_, hc.1⟩ ⟨_, hc.2⟩)) O W) ⊢ _
  iintro ⟨Hl, -, Hgo, Hb, Hs, HO⟩
  isplitl [Hl]; · iexact Hl
  isplitl [Hgo]; · iexact Hgo
  isplitl [Hb]; · iexact Hb
  isplitl [Hs]; · iexact Hs
  iexact HO

end Cert.Proof.KB

end
-- ==== Proof.SoftmaxFinalB.lean ====
/-
  What the result array holds when region 0 is left: the one write-back, at the last grid point, writes the row sums of the
  accumulated scratch, and its block is the whole array.
-/
import proofs.«210303_g84464826843916_cont_9to1c4b_132_15_alg».proof.Proof.SoftmaxB
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O : CellTallies nD τ sig (HIx 1)) (Bnd : SemLoc sig × HIx 1 → Prop)

/-- The one write-back, at point 7, writes the row sums: block (0, 0) of the [64,1] array read through zero offsets is the array. -/
theorem sm0_flushed_eq (c : Dev nD) (W : (b : Ref sig .tc) → Buf (Elt F) ((c : Thread nD τ).loc b)) (t : Fin cfg0.N) (hf : (cfg0.win 1).flush t = true) :
    (dat0 O Bnd c W).flushed 1 t = ((cfg0.win 1).blk t).view.read (Elt F) (psumOut (W main_v1)) := by
  have hN : cfg0.N = 8 := N_0
  have h7 : t.val = 7 := by have := (flush0_1 t).mp hf; have := t.isLt; omega
  obtain rfl : t = t0_7 := Fin.ext h7
  show (cfg0.win 1).cut (grid0.coords t0_7) ((dat0 O Bnd c W).after 1 t0_7) = _
  rw [sm0_after1]
  have hz' : (fun a => win0_1.index t0_7 a * main_v4.ty.shape.size a) = fun _ => 0 := funext fun a => by fin_cases a <;> decide
  exact (Memref.read_access_unit_zero (Elt F) main_v4 hz' (fun a => by rw [congrFun hz' a]; simp) (psumOut (W main_v1))).symm

/-- So the result array ends holding the row sums of the scratch after all eight points: point 7's block covers it. -/
theorem sm0_final (c : Dev nD) (W : (b : Ref sig .tc) → Buf (Elt F) ((c : Thread nD τ).loc b)) :
    (dat0 O Bnd c W).arrAt 1 cfg0.N = psumOut (W main_v1) :=
  (dat0 O Bnd c W).arrAt_eq_of_cover 1 (psumOut (W main_v1)) (sm0_flushed_eq O Bnd c W) fun i =>
    ⟨t0_7, (flush0_1 t0_7).mpr rfl, by
      show i ∈ ((View.whole main_v4).slice (win0_1.rect t0_7)).set
      rw [View.set_slice_whole, Rect.mem_set_unit]
      intro a
      have h0 : (i 0 : Nat) < 64 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 64 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

variable (L : GSem nD τ sig → Finset (HIx 1)) (lv : GSem nD τ sig → HIx 1 → ℕ)

/-- THE REGION, its result array ending at the row sums of the accumulated scratch: `R0` at `sm0_final`. -/
def R0' (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 O Bnd c (W c))
    (hB : ∀ w s, Bnd (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c) :
    Pipeline.RegionSeg (pcfgs (F := F)) sm0_adm pdats (none : HIx 1) (defs₀ (F := F)) Variants.none L lv 0 :=
  R0 O Bnd L lv pdats W h0 hB hwaits fun c => sm0_final O Bnd c (W c)

theorem R0'_pre (pdats W h0 hB hwaits) (c : Dev nD) : (R0' (F := F) O Bnd L lv pdats W h0 hB hwaits).pre c = sm0_pre O Bnd c (W c) := rfl
theorem R0'_post (pdats W h0 hB hwaits) (c : Dev nD) : (R0' (F := F) O Bnd L lv pdats W h0 hB hwaits).post c = sm0_post O Bnd c (W c) := rfl

end Cert.Proof.KB

end
-- ==== Proof.SoftmaxGlueB.lean ====
/-
  Region 0's thread states against a valuation of the core's buffers: the entry state is the unscoped buffers at the valuation,
  the exit state the unscoped buffers at the valuation updated at the result array.
-/
import proofs.«210303_g84464826843916_cont_9to1c4b_132_15_alg».proof.Proof.SoftmaxFinalB
import proofs.«210303_g84464826843916_cont_9to1c4b_132_15_alg».proof.Proof.CommonB
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O : CellTallies nD τ sig (HIx 1)) (Bnd : SemLoc sig × HIx 1 → Prop)

/-- The region's entry state from the core's unscoped buffers at a valuation. -/
theorem sm0_pre_of (c : Dev nD) (Wv : Valuation τ sig (Elt F)) :
    iprop((unscopedBufs (Ix := HIx 1) (Name := ℕ) (U := UU) (Lvl := ℕ) c (fun b => Wv (Proc.devRef .tc b)) : sProp 𝕄) ∗ sm0_owes O Bnd c)
      ⊢ sm0_pre O Bnd c (fun b => Wv (Proc.devRef .tc b)) := by
  unfold sm0_pre; exact .rfl

/-- The valuation updated at the result array reads the old one at every other buffer. -/
theorem sm0_upd_ne (Wv : Valuation τ sig (Elt F)) (x : (Proc.devRef (τ := τ) .tc main_v4).ty.Contents (Elt F)) (b : Ref sig .tc) (h : b ≠ main_v4) :
    Function.update Wv (Proc.devRef .tc main_v4) x (Proc.devRef .tc b) = Wv (Proc.devRef .tc b) :=
  Function.update_of_ne (StableHlo.devRef_ne_of_ne h) ..

/-- The region's exit state is the core's unscoped buffers at the valuation updated at the result array. -/
theorem sm0_post_refold (c : Dev nD) (Wv : Valuation τ sig (Elt F)) :
    sm0_post O Bnd c (fun b => Wv (Proc.devRef .tc b))
      ⊢ iprop((unscopedBufs (Ix := HIx 1) (Name := ℕ) (U := UU) (Lvl := ℕ) c
            (fun b => Function.update Wv (Proc.devRef .tc main_v4) (psumOut (Wv (Proc.devRef .tc main_v1))) (Proc.devRef .tc b)) : sProp 𝕄)
          ∗ sm0_owes O Bnd c) := by
  unfold sm0_post
  rw [Pipeline.unscopedBufs_split cfgs 0 launch0.win.arr_unscoped launch0.win.arr_inj c
    (fun b => Function.update Wv (Proc.devRef .tc main_v4) (psumOut (Wv (Proc.devRef .tc main_v1))) (Proc.devRef .tc b)), bigSep_W0]
  show _ ⊢ iprop((((((c : Thread nD τ).loc main_v1) ↦{fullShare} Function.update Wv (Proc.devRef .tc main_v4) (psumOut (Wv (Proc.devRef .tc main_v1))) (Proc.devRef .tc main_v1))
      ∗ (((c : Thread nD τ).loc main_v4) ↦{fullShare} Function.update Wv (Proc.devRef .tc main_v4) (psumOut (Wv (Proc.devRef .tc main_v1))) (Proc.devRef .tc main_v4)))
    ∗ (Pipeline.unscopedRest (Ix := HIx 1) (Name := ℕ) (U := UU) (Lvl := ℕ) spec0 c
        (fun b => Function.update Wv (Proc.devRef .tc main_v4) (psumOut (Wv (Proc.devRef .tc main_v1))) (Proc.devRef .tc b)) : sProp 𝕄)) ∗ sm0_owes O Bnd c)
  rw [unscopedRest0_eq, unscopedRest0_eq, Function.update_self,
    sm0_upd_ne Wv _ main_v1 (by decide), sm0_upd_ne Wv _ main_arg0 (by decide), sm0_upd_ne Wv _ main_arg1 (by decide),
    sm0_upd_ne Wv _ main_v0 (by decide), sm0_upd_ne Wv _ main_v2 (by decide), sm0_upd_ne Wv _ main_v3 (by decide),
    sm0_upd_ne Wv _ main_v5 (by decide), sm0_upd_ne Wv _ main_v6 (by decide), sm0_upd_ne Wv _ main_v7 (by decide),
    sm0_upd_ne Wv _ main_v8 (by decide)]
  iintro ⟨H1, H4, Hr, HO⟩
  isplitr [HO]; swap; · iexact HO
  isplitr [Hr]; swap; · iexact Hr
  isplitl [H1]; · iexact H1
  iexact H4

/-! ## The wait evidence at the SparseCore launch's levels -/

/-- A TensorCore region that owes, throughout, what the TensorCore owes before call `n` (a start unit to every SparseCore of
    every later call, each at its call's index) may wait on its staging cells at the kernels' own index: that index sits at
    level 0 on every cell, and every unit owed sits at a call's index, strictly above. -/
theorem sm_hwaits (pdats : (p : Fin 2) → (c : Dev nD) → Dat τ (Elt F) (HIx 1) ℕ UU ℕ (Pipeline.pin (pcfgs (F := F)) sm0_adm p) c)
    (p : Fin 2) (n : ℕ) (h : ∀ c t, (pdats p c).owed t = (K (F := F)).Otc c n) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) p c :=
  fun c => Pipeline.cellsWaits_of_cut (Pipeline.pin (pcfgs (F := F)) sm0_adm) pdats (none : HIx 1) p c
    (L := (K (F := F)).L) (lev := (K (F := F)).lev) 0 ((K (F := F)).Otc c n) (h c)
    (fun _ _ => Finset.mem_univ _) (fun _ _ => le_of_eq rfl)
    (fun g i hg => ⟨Finset.mem_univ _, lt_of_lt_of_le (Nat.succ_pos _) (SparseCore.Cfg.lev_of_Otc_pos hg)⟩)

/-- Region 0 (pipeline 0), before call 0. -/
theorem hwaits_0 (pdats : (p : Fin 2) → (c : Dev nD) → Dat τ (Elt F) (HIx 1) ℕ UU ℕ (Pipeline.pin (pcfgs (F := F)) sm0_adm p) c)
    (h : ∀ c t, (pdats 0 c).owed t = (K (F := F)).Otc c 0) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) 0 c :=
  sm_hwaits pdats 0 0 h

/-- Region 2 (pipeline 1), after the one call: before call 1. -/
theorem hwaits_1 (pdats : (p : Fin 2) → (c : Dev nD) → Dat τ (Elt F) (HIx 1) ℕ UU ℕ (Pipeline.pin (pcfgs (F := F)) sm0_adm p) c)
    (h : ∀ c t, (pdats 1 c).owed t = (K (F := F)).Otc c 1) :
    ∀ c, (levAts (K (F := F)).L (K (F := F)).lev : sProp (MT nD τ sig (HIx 1) (Elt F) ℕ UU ℕ))
      ⊢ Pipeline.cellsWaits (Pipeline.pin (pcfgs (F := F)) sm0_adm) pdats (none : HIx 1) 1 c :=
  sm_hwaits pdats 1 1 h

/-- After the one call the TensorCore owes nothing more. -/
theorem sm_Otc_one (c : Dev nD) : (K (F := F)).Otc c 1 = 0 := (K (F := F)).Otc_end c le_rfl

end Cert.Proof.KB

end
-- ==== Proof.SoftmaxRegionB.lean ====
/-
  Region 0's record with the tallies the core owes and the bound on its recorded pairs given per core.
-/
import proofs.«210303_g84464826843916_cont_9to1c4b_132_15_alg».proof.Proof.SoftmaxFinalB
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- THE REGION, the tallies owed and the bound on the recorded pairs given per core: for any family of proof data whose member at
    pipeline 0 on core `c` is `dat0 (Oc c) (Bc c) c (W c)`. The two arrays go into the pipeline, the other unscoped buffers bypass
    it, the scoped rest is the invariant at the first point and comes back from the one at the last, the core owes `Oc c`
    throughout, and the result array ends at the row sums (`sm0_final`). -/
def R0c (Oc : Dev nD → CellTallies nD τ sig (HIx 1)) (Bc : Dev nD → SemLoc sig × HIx 1 → Prop)
    (L : GSem nD τ sig → Finset (HIx 1)) (lv : GSem nD τ sig → HIx 1 → ℕ)
    (pdats : (p : Fin 2) → (c : Dev nD) → Dat τ (Elt F) (HIx 1) ℕ UU ℕ (Pipeline.pin (pcfgs (F := F)) sm0_adm p) c)
    (W : (c : Dev nD) → (b : Ref sig .tc) → Buf (Elt F) ((c : Thread nD τ).loc b))
    (h0 : ∀ c, pdats 0 c = dat0 (Oc c) (Bc c) c (W c))
    (hB : ∀ c w s, Bc c (.dma ((cfg0.win w).sem s), none))
    (hwaits : ∀ c, (levAts L lv : sProp (MT nD τ sig (HIx 1) (Elt F) ℕ UU ℕ)) ⊢ Pipeline.cellsWaits (Pipeline.pin (pcfgs (F := F)) sm0_adm) pdats (none : HIx 1) 0 c) :
    Pipeline.RegionSeg (pcfgs (F := F)) sm0_adm pdats (none : HIx 1) (defs₀ (F := F)) Variants.none L lv 0 where
  win := launch0.win.to₀
  block_pos := launch0.block_pos
  stage_whole := launch0.stage_whole
  K := PEmpty
  osem k := k.elim
  ho := Pipeline.OwnSemFacts.none _
  hbody c := by rw [h0 c]; exact (sm0_body_obligation (Oc c) (Bc c) c (W c)).loose
  hwaits := hwaits
  pre c := sm0_pre (Oc c) (Bc c) c (W c)
  post c := sm0_post (Oc c) (Bc c) c (W c)
  X _ := iprop(emp)
  Y _ := iprop(emp)
  Z c := Pipeline.unscopedRest (Ix := HIx 1) (Name := ℕ) (U := UU) (Lvl := ℕ) spec0 c (W c)
  hentry c := by
    rw [Pipeline.ownSems0_none]
    have hsplit := Pipeline.arrays_of_unscopedBufs (pcfgs (F := F)) sm0_adm pdats (p := 0) launch0.win launch0.arr_whole c
      (by rw [h0 c]; exact (dat0 (Oc c) (Bc c) c (W c)).share_full fun _ => rfl) (W c) (by rw [h0 c]; exact fun _ => rfl)
    unfold sm0_pre sm0_owes
    iintro ⟨⟨Hub, ⟨%Ws, %hWs, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h0 c]; unfold Pipeline.Dat.owesAt Pipeline.owesWithin
      iexists Ws; isplitr; · ipureintro; exact fun p hp => Or.inl (hWs p (Finset.mem_coe.mp hp))
      iexact HO
    isplitr; · iempintro
    iexact Hr
  hin c := by
    rw [h0 c, show (dat0 (Oc c) (Bc c) c (W c)).Φ 0 = iprop(sm0_scr c (W c main_v1) 0 ∗ sm0_rest3 c) from rfl, ← sm0_scopedRest_eq c (W c main_v1)]
    iintro ⟨-, -, H⟩; iexact H
  hout c := by
    rw [h0 c, Pipeline.ownSems0_none]
    show (dat0 (Oc c) (Bc c) c (W c)).Φ (Fin.last cfg0.N) ⊢ iprop(emp ∗ BI.emp ∗ (Pipeline.scopedRest (Ix := HIx 1) (Name := ℕ) (U := UU) (Lvl := ℕ) (Val := Elt F) spec0 c : sProp 𝕄))
    rw [sm0_scopedRest_eq c (W c main_v1),
      show (dat0 (Oc c) (Bc c) c (W c)).Φ (Fin.last cfg0.N) = iprop(sm0_scr c (W c main_v1) 8 ∗ sm0_rest3 c) from rfl,
      show (sm0_scr c (W c main_v1) 8 : sProp 𝕄) = owns (c : Thread nD τ) sm0_scM fullShare (accAfter (W c main_v1) 8) from rfl,
      show (sm0_scr c (W c main_v1) 0 : sProp 𝕄) = iprop(∃ d, owns (c : Thread nD τ) sm0_scM fullShare d) from rfl]
    iintro ⟨HS, Hr⟩
    isplitr; · iempintro
    isplitr; · iempintro
    isplitl [HS]; · iexists _; iexact HS
    iexact Hr
  hexit c := by
    have hsh : ∀ w, (pdats 0 c).share w = fullShare := by rw [h0 c]; exact (dat0 (Oc c) (Bc c) c (W c)).share_full fun _ => rfl
    have harr : ∀ Fa, ((pdats 0 c).arrays Fa : sProp 𝕄) = iprop((((c : Thread nD τ).loc main_v1) ↦{fullShare} Fa 0) ∗ (((c : Thread nD τ).loc main_v4) ↦{fullShare} Fa 1)) := fun Fa => by
      rw [Pipeline.arrays_eq (Pipeline.pin (pcfgs (F := F)) sm0_adm) pdats 0 c launch0.arr_whole hsh Fa, bigSep_W0]
      rfl
    rw [harr, h0 c,
      show (dat0 (Oc c) (Bc c) c (W c)).arrAt 0 (Pipeline.pin (pcfgs (F := F)) sm0_adm 0).N = W c main_v1 from (dat0 (Oc c) (Bc c) c (W c)).arrAt_in 0 rfl _,
      show (dat0 (Oc c) (Bc c) c (W c)).arrAt 1 (Pipeline.pin (pcfgs (F := F)) sm0_adm 0).N = psumOut (W c main_v1) from sm0_final (Oc c) (Bc c) c (W c)]
    unfold sm0_post sm0_owes Pipeline.Dat.owesAt Pipeline.owesWithin
    iintro ⟨⟨H1, H4⟩, ⟨%Ws, %hWs, HO⟩, -, Hr⟩
    imodintro
    isplitl [H1]; · iexact H1
    isplitl [H4]; · iexact H4
    isplitl [Hr]; · iexact Hr
    iexists Ws; isplitr; swap; · iexact HO
    ipureintro
    intro p hp
    rcases hWs (Finset.mem_coe.mpr hp) with h | ⟨w, s, rfl⟩
    · exact h
    · exact hB c w s

theorem R0c_pre (Oc Bc L lv pdats W h0 hB hwaits) (c : Dev nD) : (R0c (F := F) Oc Bc L lv pdats W h0 hB hwaits).pre c = sm0_pre (Oc c) (Bc c) c (W c) := rfl
theorem R0c_post (Oc Bc L lv pdats W h0 hB hwaits) (c : Dev nD) : (R0c (F := F) Oc Bc L lv pdats W h0 hB hwaits).post c = sm0_post (Oc c) (Bc c) c (W c) := rfl

end Cert.Proof.KB

end
-- ==== Proof.CombineB.lean ====
/-
  The combination kernel of the program (the second TensorCore region): one point, two vector loads of whole
  staging buffers, an unused scalar load of the output cell, and one scalar store. What the store leaves is a pure
  function of the two loaded blocks; the region's proof data names it, and the kernel body meets the pipeline's
  body obligation for that data.
-/
import proofs.«210303_g84464826843916_cont_9to1c4b_132_15_alg».proof.Proof.CommonB
import Idealize.ShloMosaic.Lib.Pipeline.FrameBody
import Idealize.ShloMosaic.Lib.Pipeline.Value

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The value the kernel stores -/

/-- The one word the combination leaves, from the column of row sums `p` (64 × 1) and the histogram `c`
    (128 × 128): the constant 0.64 times the sum over the 64 lanes `e` of
    `((Σ_r c[r, e] + Σ_r c[r, 64 + e]) · 2⁻¹⁸) · (p[e, 0] · 2⁻¹⁵)`, every operation in the program's float
    arithmetic and in the program's order. -/
def combineOut (p : Vec F S64x1 .f32) (c : Vec F S128x128 .f32) : Vec F S1 .f32 := fun _ => k2_pay1 c p

theorem combineOut_apply (p : Vec F S64x1 .f32) (c : Vec F S128x128 .f32) (i : S1.Idx) : combineOut p c i = k2_pay1 c p := rfl

/-! ## The kernel's triple -/

theorem zeros_S64x1 : (![0, 0] : Fin S64x1.rank → Nat) = fun _ => 0 := funext fun a => by fin_cases a <;> rfl
theorem zeros_S128x128 : (![0, 0] : Fin S128x128.rank → Nat) = fun _ => 0 := funext fun a => by fin_cases a <;> rfl
theorem zeros_S1 : (![0] : Fin S1.rank → Nat) = fun _ => 0 := funext fun a => by fin_cases a; rfl

set_option maxHeartbeats 1000000 in
/-- The kernel on whole buffers, the two inputs' at read contents `x0`, `x1` and the output cell's at anything, runs to
    the continuation holding the inputs' as they were and the output cell's at `combineOut x0 x1`: both loads read
    their whole buffers, and the one store covers the one-word buffer. -/
theorem sound_combine (c : Dev nD) (E : Set ℕ) (arg0 : Memref sig .tc .vmem S64x1 .f32) (harg0 : arg0.IsWhole) (arg1 : Memref sig .tc .vmem S128x128 .f32) (harg1 : arg1.IsWhole) (arg2 : Memref sig .tc .smem S1 .f32) (harg2 : arg2.IsWhole)
    (x0 : Vec F S64x1 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (combineOut x0 x1)) -∗ K ⟨⟩))
      ⊢ wp frame (wpE (defs₀ (F := F)) Variants.none c none) E (cc2__combine_body arg0 harg0 arg1 harg1 arg2 harg2) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zeros_S1 inb_S1_S1_0 y⟩),
    View.canon_unit_zero zeros_S1]
  simp only [View.readAt_eq_ld, View.ld_unit_zero (S := S128x128) zeros_S128x128, View.ld_unit_zero (S := S64x1) zeros_S64x1]
  rfl

/-! ## The region's proof data -/

section Data

variable (O : CellTallies nD τ sig (HIx 1)) (Bnd : SemLoc sig × HIx 1 → Prop) (W : Dev nD → Valuation τ sig (Elt F))

/-- Window `w`'s block at the one point, read off its array at the valuation `W c`. -/
def iblk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The proof data of the combination's pipeline on core `c`: the three arrays as the valuation `W c` has them; after
    the body each input's buffer at its block and the output cell at `combineOut` of the two input blocks; the
    invariant the core's scoped buffers no window stages, untouched; the core owing the constant tallies `O`
    throughout, its recorded pairs within `Bnd`; full shares. -/
def dat2 (c : Dev nD) : Dat τ (Elt F) (HIx 1) ℕ UU ℕ cfg2 c where
  A w := W c (Pipeline.arrRef spec2 w)
  after w t := match w with
    | ⟨0, _⟩ => iblk2 W c 0 t
    | ⟨1, _⟩ => iblk2 W c 1 t
    | ⟨2, _⟩ => combineOut (iblk2 W c 0 t) (iblk2 W c 1 t)
  Φ _ := Pipeline.scopedRest (Ix := HIx 1) (Name := ℕ) (U := UU) (Lvl := ℕ) (Val := Elt F) spec2 c
  q _ := fullShare
  owed _ := O
  recorded _ := {p | Bnd p}

theorem dat2_A (c : Dev nD) (w : Fin cfg2.W) : (dat2 O Bnd W c).A w = W c (Pipeline.arrRef spec2 w) := by dsimp only [dat2]

theorem after2_0 (c : Dev nD) (t : Fin cfg2.N) : (dat2 O Bnd W c).after 0 t = iblk2 W c 0 t := by dsimp only [dat2]
theorem after2_1 (c : Dev nD) (t : Fin cfg2.N) : (dat2 O Bnd W c).after 1 t = iblk2 W c 1 t := by dsimp only [dat2]
theorem after2_2 (c : Dev nD) (t : Fin cfg2.N) : (dat2 O Bnd W c).after 2 t = combineOut (iblk2 W c 0 t) (iblk2 W c 1 t) := by dsimp only [dat2]

/-- Each input is fetched at the one point: its staging buffer holds its block there. -/
theorem before2_0 (c : Dev nD) (t : Fin cfg2.N) (d) : (dat2 O Bnd W c).before 0 t d = iblk2 W c 0 t := by
  unfold Dat.before; rw [if_pos (fetch2_0 t)]
  unfold Dat.fetched Dat.blockOf iblk2; rw [dat2_A]; rfl
theorem before2_1 (c : Dev nD) (t : Fin cfg2.N) (d) : (dat2 O Bnd W c).before 1 t d = iblk2 W c 1 t := by
  unfold Dat.before; rw [if_pos (fetch2_1 t)]
  unfold Dat.fetched Dat.blockOf iblk2; rw [dat2_A]; rfl

/-! ## The body obligation -/

/-- What the body is called with at the point, the windows one by one, -/
def bodyPre2 (c : Dev nD) (t : Fin cfg2.N) : sProp 𝕄 :=
  iprop((dat2 O Bnd W c).Φ t.castSucc ∗ (dat2 O Bnd W c).owesAt none t.castSucc
    ∗ (∃ d, owns (c : Thread nD τ) (st2_0 t) fullShare ((dat2 O Bnd W c).before 0 t d))
    ∗ (∃ d, owns (c : Thread nD τ) (st2_1 t) fullShare ((dat2 O Bnd W c).before 1 t d))
    ∗ (∃ d, owns (c : Thread nD τ) (st2_2 t) fullShare ((dat2 O Bnd W c).before 2 t d)))

/-- and what it returns. -/
def bodyPost2 (c : Dev nD) (t : Fin cfg2.N) : sProp 𝕄 :=
  iprop((dat2 O Bnd W c).Φ t.succ ∗ (dat2 O Bnd W c).owesAt none t.succ
    ∗ owns (c : Thread nD τ) (st2_0 t) fullShare ((dat2 O Bnd W c).after 0 t)
    ∗ owns (c : Thread nD τ) (st2_1 t) fullShare ((dat2 O Bnd W c).after 1 t)
    ∗ owns (c : Thread nD τ) (st2_2 t) fullShare ((dat2 O Bnd W c).after 2 t))

/-- The body at the point: the inputs' buffers hold their blocks, so the kernel's triple applies; the invariant and
    what the core owes pass through unread. -/
theorem sound_body2 (c : Dev nD) (t : Fin cfg2.N) :
    bodyPre2 O Bnd W c t ⊢ wp frame (wpE (defs₀ (F := F)) Variants.none c none) Set.univ (bodyAt2 t) (fun _ => bodyPost2 O Bnd W c t) := by
  unfold bodyPre2 bodyPost2 bodyAt2
  simp only [before2_0, before2_1]
  rw [show (dat2 O Bnd W c).Φ t.succ = (dat2 O Bnd W c).Φ t.castSucc from rfl,
    show (dat2 O Bnd W c).owesAt none t.succ = (dat2 O Bnd W c).owesAt none t.castSucc from rfl,
    after2_0, after2_1, after2_2]
  iintro ⟨HΦ, Ho, ⟨%d0, H0⟩, ⟨%d1, H1⟩, ⟨%d2, H2⟩⟩
  iapply (sound_combine c Set.univ _ _ _ _ _ _ (iblk2 W c 0 t) (iblk2 W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the data, at the one point. -/
theorem body_obligation2 (c : Dev nD) : BodyObligation (dat2 O Bnd W c) (defs₀ (F := F)) Variants.none (none : HIx 1) Set.univ := fun t => by
  rw [bigSep_W2, bigSep_W2]
  exact sound_body2 O Bnd W c t

end Data

/-! ## The arrays after the region -/

section Exit

variable (O : CellTallies nD τ sig (HIx 1)) (Bnd : SemLoc sig × HIx 1 → Prop) (W : Dev nD → Valuation τ sig (Elt F))

/-- The two input arrays are never written: at every stage they hold what the valuation has. -/
theorem arrAt2_0 (c : Dev nD) (n : Nat) : (dat2 O Bnd W c).arrAt 0 n = W c main_v4 := (dat2 O Bnd W c).arrAt_in 0 rfl n
theorem arrAt2_1 (c : Dev nD) (n : Nat) : (dat2 O Bnd W c).arrAt 1 n = W c main_v6 := (dat2 O Bnd W c).arrAt_in 1 rfl n

/-- Each whole-array window's block at the point is the whole array: its offsets are zero. -/
theorem blkoff2_0 : (fun a => (win2_0.index t2_0) a * main_v4.ty.shape.size a) = fun _ => 0 := funext fun a => by fin_cases a <;> decide
theorem blkoff2_1 : (fun a => (win2_1.index t2_0) a * main_v6.ty.shape.size a) = fun _ => 0 := funext fun a => by fin_cases a <;> decide
theorem blkoff2_2 : (fun a => (win2_2.index t2_0) a * main_v7.ty.shape.size a) = fun _ => 0 := funext fun a => by fin_cases a <;> decide

theorem iblk2_0 (c : Dev nD) : iblk2 W c 0 t2_0 = W c main_v4 :=
  Memref.read_access_unit_zero (Elt F) main_v4 blkoff2_0 (fun a => by fin_cases a <;> decide) _
theorem iblk2_1 (c : Dev nD) : iblk2 W c 1 t2_0 = W c main_v6 :=
  Memref.read_access_unit_zero (Elt F) main_v6 blkoff2_1 (fun a => by fin_cases a <;> decide) _

/-- The result array after the region: the one write-back of the one point overwrites the whole one-word array with
    what the body left, `combineOut` of the two input arrays. -/
theorem arrAt2_2 (c : Dev nD) : (dat2 O Bnd W c).arrAt 2 cfg2.N = combineOut (W c main_v4) (W c main_v6) := by
  rw [show cfg2.N = (t2_0 : Fin cfg2.N).val + 1 from rfl, (dat2 O Bnd W c).arrAt_succ (2 : Fin 3) t2_0,
    flush2_2 t2_0, if_pos rfl]
  refine (Memref.write_access_unit_zero_univ (Elt F) main_v7 blkoff2_2 (fun a => by fin_cases a <;> decide) _ _).trans ?_
  show (cfg2.win 2).cut _ ((dat2 O Bnd W c).after 2 t2_0) = _
  rw [after2_2, iblk2_0, iblk2_1]
  rfl

end Exit

end Cert.Proof.KB

end
-- ==== Proof.CombineRegionB.lean ====
/-
  The combination as a region of the TensorCore's program: the thread state it is entered from and the one it leaves
  (the core's unscoped buffers at a valuation, and what the core owes), with the pipeline's layout, the kernel's body
  obligation and the four entailments that sort the entry state into the pipeline's arrays and the rest, and put the
  exit state together again with the result array at the value the kernel stored.
-/
import proofs.«210303_g84464826843916_cont_9to1c4b_132_15_alg».proof.Proof.CombineB

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible contents of each pipeline's (absent) prefetched tables. -/
abbrev adm : (p : Fin 2) → (pcfgs (F := F) p).Adm := fun p => (cfgs p).toPCfg_adm

section Region

variable (O : CellTallies nD τ sig (HIx 1)) (Bnd : SemLoc sig × HIx 1 → Prop) (W : Dev nD → Valuation τ sig (Elt F))
variable (L : GSem nD τ sig → Finset (HIx 1)) (lv : GSem nD τ sig → HIx 1 → ℕ)
variable (pdats : (p : Fin 2) → (c : Dev nD) → Dat τ (Elt F) (HIx 1) ℕ UU ℕ (Pipeline.pin (pcfgs (F := F)) adm p) c)

/-- The valuation the region leaves: the result array at the value the kernel stored, every other buffer as entered. -/
abbrev Wcomb (c : Dev nD) : Valuation τ sig (Elt F) :=
  Function.update (W c) (Proc.devRef .tc main_v7) (combineOut (W c main_v4) (W c main_v6))

theorem Wcomb_v7 (c : Dev nD) : Wcomb W c main_v7 = combineOut (W c main_v4) (W c main_v6) := Function.update_self ..
theorem Wcomb_of_ne (c : Dev nD) (b : Ref sig .tc) (h : (Proc.devRef .tc b : DevRef τ sig) ≠ Proc.devRef .tc main_v7) : Wcomb W c b = W c b :=
  Function.update_of_ne h ..

/-- The core owing the tallies `O`, every pair its waits have recorded within `Bnd`. -/
def owesB (c : Dev nD) : sProp 𝕄 :=
  iprop(∃ B : Finset (SemLoc sig × HIx 1), ⌜∀ p ∈ B, Bnd p⌝ ∗ owes (c : Thread nD τ) O B)

theorem owesB_eq (c : Dev nD) :
    (owesB O Bnd c : sProp (MT nD τ sig (HIx 1) (Elt F) ℕ UU ℕ))
      = iprop(∃ B : Finset (SemLoc sig × HIx 1), ⌜∀ p ∈ B, Bnd p⌝ ∗ owes (c : Thread nD τ) O B) := rfl

/-- A buffer of core `c` at the full share, spelt at the location. -/
abbrev pl2 (c : Dev nD) (b : Ref sig .tc) (f : b.ty.Contents (Elt F)) : sProp 𝕄 := ((c : Thread nD τ).loc b) ↦{fullShare} f

/-- The region's three arrays at contents `Fa` are the three buffers held. -/
theorem arrays2_eq (hq : ∀ c w, (pdats 1 c).q w = fullShare) (c : Dev nD) (Fa) :
    ((pdats 1 c).arrays Fa : sProp 𝕄) = iprop(pl2 c main_v4 (Fa 0) ∗ pl2 c main_v6 (Fa 1) ∗ pl2 c main_v7 (Fa 2)) := by
  rw [Pipeline.arrays_eq (Pipeline.pin (pcfgs (F := F)) adm) pdats 1 c launch2.arr_whole ((pdats 1 c).share_full (hq c)) Fa, bigSep_W2]
  rfl

/-- A core's unscoped buffers at contents `V` are the region's three arrays and the rest. -/
theorem unscopedBufs2_eq (c : Dev nD) (V : (b : Ref sig .tc) → Buf (Elt F) ((c : Thread nD τ).loc b)) :
    (unscopedBufs (Ix := HIx 1) (Name := ℕ) (U := UU) (Lvl := ℕ) c V : sProp 𝕄)
      = iprop((pl2 c main_v4 (V main_v4) ∗ pl2 c main_v6 (V main_v6) ∗ pl2 c main_v7 (V main_v7))
          ∗ Pipeline.unscopedRest (Ix := HIx 1) (Name := ℕ) (U := UU) (Lvl := ℕ) spec2 c V) := by
  rw [Pipeline.unscopedBufs_split (Pipeline.pin (pcfgs (F := F)) adm) 1 launch2.win.arr_unscoped launch2.win.arr_inj c V, bigSep_W2]
  rfl

/-- The data's invariant, at every point: the scoped buffers no window of the pipeline stages. -/
theorem dat2_Φ (c : Dev nD) (t) : (dat2 O Bnd W c).Φ t
    = Pipeline.scopedRest (Ix := HIx 1) (Name := ℕ) (U := UU) (Lvl := ℕ) (Val := Elt F) (Pipeline.pin (pcfgs (F := F)) adm 1).spec c := rfl

local notation "ℝ𝕊" => Pipeline.RegionSeg (pcfgs (F := F)) adm pdats (none : HIx 1) defs₀ 𝒱₀ L lv

/-- THE COMBINATION'S REGION: the three arrays into the pipeline, the eight other unscoped buffers bypassing it, the
    scoped buffers no window stages through the invariant, the core owing `O` throughout; at the exit the result
    array holds `combineOut` of the two operand arrays and everything else is as it was. -/
def R2 (h1 : ∀ c, pdats 1 c = dat2 O Bnd W c)
    (hB : ∀ w s, Bnd (.dma ((cfg2.win w).sem s), none))
    (hwaits : ∀ c, (levAts L lv : sProp (MT nD τ sig (HIx 1) (Elt F) ℕ UU ℕ)) ⊢ Pipeline.cellsWaits (Pipeline.pin (pcfgs (F := F)) adm) pdats (none : HIx 1) 1 c) : ℝ𝕊 1 where
  win := launch2.win.to₀
  block_pos := launch2.block_pos
  stage_whole := launch2.stage_whole
  K := PEmpty
  osem k := k.elim
  ho := Pipeline.OwnSemFacts.none _
  hbody c := by rw [h1 c]; exact (body_obligation2 O Bnd W c).loose
  hwaits := hwaits
  pre c := iprop(unscopedBufs c (fun b => W c b) ∗ owesB O Bnd c)
  post c := iprop(unscopedBufs c (fun b => Wcomb W c b) ∗ owesB O Bnd c)
  X _ := iprop(emp)
  Y _ := iprop(emp)
  Z c := Pipeline.unscopedRest (Ix := HIx 1) (Name := ℕ) (U := UU) (Lvl := ℕ) spec2 c (fun b => W c b)
  hentry c := by
    rw [Pipeline.ownSems0_none]
    have hsplit := Pipeline.arrays_of_unscopedBufs (pcfgs (F := F)) adm pdats (p := 1) launch2.win launch2.arr_whole c
      ((pdats 1 c).share_full fun w => by rw [h1 c]; rfl) (fun b => W c b) fun w => by rw [h1 c]; exact dat2_A O Bnd W c w
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · rw [h1 c]; unfold owesB Pipeline.Dat.owesAt Pipeline.owesWithin
      icases HO with ⟨%B, %hB', HO⟩
      iexists B; isplitr; · ipureintro; exact fun p hp => Or.inl (hB' p (Finset.mem_coe.mp hp))
      iexact HO
    isplitr; · iempintro
    iexact Hr
  hin c := by
    rw [h1 c, dat2_Φ]
    iintro ⟨-, -, H⟩; iexact H
  hout c := by
    rw [Pipeline.ownSems0_none, h1 c, dat2_Φ]
    iintro H; isplitr; · iempintro
    isplitr; · iempintro
    iexact H
  hexit c := by
    have e0 : (pdats 1 c).arrAt 0 (Pipeline.pin (pcfgs (F := F)) adm 1).N = W c main_v4 := by rw [h1 c]; exact arrAt2_0 O Bnd W c _
    have e1 : (pdats 1 c).arrAt 1 (Pipeline.pin (pcfgs (F := F)) adm 1).N = W c main_v6 := by rw [h1 c]; exact arrAt2_1 O Bnd W c _
    have e2 : (pdats 1 c).arrAt 2 (Pipeline.pin (pcfgs (F := F)) adm 1).N = combineOut (W c main_v4) (W c main_v6) := by
      rw [h1 c]; exact arrAt2_2 O Bnd W c
    rw [arrays2_eq pdats (fun c w => by rw [h1 c]; rfl) c, e0, e1, e2, unscopedBufs2_eq c (fun b => Wcomb W c b),
      unscopedRest2_eq, unscopedRest2_eq]
    simp only [Wcomb_v7, Wcomb_of_ne W c main_v4 (by decide), Wcomb_of_ne W c main_v6 (by decide), Wcomb_of_ne W c main_arg0 (by decide),
      Wcomb_of_ne W c main_arg1 (by decide), Wcomb_of_ne W c main_v0 (by decide), Wcomb_of_ne W c main_v1 (by decide),
      Wcomb_of_ne W c main_v2 (by decide), Wcomb_of_ne W c main_v3 (by decide), Wcomb_of_ne W c main_v5 (by decide),
      Wcomb_of_ne W c main_v8 (by decide)]
    iintro ⟨Ha, HO, -, Hr⟩
    imodintro
    isplitl [Ha Hr]
    · isplitl [Ha]; · iexact Ha
      iexact Hr
    rw [h1 c]; unfold owesB Pipeline.Dat.owesAt Pipeline.owesWithin
    icases HO with ⟨%B, %hB', HO⟩
    iexists B; isplitr
    · ipureintro
      intro p hp
      rcases hB' (Finset.mem_coe.mpr hp) with h | ⟨w, s, rfl⟩
      · exact h
      · exact hB w s
    iexact HO

end Region

end Cert.Proof.KB

end
-- ==== Proof.RegionsB.lean ====
/-
  The two kernel regions of @main instantiated at the SparseCore launch's levels: the pipelines' proof data as one family,
  the two regions' records, and the four entailments that join the regions' thread states to the TensorCore's state along
  @main (the unscoped buffers at the valuation reached so far, and what the TensorCore owes before the call).
-/
import proofs.«210303_g84464826843916_cont_9to1c4b_132_15_alg».proof.Proof.LaunchB
import proofs.«210303_g84464826843916_cont_9to1c4b_132_15_alg».proof.Proof.SoftmaxGlueB
import proofs.«210303_g84464826843916_cont_9to1c4b_132_15_alg».proof.Proof.SoftmaxRegionB
import proofs.«210303_g84464826843916_cont_9to1c4b_132_15_alg».proof.Proof.CombineRegionB

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
  (histOf : (rf main_v3).ty.Contents (Elt F) → (rf main_v5).ty.Contents (Elt F))

/-- The bound on the pairs the TensorCore's waits have recorded before call `n`, on core `c`. -/
abbrev BndT (c : Dev nD) (n : ℕ) : SemLoc sig × HIx 1 → Prop := fun p => (K (F := F)).lev (T c, p.1) p.2 ≤ 8 * n
/-- The same on every core at once (there is one). -/
abbrev BndAll (n : ℕ) : SemLoc sig × HIx 1 → Prop := fun p => ∀ c' : Dev nD, (K (F := F)).lev (T c', p.1) p.2 ≤ 8 * n

/-- The two pipelines' proof data: the softmax column sums entered at the valuation after the four host operations, owing what
    the TensorCore owes before the call; the combination entered at the valuation after the call and the reshape, owing nothing. -/
def pdatsK : (p : Fin 2) → (c : Dev nD) → Pipeline.Dat τ (Elt F) (HIx 1) ℕ UU ℕ (Pipeline.pin (pcfgs (F := F)) admT p) c
  | 0 => fun c => dat0 ((K (F := F)).Otc c 0) (BndT (F := F) c 0) c (fun b => W4 m c (rf b))
  | 1 => fun c => dat2 0 (BndAll (F := F) 1) (fun c => W7 m psumOut histOf c) c

theorem hB0 : ∀ (c : Dev nD) (w : Fin cfg0.W) (s : Fin (cfg0.win w).nbuf), BndT (F := F) c 0 (.dma ((cfg0.win w).sem s), none) :=
  fun _ _ _ => Nat.zero_le _
theorem hB2 : ∀ (w : Fin cfg2.W) (s : Fin (cfg2.win w).nbuf), BndAll (F := F) 1 (.dma ((cfg2.win w).sem s), none) :=
  fun _ _ _ => Nat.zero_le _

/-- Region 0 at the launch's levels. -/
def R0K : Pipeline.RegionSeg (pcfgs (F := F)) admT (pdatsK m histOf) (none : HIx 1) (defs₀ (F := F)) 𝒱₀ (K (F := F)).L (K (F := F)).lev 0 :=
  R0c (fun c => (K (F := F)).Otc c 0) (fun c => BndT (F := F) c 0) (K (F := F)).L (K (F := F)).lev (pdatsK m histOf) (fun c b => W4 m c (rf b))
    (fun _ => rfl) hB0 (hwaits_0 (pdatsK m histOf) fun _ _ => rfl)

/-- Region 2 at the launch's levels: after the one call the TensorCore owes nothing. -/
def R2K : Pipeline.RegionSeg (pcfgs (F := F)) admT (pdatsK m histOf) (none : HIx 1) (defs₀ (F := F)) 𝒱₀ (K (F := F)).L (K (F := F)).lev 1 :=
  R2 0 (BndAll (F := F) 1) (fun c => W7 m psumOut histOf c) (K (F := F)).L (K (F := F)).lev (pdatsK m histOf)
    (fun _ => rfl) hB2 (hwaits_1 (pdatsK m histOf) fun c _ => (sm_Otc_one c).symm)

/-- Region 0 is entered from the TensorCore's state after the four host operations. -/
theorem hpre0K (d : Dev nD) :
    iprop((unscopedBufs (Ix := HIx 1) (Name := ℕ) (U := UU) (Lvl := ℕ) d (fun b => W4 m d (rf b)) : sProp 𝕄) ∗ owesT (F := F) d 0) ⊢ (R0K m histOf).pre d := by
  show _ ⊢ sm0_pre ((K (F := F)).Otc d 0) (BndT (F := F) d 0) d (fun b => W4 m d (rf b))
  unfold sm0_pre sm0_owes owesT SparseCore.Cfg.WBelow
  exact .rfl

/-- It leaves the state with the result array at the row sums. -/
theorem hpost0K (d : Dev nD) :
    (R0K m histOf).post d ⊢ iprop((unscopedBufs (Ix := HIx 1) (Name := ℕ) (U := UU) (Lvl := ℕ) d (fun b => W5 m psumOut d (rf b)) : sProp 𝕄) ∗ owesT (F := F) d 0) := by
  show sm0_post ((K (F := F)).Otc d 0) (BndT (F := F) d 0) d (fun b => W4 m d (rf b)) ⊢ _
  refine (sm0_post_refold ((K (F := F)).Otc d 0) (BndT (F := F) d 0) d (W4 m d)).trans ?_
  unfold sm0_owes owesT SparseCore.Cfg.WBelow W5
  exact .rfl

/-- Region 2 is entered from the TensorCore's state after the call and the reshape. -/
theorem hpre2K (d : Dev nD) :
    iprop((unscopedBufs (Ix := HIx 1) (Name := ℕ) (U := UU) (Lvl := ℕ) d (fun b => W7 m psumOut histOf d (rf b)) : sProp 𝕄) ∗ owesT (F := F) d 1) ⊢ (R2K m histOf).pre d := by
  show _ ⊢ iprop((unscopedBufs (Ix := HIx 1) (Name := ℕ) (U := UU) (Lvl := ℕ) d (fun b => W7 m psumOut histOf d b) : sProp 𝕄) ∗ owesB 0 (BndAll (F := F) 1) d)
  unfold owesB owesT
  rw [sm_Otc_one]
  iintro ⟨Hb, ⟨%Ws, %hWs, HO⟩⟩
  isplitl [Hb]; · iexact Hb
  iexists Ws; isplitr; swap; · iexact HO
  ipureintro
  intro p hp c'
  obtain rfl : c' = d := Subsingleton.elim _ _
  exact hWs p hp

/-- It leaves the state with the scalar result stored. -/
theorem hpost2K (d : Dev nD) :
    (R2K m histOf).post d ⊢ iprop((unscopedBufs (Ix := HIx 1) (Name := ℕ) (U := UU) (Lvl := ℕ) d (fun b => W8 m psumOut histOf combineOut d (rf b)) : sProp 𝕄) ∗ owesT (F := F) d 1) := by
  show iprop((unscopedBufs (Ix := HIx 1) (Name := ℕ) (U := UU) (Lvl := ℕ) d (fun b => Wcomb (fun c => W7 m psumOut histOf c) d b) : sProp 𝕄) ∗ owesB 0 (BndAll (F := F) 1) d) ⊢ _
  unfold owesB owesT Wcomb W8
  rw [sm_Otc_one]
  iintro ⟨Hb, ⟨%Ws, %hWs, HO⟩⟩
  isplitl [Hb]; · iexact Hb
  iexists Ws; isplitr; swap; · iexact HO
  ipureintro
  intro p hp
  exact hWs p hp d

/-- @main on the TensorCore, at the two regions' records: its run, the four entailments being the ones above. -/
theorem hmainK [∀ e, Nonempty (Elt F e)] (ρ : Dev nD → PrngReg)
    (goPay tdPay : Dev nD → Fin 16 → sProp (MT nD τ sig (HIx 1) (Elt F) ℕ UU ℕ))
    (κ : GSem nD τ sig → ℕ) (d : Dev nD) :
    iprop((K (F := F)).ctx EH (P m psumOut histOf goPay tdPay) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m psumOut histOf combineOut d) :=
  hmain m ρ psumOut histOf combineOut goPay tdPay (pdatsK m histOf) (R0K m histOf) (R2K m histOf)
    (hpre0K m histOf) (hpost0K m histOf) (hpre2K m histOf) (hpost2K m histOf) κ d

end Cert.Proof.KB

end
-- ==== Proof.ValChainB.lean ====
/-
  The contents of the TensorCore's arrays along the program. Each host operation writes one array as a function of
  another and leaves every other array as it was; each kernel's result replaces one array. So an array that no later
  step writes keeps its contents to the end, and each written array is read off the step that wrote it.
-/
import proofs.«210303_g84464826843916_cont_9to1c4b_132_15_alg».proof.Proof.LaunchB

noncomputable section

namespace Cert.Proof.KB

open Cert.Kernel Cert.Kernel.Gen
open Idealize.ShloMosaic

variable {F : FTy → Type} [FloatOps F]

section Chain

variable (m : (ℓ : Loc nD τ sig) → Buf (Elt F) ℓ)
variable (psumOf : (rf main_v1).ty.Contents (Elt F) → (rf main_v4).ty.Contents (Elt F))
  (histOf : (rf main_v3).ty.Contents (Elt F) → (rf main_v5).ty.Contents (Elt F))
  (combOf : (rf main_v4).ty.Contents (Elt F) → (rf main_v6).ty.Contents (Elt F) → (rf main_v7).ty.Contents (Elt F))

/-! ## A step leaves the arrays it does not write -/

theorem W1_of_ne (d : Dev nD) {b : DevRef τ sig} (h : b ≠ rf main_v0) : W1 m d b = W0 m d b :=
  (opT0 (F := F)).result_of_not_mem (W0 m d) (show b ∉ ({rf main_v0} : Finset (DevRef τ sig)) from fun hb => h (Finset.mem_singleton.mp hb))
theorem W2_of_ne (d : Dev nD) {b : DevRef τ sig} (h : b ≠ rf main_v1) : W2 m d b = W1 m d b :=
  (opR1 (F := F)).result_of_not_mem (W1 m d) (show b ∉ ({rf main_v1} : Finset (DevRef τ sig)) from fun hb => h (Finset.mem_singleton.mp hb))
theorem W3_of_ne (d : Dev nD) {b : DevRef τ sig} (h : b ≠ rf main_v2) : W3 m d b = W2 m d b :=
  (opT2 (F := F)).result_of_not_mem (W2 m d) (show b ∉ ({rf main_v2} : Finset (DevRef τ sig)) from fun hb => h (Finset.mem_singleton.mp hb))
theorem W4_of_ne (d : Dev nD) {b : DevRef τ sig} (h : b ≠ rf main_v3) : W4 m d b = W3 m d b :=
  (opR3 (F := F)).result_of_not_mem (W3 m d) (show b ∉ ({rf main_v3} : Finset (DevRef τ sig)) from fun hb => h (Finset.mem_singleton.mp hb))
theorem W5_of_ne (d : Dev nD) {b : DevRef τ sig} (h : b ≠ rf main_v4) : W5 m psumOf d b = W4 m d b :=
  Function.update_of_ne h _ _
theorem W6_of_ne (d : Dev nD) {b : DevRef τ sig} (h : b ≠ rf main_v5) : W6 m psumOf histOf d b = W5 m psumOf d b :=
  Function.update_of_ne h _ _
theorem W7_of_ne (d : Dev nD) {b : DevRef τ sig} (h : b ≠ rf main_v6) : W7 m psumOf histOf d b = W6 m psumOf histOf d b :=
  (opR6 (F := F)).result_of_not_mem (W6 m psumOf histOf d) (show b ∉ ({rf main_v6} : Finset (DevRef τ sig)) from fun hb => h (Finset.mem_singleton.mp hb))
theorem W8_of_ne (d : Dev nD) {b : DevRef τ sig} (h : b ≠ rf main_v7) : W8 m psumOf histOf combOf d b = W7 m psumOf histOf d b :=
  Function.update_of_ne h _ _
theorem W9_of_ne (d : Dev nD) {b : DevRef τ sig} (h : b ≠ rf main_v8) : W9 m psumOf histOf combOf d b = W8 m psumOf histOf combOf d b :=
  (opR8 (F := F)).result_of_not_mem (W8 m psumOf histOf combOf d) (show b ∉ ({rf main_v8} : Finset (DevRef τ sig)) from fun hb => h (Finset.mem_singleton.mp hb))

/-- Through the four host operations on the arguments, an array none of them writes is as launched. -/
theorem W4_unwritten (d : Dev nD) {b : DevRef τ sig} (h0 : b ≠ rf main_v0) (h1 : b ≠ rf main_v1) (h2 : b ≠ rf main_v2) (h3 : b ≠ rf main_v3) :
    W4 m d b = m (d, b) := by
  rw [W4_of_ne m d h3, W3_of_ne m d h2, W2_of_ne m d h1, W1_of_ne m d h0]; rfl

/-! ## The two arguments are never written -/

theorem W9_arg0 (d : Dev nD) : W9 m psumOf histOf combOf d (rf main_arg0) = m (d, rf main_arg0) := by
  rw [W9_of_ne m psumOf histOf combOf d (by decide), W8_of_ne m psumOf histOf combOf d (by decide), W7_of_ne m psumOf histOf d (by decide),
    W6_of_ne m psumOf histOf d (by decide), W5_of_ne m psumOf d (by decide),
    W4_unwritten m d (by decide) (by decide) (by decide) (by decide)]
theorem W9_arg1 (d : Dev nD) : W9 m psumOf histOf combOf d (rf main_arg1) = m (d, rf main_arg1) := by
  rw [W9_of_ne m psumOf histOf combOf d (by decide), W8_of_ne m psumOf histOf combOf d (by decide), W7_of_ne m psumOf histOf d (by decide),
    W6_of_ne m psumOf histOf d (by decide), W5_of_ne m psumOf d (by decide),
    W4_unwritten m d (by decide) (by decide) (by decide) (by decide)]

/-! ## What the kernels read -/

/-- The softmax kernel's operand: the logits transposed to `[4, 64, 8192]` and flattened to `[256, 8192]`. -/
theorem W4_v1 (d : Dev nD) :
    W4 m d (rf main_v1)
      = shapeCast S256x8192 (transpose S4x64x8192 [0, 2, 1] (m (d, rf main_arg0)) Facts₀.transposes_S4x8192x64_S4x64x8192_0_2_1)
          Facts₀.shapeCasts_S4x64x8192_S256x8192 := by
  rw [W4_of_ne m d (by decide), W3_of_ne m d (by decide)]
  unfold W2
  refine (StableHlo.reshape_result main_v0 main_v1 rfl Facts₀.shapeCasts_S4x64x8192_S256x8192 _ _ (W1 m d)).trans ?_
  unfold W1
  rw [show (opT0 (F := F)).result (W0 m d) (rf main_v0) = _ from StableHlo.unary_result main_arg0 main_v0 _ _ _ (W0 m d)]
  rfl

/-- The histogram kernel's operand: the expert indices transposed to `[4, 8, 8192]` and flattened to `[32, 8192]`. -/
theorem W4_v3 (d : Dev nD) :
    W4 m d (rf main_v3)
      = shapeCast S32x8192 (transpose S4x8x8192 [0, 2, 1] (m (d, rf main_arg1)) Facts₀.transposes_S4x8192x8_S4x8x8192_0_2_1)
          Facts₀.shapeCasts_S4x8x8192_S32x8192 := by
  unfold W4
  refine (StableHlo.reshape_result main_v2 main_v3 rfl Facts₀.shapeCasts_S4x8x8192_S32x8192 _ _ (W3 m d)).trans ?_
  unfold W3
  rw [show (opT2 (F := F)).result (W2 m d) (rf main_v2) = _ from StableHlo.unary_result main_arg1 main_v2 _ _ _ (W2 m d),
    W2_of_ne m d (by decide), W1_of_ne m d (by decide)]
  rfl

theorem W5_v3 (d : Dev nD) : W5 m psumOf d (rf main_v3) = W4 m d (rf main_v3) := W5_of_ne m psumOf d (by decide)

/-- The histogram array is as launched until the histogram kernel writes it. -/
theorem W5_v5 (d : Dev nD) : W5 m psumOf d (rf main_v5) = m (d, rf main_v5) := by
  rw [W5_of_ne m psumOf d (by decide), W4_unwritten m d (by decide) (by decide) (by decide) (by decide)]

/-! ## What the kernels and the last two host operations leave -/

theorem W5_v4 (d : Dev nD) : W5 m psumOf d (rf main_v4) = psumOf (W4 m d (rf main_v1)) := Function.update_self _ _ _
theorem W6_v5 (d : Dev nD) : W6 m psumOf histOf d (rf main_v5) = histOf (W5 m psumOf d (rf main_v3)) := Function.update_self _ _ _

/-- The combination's first operand is what the softmax kernel left. -/
theorem W7_v4 (d : Dev nD) : W7 m psumOf histOf d (rf main_v4) = psumOf (W4 m d (rf main_v1)) := by
  rw [W7_of_ne m psumOf histOf d (by decide), W6_of_ne m psumOf histOf d (by decide), W5_v4]

/-- The combination's second operand is the histogram flattened array viewed `[128, 128]`. -/
theorem W7_v6 (d : Dev nD) :
    W7 m psumOf histOf d (rf main_v6) = shapeCast S128x128 (histOf (W5 m psumOf d (rf main_v3))) Facts₀.shapeCasts_S16384_S128x128 := by
  unfold W7
  refine (StableHlo.reshape_result main_v5 main_v6 rfl Facts₀.shapeCasts_S16384_S128x128 _ _ (W6 m psumOf histOf d)).trans ?_
  rw [show W6 m psumOf histOf d (rf main_v5) = _ from W6_v5 m psumOf histOf d]
  rfl

theorem W8_v7 (d : Dev nD) :
    W8 m psumOf histOf combOf d (rf main_v7) = combOf (W7 m psumOf histOf d (rf main_v4)) (W7 m psumOf histOf d (rf main_v6)) :=
  Function.update_self _ _ _

/-- The program's result: the combination's one word viewed as a scalar. -/
theorem W9_v8 (d : Dev nD) :
    W9 m psumOf histOf combOf d (rf main_v8)
      = shapeCast S_ (combOf (W7 m psumOf histOf d (rf main_v4)) (W7 m psumOf histOf d (rf main_v6))) Facts₀.shapeCasts_S1_S_ := by
  unfold W9
  refine (StableHlo.reshape_result main_v7 main_v8 rfl Facts₀.shapeCasts_S1_S_ _ _ (W8 m psumOf histOf combOf d)).trans ?_
  rw [show W8 m psumOf histOf combOf d (rf main_v7) = _ from W8_v7 m psumOf histOf combOf d]
  rfl

end Chain

end Cert.Proof.KB

end
-- ==== Proof.RowsRangeB.lean ====
/-
  The histogram kernel assumes every index word it reads is in range. The array it reads is the index argument
  transposed and flattened, so each of its words is a word of the argument, and the input-domain precondition
  bounds every word of the argument by 64. Each tile's two rows are read off that array entry by entry.
-/
import proofs.«210303_g84464826843916_cont_9to1c4b_132_15_alg».proof.Proof.ValChainB
import proofs.«210303_g84464826843916_cont_9to1c4b_132_15_alg».proof.Proof.HistTileB
import proofs.«210303_g84464826843916_cont_9to1c4b_132_15_alg».proof.Proof.PreFinite
import proofs.«210303_g84464826843916_cont_9to1c4b_132_15_alg».proof.Proof.HostLayout

noncomputable section

namespace Cert.Proof.KB

open Cert.Kernel Cert.Kernel.Gen
open Idealize.ShloMosaic Idealize.ShloMosaic.ValueIdx

variable {F : FTy → Type} [FloatOps F]

section Rows

variable (m : (ℓ : Loc nD τ sig) → Buf (Elt F) ℓ)
variable (psumOf : (rf main_v1).ty.Contents (Elt F) → (rf main_v4).ty.Contents (Elt F))

/-- Under the precondition every word of the transposed, flattened index array is below 64. -/
theorem v3_word_lt
    (hpre : ∀ c : Dev nD, Cert.Pre_input_domain.fn (F := F) (m ((c.tc : Thread nD τ).loc main_arg0)) (m ((c.tc : Thread nD τ).loc main_arg1)) = fun _ => 1#1)
    (d : Dev nD) (j : S32x8192.Idx) : ((W5 m psumOf d (rf main_v3)) j).toNat < 64 := by
  have h1 : W5 m psumOf d (rf main_v3)
      = shapeCast S32x8192 (transpose S4x8x8192 [0, 2, 1] (m (d, rf main_arg1)) Facts₀.transposes_S4x8192x8_S4x8x8192_0_2_1)
          Facts₀.shapeCasts_S4x8x8192_S32x8192 := (W5_v3 m psumOf d).trans (W4_v3 m d)
  have h2 := Cert.Proof.HostLayout.read_32x8192 (m (d, rf main_arg1)) Facts₀.transposes_S4x8192x8_S4x8x8192_0_2_1
    Facts₀.shapeCasts_S4x8x8192_S32x8192 (j 0) (j 1)
  have hj : j = ix2 (n0 := 32) (n1 := 8192) (j 0) (j 1) := eq_ix2 j
  have hval := (congrFun h1 j).trans ((congrArg (fun k => shapeCast S32x8192 (transpose S4x8x8192 [0, 2, 1] (m (d, rf main_arg1))
    Facts₀.transposes_S4x8192x8_S4x8x8192_0_2_1) Facts₀.shapeCasts_S4x8x8192_S32x8192 k) hj).trans h2)
  rw [hval]
  exact Cert.Proof.PreFinite.idx_range _ _ (hpre d) _

/-- So every tile's two rows are in range. -/
theorem rowsOK_of_pre
    (hpre : ∀ c : Dev nD, Cert.Pre_input_domain.fn (F := F) (m ((c.tc : Thread nD τ).loc main_arg0)) (m ((c.tc : Thread nD τ).loc main_arg1)) = fun _ => 1#1) :
    ∀ d L, RowsOK d L (W5 m psumOf d (rf main_v3)) := by
  intro d L x
  exact ⟨v3_word_lt m psumOf hpre d _, v3_word_lt m psumOf hpre d _⟩

end Rows

end Cert.Proof.KB

end
-- ==== Proof.FrameAsmB.lean ====
/-
  The program's run assembled: from a proof of the histogram kernel's body on one tile and the input-domain precondition, every
  weakly fair execution of the device's threads terminates, nothing faulting, at the chain's last valuation; in particular the
  two argument arrays end as they were.
-/
import proofs.«210303_g84464826843916_cont_9to1c4b_132_15_alg».proof.Proof.HistSplitB
import proofs.«210303_g84464826843916_cont_9to1c4b_132_15_alg».proof.Proof.RegionsB
import proofs.«210303_g84464826843916_cont_9to1c4b_132_15_alg».proof.Proof.RowsRangeB
import proofs.«210303_g84464826843916_cont_9to1c4b_132_15_alg».proof.Proof.ValChainB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- THE RUN, from the kernel body's proof on one tile (`hbody`: the tile's piece of the result array ends at the histogram
    `H` of the index array) and the input-domain precondition: every weakly fair execution of the device's threads terminates,
    nothing faulting, and ends with the result and the arguments at the chain's last valuation. -/
theorem run_mainK [∀ e, Nonempty (Elt F e)] (m : (ℓ : Loc nD τ sig) → Buf (Elt F) ℓ) (ρ : Dev nD → PrngReg)
    (H : (d : Dev nD) → Buf (Elt F) (a3Loc d) → Buf (Elt F) (a5Loc d))
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (QC m psumOut (histK H) combineOut) :=
  run_main m ρ psumOut (histK H) combineOut (goK m) (tdK m H) (pdatsK m (histK H)) (R0K m (histK H)) (R2K m (histK H))
    (hgoK m) (htdK m H) (tileOblK m H hbody (rowsOK_of_pre m psumOut hpre)) (vecSplitK m H)
    (hpre0K m (histK H)) (hpost0K m (histK H)) (hpre2K m (histK H)) (hpost2K m (histK H))

/-- THE FRAME from the same: the program runs and its two argument arrays end unchanged. -/
theorem frame_of_body [∀ e, Nonempty (Elt F e)] (m : (ℓ : Loc nD τ sig) → Buf (Elt F) ℓ) (ρ : Dev nD → PrngReg)
    (H : (d : Dev nD) → Buf (Elt F) (a3Loc d) → Buf (Elt F) (a5Loc d))
    (hbody : ∀ (d : Dev nD) (L : grid1.Coords) (i3 : Buf (Elt F) (a3Loc d)) (hok : RowsOK d L i3)
        (O : CellTallies nD τ sig (HIx 1)) (W : Waits sig (HIx 1)) (hO : ∀ g, O g none = 0),
      iprop(levAts (K (F := F)).L (K (F := F)).lev ∗ goPay d i3 (jL L) ∗ scopedBufs (thr d L) ∗ scopedSems0 (thr d L) ∗ owes (thr d L) O W)
        ⊢ wp frame (wpE (defs₀ (F := F)) 𝒱₀ (thr d L) none) Set.univ
            (cc1_hist_kernel L a3V (Memref.isWhole_whole _) a5V (Memref.isWhole_whole _) sI (Memref.isWhole_whole _) sH (Memref.isWhole_whole _) cc1_scratch2 cc1_scoped0)
            fun _ => iprop(tdPay d i3 (H d i3) (jL L) ∗ scopedBufs (thr d L) ∗ scopedSems0 (thr d L)
              ∗ ∃ W', ⌜∀ p ∈ W', p ∈ W ∨ p.2 = none⌝ ∗ owes (thr d L) O W'))
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).2.1.trans (W9_arg0 m psumOut (histK H) combineOut c), (h c).2.2.trans (W9_arg1 m psumOut (histK H) combineOut c)⟩)
    (run_mainK m ρ H hbody hpre)

end Cert.Proof.KB

end
-- ==== Proof.HistSpecB.lean ====
/-
  The histogram a tile computes, as a pure function of the two rows of indices it reads: the zero vector, then for each
  of the 1024 chunks of sixteen indices in program order (row n / 512, columns 16 (n % 512) … + 15) the indexed add-store
  of a one per lane at lane offset 64 l plus the lane's index.
-/
import proofs.«210303_g84464826843916_cont_9to1c4b_132_15_alg».proof.Proof.Gen.Kernel.Skeleton

noncomputable section

namespace Cert.Proof.KB

open Cert.Kernel Cert.Kernel.Gen
open Idealize.ShloMosaic

variable {F : FTy → Type} [FloatOps F]

/-- The two rows of indices a tile reads. -/
abbrev Rows : Type := Fin 2 → IVec S8192 32

theorem chunk_col (n : ℕ) (x : S16.Idx) : 16 * (n % 512) + (x 0).val < 8192 := by
  have h : (x 0).val < 16 := (x 0).isLt
  omega

/-- Chunk `n` of the 1024: the sixteen indices of row `n / 512` at columns `16 (n % 512) … + 15`. -/
def chunkOf (rows : Rows) (n : ℕ) : IVec S16 32 :=
  fun x => rows ⟨n / 512 % 2, Nat.mod_lt _ (by decide)⟩ (Shape.ofLane (d := ![8192]) ⟨16 * (n % 512) + (x 0).val, chunk_col n x⟩)

/-- The indexed store's side condition at chunk `n`: every lane's offset plus index names a word of the histogram. -/
def ChunkOK (rows : Rows) (n : ℕ) : Prop :=
  ∀ a x, ((![addi k1_pay2 (chunkOf rows n)] : Fin 1 → IVec S16 32) a x).toNat < S1024.size a

/-- Lane `l`'s offset `64 l` plus a word below 64 is below 1024, with no wrap in 32 bits. -/
theorem chk_lt (v : IVec S16 32) (hv : ∀ x, (v x).toNat < 64) :
    ∀ a x, ((![addi k1_pay2 v] : Fin 1 → IVec S16 32) a x).toNat < S1024.size a := by
  intro a x
  have ha : a = 0 := Fin.eq_zero a
  subst ha
  have hx : (x 0).val < 16 := (x 0).isLt
  have he := hv x
  show (IntOp.addi (k1_pay2 x) (v x)).toNat < 1024
  generalize v x = e at he ⊢
  have hp : k1_pay2 x = BitVec.ofNat 32 (x 0).val * 64#32 := by
    unfold k1_pay2 muli iota broadcast IntOp.muli
    simp
  rw [hp]
  unfold IntOp.addi
  rw [BitVec.toNat_add, BitVec.toNat_mul, BitVec.toNat_ofNat]
  simp only [BitVec.toNat_ofNat]
  omega

/-- Rows of words below 64 meet every chunk's side condition. -/
theorem chunkOK_of_range (rows : Rows) (h : ∀ r x, (rows r x).toNat < 64) (n : ℕ) : ChunkOK rows n :=
  chk_lt _ fun _ => h _ _

open scoped Classical in
/-- The histogram scratch after the zeroing and the first `n` chunks. -/
def histRec (rows : Rows) : ℕ → Vec F S1024 .f32
  | 0 => broadcast S1024 (Scalar.ofBits .f32 0x00000000#32 : F .f32)
  | n + 1 =>
    if h : ChunkOK rows n then
      storeIdx (histRec rows n) ![addi k1_pay2 (chunkOf rows n)] (k1_pay3 (F := F)) (fun _ => 1#1) true h
    else histRec rows n

theorem histRec_zero (rows : Rows) : histRec (F := F) rows 0 = broadcast S1024 (Scalar.ofBits .f32 0x00000000#32 : F .f32) := rfl

/-- One chunk's step, its side condition in hand. -/
theorem histRec_succ (rows : Rows) (n : ℕ) (h : ChunkOK rows n) :
    histRec (F := F) rows (n + 1)
      = storeIdx (histRec rows n) ![addi k1_pay2 (chunkOf rows n)] (k1_pay3 (F := F)) (fun _ => 1#1) true h := by
  rw [histRec]; exact dif_pos h

/-- The tile's whole histogram: all 1024 chunks. -/
def histOf (rows : Rows) : Vec F S1024 .f32 := histRec rows 1024

end Cert.Proof.KB

end
-- ==== Proof.HistTile2B.lean ====
/-
  The SparseCore tile's task with its value: the histogram scratch holds, before trip k of the counted loop, the pure
  histogram of the first 8 k chunks of the tile's two rows; each of a trip's eight indexed add-stores is one step of that
  recursion; the copy out leaves the tile's piece of the result array at the one whole-array function `histAll`.
-/
import proofs.«210303_g84464826843916_cont_9to1c4b_132_15_alg».proof.Proof.HistTileB
import proofs.«210303_g84464826843916_cont_9to1c4b_132_15_alg».proof.Proof.HistSpecB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index scratch read back as chunks of the two rows -/

section Rows
variable (d : Dev nD) (L : grid1.Coords)

/-- The tile's two rows, as the body's row memrefs read them off the index array. -/
def tileRows (i3 : Buf (Elt F) (a3Loc d)) : Rows := ![(row0M L).view.read (Elt F) i3, (row1M L).view.read (Elt F) i3]

theorem tileRows_ok (i3 : Buf (Elt F) (a3Loc d)) (hok : RowsOK d L i3) : ∀ r x, (tileRows d L i3 r x).toNat < 64 := by
  intro r x
  fin_cases r
  · exact (hok x).1
  · exact (hok x).2

theorem fI_half0 (i3 : Buf (Elt F) (a3Loc d)) (z : S8192.Idx) : fI d L i3 ((half0M).view.emb z) = (row0M L).view.read (Elt F) i3 z := by
  unfold fI
  have hm : (half0M).view.emb z ∈ (half0M).view.set := Finset.mem_map_of_mem _ (Finset.mem_univ z)
  have hn : (half0M).view.emb z ∉ (half1M).view.set := Finset.disjoint_left.mp halves_disjoint hm
  rw [Finset.piecewise_eq_of_notMem _ _ _ hn]
  have h := View.read_writes_cons_emb (half0M).view (half0M).view.junk (Rect.whole S8192) (ReadAs.same.apply (View.read (Elt F) (row0M L).view i3)) [] z
  rw [Rect.emb_whole_apply] at h
  exact (read_half0 (F := F) _ z).symm.trans h

theorem fI_half1 (i3 : Buf (Elt F) (a3Loc d)) (z : S8192.Idx) : fI d L i3 ((half1M).view.emb z) = (row1M L).view.read (Elt F) i3 z := by
  unfold fI
  have hm : (half1M).view.emb z ∈ (half1M).view.set := Finset.mem_map_of_mem _ (Finset.mem_univ z)
  rw [Finset.piecewise_eq_of_mem _ _ _ hm]
  have h := View.read_writes_cons_emb (half1M).view (half1M).view.junk (Rect.whole S8192) (ReadAs.same.apply (View.read (Elt F) (row1M L).view i3)) [] z
  rw [Rect.emb_whole_apply] at h
  exact (read_half1 (F := F) _ z).symm.trans h

/-- The sixteen words the body loads at offset `16 n` of the index scratch are chunk `n` of the two rows. -/
theorem load_eq (i3 : Buf (Elt F) (a3Loc d)) (n : ℕ) (hn : n < 1024) (inb : ∀ a, (![16 * n] : Fin 1 → Nat) a + S16.size a ≤ S16384.size a) :
    (sI).view.readAt (Elt F) (Rect.unit (s := S16384) ![16 * n] S16.size inb).toLoadRect (fI d L i3) = chunkOf (tileRows d L i3) n := by
  funext x
  rw [View.readAt_apply, read_sI]
  have hx : (x 0).val < 16 := (x 0).isLt
  by_cases hlt : n < 512
  · have hy : (Rect.unit (s := S16384) ![16 * n] S16.size inb).toLoadRect.idx x
        = (half0M).view.emb (Shape.ofLane (d := ![8192]) ⟨16 * (n % 512) + (x 0).val, chunk_col n x⟩) := by
      funext a; apply Fin.ext
      have ha := Fin.eq_zero a; subst ha
      show 16 * n + 1 * (x 0).val = 0 + 1 * (16 * (n % 512) + (x 0).val)
      omega
    rw [hy, fI_half0]
    unfold chunkOf tileRows
    have hr : (⟨n / 512 % 2, Nat.mod_lt _ (by decide)⟩ : Fin 2) = 0 := Fin.ext (by show n / 512 % 2 = 0; omega)
    rw [hr]; rfl
  · have hy : (Rect.unit (s := S16384) ![16 * n] S16.size inb).toLoadRect.idx x
        = (half1M).view.emb (Shape.ofLane (d := ![8192]) ⟨16 * (n % 512) + (x 0).val, chunk_col n x⟩) := by
      funext a; apply Fin.ext
      have ha := Fin.eq_zero a; subst ha
      show 16 * n + 1 * (x 0).val = 8192 + 1 * (16 * (n % 512) + (x 0).val)
      omega
    rw [hy, fI_half1]
    unfold chunkOf tileRows
    have hr : (⟨n / 512 % 2, Nat.mod_lt _ (by decide)⟩ : Fin 2) = 1 := Fin.ext (by show n / 512 % 2 = 1; omega)
    rw [hr]; rfl

theorem read_sH (f : (sH).view.ty.Contents (Elt F)) (y : S1024.Idx) : (sH).view.read (Elt F) f y = f y := rfl

theorem readAt_sH_whole (g : (sH).view.ty.Contents (Elt F)) : (sH).view.readAt (Elt F) (LoadRect.whole S1024) g = g := by
  funext x
  rw [View.readAt_apply]
  have e : (LoadRect.whole S1024).idx x = x := Rect.emb_whole_apply S1024 x
  rw [e]; rfl

/-- A store of the whole scratch leaves its payload, whatever was there. -/
theorem writes_sH_whole (B : (sH).view.ty.Contents (Elt F)) (w : S1024.Idx → Elt F .f32) :
    (sH).view.writes (Elt F) B [⟨Rect.whole S1024, w⟩] = w := by
  funext y
  have h := View.read_writes_cons_emb (sH).view B (Rect.whole S1024) w [] y
  rw [Rect.emb_whole_apply] at h
  exact (read_sH (F := F) _ y).symm.trans h

/-- One chunk's indexed add-store, from the histogram after `n` chunks to the histogram after `n + 1`. -/
theorem store_eq (i3 : Buf (Elt F) (a3Loc d)) (hok : RowsOK d L i3) {off : Fin 1 → Nat} (inb : ∀ a, off a + S16.size a ≤ S16384.size a)
    (n : ℕ) (hn : n < 1024) (hoff : off = ![16 * n])
    (h : ∀ a x, ((![addi k1_pay2 ((sI).view.readAt (Elt F) (Rect.unit (s := S16384) off S16.size inb).toLoadRect (fI d L i3))] : Fin 1 → IVec S16 32) a x).toNat < S1024.size a) :
    storeIdx (histRec (F := F) (tileRows d L i3) n) ![addi k1_pay2 ((sI).view.readAt (Elt F) (Rect.unit (s := S16384) off S16.size inb).toLoadRect (fI d L i3))]
        (k1_pay3 (F := F)) (fun _ => 1#1) true h
      = histRec (tileRows d L i3) (n + 1) := by
  subst hoff
  rw [histRec_succ _ _ (chunkOK_of_range _ (tileRows_ok d L i3 hok) n)]
  revert h
  rw [load_eq d L i3 n hn inb]
  intro h; rfl

end Rows

/-! ## The tile's histogram, as one function of the index array -/

/-- Tile `i`'s grid coordinates. -/
def coordsT (i : Fin 16) : grid1.Coords :=
  fun | 0 => ⟨0, by decide⟩ | 1 => Fin.cast bound_one.symm i | ⟨_ + 2, h⟩ => absurd h (Nat.not_lt.2 (Nat.le_add_left _ _))

theorem coordsT_jL (L : grid1.Coords) : coordsT (jL L) = L := by
  funext a
  match a with
  | 0 => exact Fin.ext (by have h : (L 0).val < 1 := (L 0).isLt; show 0 = (L 0).val; omega)
  | 1 => exact Fin.ext rfl

theorem out_div (j : S16384.Idx) : (j 0).val / 1024 < 16 := by
  have h : (j 0).val < 16384 := (j 0).isLt
  omega

/-- The result array after the call, as one function of the index array: word `1024 t + w` is word `w` of tile `t`'s histogram. -/
def histAll (d : Dev nD) (i3 : Buf (Elt F) (a3Loc d)) : Buf (Elt F) (a5Loc d) :=
  fun j => histOf (F := F) (tileRows d (coordsT ⟨(j 0).val / 1024, out_div j⟩) i3) (Shape.ofLane (d := ![1024]) ⟨(j 0).val % 1024, Nat.mod_lt _ (by decide)⟩)

/-- The result array's word `j` is word `w` of tile `t`'s histogram when `j = 1024 t + w`. -/
theorem histAll_at (d : Dev nD) (i3 : Buf (Elt F) (a3Loc d)) (j : S16384.Idx) (t : Fin 16) (w : S1024.Idx)
    (ht : (j 0).val / 1024 = t.val) (hw : (j 0).val % 1024 = (w 0).val) :
    histAll d i3 j = histOf (F := F) (tileRows d (coordsT t) i3) w := by
  unfold histAll
  have e1 : (⟨(j 0).val / 1024, out_div j⟩ : Fin 16) = t := Fin.ext ht
  have e2 : Shape.ofLane (d := ![1024]) ⟨(j 0).val % 1024, Nat.mod_lt _ (by decide)⟩ = w := by
    funext a; apply Fin.ext
    have ha := Fin.eq_zero a; subst ha
    exact hw
  rw [e1, e2]

section Tile
variable (d : Dev nD) (L : grid1.Coords)

theorem offE {a b : ℕ} (h : a = b) : (![a] : Fin 1 → ℕ) = ![b] := by rw [h]

/-- The scratch after one chunk's load-and-store of the whole, restated as the next histogram. -/
theorem hist_step (i3 : Buf (Elt F) (a3Loc d)) (hok : RowsOK d L i3) {off : Fin 1 → Nat} (inb : ∀ a, off a + S16.size a ≤ S16384.size a)
    (n m : ℕ) (hn : n < 1024) (hm : m = n + 1) (hoff : off = ![16 * n]) (B : (sH).view.ty.Contents (Elt F))
    (h : ∀ a x, ((![addi k1_pay2 ((sI).view.readAt (Elt F) (Rect.unit (s := S16384) off S16.size inb).toLoadRect (fI d L i3))] : Fin 1 → IVec S16 32) a x).toNat < S1024.size a) :
    ((sH).view.loc (thr d L) ↦[(sH).view.set]{fullShare}
        (sH).view.writes (Elt F) B [⟨Rect.whole S1024,
          storeIdx ((sH).view.readAt (Elt F) (LoadRect.whole S1024) (histRec (F := F) (tileRows d L i3) n))
            ![addi k1_pay2 ((sI).view.readAt (Elt F) (Rect.unit (s := S16384) off S16.size inb).toLoadRect (fI d L i3))]
            (k1_pay3 (F := F)) (fun _ => 1#1) true h⟩] : sProp 𝕄)
      = ((sH).view.loc (thr d L) ↦[(sH).view.set]{fullShare} histRec (F := F) (tileRows d L i3) m) := by
  subst hm
  rw [writes_sH_whole, readAt_sH_whole, store_eq d L i3 hok inb n hn hoff]

theorem read_out (f : (outM L).view.ty.Contents (Elt F)) (x : S1024.Idx) : (outM L).view.read (Elt F) f x = f ((outM L).view.emb x) := rfl

theorem out_emb (x : S1024.Idx) : (((outM L).view.emb x : S16384.Idx) 0).val = 1024 * (L 1).val + (x 0).val := by
  show (k1_off10 L) 0 + 1 * (x 0).val = _
  rw [k1_off10_eq]
  simp

/-- The tile's piece of the result array, the histogram scratch copied into it, is that piece of the one whole-array function. -/
theorem out_eq (i3 : Buf (Elt F) (a3Loc d)) (fo : Buf (Elt F) (a5Loc d)) (N : ℕ) (hN : N = 1024) :
    ((outM L).view.loc (thr d L) ↦[(outM L).view.set]{fullShare}
        (outM L).view.writes (Elt F) fo [⟨Rect.whole S1024, ReadAs.same.apply ((sH).view.read (Elt F) (histRec (F := F) (tileRows d L i3) N))⟩] : sProp 𝕄)
      = (a5Loc d ↦[outSet (jL L)]{fullShare} histAll d i3) := by
  subst hN
  rw [← set_outM L]
  refine pointsTo_congr fun j hj => ?_
  obtain ⟨x, -, rfl⟩ := Finset.mem_map.mp hj
  have h := View.read_writes_cons_emb (outM L).view fo (Rect.whole S1024)
    (ReadAs.same.apply ((sH).view.read (Elt F) (histRec (F := F) (tileRows d L i3) 1024))) [] x
  rw [Rect.emb_whole_apply] at h
  refine ((read_out (F := F) L _ x).symm.trans h).trans ?_
  have hx : (x 0).val < 1024 := (x 0).isLt
  have hL : (L 1).val < 16 := (L 1).isLt
  rw [histAll_at d i3 _ (jL L) x (by rw [out_emb]; show _ = (L 1).val; omega) (by rw [out_emb]; omega), coordsT_jL]
  rfl

/-- Before trip `k`: the index scratch holds the two rows, the histogram scratch the histogram of the first `8 k` chunks. -/
def invV (i3 : Buf (Elt F) (a3Loc d)) (k : Nat) (_ : PUnit) : sProp 𝕄 :=
  iprop(((sI).view.loc (thr d L) ↦[(sI).view.set]{fullShare} fI d L i3)
    ∗ ((sH).view.loc (thr d L) ↦[(sH).view.set]{fullShare} histRec (F := F) (tileRows d L i3) (8 * k)))

theorem tile_body (i3 : Buf (Elt F) (a3Loc d)) (hok : RowsOK d L i3) (O : CellTallies nD τ sig (HIx 1)) (W : Waits sig (HIx 1)) (hO : ∀ g, O g none = 0) :
    iprop(levAts (K (F := F)).L (K (F := F)).lev ∗ goPay d i3 (jL L)
        ∗ scopedBufs (thr d L) ∗ scopedSems0 (thr d L) ∗ owes (thr d L) O W)
      ⊢ wp frame (wpE (defs₀ (F := F)) 𝒱₀ (thr d L) none) Set.univ
          (cc1_hist_kernel L a3V (Memref.isWhole_whole _) a5V (Memref.isWhole_whole _) sI (Memref.isWhole_whole _) sH (Memref.isWhole_whole _) cc1_scratch2 cc1_scoped0)
          fun _ => iprop(tdPay d i3 (histAll d i3) (jL L) ∗ scopedBufs (thr d L) ∗ scopedSems0 (thr d L)
            ∗ ∃ W', ⌜∀ p ∈ W', p ∈ W ∨ p.2 = none⌝ ∗ owes (thr d L) O W') := by
  simp only [cc1_hist_kernel_eq_skeleton]; unfold cc1_hist_kernel_skel
  rw [(K (F := F)).scopedBufs_V facts d (cV L) (jV L), SparseCore.Cfg.scopedSems0_V (Val := Elt F) d (cV L) (jV L), ownSems0_V, ownBufs_V]
  iintro ⟨#Hlv, ⟨Hr0, Hr1, %fo, Ho⟩, ⟨⟨%fs, Hs⟩, ⟨%fh, Hh⟩, Hbufs⟩, ⟨HsemA, HsemB, Hsems⟩, HO⟩
  ihave Hmw := ((K (F := F)).mayWaits_none (thr := thr d L) hO) $$ Hlv
  ihave Hr0' := (Entails.of_eq (pts_row0M (F := F) d L _).symm) $$ Hr0
  ihave Hr1' := (Entails.of_eq (pts_row1M (F := F) d L _).symm) $$ Hr1
  ihave Ho' := (Entails.of_eq (pts_outM (F := F) d L _).symm) $$ Ho
  ihave Hs2 := (pts_sI_halves (F := F) d (cV L) (jV L) _).1 $$ Hs
  icases Hs2 with ⟨Hs0, Hs1⟩
  ihave Hh' := (Entails.of_eq (pts_sH (F := F) d (cV L) (jV L) _).symm) $$ Hh
  imod (Transfers.batch_alloc' (Lvl := ℕ) (countersEmb (U := UU)) (thr d L) (none : HIx 1) NR (deliv d L i3 fs) (sm := .dma cc1_scratch2.sem) (E := Set.univ)) $$ HsemA with HB
  sl_exec
  ihave Hs := (join_halves (F := F) d L i3) $$ [HB_dst0 HB_dst1]
  · isplitl [HB_dst0]; · iexact HB_dst0
    iexact HB_dst1
  have hz : (sH).view.writes (Elt F) (sH).view.junk (tile_body.sl.Hh'_64 (F := F)) = histRec (F := F) (tileRows d L i3) 0 := by
    have hp : ∀ p ∈ (tile_body.sl.Hh'_64 (F := F)), ∀ x : p.1.shape.Idx,
        p.2 x = (fun _ : S1024.Idx => (Scalar.ofBits .f32 0x00000000#32 : F .f32)) (p.1.emb x) := by
      unfold tile_body.sl.Hh'_64
      intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      all_goals exact fun _ => rfl
    funext y
    have hc := View.cover_of_tiled (s := S1024) (tile_body.sl.Hh'_64 (F := F)) S16.size (by rfl) y
    have hr := View.read_writes_apply_of_pieces (sH).view (sH).view.junk (fun _ : S1024.Idx => (Scalar.ofBits .f32 0x00000000#32 : F .f32))
      (tile_body.sl.Hh'_64 (F := F)) hp y hc
    exact (read_sH (F := F) _ y).symm.trans hr
  ihave Hz := (Entails.of_eq (congrArg (fun g => ((sH).view.loc (thr d L) ↦[(sH).view.set]{fullShare} g : sProp 𝕄)) hz)) $$ Hh'
  sl_for (invV d L i3) $$ [Hs Hz]
  case region =>
    intro k _
    have hk : k.val < 128 := lt_of_lt_of_le k.isLt k1_t1_abs.2.1
    unfold invV
    iintro ⟨Hs, Hh⟩
    sl_exec (disch := exact chk_ok (F := F) _ (fI_ok d L i3 hok) _)
    rw [SparseCore.vectorStoreIdx_bind (thr d L)]; sl_exec (disch := exact chk_ok (F := F) _ (fI_ok d L i3 hok) _)
    delta tile_body.sl.v106 tile_body.sl.v105
    ihave Hh1 := (Entails.of_eq (hist_step d L i3 hok (k1_off2_inb k) (8 * k.val) (8 * k.val + 1) (by omega) rfl ((k1_off2_eq k).trans (offE (by omega))) _ _)) $$ Hh
    rw [SparseCore.vectorStoreIdx_bind (thr d L)]; sl_exec (disch := exact chk_ok (F := F) _ (fI_ok d L i3 hok) _)
    delta tile_body.sl.v111 tile_body.sl.v110
    ihave Hh2 := (Entails.of_eq (hist_step d L i3 hok (k1_off3_inb k) (8 * k.val + 1) (8 * k.val + 2) (by omega) rfl ((k1_off3_eq k).trans (offE (by omega))) _ _)) $$ Hh1
    rw [SparseCore.vectorStoreIdx_bind (thr d L)]; sl_exec (disch := exact chk_ok (F := F) _ (fI_ok d L i3 hok) _)
    delta tile_body.sl.v116 tile_body.sl.v115
    ihave Hh3 := (Entails.of_eq (hist_step d L i3 hok (k1_off4_inb k) (8 * k.val + 2) (8 * k.val + 3) (by omega) rfl ((k1_off4_eq k).trans (offE (by omega))) _ _)) $$ Hh2
    rw [SparseCore.vectorStoreIdx_bind (thr d L)]; sl_exec (disch := exact chk_ok (F := F) _ (fI_ok d L i3 hok) _)
    delta tile_body.sl.v121 tile_body.sl.v120
    ihave Hh4 := (Entails.of_eq (hist_step d L i3 hok (k1_off5_inb k) (8 * k.val + 3) (8 * k.val + 4) (by omega) rfl ((k1_off5_eq k).trans (offE (by omega))) _ _)) $$ Hh3
    rw [SparseCore.vectorStoreIdx_bind (thr d L)]; sl_exec (disch := exact chk_ok (F := F) _ (fI_ok d L i3 hok) _)
    delta tile_body.sl.v126 tile_body.sl.v125
    ihave Hh5 := (Entails.of_eq (hist_step d L i3 hok (k1_off6_inb k) (8 * k.val + 4) (8 * k.val + 5) (by omega) rfl ((k1_off6_eq k).trans (offE (by omega))) _ _)) $$ Hh4
    rw [SparseCore.vectorStoreIdx_bind (thr d L)]; sl_exec (disch := exact chk_ok (F := F) _ (fI_ok d L i3 hok) _)
    delta tile_body.sl.v131 tile_body.sl.v130
    ihave Hh6 := (Entails.of_eq (hist_step d L i3 hok (k1_off7_inb k) (8 * k.val + 5) (8 * k.val + 6) (by omega) rfl ((k1_off7_eq k).trans (offE (by omega))) _ _)) $$ Hh5
    rw [SparseCore.vectorStoreIdx_bind (thr d L)]; sl_exec (disch := exact chk_ok (F := F) _ (fI_ok d L i3 hok) _)
    delta tile_body.sl.v136 tile_body.sl.v135
    ihave Hh7 := (Entails.of_eq (hist_step d L i3 hok (k1_off8_inb k) (8 * k.val + 6) (8 * k.val + 7) (by omega) rfl ((k1_off8_eq k).trans (offE (by omega))) _ _)) $$ Hh6
    rw [SparseCore.vectorStoreIdx_bind (thr d L)]; sl_exec (disch := exact chk_ok (F := F) _ (fI_ok d L i3 hok) _)
    delta tile_body.sl.v141 tile_body.sl.v140
    ihave Hh8 := (Entails.of_eq (hist_step d L i3 hok (k1_off9_inb k) (8 * k.val + 7) (8 * (k.val + 1)) (by omega) (by omega) ((k1_off9_eq k).trans (offE (by omega))) _ _)) $$ Hh7
    sl_step
    isplitl [Hs]; · iexact Hs
    iexact Hh8
  · unfold invV
    isplitl [Hs]; · iexact Hs
    iexact Hz
  iintro %_ HI
  unfold invV
  icases HI with ⟨Hs, Hh⟩
  sl_exec
  sl_step
  delta tile_body.sl.dma0_1
  ihave Ho2 := (Entails.of_eq (out_eq d L i3 fo (8 * Scf.trips k1_t1_loop.lb k1_t1_loop.ub k1_t1_loop.st) (by decide))) $$ Ho'
  isplitl [HB_src0 HB_src1 Ho2]
  · isplitl [HB_src0]; · iapply (Entails.of_eq (pts_row0M (F := F) d L _)); iexact HB_src0
    isplitl [HB_src1]; · iapply (Entails.of_eq (pts_row1M (F := F) d L _)); iexact HB_src1
    iexact Ho2
  isplitl [Hs Hh Hbufs]
  · isplitl [Hs]; · iexists _; iapply (Entails.of_eq (pts_sI (F := F) d (cV L) (jV L) _)); iexact Hs
    isplitl [Hh]; · iexists _; iapply (Entails.of_eq (pts_sH (F := F) d (cV L) (jV L) _)); iexact Hh
    iexact Hbufs
  isplitl [HB HsemB Hsems]
  · isplitl [HB]; · iexact HB
    isplitl [HsemB]; · iexact HsemB
    iexact Hsems
  iexists (insert (SemLoc.dma cc1_scoped0.sem, none) (insert (SemLoc.dma cc1_scratch2.sem, none) (insert (SemLoc.dma cc1_scratch2.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KB
end
-- ==== Proof.FrameAllB.lean ====
/-
  The run and the frame from the input-domain precondition alone: the histogram is the tiles' pure recursion over the
  transposed indices.
-/
import proofs.«210303_g84464826843916_cont_9to1c4b_132_15_alg».proof.Proof.FrameAsmB
import proofs.«210303_g84464826843916_cont_9to1c4b_132_15_alg».proof.Proof.HistTile2B

noncomputable section

namespace Cert.Proof.KB

open Cert.Kernel Cert.Kernel.Gen
open Idealize.ShloMosaic
open Idealize.SL.Sem

variable {F : FTy → Type} [FloatOps F]

/-- THE RUN: under the input-domain precondition every weakly fair execution of the device's threads terminates, nothing
    faulting, and ends with the result and the arguments at the chain's last valuation, the histogram array having held the
    histogram of the transposed indices. -/
theorem run_all [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (QC m psumOut (histK histAll) combineOut) :=
  run_mainK m ρ histAll (fun d L i3 hok O W hO => tile_body d L i3 hok O W hO) hpre

/-- THE FRAME: under the input-domain precondition the program runs and its two argument arrays end unchanged. -/
theorem frame_all [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_body m ρ histAll (fun d L i3 hok O W hO => tile_body d L i3 hok O W hO) hpre

end Cert.Proof.KB

end
-- ==== Proof.FrameP.lean ====
/-
  The word-level program's frame claim, at the bit-exact instance.
-/
import proofs.«210303_g84464826843916_cont_9to1c4b_132_15_alg».proof.Proof.FrameAllB

noncomputable section

namespace Cert.Proof.KB

open Idealize.ShloMosaic

theorem frame_p : Cert.frame_Kernel := fun m ρ hpre => frame_all (F := Bits) m ρ hpre

end Cert.Proof.KB

end
-- ==== Proof.FinalValue.lean ====
/-
  The program's result as the kernel-arrangement loss of its two arguments. The result array is the combination's
  one word viewed as a scalar; the combination reads the softmax kernel's 64 row sums and the histogram kernel's
  16384 bins viewed as a 128 × 128 array, bin `128·r + col` at `(r, col)`; so, given what the two kernels leave
  (their reads, taken as hypotheses here) and the combination's word as a formula of its operands, the result is
  the loss in the kernels' arrangement.
-/
import proofs.«210303_g84464826843916_cont_9to1c4b_132_15_alg».proof.Proof.ValChain
import proofs.«210303_g84464826843916_cont_9to1c4b_132_15_alg».proof.Proof.Combine
import proofs.«210303_g84464826843916_cont_9to1c4b_132_15_alg».proof.Proof.KernelMath
import Idealize.ShloMosaic.Lib.ValueIdx
import Idealize.ShloMosaic.Lib.Pipeline.Value

noncomputable section

open scoped BigOperators

namespace Cert.Proof.KI

open Cert.KernelIdeal Cert.KernelIdeal.Gen
open Idealize.ShloMosaic Idealize.ShloMosaic.ValueIdx Cert.Proof.Spec Cert.Proof.Consts Cert.Proof.KernelMath

/-! ## The two reshapes read at an index -/

/-- A 16384-vector viewed `[128, 128]` holds at `(r, col)` the vector's entry `128·r + col`. -/
theorem read_128x128 {α : Type} (x : S16384.Idx → α) (h : S16384.ShapeCasts S128x128) (r col : Fin 128) :
    shapeCast S128x128 x h (ix2 r col)
      = x (ix1 (⟨r.val * 128 + col.val, by have := r.isLt; have := col.isLt; omega⟩ : Fin 16384)) :=
  shapeCast_apply x h _ _ (by rw [Shape.rowMajor_val_two, Shape.rowMajor_val_one]; rfl)

/-- A one-entry vector viewed as a scalar holds that entry. -/
theorem read_scalar {α : Type} (x : S1.Idx → α) (h : S1.ShapeCasts S_) (j : S_.Idx) :
    shapeCast S_ x h j = x (ix1 (0 : Fin 1)) :=
  shapeCast_apply x h _ _ (by
    rw [Shape.rowMajor_val_one]
    have := (S_.rowMajor j).isLt
    show (0 : ℕ) = (S_.rowMajor j).val
    have h1 : S_.numel = 1 := by decide
    omega)

/-! ## The result -/

/-- The combination's word as a formula of its two operands at the ideal floats: `0.64` times the sum over the 64
    experts of (columns `e` and `64 + e` of the 128 × 128 operand summed down the rows, added, times `2⁻¹⁸`) times
    (entry `e` of the column operand times `2⁻¹⁵`). -/
def CombineRead : Prop :=
  ∀ (p : Vec Ideal S64x1 .f32) (c : Vec Ideal S128x128 .f32) (i : S1.Idx),
    combineOut (F := Ideal) p c i
      = c064 * ∑ e : Fin 64,
          (((∑ r : Fin 128, c (ix2 r (⟨e.val, by have := e.isLt; omega⟩ : Fin 128)))
              + ∑ r : Fin 128, c (ix2 r (⟨64 + e.val, by have := e.isLt; omega⟩ : Fin 128))) * cI262144)
            * (p (ix2 e (0 : Fin 1)) * cI32768)

section Final

variable (m : (ℓ : Loc nD τ sig) → Buf (Elt Ideal) ℓ) (d : Dev nD)
variable (psumOf : (rf main_v1).ty.Contents (Elt Ideal) → (rf main_v4).ty.Contents (Elt Ideal))
  (histOf : (rf main_v3).ty.Contents (Elt Ideal) → (rf main_v5).ty.Contents (Elt Ideal))

/-- THE RESULT: if the softmax kernel leaves the summed routing probabilities and the histogram kernel leaves the
    tiled bins, the program's scalar result is the loss in the kernels' arrangement, of the two arguments as launched. -/
theorem final_value_of
    (hP : ∀ e : Fin 64, psumOf (W4 m d (rf main_v1)) (ix2 e (0 : Fin 1)) = psumK (fun b s e => m (d, rf main_arg0) (ix3 b s e)) e)
    (hH : ∀ flat : Fin 16384, histOf (W5 m psumOf d (rf main_v3)) (ix1 flat) = histK (fun b s k => m (d, rf main_arg1) (ix3 b s k)) flat)
    (hC : CombineRead) :
    W9 (F := Ideal) m psumOf histOf combineOut d (rf main_v8)
      = fun _ => lossK (fun b s e => m (d, rf main_arg0) (ix3 b s e)) (fun b s k => m (d, rf main_arg1) (ix3 b s k)) := by
  rw [W9_v8]
  funext j
  rw [read_scalar, hC, W7_v4, W7_v6]
  unfold lossK cntK
  refine congrArg (fun z => c064 * z) (Finset.sum_congr rfl fun e _ => ?_)
  refine congrArg₂ (· * ·)
    (congrArg (· * cI262144) (congrArg₂ (· + ·) (Finset.sum_congr rfl fun r _ => ?_) (Finset.sum_congr rfl fun r _ => ?_)))
    (congrArg (· * cI32768) (hP e))
  · exact (read_128x128 _ _ r _).trans (hH _)
  · exact (read_128x128 _ _ r _).trans ((hH _).trans (congrArg _ (Fin.ext (by
      show r.val * 128 + (64 + e.val) = r.val * 128 + 64 + e.val; omega))))

end Final

/-! ## The claim's precondition -/

/-- The claim's precondition on the idealized kernel's memory, unfolded: on every device the input-domain predicate of
    the two argument arrays is all ones. -/
theorem pre_of_Pre_KernelIdeal (m : (ℓ : Loc nD τ sig) → Buf (Elt Ideal) ℓ) (h : Cert.Pre_KernelIdeal m) :
    ∀ c : Dev nD, Cert.Pre_input_domain.fn (F := Ideal) (m ((c.tc : Thread nD τ).loc main_arg0)) (m ((c.tc : Thread nD τ).loc main_arg1)) = fun _ => 1#1 := h

end Cert.Proof.KI

end
-- ==== Proof.SoftmaxValue.lean ====
/-
  The softmax kernel's block term and row sums, read at an index over the extended reals.

  For a 64 × 4096 block (row = expert, column = token of the block) the body takes each column's maximum from -∞,
  exponentiates the entries shifted by it, sums each column's exponentials, takes the reciprocal of that sum and
  multiplies: at (e, s') the term is exp (x[e, s'] - M s') · (1 / Σ_e' exp (x[e', s'] - M s')). The last point of
  the grid sums the accumulated 64 × 4096 array along its rows into a 64 × 1 column.
-/
import proofs.«210303_g84464826843916_cont_9to1c4b_132_15_alg».proof.Proof.SoftmaxRun
import proofs.«210303_g84464826843916_cont_9to1c4b_132_15_alg».proof.Proof.Consts
import Idealize.ShloMosaic.Lib.ValueLayout
import Idealize.ShloMosaic.PureOps.Ideal.Laws

noncomputable section

open scoped BigOperators

namespace Cert.Proof.KI

open Cert.KernelIdeal Cert.KernelIdeal.Gen
open Idealize.ShloMosaic Idealize.ShloMosaic.ValueIdx Cert.Proof.Spec Cert.Proof.Consts

variable {F : FTy → Type} [FloatOps F]

/-! ## The block term's steps, named -/

/-- Each column's maximum, from -∞. -/
def sv_colMax (x0 : Vec F S64x4096 .f32) : FVec F S4096 .f32 :=
  multiReduction .maximumf [0] S4096 (shapeCast S64x4096 x0 shapeCasts_S64x4096_S64x4096) 0xFF800000#32
    reduces_S64x4096_S4096 (.inl rfl) rfl

/-- The exponentials of the entries shifted by their column's maximum. -/
def sv_ex (x0 : Vec F S64x4096 .f32) : FVec F S64x4096 .f32 :=
  exp (subf (shapeCast S64x4096 x0 shapeCasts_S64x4096_S64x4096)
    (broadcastTo S64x4096 (shapeCast S1x4096 (sv_colMax x0) shapeCasts_S4096_S1x4096) broadcasts_S1x4096_S64x4096))

/-- The reciprocal of each column's sum of exponentials, as a 1 × 4096 row. -/
def sv_recip (x0 : Vec F S64x4096 .f32) : FVec F S1x4096 .f32 :=
  divf (broadcast S1x4096 (Scalar.ofBits .f32 0x3F800000#32))
    (shapeCast S1x4096
      (multiReduction .add [0] S4096 (sv_ex x0) 0x00000000#32 reduces_S64x4096_S4096 (.inl rfl) rfl)
      shapeCasts_S4096_S1x4096)

/-- The block term is these steps composed. -/
theorem blockTerm_steps (x0 : Vec F S64x4096 .f32) :
    blockTerm x0 = mulf (sv_ex x0) (broadcastTo S64x4096 (sv_recip x0) broadcasts_S1x4096_S64x4096) := rfl

/-! ## Each step at an index, over the extended reals -/

/-- An exponential at an index is the exponential of the element. -/
theorem exp_apply {s : Shape} {φ : FTy} (a : FVec Ideal s φ) (i : s.Idx) : exp a i = Ideal.exp (a i) := rfl

/-- The column maximum of the block over the extended reals: the fold of `max` from ⊥ over the 64 rows. -/
def colMaxE (x0 : FVec Ideal S64x4096 .f32) (s' : Fin 4096) : EReal :=
  (Finset.univ : Finset (Fin 64)).fold max ⊥ (fun e' => x0 (ix2 e' s'))

theorem sv_colMax_at (x0 : FVec Ideal S64x4096 .f32) (s' : Fin 4096) :
    sv_colMax (F := Ideal) x0 (ix1 s') = colMaxE x0 s' := by
  unfold sv_colMax colMaxE
  refine (Ideal.multiReduction_maximumf_single _ _ _ _ _ (ix1 s')).trans ?_
  have hb : (FloatOps.ofBits (F := Ideal) .f32 0xFF800000#32 : EReal) = ⊥ := ofBits_negInf
  rw [hb, shapeCast_self]
  exact congrArg (fun g : Fin 64 → EReal => (Finset.univ : Finset (Fin 64)).fold max ⊥ g)
    (funext fun k => congrArg x0 (funext fun a => Fin.ext (by match a with | ⟨0, _⟩ => rfl | ⟨1, _⟩ => rfl)))

theorem sv_ex_at (x0 : FVec Ideal S64x4096 .f32) (e : Fin 64) (s' : Fin 4096) :
    sv_ex (F := Ideal) x0 (ix2 e s') = Ideal.exp (x0 (ix2 e s') - colMaxE x0 s') := by
  unfold sv_ex
  rw [exp_apply, subf_apply, shapeCast_self]
  have hb : broadcastTo S64x4096 (shapeCast S1x4096 (sv_colMax (F := Ideal) x0) shapeCasts_S4096_S1x4096)
      broadcasts_S1x4096_S64x4096 (ix2 e s') = colMaxE x0 s' := by
    refine (broadcastTo_1b_ab_apply _ broadcasts_S1x4096_S64x4096 e s').trans ?_
    refine (shapeCast_a_1a_apply _ shapeCasts_S4096_S1x4096 (0 : Fin 1) s').trans ?_
    exact sv_colMax_at x0 s'
  rw [hb]

theorem sv_recip_at (x0 : FVec Ideal S64x4096 .f32) (s' : Fin 4096) :
    sv_recip (F := Ideal) x0 (ix2 (0 : Fin 1) s')
      = Ideal.div 1 (∑ e' : Fin 64, Ideal.exp (x0 (ix2 e' s') - colMaxE x0 s')) := by
  unfold sv_recip
  rw [divf_apply, broadcast_apply]
  have h1 : (Scalar.ofBits (F := Ideal) .f32 0x3F800000#32 : EReal) = 1 := ofBits_one
  rw [h1]
  refine congrArg (Ideal.div 1) ?_
  refine (shapeCast_a_1a_apply _ shapeCasts_S4096_S1x4096 (0 : Fin 1) s').trans ?_
  refine (Ideal.multiReduction_add_single _ 0x00000000#32 reduces_S64x4096_S4096 (.inl rfl) rfl (ix1 s')).trans ?_
  refine Finset.sum_congr rfl fun k _ => ?_
  have hk : Shape.Reduces.lift (s := S64x4096) (t := S4096) (a := 0) reduces_S64x4096_S4096 (ix1 s') k = ix2 k s' :=
    funext fun a => Fin.ext (by match a with | ⟨0, _⟩ => rfl | ⟨1, _⟩ => rfl)
  rw [hk]
  exact sv_ex_at x0 k s'

/-- THE BLOCK TERM at row `e`, column `s'`. -/
theorem blockTerm_at (x0 : Vec Ideal S64x4096 .f32) (e : Fin 64) (s' : Fin 4096) :
    blockTerm (F := Ideal) x0 (ix2 e s')
      = Ideal.exp (x0 (ix2 e s') - colMaxE x0 s')
          * Ideal.div 1 (∑ e' : Fin 64, Ideal.exp (x0 (ix2 e' s') - colMaxE x0 s')) := by
  rw [blockTerm_steps, mulf_apply, sv_ex_at]
  refine congrArg (fun z => Ideal.exp (x0 (ix2 e s') - colMaxE x0 s') * z) ?_
  exact (broadcastTo_1b_ab_apply _ broadcasts_S1x4096_S64x4096 e s').trans (sv_recip_at x0 s')

/-- THE ROW SUMS the last point stores: at (e, 0), the sum of row `e` of the accumulated array. -/
theorem k0_pay3_at (acc : Vec Ideal S64x4096 .f32) (e : Fin 64) :
    k0_pay3 (F := Ideal) acc (ix2 e (0 : Fin 1)) = ∑ s' : Fin 4096, acc (ix2 e s') := by
  unfold k0_pay3
  refine (shapeCast_apply _ shapeCasts_S64_S64x1 (ix2 e (0 : Fin 1)) (ix1 e) (by
    rw [Shape.rowMajor_val_two, Shape.rowMajor_val_one]
    show e.val = e.val * 1 + 0
    omega)).trans ?_
  refine (Ideal.multiReduction_add_single _ 0x00000000#32 reduces_S64x4096_S64 (.inl rfl) rfl (ix1 e)).trans ?_
  refine Finset.sum_congr rfl fun k _ => ?_
  exact congrArg acc (funext fun a => Fin.ext (by match a with | ⟨0, _⟩ => rfl | ⟨1, _⟩ => rfl))

/-- The zero vector the first point stores reads zero. -/
theorem k0_pay1_at (i : S64x4096.Idx) : (k0_pay1 (F := Ideal)) i = 0 := by
  rw [k0_pay1_eq, broadcast_apply]
  exact ofBits_zero

end Cert.Proof.KI

end
-- ==== Proof.SoftmaxSum.lean ====
/-
  The softmax kernel's output column, as the kernel's arrangement of the summed routing probabilities.

  Grid point t = 2·i + j reads block (i, j) of the flattened logits: rows 64·i … 64·i + 63 (batch row i, one row per
  expert) and columns 4096·j … 4096·j + 4095 (tokens of half j). The carried scratch starts at zero and gains each
  block's term, so after the eight points its entry (e, s') is the sum over the eight blocks of the softmax of
  token 4096·j + s' of batch row i at expert e, taken with the reciprocal of the normalizer; the row sums of that
  array are the output column.
-/
import proofs.«210303_g84464826843916_cont_9to1c4b_132_15_alg».proof.Proof.Softmax
import proofs.«210303_g84464826843916_cont_9to1c4b_132_15_alg».proof.Proof.SoftmaxValue
import proofs.«210303_g84464826843916_cont_9to1c4b_132_15_alg».proof.Proof.HostLayout

noncomputable section

open scoped BigOperators

namespace Cert.Proof.KI

open Cert.KernelIdeal Cert.KernelIdeal.Gen
open Idealize.ShloMosaic Idealize.ShloMosaic.ValueIdx
open Cert.Proof.Spec Cert.Proof.Consts Cert.Proof.KernelMath Cert.Proof.HostLayout

variable {F : FTy → Type} [FloatOps F]

/-! ## A block of the flattened logits -/

/-- The input window's block index at point `t`: (t / 2, t % 2). -/
theorem sm0_idx_facts : ∀ t : Fin cfg0.N, win0_0.index t (0 : Fin 2) = t.val / 2 ∧ win0_0.index t (1 : Fin 2) = t.val % 2 :=
  (by decide +kernel : ∀ t : Fin grid0.N, _)

/-- Block `t` at (e, s') is the array at (64·(t / 2) + e, 4096·(t % 2) + s'). -/
theorem sm0_blk_at (V1 : main_v1.ty.Contents (Elt F)) (t : Fin cfg0.N) (e : Fin 64) (s' : Fin 4096) :
    sm0_blk V1 t (ix2 e s')
      = V1 (ix2 (⟨64 * (t.val / 2) + e.val, by have ht : t.val < 8 := t.isLt; have := e.isLt; omega⟩ : Fin 256)
          (⟨4096 * (t.val % 2) + s'.val, by have := s'.isLt; omega⟩ : Fin 8192)) := by
  obtain ⟨e0, e1⟩ := sm0_idx_facts t
  show V1 (((cfg0.win 0).blk t).view.emb (ix2 e s')) = _
  refine congrArg V1 (funext fun a => Fin.ext ?_)
  match a with
  | ⟨0, _⟩ =>
    show win0_0.index t (0 : Fin 2) * 64 + 1 * e.val = 64 * (t.val / 2) + e.val
    omega
  | ⟨1, _⟩ =>
    show win0_0.index t (1 : Fin 2) * 4096 + 1 * s'.val = 4096 * (t.val % 2) + s'.val
    omega

/-! ## The carried scratch, entry by entry -/

/-- Point `m`'s contribution to an entry of the scratch (nothing past the eight points). -/
def sm0_term (V1 : main_v1.ty.Contents (Elt Ideal)) (j : S64x4096.Idx) (m : ℕ) : EReal :=
  if h : m < cfg0.N then blockTerm (F := Ideal) (sm0_blk V1 ⟨m, h⟩) j else 0

/-- After `n` points the scratch holds the sum of the first `n` contributions. -/
theorem accAfter_at (V1 : main_v1.ty.Contents (Elt Ideal)) (j : S64x4096.Idx) :
    ∀ n : ℕ, accAfter (F := Ideal) V1 n j = ∑ m ∈ Finset.range n, sm0_term V1 j m
  | 0 => by
    rw [accAfter_zero, k0_pay1_at, Finset.range_zero, Finset.sum_empty]
  | n + 1 => by
    rw [Finset.sum_range_succ, ← accAfter_at V1 j n]
    by_cases h : n < cfg0.N
    · have hs : accAfter (F := Ideal) V1 (n + 1) = k0_pay2 (sm0_blk V1 ⟨n, h⟩) (accAfter V1 n) := accAfter_succ V1 ⟨n, h⟩
      rw [hs, k0_pay2_eq, addf_apply]
      unfold sm0_term
      rw [dif_pos h]
    · have hs : accAfter (F := Ideal) V1 (n + 1) = accAfter V1 n := by
        show (if h : n < cfg0.N then k0_pay2 (sm0_blk V1 ⟨n, h⟩) (accAfter V1 n) else accAfter V1 n) = _
        exact dif_neg h
      rw [hs]
      unfold sm0_term
      rw [dif_neg h, add_zero]

/-- After the eight points: the eight blocks' terms, by batch row and half. -/
theorem accAfter_eight (V1 : main_v1.ty.Contents (Elt Ideal)) (j : S64x4096.Idx) :
    accAfter (F := Ideal) V1 8 j
      = ∑ i : Fin 4, ∑ jj : Fin 2, sm0_term V1 j (jj.val + 2 * i.val) := by
  rw [accAfter_at V1 j 8, ← Fin.sum_univ_eq_sum_range (fun m => sm0_term V1 j m) 8]
  exact sum_mul 4 2 (sm0_term V1 j)

/-! ## The flattened logits -/

/-- A block's term at (e, s') when the block's column s' is a token's row of logits. -/
theorem blockTerm_kprob (x : Logits) (B : Vec Ideal S64x4096 .f32) (b : Fin 4) (s : Fin 8192) (s' : Fin 4096)
    (hB : ∀ e' : Fin 64, B (ix2 e' s') = x b s e') (e : Fin 64) :
    blockTerm (F := Ideal) B (ix2 e s') = kprob x b s e := by
  have hM : colMaxE B s' = rowMax x b s := by
    rw [rowMax_eq]
    unfold colMaxE
    exact congrArg (fun g : Fin 64 → EReal => (Finset.univ : Finset (Fin 64)).fold max ⊥ g) (funext hB)
  rw [blockTerm_at, hM]
  unfold kprob ex den ex
  rw [hB e]
  refine congrArg (fun z => Ideal.exp (x b s e - rowMax x b s) * Ideal.div 1 z) ?_
  exact Finset.sum_congr rfl fun e' _ => by rw [hB e']

/-- THE OUTPUT COLUMN of the softmax kernel on the flattened logits is the kernel's arrangement of the summed
    routing probabilities. -/
theorem psumOut_read (x0 : (⟨3, ![4, 8192, 64]⟩ : Shape).Idx → EReal)
    (hT : (⟨3, ![4, 8192, 64]⟩ : Shape).Transposes [0, 2, 1] ⟨3, ![4, 64, 8192]⟩)
    (hC : (⟨3, ![4, 64, 8192]⟩ : Shape).ShapeCasts ⟨2, ![256, 8192]⟩) (e : Fin 64) :
    psumOut (F := Ideal) (shapeCast ⟨2, ![256, 8192]⟩ (transpose ⟨3, ![4, 64, 8192]⟩ [0, 2, 1] x0 hT) hC) (ix2 e (0 : Fin 1))
      = psumK (fun b s e => x0 (ix3 b s e)) e := by
  unfold psumOut psumK
  rw [k0_pay3_at]
  refine Finset.sum_congr rfl fun s' _ => ?_
  rw [accAfter_eight]
  refine Finset.sum_congr rfl fun i _ => Finset.sum_congr rfl fun jj _ => ?_
  have hi := i.isLt
  have hj := jj.isLt
  have hm : jj.val + 2 * i.val < cfg0.N := by show jj.val + 2 * i.val < 8; omega
  unfold sm0_term
  rw [dif_pos hm]
  refine blockTerm_kprob (fun b s e => x0 (ix3 b s e)) _ i (tok jj s') s' (fun e' => ?_) e
  rw [sm0_blk_at]
  have hrow : (⟨64 * ((jj.val + 2 * i.val) / 2) + e'.val, by have := e'.isLt; omega⟩ : Fin 256)
      = ⟨64 * i.val + e'.val, by have := e'.isLt; omega⟩ := Fin.ext (by show 64 * ((jj.val + 2 * i.val) / 2) + e'.val = 64 * i.val + e'.val; omega)
  have hcol : (⟨4096 * ((jj.val + 2 * i.val) % 2) + s'.val, by have := s'.isLt; omega⟩ : Fin 8192) = tok jj s' :=
    Fin.ext (by show 4096 * ((jj.val + 2 * i.val) % 2) + s'.val = jj.val * 4096 + s'.val; omega)
  show shapeCast ⟨2, ![256, 8192]⟩ (transpose ⟨3, ![4, 64, 8192]⟩ [0, 2, 1] x0 hT) hC
      (ix2 (⟨64 * ((jj.val + 2 * i.val) / 2) + e'.val, _⟩ : Fin 256) (⟨4096 * ((jj.val + 2 * i.val) % 2) + s'.val, _⟩ : Fin 8192)) = _
  rw [hrow, hcol]
  exact read_logits x0 hT hC i e' (tok jj s')

end Cert.Proof.KI

end
-- ==== Proof.CombineValue.lean ====
/-
  The combination kernel's one stored word, read as a formula of its two input blocks.

  The body sums the 128 × 128 histogram block down its rows, adds columns `e` and `64 + e` of the result, and scales
  by 2^-18; it takes the 64 row sums of the softmax (a 64 × 1 column) as a row and scales by 2^-15; it multiplies
  the two rows entry by entry, sums the 64 products and scales by 0.64. Each step is read at an index: a shape cast
  keeps the row-major position, a slice shifts a column, a transpose swaps coordinates, a sum over one axis is the
  sum over that axis's coordinates, and a sum into a one-element result is the sum over every index.
-/
import proofs.«210303_g84464826843916_cont_9to1c4b_132_15_alg».proof.Proof.Combine
import proofs.«210303_g84464826843916_cont_9to1c4b_132_15_alg».proof.Proof.Consts
import Idealize.ShloMosaic.Lib.ValueLayout
import Idealize.ShloMosaic.PureOps.Ideal.Laws

noncomputable section

open scoped BigOperators

namespace Cert.Proof.KI

open Cert.KernelIdeal Cert.KernelIdeal.Gen
open Idealize.ShloMosaic Idealize.ShloMosaic.ValueIdx Cert.Proof.Spec Cert.Proof.Consts

variable {F : FTy → Type} [FloatOps F]

/-! ## The body's steps, named -/

/-- The histogram block summed down its rows, as a 1 × 128 row. -/
def cv_colSums (c : Vec F S128x128 .f32) : FVec F S1x128 .f32 :=
  shapeCast S1x128
    (multiReduction .add [0] S128 (shapeCast S128x128 c shapeCasts_S128x128_S128x128) 0x00000000#32
      reduces_S128x128_S128 (.inl rfl) rfl) shapeCasts_S128_S1x128

/-- The two halves of the row of column sums added, scaled by 2^-18. -/
def cv_fracRow (c : Vec F S128x128 .f32) : FVec F S1x64 .f32 :=
  mulf (addf (extractStridedSlice S1x64 ![0, 0] (cv_colSums c) slices_S1x128_o0_0_S1x64)
      (extractStridedSlice S1x64 ![0, 64] (cv_colSums c) slices_S1x128_o0_64_S1x64))
    (broadcast S1x64 (Scalar.ofBits .f32 0x36800000#32))

/-- The column of row sums as a row, scaled by 2^-15. -/
def cv_avgRow (p : Vec F S64x1 .f32) : FVec F S1x64 .f32 :=
  mulf (transpose S1x64 [1, 0] (shapeCast S64x1 p shapeCasts_S64x1_S64x1) transposes_S64x1_p1_0_S1x64)
    (broadcast S1x64 (Scalar.ofBits .f32 0x38000000#32))

/-- The sum of a 1 × 64 row, as the body takes it. -/
def cv_total (v : FVec F S1x64 .f32) : F .f32 :=
  extractAt ![0, 0, 0]
    (shapeCast S1x1x1
      (multiReduction .add [1, 2] S1 (shapeCast S1x1x64 v shapeCasts_S1x64_S1x1x64) 0x00000000#32
        reduces_S1x1x64_S1 (.inl rfl) rfl) shapeCasts_S1_S1x1x1) inpos_S1x1x1_p0_0_0

/-- The body's payload is these steps composed. -/
theorem k2_pay1_steps (c : Vec F S128x128 .f32) (p : Vec F S64x1 .f32) :
    k2_pay1 c p = Scalar.mulf (Scalar.ofBits .f32 0x3F23D70A#32) (cv_total (mulf (cv_fracRow c) (cv_avgRow p))) := rfl

/-! ## Each step at an index, over the extended reals -/

theorem cv_colSums_at (c : FVec Ideal S128x128 .f32) (col : Fin 128) :
    cv_colSums (F := Ideal) c (ix2 (0 : Fin 1) col) = ∑ r : Fin 128, c (ix2 r col) := by
  unfold cv_colSums
  refine (shapeCast_a_1a_apply _ shapeCasts_S128_S1x128 (0 : Fin 1) col).trans ?_
  refine (Ideal.multiReduction_add_single _ 0x00000000#32 reduces_S128x128_S128 (.inl rfl) rfl (ix1 col)).trans ?_
  refine Finset.sum_congr rfl fun r _ => ?_
  rw [shapeCast_self]
  exact congrArg c (funext fun a => Fin.ext (by match a with | ⟨0, _⟩ => rfl | ⟨1, _⟩ => rfl))

theorem cv_fracRow_at (c : FVec Ideal S128x128 .f32) (e : Fin 64) :
    cv_fracRow (F := Ideal) c (ix2 (0 : Fin 1) e)
      = ((∑ r : Fin 128, c (ix2 r (⟨e.val, by have := e.isLt; omega⟩ : Fin 128)))
          + ∑ r : Fin 128, c (ix2 r (⟨64 + e.val, by have := e.isLt; omega⟩ : Fin 128))) * cI262144 := by
  unfold cv_fracRow
  rw [mulf_apply, addf_apply, broadcast_apply]
  have h0 : extractStridedSlice S1x64 ![0, 0] (cv_colSums (F := Ideal) c) slices_S1x128_o0_0_S1x64 (ix2 (0 : Fin 1) e)
      = cv_colSums (F := Ideal) c (ix2 (0 : Fin 1) (⟨e.val, by have := e.isLt; omega⟩ : Fin 128)) :=
    slice2_axis1_apply 0 _ slices_S1x128_o0_0_S1x64 (0 : Fin 1) e _ (by show e.val = 0 + e.val; omega)
  have h1 : extractStridedSlice S1x64 ![0, 64] (cv_colSums (F := Ideal) c) slices_S1x128_o0_64_S1x64 (ix2 (0 : Fin 1) e)
      = cv_colSums (F := Ideal) c (ix2 (0 : Fin 1) (⟨64 + e.val, by have := e.isLt; omega⟩ : Fin 128)) :=
    slice2_axis1_apply 64 _ slices_S1x128_o0_64_S1x64 (0 : Fin 1) e _ rfl
  rw [h0, h1, cv_colSums_at, cv_colSums_at]
  rfl

theorem cv_avgRow_at (p : FVec Ideal S64x1 .f32) (e : Fin 64) :
    cv_avgRow (F := Ideal) p (ix2 (0 : Fin 1) e) = p (ix2 e (0 : Fin 1)) * cI32768 := by
  unfold cv_avgRow
  rw [mulf_apply, broadcast_apply]
  have ht : transpose S1x64 [1, 0] (shapeCast S64x1 p shapeCasts_S64x1_S64x1) transposes_S64x1_p1_0_S1x64 (ix2 (0 : Fin 1) e)
      = p (ix2 e (0 : Fin 1)) := by
    refine (transpose_ix2_apply _ transposes_S64x1_p1_0_S1x64 (0 : Fin 1) e).trans ?_
    rw [shapeCast_self]
  rw [ht]
  rfl

/-- A sum over the index set of a 1 × 1 × n shape is the sum over its last coordinate. -/
theorem sum_idx_11n {n : ℕ} (f : (⟨3, ![1, 1, n]⟩ : Shape).Idx → EReal) :
    ∑ i, f i = ∑ e : Fin n, f (ix3 (0 : Fin 1) (0 : Fin 1) e) := by
  refine Finset.sum_nbij' (fun i => (⟨(i 2).val, (i 2).isLt⟩ : Fin n)) (fun e => ix3 (0 : Fin 1) (0 : Fin 1) e) ?_ ?_ ?_ ?_ ?_
  · intro i _; exact Finset.mem_univ _
  · intro e _; exact Finset.mem_univ _
  · intro i _
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  · intro e _; rfl
  · intro i _
    refine congrArg f ?_
    funext a
    match a with
    | ⟨0, _⟩ => exact Fin.ext (by have h : (i 0).val < 1 := (i 0).isLt; show (i 0).val = 0; omega)
    | ⟨1, _⟩ => exact Fin.ext (by have h : (i 1).val < 1 := (i 1).isLt; show (i 1).val = 0; omega)
    | ⟨2, _⟩ => rfl

theorem cv_total_eq (v : FVec Ideal S1x64 .f32) :
    cv_total (F := Ideal) v = ∑ e : Fin 64, v (ix2 (0 : Fin 1) e) := by
  unfold cv_total extractAt
  refine (shapeCast_apply _ shapeCasts_S1_S1x1x1 _ (ix1 (0 : Fin 1)) (by
    rw [Shape.rowMajor_val_three, Shape.rowMajor_val_one]; rfl)).trans ?_
  refine (Ideal.multiReduction_add_total _ 0x00000000#32 reduces_S1x1x64_S1
    (fun b => by match b with | ⟨0, _⟩ => rfl) (.inl rfl) rfl (ix1 (0 : Fin 1))).trans ?_
  rw [sum_idx_11n]
  exact Finset.sum_congr rfl fun e _ => shapeCast_ab_1ab_apply v shapeCasts_S1x64_S1x1x64 (0 : Fin 1) (0 : Fin 1) e

/-- THE COMBINATION'S WORD: 0.64 times the sum over the 64 experts of (the two half-column sums of the histogram
    block, added, times 2^-18) times (the expert's row sum times 2^-15). -/
theorem combineOut_read (p : Vec Ideal S64x1 .f32) (c : Vec Ideal S128x128 .f32) (i : S1.Idx) :
    combineOut (F := Ideal) p c i
      = c064 * ∑ e : Fin 64,
          (((∑ r : Fin 128, c (ix2 r (⟨e.val, by have := e.isLt; omega⟩ : Fin 128)))
              + ∑ r : Fin 128, c (ix2 r (⟨64 + e.val, by have := e.isLt; omega⟩ : Fin 128))) * cI262144)
            * (p (ix2 e (0 : Fin 1)) * cI32768) := by
  rw [combineOut_apply, k2_pay1_steps, cv_total_eq]
  show Ideal.ofBits .f32 0x3F23D70A#32 * _ = _
  refine congrArg (fun z => c064 * z) (Finset.sum_congr rfl fun e _ => ?_)
  rw [mulf_apply, cv_fracRow_at, cv_avgRow_at]

end Cert.Proof.KI

end
-- ==== Proof.RefValue.lean ====
/-
  The reference computes the specification.

  Each operation of the reference is read at an index by coordinates: the row maximum is the fold of `max`
  over the 64 experts; the subtraction, exponential, row sum and quotient are the softmax of the
  specification; the one-hot comparison converted to a float is 1 on a hit and 0 otherwise; a sum over
  several leading axes into the expert axis is the iterated sum over those axes' coordinates (the source
  indices that drop to expert `e` are exactly those whose last coordinate is `e`); the last three operations
  are the two divisions, the product, the sum over experts and the two scalings, in the specification's order.
  No finiteness is needed: both sides are the same arrangement of the same extended-real operations.
-/
import proofs.«210303_g84464826843916_cont_9to1c4b_132_15_alg».proof.Proof.Gen.ReferenceIdeal.Read
import proofs.«210303_g84464826843916_cont_9to1c4b_132_15_alg».proof.Proof.Gen.Pre_input_domain
import proofs.«210303_g84464826843916_cont_9to1c4b_132_15_alg».proof.Proof.Spec

noncomputable section

open scoped BigOperators

namespace Cert.Proof.RefValue

open Cert.ReferenceIdeal Cert.ReferenceIdeal.Gen Cert.ReferenceIdeal.Read
open Idealize.ShloMosaic Idealize.ShloMosaic.ValueIdx Cert.Proof.Spec

/-- The logits array of the reference's type. -/
abbrev XArr : Type := (⟨S4x8192x64, .f32⟩ : BufTy).Contents (Elt Ideal)
/-- The expert-index array of the reference's type. -/
abbrev IArr : Type := (⟨S4x8192x8, .i32⟩ : BufTy).Contents (Elt Ideal)

/-- An array of logits by coordinates. -/
def logits (x0 : XArr) : Logits := fun b s e => x0 (ix3 b s e)
/-- An array of expert indices by coordinates. -/
def experts (x1 : IArr) : Experts := fun b s k => x1 (ix3 b s k)

/-! ## Sums over leading axes, by coordinates -/

/-- A rank-3 index whose last coordinate is fixed, from the pair of the others. -/
theorem sum_drop_01 (h : S4x8192x64.ReducesTo [0, 1] S64) (f : S4x8192x64.Idx → EReal) (e : Fin 64) :
    ∑ i ∈ Finset.univ.filter (fun i => h.drop i = ix1 e), f i
      = ∑ b : Fin 4, ∑ s : Fin 8192, f (ix3 b s e) := by
  have hd : ∀ i : S4x8192x64.Idx, h.drop i = ix1 e ↔ i 2 = e := by
    intro i
    constructor
    · intro hi
      have h0 := congrArg (fun j : S64.Idx => (j 0).val) hi
      exact Fin.ext ((Shape.ReducesTo.drop_apply_val_of_eq h i 0 2).symm.trans h0)
    · intro hi
      funext a
      match a with
      | ⟨0, _⟩ => exact Fin.ext ((Shape.ReducesTo.drop_apply_val_of_eq h i 0 2).trans (congrArg Fin.val hi))
  have hR : ∑ b : Fin 4, ∑ s : Fin 8192, f (ix3 b s e)
      = ∑ p : Fin 4 × Fin 8192, f (ix3 p.1 p.2 e) := by
    rw [Fintype.sum_prod_type]
  rw [hR]
  refine Finset.sum_nbij' (fun i => ((i 0 : Fin 4), (i 1 : Fin 8192))) (fun p => ix3 p.1 p.2 e) ?_ ?_ ?_ ?_ ?_
  · intro i _; exact Finset.mem_univ _
  · intro p _; exact Finset.mem_filter.2 ⟨Finset.mem_univ _, (hd _).2 rfl⟩
  · intro i hi
    have h2 : i 2 = e := (hd i).1 (Finset.mem_filter.1 hi).2
    rw [← h2]; exact (eq_ix3 i).symm
  · intro p _; rfl
  · intro i hi
    have h2 : i 2 = e := (hd i).1 (Finset.mem_filter.1 hi).2
    rw [← h2]; exact congrArg f (eq_ix3 i)

/-- The rank-4 indices that drop to expert `e`, fibre by fibre over the three leading coordinates: each fibre is one index. -/
theorem sum_drop_012 (h : S4x8192x8x64.ReducesTo [0, 1, 2] S64) (f : S4x8192x8x64.Idx → EReal) (e : Fin 64) :
    ∑ i ∈ Finset.univ.filter (fun i => h.drop i = ix1 e), f i
      = ∑ b : Fin 4, ∑ s : Fin 8192, ∑ k : Fin 8, f (ix4 b s k e) := by
  have hd : ∀ i : S4x8192x8x64.Idx, h.drop i = ix1 e ↔ i 3 = e := by
    intro i
    constructor
    · intro hi
      have h0 := congrArg (fun j : S64.Idx => (j 0).val) hi
      exact Fin.ext ((Shape.ReducesTo.drop_apply_val_of_eq h i 0 3).symm.trans h0)
    · intro hi
      funext a
      match a with
      | ⟨0, _⟩ => exact Fin.ext ((Shape.ReducesTo.drop_apply_val_of_eq h i 0 3).trans (congrArg Fin.val hi))
  rw [← Finset.sum_fiberwise (Finset.univ.filter fun i => h.drop i = ix1 e)
    (fun i : S4x8192x8x64.Idx => (⟨(i 0).val, (i 0).isLt⟩ : Fin 4)) f]
  refine Finset.sum_congr rfl fun b _ => ?_
  rw [← Finset.sum_fiberwise _ (fun i : S4x8192x8x64.Idx => (⟨(i 1).val, (i 1).isLt⟩ : Fin 8192)) f]
  refine Finset.sum_congr rfl fun s _ => ?_
  rw [← Finset.sum_fiberwise _ (fun i : S4x8192x8x64.Idx => (⟨(i 2).val, (i 2).isLt⟩ : Fin 8)) f]
  refine Finset.sum_congr rfl fun k _ => ?_
  refine Finset.sum_eq_single_of_mem (ix4 b s k e) ?_ ?_
  · exact Finset.mem_filter.2 ⟨Finset.mem_filter.2 ⟨Finset.mem_filter.2 ⟨Finset.mem_filter.2
      ⟨Finset.mem_univ _, (hd _).2 rfl⟩, rfl⟩, rfl⟩, rfl⟩
  · intro i hi hne
    exfalso; apply hne
    have h2 := (Finset.mem_filter.1 hi).2
    have hi2 := (Finset.mem_filter.1 hi).1
    have h1 := (Finset.mem_filter.1 hi2).2
    have hi1 := (Finset.mem_filter.1 hi2).1
    have h0 := (Finset.mem_filter.1 hi1).2
    have h3' : i 3 = e := (hd i).1 (Finset.mem_filter.1 (Finset.mem_filter.1 hi1).1).2
    funext a
    match a with
    | ⟨0, _⟩ => exact h0
    | ⟨1, _⟩ => exact h1
    | ⟨2, _⟩ => exact h2
    | ⟨3, _⟩ => exact h3'

/-- A sum over the rank-1 index set is the sum over its coordinate. -/
theorem sum_idx1 {n : Nat} (f : (⟨1, ![n]⟩ : Shape).Idx → EReal) : ∑ i, f i = ∑ a : Fin n, f (ix1 a) := by
  refine Finset.sum_nbij' (fun i => i 0) (fun a => ix1 a) ?_ ?_ ?_ ?_ ?_
  · intro i _; exact Finset.mem_univ _
  · intro a _; exact Finset.mem_univ _
  · intro i _; exact (eq_ix1 i).symm
  · intro a _; rfl
  · intro i _; exact congrArg f (eq_ix1 i)

/-! ## The operations, read at coordinates -/

/-- The row maximum. -/
theorem v2_at (x0 : XArr) (b : Fin 4) (s : Fin 8192) :
    val_main_v2 (F := Ideal) x0 (ix2 b s) = rowMax (logits x0) b s := by
  rw [val_main_v2_apply, val_main_v1_apply, val_main_cst_0_apply]
  have hl : ∀ k : Fin 64, Shape.Reduces.lift (s := S4x8192x64) (t := S4x8192) (a := 2) (by decide) (ix2 b s) k = ix3 b s k :=
    fun k => funext fun a => Fin.ext (by match a with | ⟨0, _⟩ => rfl | ⟨1, _⟩ => rfl | ⟨2, _⟩ => rfl)
  have hfold : val_main_v0 (F := Ideal) x0 (ix2 b s)
      = (Finset.univ : Finset (Fin 64)).fold max negInf (fun e => x0 (ix3 b s e)) := by
    unfold val_main_v0
    refine (Host.reduce_eq_fold_single (FloatOps.maximumf (F := Ideal) (φ := .f32)) x0 (val_main_cst (F := Ideal))
      reducesTo_S4x8192x64_S4x8192_d2 (by decide) h_S_ (ix2 b s)).trans ?_
    exact congrArg (fun g : Fin 64 → EReal => (Finset.univ : Finset (Fin 64)).fold max negInf g)
      (funext fun k => congrArg x0 (hl k))
  rw [hfold]
  rfl

/-- The shifted exponential. -/
theorem v6_at (x0 : XArr) (b : Fin 4) (s : Fin 8192) (e : Fin 64) :
    val_main_v6 (F := Ideal) x0 (ix3 b s e) = ex (logits x0) b s e := by
  rw [val_main_v6_apply, val_main_v5_apply, val_main_v4_apply, val_main_v3_apply]
  have hi : idx_main_v3 (idx_main_v4 (ix3 b s e)) = ix2 b s :=
    funext fun a => Fin.ext (by match a with | ⟨0, _⟩ => rfl | ⟨1, _⟩ => rfl)
  rw [hi, v2_at]
  rfl

/-- The row's normalizer. -/
theorem v7_at (x0 : XArr) (b : Fin 4) (s : Fin 8192) :
    val_main_v7 (F := Ideal) x0 (ix2 b s) = den (logits x0) b s := by
  rw [val_main_v7_apply, val_main_cst_1_apply]
  show Ideal.ofBits .f32 0x00000000#32 + _ = _
  rw [Ideal.ofBits_zero_f32, zero_add]
  unfold den
  refine Finset.sum_congr rfl fun k _ => ?_
  have hi : idx_main_v7 (ix2 b s) k = ix3 b s k :=
    funext fun a => Fin.ext (by match a with | ⟨0, _⟩ => rfl | ⟨1, _⟩ => rfl | ⟨2, _⟩ => rfl)
  rw [hi, v6_at]

/-- The softmax. -/
theorem v10_at (x0 : XArr) (b : Fin 4) (s : Fin 8192) (e : Fin 64) :
    val_main_v10 (F := Ideal) x0 (ix3 b s e) = prob (logits x0) b s e := by
  rw [val_main_v10_apply, val_main_v9_apply, val_main_v8_apply]
  have hi : idx_main_v8 (idx_main_v9 (ix3 b s e)) = ix2 b s :=
    funext fun a => Fin.ext (by match a with | ⟨0, _⟩ => rfl | ⟨1, _⟩ => rfl)
  rw [hi, v6_at, v7_at]
  rfl

/-- The one-hot entry as a float. -/
theorem v11_at (x1 : IArr) (b : Fin 4) (s : Fin 8192) (k : Fin 8) (e : Fin 64) :
    val_main_v11 (F := Ideal) x1 (ix4 b s k e) = hit (experts x1 b s k) e := by
  rw [val_main_v11_apply, val_main_call0_v4_apply, val_main_call0_v2_apply, val_main_call0_v0_apply,
    val_main_call0_v3_apply, val_main_call0_v1_apply]
  have hi : idx_main_call0_v0 (idx_main_call0_v2 (ix4 b s k e)) = ix3 b s k :=
    funext fun a => Fin.ext (by match a with | ⟨0, _⟩ => rfl | ⟨1, _⟩ => rfl | ⟨2, _⟩ => rfl)
  rw [hi]
  show (((IntOp.cmpi .eq (x1 (ix3 b s k)) (BitVec.ofNat 32 e.val)).toNat : ℝ) : EReal) = _
  unfold hit experts IntOp.cmpi
  by_cases hw : x1 (ix3 b s k) = BitVec.ofNat 32 e.val
  · simp [hw]
  · simp [hw]

/-- The count of expert `e`. -/
theorem v12_at (x1 : IArr) (e : Fin 64) :
    val_main_v12 (F := Ideal) x1 (ix1 e) = cnt (experts x1) e := by
  unfold val_main_v12
  simp only [Host.reduceAdd, Ideal.hostReduceAdd_def]
  unfold Ideal.hostReduceAdd
  rw [sum_drop_012, val_main_cst_2_apply]
  show Ideal.ofBits .f32 0x00000000#32 + _ = _
  rw [Ideal.ofBits_zero_f32, zero_add]
  unfold cnt
  exact Finset.sum_congr rfl fun b _ => Finset.sum_congr rfl fun s _ => Finset.sum_congr rfl fun k _ => v11_at x1 b s k e

/-- The summed routing probability of expert `e`. -/
theorem v15_at (x0 : XArr) (e : Fin 64) :
    val_main_v15 (F := Ideal) x0 (ix1 e) = probSum (logits x0) e := by
  unfold val_main_v15
  simp only [Host.reduceAdd, Ideal.hostReduceAdd_def]
  unfold Ideal.hostReduceAdd
  rw [sum_drop_01, val_main_cst_4_apply]
  show Ideal.ofBits .f32 0x00000000#32 + _ = _
  rw [Ideal.ofBits_zero_f32, zero_add]
  unfold probSum
  exact Finset.sum_congr rfl fun b _ => Finset.sum_congr rfl fun s _ => v10_at x0 b s e

/-- One expert's term of the final sum. -/
theorem v18_at (x0 : XArr) (x1 : IArr) (e : Fin 64) :
    val_main_v18 (F := Ideal) x0 x1 (ix1 e)
      = Ideal.div (cnt (experts x1) e) c262144 * Ideal.div (probSum (logits x0) e) c32768 := by
  rw [val_main_v18_apply, val_main_v14_apply, val_main_v17_apply, val_main_v13_apply, val_main_v16_apply,
    val_main_cst_3_apply, val_main_cst_5_apply, v12_at, v15_at]
  rfl

/-- THE REFERENCE'S RESULT IS THE SPECIFICATION, at the one index of the rank-0 result. -/
theorem ref_value (x0 : XArr) (x1 : IArr) (i : S_.Idx) :
    val_main_v21 (F := Ideal) x0 x1 i = lossSpec (logits x0) (experts x1) := by
  rw [val_main_v21_apply, val_main_v20_apply, val_main_v19_apply, val_main_cst_8_apply, val_main_cst_7_apply,
    val_main_cst_6_apply, sum_idx1]
  show Ideal.ofBits .f32 0x3C23D70A#32 * (Ideal.ofBits .f32 0x42800000#32 * (Ideal.ofBits .f32 0x00000000#32 + _)) = _
  rw [Ideal.ofBits_zero_f32, zero_add]
  unfold lossSpec c01 c64
  refine congrArg (fun z => Ideal.ofBits .f32 0x3C23D70A#32 * (Ideal.ofBits .f32 0x42800000#32 * z)) ?_
  exact Finset.sum_congr rfl fun e _ => v18_at x0 x1 e

/-- The same about the term the reference's run states for its result. -/
theorem ref_run_value (x0 : XArr) (x1 : IArr) :
    val_main_v21 (F := Ideal) x0 x1 = fun _ => lossSpec (logits x0) (experts x1) :=
  funext fun i => ref_value x0 x1 i

end Cert.Proof.RefValue

end
-- ==== Proof.Algebraic.lean ====
/-
  The two idealized programs compute one number. The reference's loss is the specification itself, read index by index.
  The kernel's result array holds the same sums in another arrangement — the softmax as a product with the reciprocal of
  the row sum and accumulated block by block, the expert counts as sixteen tiles' lane-wise histograms added up, the
  two divisions by powers of two as products with their reciprocals, the two scalar factors folded into one — and on
  finite logits the two arrangements are equal on the extended reals.
-/
import proofs.«210303_g84464826843916_cont_9to1c4b_132_15_alg».proof.Defs
import proofs.«210303_g84464826843916_cont_9to1c4b_132_15_alg».proof.Proof.HistSplit
import proofs.«210303_g84464826843916_cont_9to1c4b_132_15_alg».proof.Proof.Regions
import proofs.«210303_g84464826843916_cont_9to1c4b_132_15_alg».proof.Proof.RowsRange
import proofs.«210303_g84464826843916_cont_9to1c4b_132_15_alg».proof.Proof.ValChain
import proofs.«210303_g84464826843916_cont_9to1c4b_132_15_alg».proof.Proof.FinalValue
import proofs.«210303_g84464826843916_cont_9to1c4b_132_15_alg».proof.Proof.SoftmaxSum
import proofs.«210303_g84464826843916_cont_9to1c4b_132_15_alg».proof.Proof.CombineValue
import proofs.«210303_g84464826843916_cont_9to1c4b_132_15_alg».proof.Proof.RefValue
import proofs.«210303_g84464826843916_cont_9to1c4b_132_15_alg».proof.Proof.PreFinite
import proofs.«210303_g84464826843916_cont_9to1c4b_132_15_alg».proof.Proof.Gen.ReferenceIdeal.Run
import proofs.«210303_g84464826843916_cont_9to1c4b_132_15_alg».proof.Proof.Gen.ReferenceIdeal.Read

noncomputable section

namespace Cert.Proof.KI

open Cert.KernelIdeal Cert.KernelIdeal.Gen
open Idealize.ShloMosaic Idealize.ShloMosaic.ValueIdx Idealize.SL.Sem

/-- The kernel's column sums of the softmax, read at expert `e`, are the sums over every token of the product form. -/
theorem psum_read (m : (ℓ : Loc nD τ sig) → Buf (Elt Ideal) ℓ) (d : Dev nD) (e : Fin 64) :
    psumOut (F := Ideal) (W4 m d (rf main_v1)) (ix2 e (0 : Fin 1))
      = Cert.Proof.KernelMath.psumK (fun b s e => m (d, rf main_arg0) (ix3 b s e)) e := by
  rw [W4_v1]
  exact psumOut_read _ _ _ e

/-- The algebraic conjunct, from a histogram function `H` of the transposed indices that the kernel's run leaves in the
    histogram array and whose entries are the per-tile, per-lane counts. -/
theorem algebraic_of (H : (d : Dev nD) → Buf (Elt Ideal) (a3Loc d) → Buf (Elt Ideal) (a5Loc d))
    (hrun : ∀ (m : (ℓ : Loc nD τ sig) → Buf (Elt Ideal) ℓ) (ρ : Dev nD → PrngReg),
      (∀ c : Dev nD, Cert.Pre_input_domain.fn (F := Ideal) (m ((c.tc : Thread nD τ).loc main_arg0)) (m ((c.tc : Thread nD τ).loc main_arg1)) = fun _ => 1#1) →
      θ_run (Cert.KernelIdeal.defs (F := Ideal)) (Cert.KernelIdeal.threads (F := Ideal)) ⟨m, fun _ => 0, ρ⟩ (QC m psumOut (histK H) combineOut))
    (hH : ∀ (m : (ℓ : Loc nD τ sig) → Buf (Elt Ideal) ℓ),
      (∀ c : Dev nD, Cert.Pre_input_domain.fn (F := Ideal) (m ((c.tc : Thread nD τ).loc main_arg0)) (m ((c.tc : Thread nD τ).loc main_arg1)) = fun _ => 1#1) →
      ∀ (d : Dev nD) (flat : Fin 16384), histK H (W5 m psumOut d (rf main_v3)) (ix1 flat)
        = Cert.Proof.KernelMath.histK (fun b s k => m (d, rf main_arg1) (ix3 b s k)) flat) :
    Cert.algebraic_KernelIdeal_ReferenceIdeal := by
  intro m ρ m' ρ' hpre hagree
  have hpre' := pre_of_Pre_KernelIdeal m hpre
  refine ⟨fun c => W9 (F := Ideal) m psumOut (histK H) combineOut c (rf main_v8), ?_, ?_⟩
  · exact (θ_run _ _ _).mono (fun r h c => ⟨(h c).1, (h c).2.1.trans (W9_arg0 m _ _ _ c), (h c).2.2.trans (W9_arg1 m _ _ _ c)⟩)
      (hrun m ρ hpre')
  · refine (θ_run Cert.ReferenceIdeal.defs _ _).mono (fun r h c => ⟨?_, (h c).2⟩) (Cert.ReferenceIdeal.Value.run (F := Ideal) m' ρ')
    refine (h c).1.trans ?_
    refine (Cert.ReferenceIdeal.Read.val_main_v21_eq _ _).trans ?_
    rw [Cert.Proof.RefValue.ref_run_value, (hagree c).1, (hagree c).2]
    refine Eq.symm ((final_value_of m c psumOut (histK H) (psum_read m c) (hH m hpre' c) combineOut_read).trans ?_)
    funext _
    exact Cert.Proof.KernelMath.kernel_math _ _ (Cert.Proof.PreFinite.finite_of_pre _ _ (hpre' c))

end Cert.Proof.KI

end
-- ==== Proof.HistValue.lean ====
/-
  One indexed add-store of the histogram tile, read as a formula.

  The store takes a vector of 16 index words (one per lane), adds the lane's offset 64·l, and adds 1 onto the
  scratch at each resulting position, lane by lane. When every word is below 64, lane l's position 64·l + w lies
  in the lane's own 64 bins, so different lanes never meet: bin 64·l + e gains exactly 1 when lane l's word is e,
  and nothing otherwise.
-/
import proofs.«210303_g84464826843916_cont_9to1c4b_132_15_alg».proof.Proof.HistSpec
import proofs.«210303_g84464826843916_cont_9to1c4b_132_15_alg».proof.Proof.Consts
import proofs.«210303_g84464826843916_cont_9to1c4b_132_15_alg».proof.Proof.HostLayout
import Idealize.ShloMosaic.Lib.ValueIdx

noncomputable section

open scoped BigOperators

namespace Cert.Proof.KI

open Cert.KernelIdeal Cert.KernelIdeal.Gen
open Idealize.ShloMosaic Idealize.ShloMosaic.ValueIdx Cert.Proof.Spec Cert.Proof.Consts
open Cert.Proof.KernelMath Cert.Proof.HostLayout

/-! ## The lane offsets and the positions -/

/-- Lane `l`'s offset word is 64·l. -/
theorem k1_pay2_at (x : S16.Idx) : k1_pay2 x = BitVec.ofNat 32 (x 0).val * 64#32 := by
  unfold k1_pay2 muli iota broadcast IntOp.muli
  simp

/-- The position a lane names: its offset plus its word, without wrapping. -/
theorem target_toNat (chunk : IVec S16 32) (hr : ∀ x, (chunk x).toNat < 64) (x : S16.Idx) :
    (IntOp.addi (k1_pay2 x) (chunk x)).toNat = 64 * (x 0).val + (chunk x).toNat := by
  have hx : (x 0).val < 16 := (x 0).isLt
  have he := hr x
  rw [k1_pay2_at]
  unfold IntOp.addi
  rw [BitVec.toNat_add, BitVec.toNat_mul, BitVec.toNat_ofNat]
  simp only [BitVec.toNat_ofNat]
  omega

/-- A lane as an index of the 16-lane shape. -/
theorem ofLane_eq (k : Fin 16) : (Shape.ofLane (d := ![16]) k : S16.Idx) = ix1 k :=
  funext fun a => by match a with | ⟨0, _⟩ => rfl

/-! ## The indexed add-store over a list of lanes, at one position -/

section Generic
variable {F : FTy → Type} [FloatOps F] {s : Shape} {e : EltTy} {d : Fin 1 → Nat}

/-- The indexed store taken over an arbitrary list of lanes (the store itself takes all of them in ascending order). -/
def storeIdxL (L : List (Fin (d 0))) (f : Vec F s e) (idxs : Fin s.rank → IVec ⟨1, d⟩ 32) (v : Vec F ⟨1, d⟩ e)
    (mask : IVec ⟨1, d⟩ 1) (add : Bool) (h : ∀ a x, (idxs a x).toNat < s.size a) : Vec F s e :=
  L.foldl (fun g k =>
    let x := Shape.ofLane k
    @ite _ (mask x = 1) (instDecidableEqBitVec (mask x) 1)
      (let i := idxAt idxs h x
       let y := @ite _ (add = true) (instDecidableEqBool add true) (Elt.idxAdd e (g i) (v x)) (v x)
       fun j => @ite _ (∀ a : Fin s.rank, (j a).val = (i a).val) (Nat.decidableForallFin _) y (g j))
      g) f

theorem storeIdx_eq_storeIdxL (f : Vec F s e) (idxs : Fin s.rank → IVec ⟨1, d⟩ 32) (v : Vec F ⟨1, d⟩ e)
    (mask : IVec ⟨1, d⟩ 1) (add : Bool) (h : ∀ a x, (idxs a x).toNat < s.size a) :
    storeIdx f idxs v mask add h = storeIdxL (List.finRange (d 0)) f idxs v mask add h := rfl

/-- The first lane of the list, unmasked and adding: its position gains its value, every other keeps its own. -/
theorem storeIdxL_cons (k : Fin (d 0)) (L : List (Fin (d 0))) (f : Vec F s e) (idxs : Fin s.rank → IVec ⟨1, d⟩ 32)
    (v : Vec F ⟨1, d⟩ e) (h : ∀ a x, (idxs a x).toNat < s.size a) :
    storeIdxL (k :: L) f idxs v (fun _ => 1#1) true h
      = storeIdxL L (fun j => @ite _ (∀ a : Fin s.rank, (j a).val = (idxAt idxs h (Shape.ofLane k) a).val) (Nat.decidableForallFin _)
          (Elt.idxAdd e (f (idxAt idxs h (Shape.ofLane k))) (v (Shape.ofLane k))) (f j))
        idxs v (fun _ => 1#1) true h := rfl

/-- A position no lane of the list names keeps its value. -/
theorem storeIdxL_miss : ∀ (L : List (Fin (d 0))) (f : Vec F s e) (idxs : Fin s.rank → IVec ⟨1, d⟩ 32)
    (v : Vec F ⟨1, d⟩ e) (h : ∀ a x, (idxs a x).toNat < s.size a) (j : s.Idx),
    (∀ k ∈ L, idxAt idxs h (Shape.ofLane k) ≠ j) → storeIdxL L f idxs v (fun _ => 1#1) true h j = f j
  | [], _, _, _, _, _, _ => rfl
  | k :: L, f, idxs, v, h, j, hm => by
    rw [storeIdxL_cons, storeIdxL_miss L _ idxs v h j (fun k' hk' => hm k' (List.mem_cons_of_mem _ hk'))]
    have hk : idxAt idxs h (Shape.ofLane k) ≠ j := hm k (List.mem_cons_self ..)
    show @ite _ (∀ a : Fin s.rank, (j a).val = (idxAt idxs h (Shape.ofLane k) a).val) (Nat.decidableForallFin _) _ (f j) = f j
    rw [if_neg (fun hall => hk (funext fun a => Fin.ext (hall a).symm))]

/-- A position exactly one lane of a duplicate-free list names gains that lane's value. -/
theorem storeIdxL_hit : ∀ (L : List (Fin (d 0))) (f : Vec F s e) (idxs : Fin s.rank → IVec ⟨1, d⟩ 32)
    (v : Vec F ⟨1, d⟩ e) (h : ∀ a x, (idxs a x).toNat < s.size a) (j : s.Idx) (k₀ : Fin (d 0)),
    L.Nodup → k₀ ∈ L → idxAt idxs h (Shape.ofLane k₀) = j →
    (∀ k ∈ L, idxAt idxs h (Shape.ofLane k) = j → k = k₀) →
    storeIdxL L f idxs v (fun _ => 1#1) true h j = Elt.idxAdd e (f j) (v (Shape.ofLane k₀))
  | [], _, _, _, _, _, _, _, hmem, _, _ => absurd hmem List.not_mem_nil
  | k :: L, f, idxs, v, h, j, k₀, hn, hmem, hk₀, huniq => by
    rw [storeIdxL_cons]
    have hkL : k ∉ L := (List.nodup_cons.1 hn).1
    by_cases hkk : k = k₀
    · subst hkk
      rw [storeIdxL_miss L _ idxs v h j (fun k' hk' hhit => hkL (huniq k' (List.mem_cons_of_mem _ hk') hhit ▸ hk'))]
      show @ite _ (∀ a : Fin s.rank, (j a).val = (idxAt idxs h (Shape.ofLane k) a).val) (Nat.decidableForallFin _)
        (Elt.idxAdd e (f (idxAt idxs h (Shape.ofLane k))) (v (Shape.ofLane k))) (f j) = _
      rw [if_pos (fun a => by rw [hk₀]), hk₀]
    · have hk₀L : k₀ ∈ L := (List.mem_cons.1 hmem).resolve_left (fun h' => hkk h'.symm)
      rw [storeIdxL_hit L _ idxs v h j k₀ (List.nodup_cons.1 hn).2 hk₀L hk₀
        (fun k' hk' => huniq k' (List.mem_cons_of_mem _ hk'))]
      have hmissk : idxAt idxs h (Shape.ofLane k) ≠ j := fun hhit => hkk (huniq k (List.mem_cons_self ..) hhit)
      show Elt.idxAdd e (@ite _ (∀ a : Fin s.rank, (j a).val = (idxAt idxs h (Shape.ofLane k) a).val) (Nat.decidableForallFin _)
        (Elt.idxAdd e (f (idxAt idxs h (Shape.ofLane k))) (v (Shape.ofLane k))) (f j)) (v (Shape.ofLane k₀)) = _
      rw [if_neg (fun hall => hmissk (funext fun a => Fin.ext (hall a).symm))]

end Generic

/-! ## The histogram's store -/

/-- Bin `64·l + e` of the scratch. -/
def bin (l : Fin 16) (e : Fin 64) : S1024.Idx :=
  ix1 (⟨64 * l.val + e.val, by have := l.isLt; have := e.isLt; omega⟩ : Fin 1024)

/-- A word is the word of `e` exactly when its value is `e`. -/
theorem hit_eq (w : BitVec 32) (e : Fin 64) : hit w e = if w.toNat = e.val then 1 else 0 := by
  unfold hit
  have he := e.isLt
  have hiff : w = BitVec.ofNat 32 e.val ↔ w.toNat = e.val := by
    constructor
    · intro hw; rw [hw, BitVec.toNat_ofNat]; omega
    · intro hw; apply BitVec.eq_of_toNat_eq; rw [hw, BitVec.toNat_ofNat]; omega
  by_cases hw : w = BitVec.ofNat 32 e.val
  · rw [if_pos hw, if_pos (hiff.1 hw)]
  · rw [if_neg hw, if_neg (fun h => hw (hiff.2 h))]

/-- Lane `k` names bin `64·l + e` exactly when it is lane `l` and its word is `e`. -/
theorem target_eq_iff (chunk : IVec S16 32) (hr : ∀ x, (chunk x).toNat < 64)
    (h : ∀ a x, ((![addi k1_pay2 chunk] : Fin 1 → IVec S16 32) a x).toNat < S1024.size a)
    (k l : Fin 16) (e : Fin 64) :
    idxAt (s := S1024) (![addi k1_pay2 chunk] : Fin 1 → IVec S16 32) h (Shape.ofLane (d := ![16]) k) = bin l e
      ↔ k = l ∧ (chunk (ix1 k)).toNat = e.val := by
  have hk := k.isLt
  have hl := l.isLt
  have he := e.isLt
  have hck := hr (ix1 k)
  have hpos : (IntOp.addi (k1_pay2 (Shape.ofLane (d := ![16]) k)) (chunk (Shape.ofLane (d := ![16]) k))).toNat
      = 64 * k.val + (chunk (ix1 k)).toNat := by
    rw [ofLane_eq, target_toNat chunk hr (ix1 k)]
  constructor
  · intro heq
    have h0 : (IntOp.addi (k1_pay2 (Shape.ofLane (d := ![16]) k)) (chunk (Shape.ofLane (d := ![16]) k))).toNat
        = 64 * l.val + e.val := congrArg (fun i : S1024.Idx => (i 0).val) heq
    rw [hpos] at h0
    exact ⟨Fin.ext (by omega), by omega⟩
  · rintro ⟨hkl, hw⟩
    subst hkl
    funext a
    have ha : a = 0 := Fin.eq_zero a
    subst ha
    refine Fin.ext ?_
    show (IntOp.addi (k1_pay2 (Shape.ofLane (d := ![16]) k)) (chunk (Shape.ofLane (d := ![16]) k))).toNat = 64 * k.val + e.val
    rw [hpos, hw]

/-- THE STORE AT A BIN: bin `64·l + e` gains 1 exactly when lane `l`'s word is `e`. -/
theorem storeIdx_hist (g : Vec Ideal S1024 .f32) (chunk : IVec S16 32) (hr : ∀ x, (chunk x).toNat < 64)
    (h : ∀ a x, ((![addi k1_pay2 chunk] : Fin 1 → IVec S16 32) a x).toNat < S1024.size a)
    (l : Fin 16) (e : Fin 64) :
    storeIdx g ![addi k1_pay2 chunk] (k1_pay3 (F := Ideal)) (fun _ => 1#1) true h (bin l e)
      = g (bin l e) + hit (chunk (ix1 l)) e := by
  rw [storeIdx_eq_storeIdxL, hit_eq]
  by_cases hw : (chunk (ix1 l)).toNat = e.val
  · rw [if_pos hw]
    refine (storeIdxL_hit (List.finRange 16) g _ _ h (bin l e) l (List.nodup_finRange 16) (List.mem_finRange l)
      ((target_eq_iff chunk hr h l l e).2 ⟨rfl, hw⟩)
      (fun k _ hk => ((target_eq_iff chunk hr h k l e).1 hk).1)).trans ?_
    show g (bin l e) + k1_pay3 (F := Ideal) (Shape.ofLane (d := ![16]) l) = _
    exact congrArg (fun z => g (bin l e) + z) ofBits_one
  · rw [if_neg hw, add_zero]
    refine storeIdxL_miss (List.finRange 16) g _ _ h (bin l e) (fun k _ hk => ?_)
    obtain ⟨hkl, hk2⟩ := (target_eq_iff chunk hr h k l e).1 hk
    subst hkl
    exact hw hk2

/-! ## The tile's histogram after all its chunks -/

/-- A position of a row of 8192 words, as the store's lanes name it and by its coordinate. -/
theorem ofLane8192_eq (c : Fin 8192) : (Shape.ofLane (d := ![8192]) c : S8192.Idx) = ix1 c :=
  funext fun a => by match a with | ⟨0, _⟩ => rfl

theorem rows_congr (rows : Rows) {r r' : Fin 2} {x x' : S8192.Idx} (hr : r = r') (hx : x = x') :
    rows r x = rows r' x' := by
  subst hr hx; rfl

/-- After `n` chunks bin `64·l + e` holds the number of those chunks whose lane `l` reads `e`. -/
theorem histRec_at (rows : Rows) (hr : ∀ r x, (rows r x).toNat < 64) (l : Fin 16) (e : Fin 64) :
    ∀ n : ℕ, histRec (F := Ideal) rows n (bin l e) = ∑ m ∈ Finset.range n, hit (chunkOf rows m (ix1 l)) e
  | 0 => by
    rw [histRec_zero, broadcast_apply, Finset.range_zero, Finset.sum_empty]
    exact ofBits_zero
  | n + 1 => by
    rw [histRec_succ rows n (chunkOK_of_range rows hr n), Finset.sum_range_succ, ← histRec_at rows hr l e n]
    exact storeIdx_hist (histRec rows n) (chunkOf rows n) (fun x => hr _ _) (chunkOK_of_range rows hr n) l e

/-- THE TILE'S HISTOGRAM at bin `64·l + e`: the hits of `e` among the columns congruent to `l` modulo 16 of its two rows. -/
theorem histOf_read (rows : Rows) (hr : ∀ r x, (rows r x).toNat < 64) (l : Fin 16) (e : Fin 64) :
    histOf (F := Ideal) rows (bin l e)
      = ∑ r : Fin 2, ∑ v : Fin 512,
          hit (rows r (ix1 (⟨16 * v.val + l.val, by have := v.isLt; have := l.isLt; omega⟩ : Fin 8192))) e := by
  unfold histOf
  rw [histRec_at rows hr l e 1024, ← Fin.sum_univ_eq_sum_range (fun m => hit (chunkOf rows m (ix1 l)) e) 1024]
  refine (sum_mul 2 512 (fun m => hit (chunkOf rows m (ix1 l)) e)).trans ?_
  refine Finset.sum_congr rfl fun r _ => Finset.sum_congr rfl fun v _ => ?_
  have hrv := r.isLt
  have hv := v.isLt
  have hl := l.isLt
  refine congrArg (fun w => hit w e) ?_
  unfold chunkOf
  refine rows_congr rows (Fin.ext ?_) ?_
  · show (v.val + 512 * r.val) / 512 % 2 = r.val
    omega
  · refine (ofLane8192_eq _).trans ?_
    refine congrArg ix1 (Fin.ext ?_)
    show 16 * ((v.val + 512 * r.val) % 512) + l.val = 16 * v.val + l.val
    omega

/-- THE TILE'S HISTOGRAM IS THE KERNEL ARRANGEMENT'S: tile `t` reads rows `2t`, `2t + 1` of the transposed, flattened index
    words; its bin `64·l + e` is bin `1024·t + 64·l + e` of the arrangement. -/
theorem histOf_tile (x1 : (⟨3, ![4, 8192, 8]⟩ : Shape).Idx → BitVec 32)
    (hT : (⟨3, ![4, 8192, 8]⟩ : Shape).Transposes [0, 2, 1] ⟨3, ![4, 8, 8192]⟩)
    (hC : (⟨3, ![4, 8, 8192]⟩ : Shape).ShapeCasts ⟨2, ![32, 8192]⟩)
    (hrange : ∀ i, (x1 i).toNat < 64) (t l : Fin 16) (e : Fin 64) :
    histOf (F := Ideal)
        (fun r x => shapeCast ⟨2, ![32, 8192]⟩ (transpose ⟨3, ![4, 8, 8192]⟩ [0, 2, 1] x1 hT) hC
          (ix2 (⟨2 * t.val + r.val, by have := t.isLt; have := r.isLt; omega⟩ : Fin 32)
            (⟨(x 0).val, (x 0).isLt⟩ : Fin 8192)))
        (bin l e)
      = histK (fun b s k => x1 (ix3 b s k))
          (⟨1024 * t.val + 64 * l.val + e.val, by have := t.isLt; have := l.isLt; have := e.isLt; omega⟩ : Fin 16384) := by
  have ht := t.isLt
  have hl := l.isLt
  have he := e.isLt
  rw [histOf_read _ (fun r x => by rw [read_32x8192 x1 hT hC]; exact hrange _) l e]
  unfold histK
  refine Finset.sum_congr rfl fun r _ => Finset.sum_congr rfl fun v _ => ?_
  have hrv := r.isLt
  have hv := v.isLt
  show hit (shapeCast ⟨2, ![32, 8192]⟩ (transpose ⟨3, ![4, 8, 8192]⟩ [0, 2, 1] x1 hT) hC
      (ix2 (⟨2 * t.val + r.val, _⟩ : Fin 32) (⟨16 * v.val + l.val, _⟩ : Fin 8192))) e = _
  rw [read_idxT x1 hT hC]
  refine hitT_congr _ (Fin.ext ?_) (Fin.ext ?_) (Fin.ext ?_)
  · show 2 * t.val + r.val = 2 * ((1024 * t.val + 64 * l.val + e.val) / 1024) + r.val
    omega
  · show 16 * v.val + l.val = 16 * v.val + (1024 * t.val + 64 * l.val + e.val) % 1024 / 64
    omega
  · show e.val = (1024 * t.val + 64 * l.val + e.val) % 64
    omega

end Cert.Proof.KI

end
-- ==== Proof.HistRead.lean ====
/-
  The histogram array the SparseCore call leaves, read as the kernel arrangement's histogram.

  Word `1024·t + w` of the result is word `w` of tile `t`'s histogram; tile `t` reads rows `2t` and `2t + 1` of the
  transposed, flattened index words through a one-row slice with its unit axis dropped, so its row `r` at position
  `c` is the array at (2t + r, c); and the array is the index argument transposed and flattened. Under the
  input-domain precondition every word is below 64, so each tile's histogram counts hits bin by bin.
-/
import proofs.«210303_g84464826843916_cont_9to1c4b_132_15_alg».proof.Proof.HistTile2
import proofs.«210303_g84464826843916_cont_9to1c4b_132_15_alg».proof.Proof.HistSplit
import proofs.«210303_g84464826843916_cont_9to1c4b_132_15_alg».proof.Proof.HistValue
import proofs.«210303_g84464826843916_cont_9to1c4b_132_15_alg».proof.Proof.ValChain
import proofs.«210303_g84464826843916_cont_9to1c4b_132_15_alg».proof.Proof.RowsRange
import proofs.«210303_g84464826843916_cont_9to1c4b_132_15_alg».proof.Proof.PreFinite

noncomputable section

namespace Cert.Proof.KI

open Cert.KernelIdeal Cert.KernelIdeal.Gen
open Idealize.ShloMosaic Idealize.ShloMosaic.ValueIdx

variable {F : FTy → Type} [FloatOps F]

/-- Dropping the unit axis of a one-row shape: position `c` of the row is (0, c). -/
theorem squeeze_idx (x : S8192.Idx) (h : S8192.numel = S1x8192.numel) :
    Shape.reshapeEquiv h x = ix2 (0 : Fin 1) (⟨(x 0).val, (x 0).isLt⟩ : Fin 8192) :=
  Shape.reshapeEquiv_eq_of_rowMajor h (by
    rw [Shape.rowMajor_val_two, Shape.rowMajor_val_one]
    show 0 * 8192 + (x 0).val = (x 0).val
    omega)

/-- Tile `L`'s first row read at a position is the array at (2·L₁, position). -/
theorem row0M_read (d : Dev nD) (L : grid1.Coords) (i3 : Buf (Elt F) (a3Loc d)) (x : S8192.Idx) :
    (row0M L).view.read (Elt F) i3 x
      = i3 (ix2 (⟨2 * (L 1).val + 0, by have h : (L 1).val < 16 := (L 1).isLt; omega⟩ : Fin 32)
          (⟨(x 0).val, (x 0).isLt⟩ : Fin 8192)) := by
  show i3 ((row0M L).view.emb x) = _
  refine congrArg i3 (funext fun a => Fin.ext ?_)
  have ho := k1_off1_eq L (0 : Fin 2)
  have hy := squeeze_idx x squeezes_S1x8192_S8192.numel_eq
  match a with
  | ⟨0, _⟩ =>
    show k1_off1 L (BitVec.ofNat 32 (0 : Fin 2).val) 0 + 1 * ((Shape.reshapeEquiv squeezes_S1x8192_S8192.numel_eq x) 0).val = 2 * (L 1).val + 0
    rw [ho, hy]
    show 2 * (L 1).val + 0 + 1 * 0 = 2 * (L 1).val + 0
    omega
  | ⟨1, _⟩ =>
    show k1_off1 L (BitVec.ofNat 32 (0 : Fin 2).val) 1 + 1 * ((Shape.reshapeEquiv squeezes_S1x8192_S8192.numel_eq x) 1).val = (x 0).val
    rw [ho, hy]
    show 0 + 1 * (x 0).val = (x 0).val
    omega

/-- Tile `L`'s second row read at a position is the array at (2·L₁ + 1, position). -/
theorem row1M_read (d : Dev nD) (L : grid1.Coords) (i3 : Buf (Elt F) (a3Loc d)) (x : S8192.Idx) :
    (row1M L).view.read (Elt F) i3 x
      = i3 (ix2 (⟨2 * (L 1).val + 1, by have h : (L 1).val < 16 := (L 1).isLt; omega⟩ : Fin 32)
          (⟨(x 0).val, (x 0).isLt⟩ : Fin 8192)) := by
  show i3 ((row1M L).view.emb x) = _
  refine congrArg i3 (funext fun a => Fin.ext ?_)
  have ho := k1_off1_eq L (1 : Fin 2)
  have hy := squeeze_idx x squeezes_S1x8192_S8192.numel_eq
  match a with
  | ⟨0, _⟩ =>
    show k1_off1 L (BitVec.ofNat 32 (1 : Fin 2).val) 0 + 1 * ((Shape.reshapeEquiv squeezes_S1x8192_S8192.numel_eq x) 0).val = 2 * (L 1).val + 1
    rw [ho, hy]
    show 2 * (L 1).val + 1 + 1 * 0 = 2 * (L 1).val + 1
    omega
  | ⟨1, _⟩ =>
    show k1_off1 L (BitVec.ofNat 32 (1 : Fin 2).val) 1 + 1 * ((Shape.reshapeEquiv squeezes_S1x8192_S8192.numel_eq x) 1).val = (x 0).val
    rw [ho, hy]
    show 0 + 1 * (x 0).val = (x 0).val
    omega

/-- Tile `t`'s two rows, entry by entry. -/
theorem tileRows_at (d : Dev nD) (t : Fin 16) (i3 : Buf (Elt F) (a3Loc d)) (r : Fin 2) (x : S8192.Idx) :
    tileRows d (coordsT t) i3 r x
      = i3 (ix2 (⟨2 * t.val + r.val, by have := t.isLt; have := r.isLt; omega⟩ : Fin 32)
          (⟨(x 0).val, (x 0).isLt⟩ : Fin 8192)) := by
  match r with
  | ⟨0, _⟩ => exact row0M_read d (coordsT t) i3 x
  | ⟨1, _⟩ => exact row1M_read d (coordsT t) i3 x

/-- THE HISTOGRAM ARRAY IS THE KERNEL ARRANGEMENT'S HISTOGRAM of the index argument, under the precondition. -/
theorem histAll_read (m : (ℓ : Loc nD τ sig) → Buf (Elt Ideal) ℓ)
    (hpre : ∀ c : Dev nD, Cert.Pre_input_domain.fn (F := Ideal) (m ((c.tc : Thread nD τ).loc main_arg0)) (m ((c.tc : Thread nD τ).loc main_arg1)) = fun _ => 1#1)
    (d : Dev nD) (flat : Fin 16384) :
    histK histAll (W5 m psumOut d (rf main_v3)) (ix1 flat)
      = Cert.Proof.KernelMath.histK (fun b s k => m (d, rf main_arg1) (ix3 b s k)) flat := by
  have hf := flat.isLt
  rw [histK_eq histAll d]
  have hV3 : W5 m psumOut d (rf main_v3)
      = shapeCast S32x8192 (transpose S4x8x8192 [0, 2, 1] (m (d, rf main_arg1)) Facts₀.transposes_S4x8192x8_S4x8x8192_0_2_1)
          Facts₀.shapeCasts_S4x8x8192_S32x8192 := (W5_v3 m psumOut d).trans (W4_v3 m d)
  have hrange : ∀ i, (m (d, rf main_arg1) i).toNat < 64 := Cert.Proof.PreFinite.idx_range _ _ (hpre d)
  have hat := histAll_at (F := Ideal) d (W5 m psumOut d (rf main_v3)) (ix1 flat)
    (⟨flat.val / 1024, by omega⟩ : Fin 16)
    (bin (⟨flat.val % 1024 / 64, by omega⟩ : Fin 16) (⟨flat.val % 64, by omega⟩ : Fin 64))
    rfl (by show flat.val % 1024 = 64 * (flat.val % 1024 / 64) + flat.val % 64; omega)
  rw [hat]
  have hrows : tileRows (F := Ideal) d (coordsT (⟨flat.val / 1024, by omega⟩ : Fin 16)) (W5 m psumOut d (rf main_v3))
      = fun r x => shapeCast S32x8192 (transpose S4x8x8192 [0, 2, 1] (m (d, rf main_arg1)) Facts₀.transposes_S4x8192x8_S4x8x8192_0_2_1)
          Facts₀.shapeCasts_S4x8x8192_S32x8192
          (ix2 (⟨2 * (flat.val / 1024) + r.val, by have := r.isLt; omega⟩ : Fin 32) (⟨(x 0).val, (x 0).isLt⟩ : Fin 8192)) :=
    funext fun r => funext fun x => (tileRows_at d _ _ r x).trans (congrFun hV3 _)
  rw [hrows]
  refine (histOf_tile (m (d, rf main_arg1)) Facts₀.transposes_S4x8192x8_S4x8x8192_0_2_1 Facts₀.shapeCasts_S4x8x8192_S32x8192
    hrange ⟨flat.val / 1024, by omega⟩ ⟨flat.val % 1024 / 64, by omega⟩ ⟨flat.val % 64, by omega⟩).trans ?_
  refine congrArg (Cert.Proof.KernelMath.histK _) (Fin.ext ?_)
  show 1024 * (flat.val / 1024) + 64 * (flat.val % 1024 / 64) + flat.val % 64 = flat.val
  omega

end Cert.Proof.KI

end
-- ==== Proof.AlgebraicAll.lean ====
/-
  The algebraic conjunct, closed: the histogram function is the tiles' pure recursion over the transposed indices, which
  the kernel's run leaves in the histogram array and whose entries are the per-tile, per-lane counts of the specification.
-/
import proofs.«210303_g84464826843916_cont_9to1c4b_132_15_alg».proof.Proof.Algebraic
import proofs.«210303_g84464826843916_cont_9to1c4b_132_15_alg».proof.Proof.FrameAll
import proofs.«210303_g84464826843916_cont_9to1c4b_132_15_alg».proof.Proof.HistRead

noncomputable section

namespace Cert.Proof.KI

open Cert.KernelIdeal Cert.KernelIdeal.Gen
open Idealize.ShloMosaic Idealize.SL.Sem

theorem algebraic : Cert.algebraic_KernelIdeal_ReferenceIdeal :=
  algebraic_of histAll (fun m ρ hpre => run_all (F := Ideal) m ρ hpre) (fun m hpre d flat => histAll_read m hpre d flat)

end Cert.Proof.KI

end
-- ==== Proof.lean ====
/-
  The claim: an auxiliary load-balancing loss of a mixture-of-experts router, computed by three kernels — the softmax of
  the router logits summed over every token (a TensorCore kernel over eight blocks, accumulating in a scratch), the
  histogram of the chosen experts (sixteen SparseCore tiles, each counting two rows of the transposed indices lane by
  lane with indexed add-stores), and their combination into one number (a TensorCore kernel) — against the plain
  reference: softmax, one-hot counts, two means, a weighted sum.

  Frames. The reference is a straight line of host operations (its generated run). The kernel program's threads — the
  TensorCore's @main, the SparseCore's sequencer and its sixteen tiles — run to the end from any memory satisfying the
  precondition: the launch theorem for SparseCore programs, with each tile's task proved once at a symbolic tile, the
  operands split among the tiles by rows, and the two TensorCore kernel regions entered from @main's proof with the
  TensorCore still owing the SparseCore call's start. The precondition's index range is what keeps every indexed
  add-store inside its lane's sixty-four bins. The same proof text serves the word-level program and its idealization.

  Values. At the ideal instance the kernel's arrangement (product with the reciprocal of the row sum; block-wise
  accumulation; per-tile, per-lane histograms summed by columns of a 128 x 128 reshape; products with 2^-18 and 2^-15;
  the single factor 0.64f = 64 * 0.01f) and the reference's arrangement are equal on finite logits.
-/
import proofs.«210303_g84464826843916_cont_9to1c4b_132_15_alg».proof.Defs
import proofs.«210303_g84464826843916_cont_9to1c4b_132_15_alg».proof.Proof.Gen.Kernel
import proofs.«210303_g84464826843916_cont_9to1c4b_132_15_alg».proof.Proof.Gen.KernelIdeal
import proofs.«210303_g84464826843916_cont_9to1c4b_132_15_alg».proof.Proof.Gen.ReferenceIdeal
import proofs.«210303_g84464826843916_cont_9to1c4b_132_15_alg».proof.Proof.Gen.Pre_input_domain
import proofs.«210303_g84464826843916_cont_9to1c4b_132_15_alg».proof.Proof.RefFrame
import proofs.«210303_g84464826843916_cont_9to1c4b_132_15_alg».proof.Proof.FramePI
import proofs.«210303_g84464826843916_cont_9to1c4b_132_15_alg».proof.Proof.FrameP
import proofs.«210303_g84464826843916_cont_9to1c4b_132_15_alg».proof.Proof.AlgebraicAll

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_p, Cert.Proof.KI.frame_pi, Cert.Proof.RefFrame.frame_ri, trivial, Cert.Proof.KI.algebraic⟩

end Cert.Proof

end
